-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "neg_big" .f32 0xF149F2CA#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S1024x1024 : Shape := ⟨2, ![1024, 1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  main_v18

def fn {F : FTy → Type} [FloatOps F] (main_arg0 : FVec F S4x4096x1024 .f32) (main_arg1 : FVec F S1024x1024 .f32) (main_arg2 : FVec F S1024x1024 .f32) (main_arg3 : FVec F S1024x1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_v13 main_v16
-- ==== Kernel.lean ====
abbrev S4x4096x1024 : Shape := ⟨3, ![4, 4096, 1024]⟩
abbrev S1024x1024 : Shape := ⟨2, ![1024, 1024]⟩
abbrev S16384x1024 : Shape := ⟨2, ![16384, 1024]⟩
abbrev S1024x3072 : Shape := ⟨2, ![1024, 3072]⟩
abbrev S16384x3072 : Shape := ⟨2, ![16384, 3072]⟩
abbrev S512x1024 : Shape := ⟨2, ![512, 1024]⟩
abbrev S512x3072 : Shape := ⟨2, ![512, 3072]⟩
abbrev S1x512x1024 : Shape := ⟨3, ![1, 512, 1024]⟩
abbrev S512x1 : Shape := ⟨2, ![512, 1]⟩
abbrev S1024x512 : Shape := ⟨2, ![1024, 512]⟩
abbrev S512x512 : Shape := ⟨2, ![512, 512]⟩
abbrev S512 : Shape := ⟨1, ![512]⟩

abbrev nBuf : Space → Nat
  | .hbm => 18
  | .vmem => 16
  | .smem => 0
  | _ => 0

abbrev bufTy : (tb : Table) → Fin (tcTables nBuf tb) → BufTy
  | .hbm, ⟨0, _⟩ => ⟨S4x4096x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S16384x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x3072, .f32⟩
  | .hbm, ⟨9, _⟩ => ⟨S1024x3072, .bf16⟩
  | .hbm, ⟨10, _⟩ => ⟨S16384x3072, .bf16⟩
  | .hbm, ⟨11, _⟩ => ⟨S16384x1024, .bf16⟩
  | .hbm, ⟨12, _⟩ => ⟨S4x4096x1024, .bf16⟩
  | .hbm, ⟨13, _⟩ => ⟨S16384x1024, .bf16⟩
  | .hbm, ⟨14, _⟩ => ⟨S4x4096x1024, .bf16⟩
  | .hbm, ⟨15, _⟩ => ⟨S16384x1024, .bf16⟩
  | .hbm, ⟨16, _⟩ => ⟨S4x4096x1024, .bf16⟩
  | .hbm, ⟨17, _⟩ => ⟨S4x4096x1024, .f32⟩
  | .local _ .vmem, ⟨0, _⟩ => ⟨S512x1024, .f32⟩
  | .local _ .vmem, ⟨1, _⟩ => ⟨S512x1024, .f32⟩
  | .local _ .vmem, ⟨2, _⟩ => ⟨S1024x3072, .bf16⟩
  | .local _ .vmem, ⟨3, _⟩ => ⟨S512x3072, .bf16⟩
  | .local _ .vmem, ⟨4, _⟩ => ⟨S512x3072, .bf16⟩
  | .local _ .vmem, ⟨5, _⟩ => ⟨S1x512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x512x1024, .bf16⟩
  | .local _ .vmem, ⟨11, _⟩ => ⟨S1x512x1024, .f32⟩
  | .local _ .vmem, ⟨12, _⟩ => ⟨S1x512x1024, .f32⟩
  | .local _ .vmem, ⟨13, _⟩ => ⟨S512x1, .f32⟩
  | .local _ .vmem, ⟨14, _⟩ => ⟨S512x1, .f32⟩
  | .local _ .vmem, ⟨15, _⟩ => ⟨S512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_scratch0 : Ref sig .tc := ⟨.vmem, 13, rfl⟩
abbrev cc1_scratch1 : Ref sig .tc := ⟨.vmem, 14, rfl⟩
abbrev cc1_scratch2 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![4, 8, 8], ![false, false, false]⟩

def k1_cond3 (i : grid1.Coords) : BitVec 1 :=
  let arg2 : BitVec 32 := BitVec.ofNat 32 (i 2).val
  let c7_i32 : BitVec 32 := 7#32
  let v6 : BitVec 1 := Scalar.cmpi .eq arg2 c7_i32
  let v7 : BitVec 32 := Scalar.extui v6
  let c0_i32_2 : BitVec 32 := 0#32
  let v8 : BitVec 1 := Scalar.cmpi .ne v7 c0_i32_2
  v8

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c0_i32 : BitVec 32 := 0#32
  let c0_i32_0 : BitVec 32 := 0#32
  ![arg0.toNat, v0.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c0_i32 : BitVec 32 := 0#32
  let c0_i32_0 : BitVec 32 := 0#32
  ![arg0.toNat, v0.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true]

abbrev stage1_2 : Fin 2 → Memref sig .tc .vmem S1x512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

abbrev stage1_3 : Fin 2 → Memref sig .tc .vmem S1x512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  shapeCasts_S4x4096x1024_S16384x1024 : S4x4096x1024.ShapeCasts S16384x1024
  transposes_S1024x1024_S1024x1024_1_0 : S1024x1024.Transposes [1, 0] S1024x1024
  concatenates_S1024x1024_S1024x1024_S1024x1024_S1024x3072_d1 : Shape.Concatenates [S1024x1024, S1024x1024, S1024x1024] S1024x3072 1
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S512x3072_S512x3072_0_0 : ∀ a, (![0, 0] : Fin 2 → Nat) a + S512x3072.size a ≤ S512x3072.size a
  h_S512x3072 : 0 < S512x3072.numel
  packedbf16_S512x3072_S512x3072_0_0 : (Rect.unit (s := S512x3072) ![0, 0] S512x3072.size inb_S512x3072_S512x3072_0_0).PackedRows (EltTy.packing .bf16)
  slices_S16384x3072_S16384x1024_0_0 : S16384x3072.Slices ![0, 0] S16384x1024
  shapeCasts_S16384x1024_S4x4096x1024 : S16384x1024.ShapeCasts S4x4096x1024
  slices_S16384x3072_S16384x1024_0_1024 : S16384x3072.Slices ![0, 1024] S16384x1024
  slices_S16384x3072_S16384x1024_0_2048 : S16384x3072.Slices ![0, 2048] S16384x1024
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  transposes_S512x1024_p1_0_S1024x512 : S512x1024.Transposes [1, 0] S1024x512
  iota_S512x512_d0_w32 : S512x512.Iotas .tc 32 [0]
  iota_S512x512_d1_w32 : S512x512.Iotas .tc 32 [1]
  reduces_S512x512_S512 : S512x512.Reduces [1] S512
  shapeCasts_S512_S512x1 : S512.ShapeCasts S512x1
  broadcasts_S512x1_S512x512 : S512x1.Broadcasts S512x512
  broadcasts_S512x1_S512x1024 : S512x1.Broadcasts S512x1024
  shapeCasts_S512x1024_S1x512x1024 : S512x1024.ShapeCasts S1x512x1024
  dot_S512x1024_S1024x3072_S512x3072_1_0_0_1_n_n_wf : DotDims.WF S512x1024 S1024x3072 S512x3072 [1] [0] [0] [1] [] []
  dot_S512x1024_S1024x512_S512x512_1_0_0_1_n_n_wf : DotDims.WF S512x1024 S1024x512 S512x512 [1] [0] [0] [1] [] []
  dot_S512x512_S512x1024_S512x1024_1_0_0_1_n_n_wf : DotDims.WF S512x512 S512x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x3072.size a ≤ S16384x3072.size a
  hwx0_2 : ∀ i : grid0.Coords, EltTy.bits .bf16 = 32 ∨ (Rect.block (s := S16384x3072) S512x3072.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x1024.size a ≤ S4x4096x1024.size a
  hwx1_0 : ∀ i : grid1.Coords, EltTy.bits .bf16 = 32 ∨ (Rect.block (s := S4x4096x1024) S1x512x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x1024.size a ≤ S4x4096x1024.size a
  hwx1_1 : ∀ i : grid1.Coords, EltTy.bits .bf16 = 32 ∨ (Rect.block (s := S4x4096x1024) S1x512x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x1024.size a ≤ S4x4096x1024.size a
  hwx1_2 : ∀ i : grid1.Coords, EltTy.bits .bf16 = 32 ∨ (Rect.block (s := S4x4096x1024) S1x512x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x1024.size a ≤ S4x4096x1024.size a
  hwx1_3 : ∀ i : grid1.Coords, EltTy.bits .f32 = 32 ∨ (Rect.block (s := S4x4096x1024) S1x512x1024.size (cc1_transform_3 i) (hinb1_3 i)).WholeWords (EltTy.packing .f32)

variable [Facts₀]

def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S512x3072.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v8) S1x512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S1x512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S1x512x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v13) S1x512x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond3 i == 1#1) | ⟨_ + 4, h⟩ => absurd h (Nat.not_lt.2 (Nat.le_add_left _ _))

class Facts : Prop extends Facts₀ where

variable [Facts]
-- ==== ReferenceIdeal.lean ====
abbrev S4x4096x1024 : Shape := ⟨3, ![4, 4096, 1024]⟩
abbrev S1024x1024 : Shape := ⟨2, ![1024, 1024]⟩
abbrev S4x4096x4096 : Shape := ⟨3, ![4, 4096, 4096]⟩
abbrev S_ : Shape := ⟨0, ![]⟩
abbrev S4096x4096 : Shape := ⟨2, ![4096, 4096]⟩
abbrev S1x4096x4096 : Shape := ⟨3, ![1, 4096, 4096]⟩
abbrev S4x4096 : Shape := ⟨2, ![4, 4096]⟩
abbrev S4x4096x1 : Shape := ⟨3, ![4, 4096, 1]⟩

abbrev nBuf : Space → Nat
  | .hbm => 44
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S4x4096x1024, .f32⟩
  | .hbm, ⟨5, _⟩ => ⟨S4x4096x1024, .f32⟩
  | .hbm, ⟨6, _⟩ => ⟨S4x4096x1024, .f32⟩
  | .hbm, ⟨7, _⟩ => ⟨S4x4096x4096, .f32⟩
  | .hbm, ⟨8, _⟩ => ⟨S_, .i1⟩
  | .hbm, ⟨9, _⟩ => ⟨S4096x4096, .i1⟩
  | .hbm, ⟨10, _⟩ => ⟨S4096x4096, .i32⟩
  | .hbm, ⟨11, _⟩ => ⟨S_, .i32⟩
  | .hbm, ⟨12, _⟩ => ⟨S4096x4096, .i32⟩
  | .hbm, ⟨13, _⟩ => ⟨S4096x4096, .i32⟩
  | .hbm, ⟨14, _⟩ => ⟨S4096x4096, .i32⟩
  | .hbm, ⟨15, _⟩ => ⟨S4096x4096, .i1⟩
  | .hbm, ⟨16, _⟩ => ⟨S_, .i1⟩
  | .hbm, ⟨17, _⟩ => ⟨S4096x4096, .i1⟩
  | .hbm, ⟨18, _⟩ => ⟨S4096x4096, .i1⟩
  | .hbm, ⟨19, _⟩ => ⟨S1x4096x4096, .i1⟩
  | .hbm, ⟨20, _⟩ => ⟨S_, .f32⟩
  | .hbm, ⟨21, _⟩ => ⟨S_, .f32⟩
  | .hbm, ⟨22, _⟩ => ⟨S4x4096x4096, .i1⟩
  | .hbm, ⟨23, _⟩ => ⟨S4x4096x4096, .f32⟩
  | .hbm, ⟨24, _⟩ => ⟨S4x4096x4096, .f32⟩
  | .hbm, ⟨25, _⟩ => ⟨S_, .f32⟩
  | .hbm, ⟨26, _⟩ => ⟨S_, .f32⟩
  | .hbm, ⟨27, _⟩ => ⟨S4x4096x4096, .f32⟩
  | .hbm, ⟨28, _⟩ => ⟨S4x4096x4096, .f32⟩
  | .hbm, ⟨29, _⟩ => ⟨S_, .f32⟩
  | .hbm, ⟨30, _⟩ => ⟨S4x4096, .f32⟩
  | .hbm, ⟨31, _⟩ => ⟨S_, .f32⟩
  | .hbm, ⟨32, _⟩ => ⟨S4x4096, .f32⟩
  | .hbm, ⟨33, _⟩ => ⟨S4x4096, .f32⟩
  | .hbm, ⟨34, _⟩ => ⟨S4x4096x1, .f32⟩
  | .hbm, ⟨35, _⟩ => ⟨S4x4096x4096, .f32⟩
  | .hbm, ⟨36, _⟩ => ⟨S4x4096x4096, .f32⟩
  | .hbm, ⟨37, _⟩ => ⟨S4x4096x4096, .f32⟩
  | .hbm, ⟨38, _⟩ => ⟨S_, .f32⟩
  | .hbm, ⟨39, _⟩ => ⟨S4x4096, .f32⟩
  | .hbm, ⟨40, _⟩ => ⟨S4x4096x1, .f32⟩
  | .hbm, ⟨41, _⟩ => ⟨S4x4096x4096, .f32⟩
  | .hbm, ⟨42, _⟩ => ⟨S4x4096x4096, .f32⟩
  | .hbm, ⟨43, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_call0_v0 : Ref sig .tc := ⟨.hbm, 10, rfl⟩
abbrev main_call0_c : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_c_0 : Ref sig .tc := ⟨.hbm, 16, rfl⟩
abbrev main_call0_v5 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_1 : Ref sig .tc := ⟨.hbm, 29, rfl⟩
abbrev main_v11 : Ref sig .tc := ⟨.hbm, 30, rfl⟩
abbrev main_cst_2 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_3 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S4096x4096_S1x4096x4096_1_2 : S4096x4096.BroadcastsInDim S1x4096x4096 (![1, 2] : Fin 2 → Fin S1x4096x4096.rank)
  bcast_S1x4096x4096_S4x4096x4096_0_1_2 : S1x4096x4096.BroadcastsInDim S4x4096x4096 (![0, 1, 2] : Fin 3 → Fin S4x4096x4096.rank)
  bcast_S_S4x4096x4096 : S_.BroadcastsInDim S4x4096x4096 (![] : Fin 0 → Fin S4x4096x4096.rank)
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  dot_S4x4096x1024_S1024x1024_S4x4096x1024_2_1_01_0_n_n_wf : DotDims.WF S4x4096x1024 S1024x1024 S4x4096x1024 [2] [1] [0, 1] [0] [] []
  dot_S4x4096x1024_S4x4096x1024_S4x4096x4096_2_2_1_1_0_0_wf : DotDims.WF S4x4096x1024 S4x4096x1024 S4x4096x4096 [2] [2] [1] [1] [0] [0]
  dot_S4x4096x4096_S4x4096x1024_S4x4096x1024_2_1_1_2_0_0_wf : DotDims.WF S4x4096x4096 S4x4096x1024 S4x4096x1024 [2] [1] [1] [2] [0] [0]

variable [Facts₀]

def dot_S4x4096x1024_S1024x1024_S4x4096x1024_2_1_01_0_n_n : DotDims S4x4096x1024 S1024x1024 S4x4096x1024 where
  lhsContracting := [2]
  rhsContracting := [1]
  lhsNonContracting := [0, 1]
  rhsNonContracting := [0]
  lhsBatch := []
  rhsBatch := []
  wf := dot_S4x4096x1024_S1024x1024_S4x4096x1024_2_1_01_0_n_n_wf
def dot_S4x4096x1024_S4x4096x1024_S4x4096x4096_2_2_1_1_0_0 : DotDims S4x4096x1024 S4x4096x1024 S4x4096x4096 where
  lhsContracting := [2]
  rhsContracting := [2]
  lhsNonContracting := [1]
  rhsNonContracting := [1]
  lhsBatch := [0]
  rhsBatch := [0]
  wf := dot_S4x4096x1024_S4x4096x1024_S4x4096x4096_2_2_1_1_0_0_wf
def dot_S4x4096x4096_S4x4096x1024_S4x4096x1024_2_1_1_2_0_0 : DotDims S4x4096x4096 S4x4096x1024 S4x4096x1024 where
  lhsContracting := [2]
  rhsContracting := [1]
  lhsNonContracting := [1]
  rhsNonContracting := [2]
  lhsBatch := [0]
  rhsBatch := [0]
  wf := dot_S4x4096x4096_S4x4096x1024_S4x4096x1024_2_1_1_2_0_0_wf

class Facts : Prop extends Facts₀ where

variable [Facts]
-- ==== Proof.K.R0Frame.lean ====
/-
  Region 0 (the fused projection): one grid axis of 32 points; at point t the body loads a block of 512 rows of the
  flattened activations and the whole [1024, 3072] weight matrix, and stores their matrix product, rounded to bf16,
  as the block of 512 rows of the result. Stated at the buffers' contents `V` when the region is entered, at any float
  instance: what each window's staging buffer holds after the body, the body's triple, and the region's proof data.
-/
import proofs.«181245_j47132971106646_2_alg».proof.Proof.Gen.Kernel.Launch
import proofs.«181245_j47132971106646_2_alg».proof.Proof.Gen.Kernel.Skeleton
import proofs.«181245_j47132971106646_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activations' staging buffer holds the point's block, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weights' staging buffer holds the whole matrix at every point: it is fetched once and its block never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The body's one store covers the output's whole staging buffer. -/
abbrev rOut : Rect S512x3072 := Rect.unit (s := S512x3072) ![0, 0] S512x3072.size inb_S512x3072_S512x3072_0_0
abbrev rX : Rect S512x1024 := Rect.unit (s := S512x1024) ![0, 0] S512x1024.size inb_S512x1024_S512x1024_0_0
abbrev rW : Rect S1024x3072 := Rect.unit (s := S1024x3072) ![0, 0] S1024x3072.size inb_S1024x3072_S1024x3072_0_0

/-- What the body leaves in the output's staging buffer, from the two input blocks. -/
def out0_2 (x0 : Vec F S512x1024 .f32) (x1 : Vec F S1024x3072 .bf16) : Vec F S512x3072 .bf16 :=
  View.canon [⟨rOut, k0_pay1 (View.ld x0 rX) (View.ld x1 rW)⟩]

theorem cover0_2 (p0 : Vec F S512x3072 .bf16) (y : S512x3072.Idx) :
    ∃ pc ∈ ([⟨rOut, p0⟩] : List (View.Piece (Elt F) S512x3072 .bf16)), y ∈ pc.1.set :=
  View.cover_of_tiled [⟨rOut, p0⟩] S512x3072.size (by rfl) y

set_option maxHeartbeats 1000000 in
/-- The body on whole staging buffers, the inputs' at contents `x0`, `x1` and the output's at anything, runs to the
    continuation with the inputs' as they were and the output's at `out0_2 x0 x1`. -/
theorem sound_kernel0 (c : Dev nD) (E : Set ℕ) (i : grid0.Coords) (arg1 : Memref sig .tc .vmem S512x1024 .f32) (harg1 : arg1.IsWhole)
    (arg2 : Memref sig .tc .vmem S1024x3072 .bf16) (harg2 : arg2.IsWhole) (arg3 : Memref sig .tc .vmem S512x3072 .bf16) (harg3 : arg3.IsWhole)
    (x0 : Vec F S512x1024 .f32) (x1 : Vec F S1024x3072 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__qkv_kernel i arg1 harg1 arg2 harg2 arg3 harg3) K := by
  simp only [cc0__qkv_kernel_eq_skeleton]; unfold cc0__qkv_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The region's proof data on core `c`: the arrays as the region finds them; after the body each input's buffer at its
    block and the output's at `out0_2` of the input blocks; the class's invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.Kernel.R0

end
-- ==== Proof.K.Bounds.lean ====
/-
  The buffers' contents at the boundaries between @main's segments, as a fold from the launch memory: at launch (W0);
  after the first stretch of host operations — the reshape of the activations, the three transposes, their
  concatenation and its rounding — (W1, where the projection region is entered); after the projection region, whose
  output array holds what its write-backs leave and every other buffer is as entered (W2); after the second stretch —
  the three column slices of the projection and their reshapes — (W3, where the attention region is entered).
-/
import proofs.«181245_j47132971106646_2_alg».proof.Proof.K.R0Frame

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.R0

variable {F : FTy → Type} [FloatOps F]

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the first host stretch: where the projection region is entered. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the projection region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch: where the attention region is entered. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

end Cert.Kernel.Run

end
-- ==== Proof.K.Steps.lean ====
/-
  The attention kernel's work at one grid point as pure functions of what it loads: the state it carries between
  points is (running row maximum m, running total l, running weighted sum acc); a point on or below the block
  diagonal maps the state through `step`; the first key block of a row starts from `init`; the last key block of a
  row divides acc by l (`fin`). Stated at any float instance, over the body's payload terms.
-/
import proofs.«181245_j47132971106646_2_alg».proof.Proof.Gen.Kernel.Skeleton

noncomputable section

namespace Cert.Kernel.Attn

open Idealize.ShloMosaic Cert.Kernel Cert.Kernel.Gen

variable {F : FTy → Type} [FloatOps F]

/-- The carried state: (row maximum, total weight, weighted sum). -/
abbrev St (F : FTy → Type) [FloatOps F] : Type := Vec F S512x1 .f32 × Vec F S512x1 .f32 × Vec F S512x1024 .f32

/-- The state the first key block of a row starts from: maximum −∞, total 0, sum 0. -/
def init : St F := (k1_pay1, k1_pay2, k1_pay3)

/-- One key block folded into the state: `a1`, `a2` are the query and key block numbers, `Q`, `K`, `Vv` the three
    input blocks. -/
def step (a1 a2 : BitVec 32) (Q K Vv : Vec F S1x512x1024 .bf16) (s : St F) : St F :=
  (k1_pay6 (k1_pay10 a1 a2 Q K s.1),
   k1_pay4 (k1_pay13 a1 a2 Q K s.1 s.1 s.2.1),
   k1_pay5 (k1_pay8 Vv) (k1_pay11 a1 a2 Q K s.1 s.1) (k1_pay12 a1 a2 Q K s.1) s.2.2)

/-- The output block written at a row's last key block: the weighted sum divided by the total weight. -/
def fin (s : St F) : Vec F S1x512x1024 .f32 := k1_pay7 s.2.2 s.2.1

end Cert.Kernel.Attn

end
-- ==== Proof.K.R1Runs.lean ====
/-
  The attention region (the second kernel call: grid 4 × 8 × 8, key block fastest), what its runs share.

  A grid point t has coordinates (b, qi, ki) = (t / 64, t / 8 % 8, t % 8). The body has three guarded parts:
  at ki = 0 it resets the carried state (row maximum, total weight, weighted sum); at ki ≤ qi it folds key block
  ki into the state; at ki = 7 it divides the weighted sum by the total and stores the output block. Here: the
  blocks the windows hold at a point, the three guards in closed form, where the output window is idle and where
  it is written back, the names of the staging and scratch memrefs, and the region's invariant with the three
  scratch buffers made explicit.
-/
import proofs.«181245_j47132971106646_2_alg».proof.Proof.Gen.Kernel.Launch
import proofs.«181245_j47132971106646_2_alg».proof.Proof.Gen.Kernel.Skeleton
import proofs.«181245_j47132971106646_2_alg».proof.Proof.Gen.Kernel.Points
import proofs.«181245_j47132971106646_2_alg».proof.Proof.K.Steps
import Idealize.ShloMosaic.Lib.Pipeline.FrameBody
import Idealize.ShloMosaic.Lib.Ring
import Idealize.ShloMosaic.Lib.Tactic

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Attn

variable {F : FTy → Type} [FloatOps F]

local notation "𝕄" => MT nD τ sig Unit (Elt F) ℕ (UR sig nD τ) ℕ

section Region
-- the TensorCore's buffer contents as the region is entered
variable (V : (c : Dev nD) → (b : Ref sig .tc) → Buf (Elt F) ((c : Thread nD τ).loc b))

/-! ## The windows' blocks -/

/-- Window `w`'s block at point `t`, read off its array as the region finds it. Windows 0, 1, 2 are the query,
    key and value blocks (the key and value block number is min ki qi), window 3 the output block. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (when it is not
    fetched the block number has not moved), for any proof data whose array is `V`'s and whose body leaves the
    block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Region

/-! ## The body's three guards -/

/-- The first guard, as the body computes it from the grid coordinates: the key block is the row's first. -/
abbrev cond1_0 (i : grid1.Coords) : Prop := (Scalar.cmpi .ne (Scalar.extui (Scalar.cmpi .eq (BitVec.ofNat 32 (i 2).val) 0#32)) 0#32) = 1#1
/-- It holds exactly where ki = 0. -/
theorem hcond1_0 : ∀ t : Fin cfg1.N, cond1_0 (grid1.coords t) ↔ t.val % 8 = 0 :=
  (by decide +kernel : ∀ t : Fin grid1.N, cond1_0 (grid1.coords t) ↔ t.val % 8 = 0)

/-- The second guard: the key block is on or below the diagonal. -/
abbrev cond1_1 (i : grid1.Coords) : Prop := (Scalar.cmpi .ne (Scalar.extui (Scalar.cmpi .sle (BitVec.ofNat 32 (i 2).val) (BitVec.ofNat 32 (i 1).val))) 0#32) = 1#1
/-- It holds exactly where ki ≤ qi. -/
theorem hcond1_1 : ∀ t : Fin cfg1.N, cond1_1 (grid1.coords t) ↔ t.val % 8 ≤ t.val / 8 % 8 :=
  (by decide +kernel : ∀ t : Fin grid1.N, cond1_1 (grid1.coords t) ↔ t.val % 8 ≤ t.val / 8 % 8)

/-- The third guard: the key block is the row's last. -/
abbrev cond1_2 (i : grid1.Coords) : Prop := k1_cond3 i = 1#1
/-- It holds exactly where ki = 7. -/
theorem hcond1_2 : ∀ t : Fin cfg1.N, cond1_2 (grid1.coords t) ↔ t.val % 8 = 7 :=
  (by decide +kernel : ∀ t : Fin grid1.N, cond1_2 (grid1.coords t) ↔ t.val % 8 = 7)

/-! ## Where the windows are idle -/

/-- The three input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from a row's last key block the output window is idle: the body stores nothing into it, -/
theorem idleAt1_3 : ∀ t : Fin cfg1.N, ¬cond1_2 (grid1.coords t) → cfg1.idle 3 (grid1.coords t) = true := by decide +kernel
/-- and the pipeline does not write its block back. -/
theorem noFlush1_3 : ∀ t : Fin cfg1.N, ¬cond1_2 (grid1.coords t) → (cfg1.win 3).flush t = false := by decide +kernel
/-- At a row's last key block the output window is live: the body stores its block. -/
theorem liveAt1_3 : ∀ t : Fin cfg1.N, cond1_2 (grid1.coords t) → cfg1.idle 3 (grid1.coords t) = false := by decide +kernel

/-! ## The memrefs the body is called with -/

/-- One staging buffer of the output window, through which its contents are stated (the choice does not matter). -/
abbrev VO1_3 : View sig .tc .vmem S1x512x1024 .f32 := (Memref.whole cc1_stg3_0 : Memref sig .tc .vmem S1x512x1024 .f32).view
/-- Each window's current staging memref at point `t`, spelled as the pipeline passes it, and its wholeness. -/
abbrev ms1_0 (t : Fin cfg1.N) : Memref sig .tc .vmem S1x512x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512x1024 .f32 := win1_3.stage (cfg1.slots t 3)
abbrev hs1_3 (t : Fin cfg1.N) : (ms1_3 t).IsWhole := hstage1_3 ((cfg1.slots t 3).cast nbuf1_3)
/-- The three scratch operands (row maximum, total weight, weighted sum): whole buffers of the kernel's own. -/
abbrev scM1_0 : Memref sig .tc .vmem S512x1 .f32 := Memref.whole cc1_scratch0
abbrev scM1_1 : Memref sig .tc .vmem S512x1 .f32 := Memref.whole cc1_scratch1
abbrev scM1_2 : Memref sig .tc .vmem S512x1024 .f32 := Memref.whole cc1_scratch2
/-- The scratch buffers as views: what they hold is stated through them. -/
abbrev VS1_0 : View sig .tc .vmem S512x1 .f32 := scM1_0.view
abbrev VS1_1 : View sig .tc .vmem S512x1 .f32 := scM1_1.view
abbrev VS1_2 : View sig .tc .vmem S512x1024 .f32 := scM1_2.view

/-! ## The region's invariant -/

/-- The other kernel call's five staging buffers, each at some contents: the part of the region's scoped rest
    this region never touches. -/
abbrev otherStg (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f))

/-- The class's invariant with the three scratch operands as memrefs owned at some contents: what the body
    obligation hands the run and takes back. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg2_0), ((c : Thread nD τ).loc cc0_stg2_0) ↦{fullShare} f)
          ∗ (∃ f : Buf (Elt F) ((c : Thread nD τ).loc cc0_stg2_1), ((c : Thread nD τ).loc cc0_stg2_1) ↦{fullShare} f)
          ∗ (∃ d, owns (c : Thread nD τ) scM1_0 fullShare d)
          ∗ (∃ d, owns (c : Thread nD τ) scM1_1 fullShare d)
          ∗ (∃ d, owns (c : Thread nD τ) scM1_2 fullShare d)) ∗ (∃ r, prngReg c r)) := by
  unfold Pipeline.ΦA; rw [scopedRest1_eq]; simp only [scM1_0, scM1_1, scM1_2, owns_whole]; try rfl

end Cert.Kernel.R1

end
-- ==== Proof.K.R1RunA.lean ====
/-
  The attention body at a row's first key block (ki = 0, hence ki ≤ qi, and ki ≠ 7): it resets the carried
  state and folds the first key block into it. The three scratch buffers are stored before they are loaded, so
  they may be entered at any contents; the output buffer is not touched.
-/
import proofs.«181245_j47132971106646_2_alg».proof.Proof.K.R1Runs

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Attn

variable {F : FTy → Type} [FloatOps F]

local notation "𝕄" => MT nD τ sig Unit (Elt F) ℕ (UR sig nD τ) ℕ

set_option maxHeartbeats 4000000 in
/-- What the body's stores leave in the three scratch buffers at a row's first key block, as pieces (last first),
    with the proof that on whole memrefs — the three input blocks at their contents, the output buffer at contents
    handed back untouched, the scratch buffers at anything — the body runs to the continuation holding the inputs
    and the output buffer as they were and each scratch buffer with its pieces written. -/
noncomputable def kernelRun1_A (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : cond1_0 i) (hc1 : cond1_1 i) (hc2 : ¬cond1_2 i)
    (x0 : Vec F S1x512x1024 .bf16) (x1 : Vec F S1x512x1024 .bf16) (x2 : Vec F S1x512x1024 .bf16) :
    Σ' (L3 : List (View.Piece (Elt F) S1x512x1024 .f32)) (LS0 : List (View.Piece (Elt F) S512x1 .f32)) (LS1 : List (View.Piece (Elt F) S512x1 .f32)), { LS2 : List (View.Piece (Elt F) S512x1024 .f32) //
      ∀ (xi3 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨[], ?_, ?_, ?_, fun xi3 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.Kernel.R1

end
-- ==== Proof.K.R1RunB.lean ====
/-
  The attention body at a key block on or below the diagonal that is neither the row's first nor its last
  (0 < ki ≤ qi, ki ≠ 7): it folds the key block into the carried state, which it finds in the three scratch
  buffers as the point before left it. The output buffer is not touched.
-/
import proofs.«181245_j47132971106646_2_alg».proof.Proof.K.R1RunA

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Attn

variable {F : FTy → Type} [FloatOps F]

local notation "𝕄" => MT nD τ sig Unit (Elt F) ℕ (UR sig nD τ) ℕ

set_option maxHeartbeats 4000000 in
/-- What the body's stores leave in the three scratch buffers at such a point, as pieces (last first), with the
    proof that on whole memrefs — the three input blocks at their contents, the output buffer at contents handed
    back untouched, the scratch buffers at the carried state — the body runs to the continuation holding the
    inputs and the output buffer as they were and each scratch buffer with its pieces written. -/
noncomputable def kernelRun1_B (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i) (hc2 : ¬cond1_2 i)
    (x0 : Vec F S1x512x1024 .bf16) (x1 : Vec F S1x512x1024 .bf16) (x2 : Vec F S1x512x1024 .bf16) (xs0 : Vec F S512x1 .f32) (xs1 : Vec F S512x1 .f32) (xs2 : Vec F S512x1024 .f32) :
    Σ' (L3 : List (View.Piece (Elt F) S1x512x1024 .f32)) (LS0 : List (View.Piece (Elt F) S512x1 .f32)) (LS1 : List (View.Piece (Elt F) S512x1 .f32)), { LS2 : List (View.Piece (Elt F) S512x1024 .f32) //
      ∀ (xi3 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨[], ?_, ?_, ?_, fun xi3 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3
    obtain rfl := harg7.eq_unread hfs0; obtain rfl := harg8.eq_unread hfs1; obtain rfl := harg9.eq_unread hfs2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.Kernel.R1

end
-- ==== Proof.K.R1RunC.lean ====
/-
  The attention body at a key block above the diagonal that is not the row's last (ki > qi, ki ≠ 7; ki ≠ 0 since
  0 ≤ qi): none of its three guards holds, and it does nothing.
-/
import proofs.«181245_j47132971106646_2_alg».proof.Proof.K.R1RunB

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Attn

variable {F : FTy → Type} [FloatOps F]

local notation "𝕄" => MT nD τ sig Unit (Elt F) ℕ (UR sig nD τ) ℕ

set_option maxHeartbeats 1000000 in
/-- At such a point the body touches no buffer: it runs to its continuation from the continuation's own
    precondition. -/
theorem kernelRun1_C (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : ¬cond1_1 i) (hc2 : ¬cond1_2 i)
    (E : Set ℕ) (K : PUnit → sProp 𝕄) :
    K ⟨⟩ ⊢ wp frame (wpE (defs₀ (F := F)) Variants.none c none) E (cc1__attn_kernel i arg3 harg3 arg4 harg4 arg5 harg5 arg6 harg6 arg7 harg7 arg8 harg8 arg9 harg9) K := by
  simp only [cc1__attn_kernel_eq_skeleton]; unfold cc1__attn_kernel_skel
  iintro Hk
  sl_exec (disch := first | exact hc0 | exact hc1 | exact hc2)
  sl_step
  iexact Hk

end Cert.Kernel.R1

end
-- ==== Proof.K.R1RunD.lean ====
/-
  The attention body at a row's last key block when it is on the diagonal (ki = qi = 7): it folds the key block
  into the carried state and then stores the output block, the weighted sum divided by the total weight, both
  read back from the scratch buffers it has just stored.
-/
import proofs.«181245_j47132971106646_2_alg».proof.Proof.K.R1RunC

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Attn

variable {F : FTy → Type} [FloatOps F]

local notation "𝕄" => MT nD τ sig Unit (Elt F) ℕ (UR sig nD τ) ℕ

set_option maxHeartbeats 4000000 in
/-- What the body's stores leave in the output buffer and the three scratch buffers at such a point, as pieces
    (last first), with the proof that on whole memrefs — the three input blocks at their contents, the output
    buffer at anything, the scratch buffers at the carried state — the body runs to the continuation holding the
    inputs as they were and the output buffer and each scratch buffer with its pieces written. -/
noncomputable def kernelRun1_D (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i) (hc2 : cond1_2 i)
    (x0 : Vec F S1x512x1024 .bf16) (x1 : Vec F S1x512x1024 .bf16) (x2 : Vec F S1x512x1024 .bf16) (xs0 : Vec F S512x1 .f32) (xs1 : Vec F S512x1 .f32) (xs2 : Vec F S512x1024 .f32) :
    Σ' (L3 : List (View.Piece (Elt F) S1x512x1024 .f32)) (LS0 : List (View.Piece (Elt F) S512x1 .f32)) (LS1 : List (View.Piece (Elt F) S512x1 .f32)), { LS2 : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, ?_, fun E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg7.eq_unread hfs0; obtain rfl := harg8.eq_unread hfs1; obtain rfl := harg9.eq_unread hfs2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexists _; iexact HS2

end Cert.Kernel.R1

end
-- ==== Proof.K.R1RunE.lean ====
/-
  The attention body at a row's last key block when it is above the diagonal (ki = 7 > qi): the state is not
  touched, and the output block is stored: the weighted sum divided by the total weight, as the scratch buffers
  hold them.
-/
import proofs.«181245_j47132971106646_2_alg».proof.Proof.K.R1RunD

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Attn

variable {F : FTy → Type} [FloatOps F]

local notation "𝕄" => MT nD τ sig Unit (Elt F) ℕ (UR sig nD τ) ℕ

set_option maxHeartbeats 4000000 in
/-- What the body's store leaves in the output buffer at such a point, as pieces, with the proof that on whole
    memrefs — the output buffer at anything, the total-weight and weighted-sum buffers at the carried state — the
    body runs to the continuation holding those two scratch buffers as they were and the output buffer with its
    pieces written. The inputs and the row-maximum buffer are not touched and do not appear. -/
noncomputable def kernelRun1_E (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : ¬cond1_1 i) (hc2 : cond1_2 i)
    (xs1 : Vec F S512x1 .f32) (xs2 : Vec F S512x1024 .f32) :
    { L3 : List (View.Piece (Elt F) S1x512x1024 .f32) //
      ∀ (E : Set ℕ) (K : PUnit → sProp 𝕄),
        iprop((∃ d, owns (c : Thread nD τ) arg6 fullShare d) ∗ owns (c : Thread nD τ) arg8 fullShare xs1 ∗ owns (c : Thread nD τ) arg9 fullShare xs2
            ∗ (iprop((∃ f, arg6.view.loc (c : Thread nD τ) ↦[arg6.view.set]{fullShare} arg6.view.writes (Elt F) f L3) ∗ owns (c : Thread nD τ) arg8 fullShare xs1 ∗ owns (c : Thread nD τ) arg9 fullShare xs2) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, fun E K => ?run⟩
  case run =>
    simp only [cc1__attn_kernel_eq_skeleton]; unfold cc1__attn_kernel_skel
    unfold owns
    iintro ⟨⟨%d3, %f3, -, H3⟩, ⟨%fs1, %hfs1, HS1⟩, ⟨%fs2, %hfs2, HS2⟩, Hk⟩
    obtain rfl := harg8.eq_unread hfs1; obtain rfl := harg9.eq_unread hfs2
    sl_exec (disch := first | exact hc0 | exact hc1 | exact hc2)
    sl_step
    iapply Hk
    isplitl [H3]; · iexists _; iexact H3
    isplitl [HS1]
    · iexists _; isplitr; · ipureintro; exact harg8.read_unread _
      iexact HS1
    iexists _; isplitr; · ipureintro; exact harg9.read_unread _
    iexact HS2

end Cert.Kernel.R1

end
-- ==== Proof.K.R1Frame.lean ====
/-
  The frame half of the attention region, at the buffer contents `V` the region is entered with.

  The carried state (row maximum, total weight, weighted sum) lives in three scratch buffers. Point by point:
  `outsAt1` names what the output window's staging buffer and the three scratch buffers hold after each point,
  by the five cases the body's guards meet on the grid — (ki = 0) reset and fold, (0 < ki ≤ qi, ki ≠ 7) fold,
  (qi < ki < 7) nothing, (ki = qi = 7) fold and store the output block, (qi < ki = 7) store the output block —,
  each read off that case's run. The proof data `dat1` states the input windows at their blocks, the output
  window at `outsAt1`'s first component and the invariant with the scratch buffers at the rest; the body
  obligation is the five runs applied at a generic point. Last, the four equations that say what `outsAt1` IS in
  terms of the pure step functions: the state restarts at a row's first key block, folds a key block on or below
  the diagonal, is kept above it, and the output block at a row's last key block is the state's quotient.
-/
import proofs.«181245_j47132971106646_2_alg».proof.Proof.K.R1RunE
import Idealize.ShloMosaic.Lib.Pipeline.Value

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Attn

variable {F : FTy → Type} [FloatOps F]

local notation "𝕄" => MT nD τ sig Unit (Elt F) ℕ (UR sig nD τ) ℕ

/-! ## What each case leaves in the buffers it stores into -/

/-- At a row's first key block the pieces stored into the row-maximum buffer cover it. -/
theorem scover1_A_0 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : cond1_0 i) (hc1 : cond1_1 i) (hc2 : ¬cond1_2 i)
    (x0 : Vec F S1x512x1024 .bf16) (x1 : Vec F S1x512x1024 .bf16) (x2 : Vec F S1x512x1024 .bf16) (y : S512x1.Idx) :
    ∃ pc ∈ (kernelRun1_A c i arg3 harg3 arg4 harg4 arg5 harg5 arg6 harg6 arg7 harg7 arg8 harg8 arg9 harg9 hc0 hc1 hc2 x0 x1 x2).2.1, y ∈ pc.1.set :=
  View.cover_of_tiledL (kernelRun1_A c i arg3 harg3 arg4 harg4 arg5 harg5 arg6 harg6 arg7 harg7 arg8 harg8 arg9 harg9 hc0 hc1 hc2 x0 x1 x2).2.1 S512x1.size (by sl_kernel_rfl) y

/-- What that point leaves in the row-maximum buffer: its pieces read back. -/
def sout1_A_0 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : cond1_0 i) (hc1 : cond1_1 i) (hc2 : ¬cond1_2 i)
    (x0 : Vec F S1x512x1024 .bf16) (x1 : Vec F S1x512x1024 .bf16) (x2 : Vec F S1x512x1024 .bf16) : Vec F S512x1 .f32 :=
  VS1_0.read (Elt F) (VS1_0.writes (Elt F) VS1_0.junk (kernelRun1_A c i arg3 harg3 arg4 harg4 arg5 harg5 arg6 harg6 arg7 harg7 arg8 harg8 arg9 harg9 hc0 hc1 hc2 x0 x1 x2).2.1)

/-- At a row's first key block the pieces stored into the total-weight buffer cover it. -/
theorem scover1_A_1 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : cond1_0 i) (hc1 : cond1_1 i) (hc2 : ¬cond1_2 i)
    (x0 : Vec F S1x512x1024 .bf16) (x1 : Vec F S1x512x1024 .bf16) (x2 : Vec F S1x512x1024 .bf16) (y : S512x1.Idx) :
    ∃ pc ∈ (kernelRun1_A c i arg3 harg3 arg4 harg4 arg5 harg5 arg6 harg6 arg7 harg7 arg8 harg8 arg9 harg9 hc0 hc1 hc2 x0 x1 x2).2.2.1, y ∈ pc.1.set :=
  View.cover_of_tiledL (kernelRun1_A c i arg3 harg3 arg4 harg4 arg5 harg5 arg6 harg6 arg7 harg7 arg8 harg8 arg9 harg9 hc0 hc1 hc2 x0 x1 x2).2.2.1 S512x1.size (by sl_kernel_rfl) y

/-- What that point leaves in the total-weight buffer: its pieces read back. -/
def sout1_A_1 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : cond1_0 i) (hc1 : cond1_1 i) (hc2 : ¬cond1_2 i)
    (x0 : Vec F S1x512x1024 .bf16) (x1 : Vec F S1x512x1024 .bf16) (x2 : Vec F S1x512x1024 .bf16) : Vec F S512x1 .f32 :=
  VS1_1.read (Elt F) (VS1_1.writes (Elt F) VS1_1.junk (kernelRun1_A c i arg3 harg3 arg4 harg4 arg5 harg5 arg6 harg6 arg7 harg7 arg8 harg8 arg9 harg9 hc0 hc1 hc2 x0 x1 x2).2.2.1)

/-- At a row's first key block the pieces stored into the weighted-sum buffer cover it. -/
theorem scover1_A_2 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : cond1_0 i) (hc1 : cond1_1 i) (hc2 : ¬cond1_2 i)
    (x0 : Vec F S1x512x1024 .bf16) (x1 : Vec F S1x512x1024 .bf16) (x2 : Vec F S1x512x1024 .bf16) (y : S512x1024.Idx) :
    ∃ pc ∈ (kernelRun1_A c i arg3 harg3 arg4 harg4 arg5 harg5 arg6 harg6 arg7 harg7 arg8 harg8 arg9 harg9 hc0 hc1 hc2 x0 x1 x2).2.2.2.1, y ∈ pc.1.set :=
  View.cover_of_tiledL (kernelRun1_A c i arg3 harg3 arg4 harg4 arg5 harg5 arg6 harg6 arg7 harg7 arg8 harg8 arg9 harg9 hc0 hc1 hc2 x0 x1 x2).2.2.2.1 S512x1024.size (by sl_kernel_rfl) y

/-- What that point leaves in the weighted-sum buffer: its pieces read back. -/
def sout1_A_2 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : cond1_0 i) (hc1 : cond1_1 i) (hc2 : ¬cond1_2 i)
    (x0 : Vec F S1x512x1024 .bf16) (x1 : Vec F S1x512x1024 .bf16) (x2 : Vec F S1x512x1024 .bf16) : Vec F S512x1024 .f32 :=
  VS1_2.read (Elt F) (VS1_2.writes (Elt F) VS1_2.junk (kernelRun1_A c i arg3 harg3 arg4 harg4 arg5 harg5 arg6 harg6 arg7 harg7 arg8 harg8 arg9 harg9 hc0 hc1 hc2 x0 x1 x2).2.2.2.1)

/-- At a key block on or below the diagonal, neither first nor last the pieces stored into the row-maximum buffer cover it. -/
theorem scover1_B_0 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i) (hc2 : ¬cond1_2 i)
    (x0 : Vec F S1x512x1024 .bf16) (x1 : Vec F S1x512x1024 .bf16) (x2 : Vec F S1x512x1024 .bf16) (xs0 : Vec F S512x1 .f32) (xs1 : Vec F S512x1 .f32) (xs2 : Vec F S512x1024 .f32) (y : S512x1.Idx) :
    ∃ pc ∈ (kernelRun1_B c i arg3 harg3 arg4 harg4 arg5 harg5 arg6 harg6 arg7 harg7 arg8 harg8 arg9 harg9 hc0 hc1 hc2 x0 x1 x2 xs0 xs1 xs2).2.1, y ∈ pc.1.set :=
  View.cover_of_tiledL (kernelRun1_B c i arg3 harg3 arg4 harg4 arg5 harg5 arg6 harg6 arg7 harg7 arg8 harg8 arg9 harg9 hc0 hc1 hc2 x0 x1 x2 xs0 xs1 xs2).2.1 S512x1.size (by sl_kernel_rfl) y

/-- What that point leaves in the row-maximum buffer: its pieces read back. -/
def sout1_B_0 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i) (hc2 : ¬cond1_2 i)
    (x0 : Vec F S1x512x1024 .bf16) (x1 : Vec F S1x512x1024 .bf16) (x2 : Vec F S1x512x1024 .bf16) (xs0 : Vec F S512x1 .f32) (xs1 : Vec F S512x1 .f32) (xs2 : Vec F S512x1024 .f32) : Vec F S512x1 .f32 :=
  VS1_0.read (Elt F) (VS1_0.writes (Elt F) VS1_0.junk (kernelRun1_B c i arg3 harg3 arg4 harg4 arg5 harg5 arg6 harg6 arg7 harg7 arg8 harg8 arg9 harg9 hc0 hc1 hc2 x0 x1 x2 xs0 xs1 xs2).2.1)

/-- At a key block on or below the diagonal, neither first nor last the pieces stored into the total-weight buffer cover it. -/
theorem scover1_B_1 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i) (hc2 : ¬cond1_2 i)
    (x0 : Vec F S1x512x1024 .bf16) (x1 : Vec F S1x512x1024 .bf16) (x2 : Vec F S1x512x1024 .bf16) (xs0 : Vec F S512x1 .f32) (xs1 : Vec F S512x1 .f32) (xs2 : Vec F S512x1024 .f32) (y : S512x1.Idx) :
    ∃ pc ∈ (kernelRun1_B c i arg3 harg3 arg4 harg4 arg5 harg5 arg6 harg6 arg7 harg7 arg8 harg8 arg9 harg9 hc0 hc1 hc2 x0 x1 x2 xs0 xs1 xs2).2.2.1, y ∈ pc.1.set :=
  View.cover_of_tiledL (kernelRun1_B c i arg3 harg3 arg4 harg4 arg5 harg5 arg6 harg6 arg7 harg7 arg8 harg8 arg9 harg9 hc0 hc1 hc2 x0 x1 x2 xs0 xs1 xs2).2.2.1 S512x1.size (by sl_kernel_rfl) y

/-- What that point leaves in the total-weight buffer: its pieces read back. -/
def sout1_B_1 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i) (hc2 : ¬cond1_2 i)
    (x0 : Vec F S1x512x1024 .bf16) (x1 : Vec F S1x512x1024 .bf16) (x2 : Vec F S1x512x1024 .bf16) (xs0 : Vec F S512x1 .f32) (xs1 : Vec F S512x1 .f32) (xs2 : Vec F S512x1024 .f32) : Vec F S512x1 .f32 :=
  VS1_1.read (Elt F) (VS1_1.writes (Elt F) VS1_1.junk (kernelRun1_B c i arg3 harg3 arg4 harg4 arg5 harg5 arg6 harg6 arg7 harg7 arg8 harg8 arg9 harg9 hc0 hc1 hc2 x0 x1 x2 xs0 xs1 xs2).2.2.1)

/-- At a key block on or below the diagonal, neither first nor last the pieces stored into the weighted-sum buffer cover it. -/
theorem scover1_B_2 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i) (hc2 : ¬cond1_2 i)
    (x0 : Vec F S1x512x1024 .bf16) (x1 : Vec F S1x512x1024 .bf16) (x2 : Vec F S1x512x1024 .bf16) (xs0 : Vec F S512x1 .f32) (xs1 : Vec F S512x1 .f32) (xs2 : Vec F S512x1024 .f32) (y : S512x1024.Idx) :
    ∃ pc ∈ (kernelRun1_B c i arg3 harg3 arg4 harg4 arg5 harg5 arg6 harg6 arg7 harg7 arg8 harg8 arg9 harg9 hc0 hc1 hc2 x0 x1 x2 xs0 xs1 xs2).2.2.2.1, y ∈ pc.1.set :=
  View.cover_of_tiledL (kernelRun1_B c i arg3 harg3 arg4 harg4 arg5 harg5 arg6 harg6 arg7 harg7 arg8 harg8 arg9 harg9 hc0 hc1 hc2 x0 x1 x2 xs0 xs1 xs2).2.2.2.1 S512x1024.size (by sl_kernel_rfl) y

/-- What that point leaves in the weighted-sum buffer: its pieces read back. -/
def sout1_B_2 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i) (hc2 : ¬cond1_2 i)
    (x0 : Vec F S1x512x1024 .bf16) (x1 : Vec F S1x512x1024 .bf16) (x2 : Vec F S1x512x1024 .bf16) (xs0 : Vec F S512x1 .f32) (xs1 : Vec F S512x1 .f32) (xs2 : Vec F S512x1024 .f32) : Vec F S512x1024 .f32 :=
  VS1_2.read (Elt F) (VS1_2.writes (Elt F) VS1_2.junk (kernelRun1_B c i arg3 harg3 arg4 harg4 arg5 harg5 arg6 harg6 arg7 harg7 arg8 harg8 arg9 harg9 hc0 hc1 hc2 x0 x1 x2 xs0 xs1 xs2).2.2.2.1)

/-- At a row's last key block on the diagonal the pieces stored into the row-maximum buffer cover it. -/
theorem scover1_D_0 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i) (hc2 : cond1_2 i)
    (x0 : Vec F S1x512x1024 .bf16) (x1 : Vec F S1x512x1024 .bf16) (x2 : Vec F S1x512x1024 .bf16) (xs0 : Vec F S512x1 .f32) (xs1 : Vec F S512x1 .f32) (xs2 : Vec F S512x1024 .f32) (y : S512x1.Idx) :
    ∃ pc ∈ (kernelRun1_D c i arg3 harg3 arg4 harg4 arg5 harg5 arg6 harg6 arg7 harg7 arg8 harg8 arg9 harg9 hc0 hc1 hc2 x0 x1 x2 xs0 xs1 xs2).2.1, y ∈ pc.1.set :=
  View.cover_of_tiledL (kernelRun1_D c i arg3 harg3 arg4 harg4 arg5 harg5 arg6 harg6 arg7 harg7 arg8 harg8 arg9 harg9 hc0 hc1 hc2 x0 x1 x2 xs0 xs1 xs2).2.1 S512x1.size (by sl_kernel_rfl) y

/-- What that point leaves in the row-maximum buffer: its pieces read back. -/
def sout1_D_0 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i) (hc2 : cond1_2 i)
    (x0 : Vec F S1x512x1024 .bf16) (x1 : Vec F S1x512x1024 .bf16) (x2 : Vec F S1x512x1024 .bf16) (xs0 : Vec F S512x1 .f32) (xs1 : Vec F S512x1 .f32) (xs2 : Vec F S512x1024 .f32) : Vec F S512x1 .f32 :=
  VS1_0.read (Elt F) (VS1_0.writes (Elt F) VS1_0.junk (kernelRun1_D c i arg3 harg3 arg4 harg4 arg5 harg5 arg6 harg6 arg7 harg7 arg8 harg8 arg9 harg9 hc0 hc1 hc2 x0 x1 x2 xs0 xs1 xs2).2.1)

/-- At a row's last key block on the diagonal the pieces stored into the total-weight buffer cover it. -/
theorem scover1_D_1 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i) (hc2 : cond1_2 i)
    (x0 : Vec F S1x512x1024 .bf16) (x1 : Vec F S1x512x1024 .bf16) (x2 : Vec F S1x512x1024 .bf16) (xs0 : Vec F S512x1 .f32) (xs1 : Vec F S512x1 .f32) (xs2 : Vec F S512x1024 .f32) (y : S512x1.Idx) :
    ∃ pc ∈ (kernelRun1_D c i arg3 harg3 arg4 harg4 arg5 harg5 arg6 harg6 arg7 harg7 arg8 harg8 arg9 harg9 hc0 hc1 hc2 x0 x1 x2 xs0 xs1 xs2).2.2.1, y ∈ pc.1.set :=
  View.cover_of_tiledL (kernelRun1_D c i arg3 harg3 arg4 harg4 arg5 harg5 arg6 harg6 arg7 harg7 arg8 harg8 arg9 harg9 hc0 hc1 hc2 x0 x1 x2 xs0 xs1 xs2).2.2.1 S512x1.size (by sl_kernel_rfl) y

/-- What that point leaves in the total-weight buffer: its pieces read back. -/
def sout1_D_1 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i) (hc2 : cond1_2 i)
    (x0 : Vec F S1x512x1024 .bf16) (x1 : Vec F S1x512x1024 .bf16) (x2 : Vec F S1x512x1024 .bf16) (xs0 : Vec F S512x1 .f32) (xs1 : Vec F S512x1 .f32) (xs2 : Vec F S512x1024 .f32) : Vec F S512x1 .f32 :=
  VS1_1.read (Elt F) (VS1_1.writes (Elt F) VS1_1.junk (kernelRun1_D c i arg3 harg3 arg4 harg4 arg5 harg5 arg6 harg6 arg7 harg7 arg8 harg8 arg9 harg9 hc0 hc1 hc2 x0 x1 x2 xs0 xs1 xs2).2.2.1)

/-- At a row's last key block on the diagonal the pieces stored into the weighted-sum buffer cover it. -/
theorem scover1_D_2 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i) (hc2 : cond1_2 i)
    (x0 : Vec F S1x512x1024 .bf16) (x1 : Vec F S1x512x1024 .bf16) (x2 : Vec F S1x512x1024 .bf16) (xs0 : Vec F S512x1 .f32) (xs1 : Vec F S512x1 .f32) (xs2 : Vec F S512x1024 .f32) (y : S512x1024.Idx) :
    ∃ pc ∈ (kernelRun1_D c i arg3 harg3 arg4 harg4 arg5 harg5 arg6 harg6 arg7 harg7 arg8 harg8 arg9 harg9 hc0 hc1 hc2 x0 x1 x2 xs0 xs1 xs2).2.2.2.1, y ∈ pc.1.set :=
  View.cover_of_tiledL (kernelRun1_D c i arg3 harg3 arg4 harg4 arg5 harg5 arg6 harg6 arg7 harg7 arg8 harg8 arg9 harg9 hc0 hc1 hc2 x0 x1 x2 xs0 xs1 xs2).2.2.2.1 S512x1024.size (by sl_kernel_rfl) y

/-- What that point leaves in the weighted-sum buffer: its pieces read back. -/
def sout1_D_2 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i) (hc2 : cond1_2 i)
    (x0 : Vec F S1x512x1024 .bf16) (x1 : Vec F S1x512x1024 .bf16) (x2 : Vec F S1x512x1024 .bf16) (xs0 : Vec F S512x1 .f32) (xs1 : Vec F S512x1 .f32) (xs2 : Vec F S512x1024 .f32) : Vec F S512x1024 .f32 :=
  VS1_2.read (Elt F) (VS1_2.writes (Elt F) VS1_2.junk (kernelRun1_D c i arg3 harg3 arg4 harg4 arg5 harg5 arg6 harg6 arg7 harg7 arg8 harg8 arg9 harg9 hc0 hc1 hc2 x0 x1 x2 xs0 xs1 xs2).2.2.2.1)

/-- At a row's last key block on the diagonal the piece stored into the output buffer covers it. -/
theorem cover1_D_3 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i) (hc2 : cond1_2 i)
    (x0 : Vec F S1x512x1024 .bf16) (x1 : Vec F S1x512x1024 .bf16) (x2 : Vec F S1x512x1024 .bf16) (xs0 : Vec F S512x1 .f32) (xs1 : Vec F S512x1 .f32) (xs2 : Vec F S512x1024 .f32) (y : S1x512x1024.Idx) :
    ∃ pc ∈ (kernelRun1_D c i arg3 harg3 arg4 harg4 arg5 harg5 arg6 harg6 arg7 harg7 arg8 harg8 arg9 harg9 hc0 hc1 hc2 x0 x1 x2 xs0 xs1 xs2).1, y ∈ pc.1.set :=
  View.cover_of_tiledL (kernelRun1_D c i arg3 harg3 arg4 harg4 arg5 harg5 arg6 harg6 arg7 harg7 arg8 harg8 arg9 harg9 hc0 hc1 hc2 x0 x1 x2 xs0 xs1 xs2).1 S1x512x1024.size (by sl_kernel_rfl) y

/-- What that point leaves in the output buffer: its piece read back. -/
def out1_D_3 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i) (hc2 : cond1_2 i)
    (x0 : Vec F S1x512x1024 .bf16) (x1 : Vec F S1x512x1024 .bf16) (x2 : Vec F S1x512x1024 .bf16) (xs0 : Vec F S512x1 .f32) (xs1 : Vec F S512x1 .f32) (xs2 : Vec F S512x1024 .f32) : Vec F S1x512x1024 .f32 :=
  VO1_3.read (Elt F) (VO1_3.writes (Elt F) VO1_3.junk (kernelRun1_D c i arg3 harg3 arg4 harg4 arg5 harg5 arg6 harg6 arg7 harg7 arg8 harg8 arg9 harg9 hc0 hc1 hc2 x0 x1 x2 xs0 xs1 xs2).1)

/-- At a row's last key block above the diagonal the piece stored into the output buffer covers it. -/
theorem cover1_E_3 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : ¬cond1_1 i) (hc2 : cond1_2 i)
    (xs1 : Vec F S512x1 .f32) (xs2 : Vec F S512x1024 .f32) (y : S1x512x1024.Idx) :
    ∃ pc ∈ (kernelRun1_E c i arg3 harg3 arg4 harg4 arg5 harg5 arg6 harg6 arg7 harg7 arg8 harg8 arg9 harg9 hc0 hc1 hc2 xs1 xs2).1, y ∈ pc.1.set :=
  View.cover_of_tiledL (kernelRun1_E c i arg3 harg3 arg4 harg4 arg5 harg5 arg6 harg6 arg7 harg7 arg8 harg8 arg9 harg9 hc0 hc1 hc2 xs1 xs2).1 S1x512x1024.size (by sl_kernel_rfl) y

/-- What that point leaves in the output buffer: its piece read back. -/
def out1_E_3 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : ¬cond1_1 i) (hc2 : cond1_2 i)
    (xs1 : Vec F S512x1 .f32) (xs2 : Vec F S512x1024 .f32) : Vec F S1x512x1024 .f32 :=
  VO1_3.read (Elt F) (VO1_3.writes (Elt F) VO1_3.junk (kernelRun1_E c i arg3 harg3 arg4 harg4 arg5 harg5 arg6 harg6 arg7 harg7 arg8 harg8 arg9 harg9 hc0 hc1 hc2 xs1 xs2).1)

/-- The output component at a point that stores no output block: a placeholder nothing consults (the window is
    neither written back there nor read at the next point). -/
def outIdle : Vec F S1x512x1024 .f32 := VO1_3.read (Elt F) (VO1_3.writes (Elt F) VO1_3.junk [])

/-! ## What the runs' pieces are: the pure step functions of what the body loads -/

theorem hz2 : (![0, 0] : Fin 2 → Nat) = fun _ => 0 := funext fun a => by fin_cases a <;> rfl
theorem hz3 : (![0, 0, 0] : Fin 3 → Nat) = fun _ => 0 := funext fun a => by fin_cases a <;> rfl

/-- At a row's first key block each scratch buffer's last store covers it, and what it stored is the fold of the first key block into the reset state (the loads in between read the reset values back). -/
theorem sout1_A_0_eq (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : cond1_0 i) (hc1 : cond1_1 i) (hc2 : ¬cond1_2 i)
    (x0 : Vec F S1x512x1024 .bf16) (x1 : Vec F S1x512x1024 .bf16) (x2 : Vec F S1x512x1024 .bf16) :
    sout1_A_0 c i arg3 harg3 arg4 harg4 arg5 harg5 arg6 harg6 arg7 harg7 arg8 harg8 arg9 harg9 hc0 hc1 hc2 x0 x1 x2 = (step (BitVec.ofNat 32 (i 1).val) (BitVec.ofNat 32 (i 2).val) x0 x1 x2 init).1 := by
  unfold sout1_A_0
  rw [View.read_writes_eq_canon _ _ _ (scover1_A_0 c i arg3 harg3 arg4 harg4 arg5 harg5 arg6 harg6 arg7 harg7 arg8 harg8 arg9 harg9 hc0 hc1 hc2 x0 x1 x2)]
  unfold kernelRun1_A
  dsimp only
  try sl_unfold_words
  rw [View.canon_cons_unit_zero (S := S512x1) hz2]
  simp only [View.readAt_eq_ld, harg3.read_unread, harg4.read_unread, harg5.read_unread, harg7.read_unread, harg8.read_unread, harg9.read_unread,
    View.ld_unit_zero (S := S1x512x1024) hz3, View.ld_unit_zero (S := S512x1) hz2, View.ld_unit_zero (S := S512x1024) hz2,
    View.readCov_unit_zero (S := S512x1) _ hz2, View.readCov_unit_zero (S := S512x1024) _ hz2]
  try rfl

theorem sout1_A_1_eq (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : cond1_0 i) (hc1 : cond1_1 i) (hc2 : ¬cond1_2 i)
    (x0 : Vec F S1x512x1024 .bf16) (x1 : Vec F S1x512x1024 .bf16) (x2 : Vec F S1x512x1024 .bf16) :
    sout1_A_1 c i arg3 harg3 arg4 harg4 arg5 harg5 arg6 harg6 arg7 harg7 arg8 harg8 arg9 harg9 hc0 hc1 hc2 x0 x1 x2 = (step (BitVec.ofNat 32 (i 1).val) (BitVec.ofNat 32 (i 2).val) x0 x1 x2 init).2.1 := by
  unfold sout1_A_1
  rw [View.read_writes_eq_canon _ _ _ (scover1_A_1 c i arg3 harg3 arg4 harg4 arg5 harg5 arg6 harg6 arg7 harg7 arg8 harg8 arg9 harg9 hc0 hc1 hc2 x0 x1 x2)]
  unfold kernelRun1_A
  dsimp only
  try sl_unfold_words
  rw [View.canon_cons_unit_zero (S := S512x1) hz2]
  simp only [View.readAt_eq_ld, harg3.read_unread, harg4.read_unread, harg5.read_unread, harg7.read_unread, harg8.read_unread, harg9.read_unread,
    View.ld_unit_zero (S := S1x512x1024) hz3, View.ld_unit_zero (S := S512x1) hz2, View.ld_unit_zero (S := S512x1024) hz2,
    View.readCov_unit_zero (S := S512x1) _ hz2, View.readCov_unit_zero (S := S512x1024) _ hz2]
  try rfl

theorem sout1_A_2_eq (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : cond1_0 i) (hc1 : cond1_1 i) (hc2 : ¬cond1_2 i)
    (x0 : Vec F S1x512x1024 .bf16) (x1 : Vec F S1x512x1024 .bf16) (x2 : Vec F S1x512x1024 .bf16) :
    sout1_A_2 c i arg3 harg3 arg4 harg4 arg5 harg5 arg6 harg6 arg7 harg7 arg8 harg8 arg9 harg9 hc0 hc1 hc2 x0 x1 x2 = (step (BitVec.ofNat 32 (i 1).val) (BitVec.ofNat 32 (i 2).val) x0 x1 x2 init).2.2 := by
  unfold sout1_A_2
  rw [View.read_writes_eq_canon _ _ _ (scover1_A_2 c i arg3 harg3 arg4 harg4 arg5 harg5 arg6 harg6 arg7 harg7 arg8 harg8 arg9 harg9 hc0 hc1 hc2 x0 x1 x2)]
  unfold kernelRun1_A
  dsimp only
  try sl_unfold_words
  rw [View.canon_cons_unit_zero (S := S512x1024) hz2]
  simp only [View.readAt_eq_ld, harg3.read_unread, harg4.read_unread, harg5.read_unread, harg7.read_unread, harg8.read_unread, harg9.read_unread,
    View.ld_unit_zero (S := S1x512x1024) hz3, View.ld_unit_zero (S := S512x1) hz2, View.ld_unit_zero (S := S512x1024) hz2,
    View.readCov_unit_zero (S := S512x1) _ hz2, View.readCov_unit_zero (S := S512x1024) _ hz2]
  try rfl

theorem sout1_A_eq (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : cond1_0 i) (hc1 : cond1_1 i) (hc2 : ¬cond1_2 i)
    (x0 : Vec F S1x512x1024 .bf16) (x1 : Vec F S1x512x1024 .bf16) (x2 : Vec F S1x512x1024 .bf16) :
    ((sout1_A_0 c i arg3 harg3 arg4 harg4 arg5 harg5 arg6 harg6 arg7 harg7 arg8 harg8 arg9 harg9 hc0 hc1 hc2 x0 x1 x2, sout1_A_1 c i arg3 harg3 arg4 harg4 arg5 harg5 arg6 harg6 arg7 harg7 arg8 harg8 arg9 harg9 hc0 hc1 hc2 x0 x1 x2, sout1_A_2 c i arg3 harg3 arg4 harg4 arg5 harg5 arg6 harg6 arg7 harg7 arg8 harg8 arg9 harg9 hc0 hc1 hc2 x0 x1 x2) : St F) = step (BitVec.ofNat 32 (i 1).val) (BitVec.ofNat 32 (i 2).val) x0 x1 x2 init := by
  rw [sout1_A_0_eq, sout1_A_1_eq, sout1_A_2_eq]

/-- At a later key block on or below the diagonal each scratch buffer's one store covers it, and what it stored is the fold of the key block into the state the buffers held. -/
theorem sout1_B_0_eq (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i) (hc2 : ¬cond1_2 i)
    (x0 : Vec F S1x512x1024 .bf16) (x1 : Vec F S1x512x1024 .bf16) (x2 : Vec F S1x512x1024 .bf16) (xs0 : Vec F S512x1 .f32) (xs1 : Vec F S512x1 .f32) (xs2 : Vec F S512x1024 .f32) :
    sout1_B_0 c i arg3 harg3 arg4 harg4 arg5 harg5 arg6 harg6 arg7 harg7 arg8 harg8 arg9 harg9 hc0 hc1 hc2 x0 x1 x2 xs0 xs1 xs2 = (step (BitVec.ofNat 32 (i 1).val) (BitVec.ofNat 32 (i 2).val) x0 x1 x2 (xs0, xs1, xs2)).1 := by
  unfold sout1_B_0
  rw [View.read_writes_eq_canon _ _ _ (scover1_B_0 c i arg3 harg3 arg4 harg4 arg5 harg5 arg6 harg6 arg7 harg7 arg8 harg8 arg9 harg9 hc0 hc1 hc2 x0 x1 x2 xs0 xs1 xs2)]
  unfold kernelRun1_B
  dsimp only
  try sl_unfold_words
  rw [View.canon_cons_unit_zero (S := S512x1) hz2]
  simp only [View.readAt_eq_ld, harg3.read_unread, harg4.read_unread, harg5.read_unread, harg7.read_unread, harg8.read_unread, harg9.read_unread,
    View.ld_unit_zero (S := S1x512x1024) hz3, View.ld_unit_zero (S := S512x1) hz2, View.ld_unit_zero (S := S512x1024) hz2,
    View.readCov_unit_zero (S := S512x1) _ hz2, View.readCov_unit_zero (S := S512x1024) _ hz2]
  try rfl

theorem sout1_B_1_eq (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i) (hc2 : ¬cond1_2 i)
    (x0 : Vec F S1x512x1024 .bf16) (x1 : Vec F S1x512x1024 .bf16) (x2 : Vec F S1x512x1024 .bf16) (xs0 : Vec F S512x1 .f32) (xs1 : Vec F S512x1 .f32) (xs2 : Vec F S512x1024 .f32) :
    sout1_B_1 c i arg3 harg3 arg4 harg4 arg5 harg5 arg6 harg6 arg7 harg7 arg8 harg8 arg9 harg9 hc0 hc1 hc2 x0 x1 x2 xs0 xs1 xs2 = (step (BitVec.ofNat 32 (i 1).val) (BitVec.ofNat 32 (i 2).val) x0 x1 x2 (xs0, xs1, xs2)).2.1 := by
  unfold sout1_B_1
  rw [View.read_writes_eq_canon _ _ _ (scover1_B_1 c i arg3 harg3 arg4 harg4 arg5 harg5 arg6 harg6 arg7 harg7 arg8 harg8 arg9 harg9 hc0 hc1 hc2 x0 x1 x2 xs0 xs1 xs2)]
  unfold kernelRun1_B
  dsimp only
  try sl_unfold_words
  rw [View.canon_cons_unit_zero (S := S512x1) hz2]
  simp only [View.readAt_eq_ld, harg3.read_unread, harg4.read_unread, harg5.read_unread, harg7.read_unread, harg8.read_unread, harg9.read_unread,
    View.ld_unit_zero (S := S1x512x1024) hz3, View.ld_unit_zero (S := S512x1) hz2, View.ld_unit_zero (S := S512x1024) hz2,
    View.readCov_unit_zero (S := S512x1) _ hz2, View.readCov_unit_zero (S := S512x1024) _ hz2]
  try rfl

theorem sout1_B_2_eq (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i) (hc2 : ¬cond1_2 i)
    (x0 : Vec F S1x512x1024 .bf16) (x1 : Vec F S1x512x1024 .bf16) (x2 : Vec F S1x512x1024 .bf16) (xs0 : Vec F S512x1 .f32) (xs1 : Vec F S512x1 .f32) (xs2 : Vec F S512x1024 .f32) :
    sout1_B_2 c i arg3 harg3 arg4 harg4 arg5 harg5 arg6 harg6 arg7 harg7 arg8 harg8 arg9 harg9 hc0 hc1 hc2 x0 x1 x2 xs0 xs1 xs2 = (step (BitVec.ofNat 32 (i 1).val) (BitVec.ofNat 32 (i 2).val) x0 x1 x2 (xs0, xs1, xs2)).2.2 := by
  unfold sout1_B_2
  rw [View.read_writes_eq_canon _ _ _ (scover1_B_2 c i arg3 harg3 arg4 harg4 arg5 harg5 arg6 harg6 arg7 harg7 arg8 harg8 arg9 harg9 hc0 hc1 hc2 x0 x1 x2 xs0 xs1 xs2)]
  unfold kernelRun1_B
  dsimp only
  try sl_unfold_words
  rw [View.canon_cons_unit_zero (S := S512x1024) hz2]
  simp only [View.readAt_eq_ld, harg3.read_unread, harg4.read_unread, harg5.read_unread, harg7.read_unread, harg8.read_unread, harg9.read_unread,
    View.ld_unit_zero (S := S1x512x1024) hz3, View.ld_unit_zero (S := S512x1) hz2, View.ld_unit_zero (S := S512x1024) hz2,
    View.readCov_unit_zero (S := S512x1) _ hz2, View.readCov_unit_zero (S := S512x1024) _ hz2]
  try rfl

theorem sout1_B_eq (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i) (hc2 : ¬cond1_2 i)
    (x0 : Vec F S1x512x1024 .bf16) (x1 : Vec F S1x512x1024 .bf16) (x2 : Vec F S1x512x1024 .bf16) (xs0 : Vec F S512x1 .f32) (xs1 : Vec F S512x1 .f32) (xs2 : Vec F S512x1024 .f32) :
    ((sout1_B_0 c i arg3 harg3 arg4 harg4 arg5 harg5 arg6 harg6 arg7 harg7 arg8 harg8 arg9 harg9 hc0 hc1 hc2 x0 x1 x2 xs0 xs1 xs2, sout1_B_1 c i arg3 harg3 arg4 harg4 arg5 harg5 arg6 harg6 arg7 harg7 arg8 harg8 arg9 harg9 hc0 hc1 hc2 x0 x1 x2 xs0 xs1 xs2, sout1_B_2 c i arg3 harg3 arg4 harg4 arg5 harg5 arg6 harg6 arg7 harg7 arg8 harg8 arg9 harg9 hc0 hc1 hc2 x0 x1 x2 xs0 xs1 xs2) : St F) = step (BitVec.ofNat 32 (i 1).val) (BitVec.ofNat 32 (i 2).val) x0 x1 x2 (xs0, xs1, xs2) := by
  rw [sout1_B_0_eq, sout1_B_1_eq, sout1_B_2_eq]

/-- At a row's last key block on the diagonal the same holds of the three scratch buffers, -/
theorem sout1_D_0_eq (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i) (hc2 : cond1_2 i)
    (x0 : Vec F S1x512x1024 .bf16) (x1 : Vec F S1x512x1024 .bf16) (x2 : Vec F S1x512x1024 .bf16) (xs0 : Vec F S512x1 .f32) (xs1 : Vec F S512x1 .f32) (xs2 : Vec F S512x1024 .f32) :
    sout1_D_0 c i arg3 harg3 arg4 harg4 arg5 harg5 arg6 harg6 arg7 harg7 arg8 harg8 arg9 harg9 hc0 hc1 hc2 x0 x1 x2 xs0 xs1 xs2 = (step (BitVec.ofNat 32 (i 1).val) (BitVec.ofNat 32 (i 2).val) x0 x1 x2 (xs0, xs1, xs2)).1 := by
  unfold sout1_D_0
  rw [View.read_writes_eq_canon _ _ _ (scover1_D_0 c i arg3 harg3 arg4 harg4 arg5 harg5 arg6 harg6 arg7 harg7 arg8 harg8 arg9 harg9 hc0 hc1 hc2 x0 x1 x2 xs0 xs1 xs2)]
  unfold kernelRun1_D
  dsimp only
  try sl_unfold_words
  rw [View.canon_cons_unit_zero (S := S512x1) hz2]
  simp only [View.readAt_eq_ld, harg3.read_unread, harg4.read_unread, harg5.read_unread, harg7.read_unread, harg8.read_unread, harg9.read_unread,
    View.ld_unit_zero (S := S1x512x1024) hz3, View.ld_unit_zero (S := S512x1) hz2, View.ld_unit_zero (S := S512x1024) hz2,
    View.readCov_unit_zero (S := S512x1) _ hz2, View.readCov_unit_zero (S := S512x1024) _ hz2]
  try rfl

theorem sout1_D_1_eq (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i) (hc2 : cond1_2 i)
    (x0 : Vec F S1x512x1024 .bf16) (x1 : Vec F S1x512x1024 .bf16) (x2 : Vec F S1x512x1024 .bf16) (xs0 : Vec F S512x1 .f32) (xs1 : Vec F S512x1 .f32) (xs2 : Vec F S512x1024 .f32) :
    sout1_D_1 c i arg3 harg3 arg4 harg4 arg5 harg5 arg6 harg6 arg7 harg7 arg8 harg8 arg9 harg9 hc0 hc1 hc2 x0 x1 x2 xs0 xs1 xs2 = (step (BitVec.ofNat 32 (i 1).val) (BitVec.ofNat 32 (i 2).val) x0 x1 x2 (xs0, xs1, xs2)).2.1 := by
  unfold sout1_D_1
  rw [View.read_writes_eq_canon _ _ _ (scover1_D_1 c i arg3 harg3 arg4 harg4 arg5 harg5 arg6 harg6 arg7 harg7 arg8 harg8 arg9 harg9 hc0 hc1 hc2 x0 x1 x2 xs0 xs1 xs2)]
  unfold kernelRun1_D
  dsimp only
  try sl_unfold_words
  rw [View.canon_cons_unit_zero (S := S512x1) hz2]
  simp only [View.readAt_eq_ld, harg3.read_unread, harg4.read_unread, harg5.read_unread, harg7.read_unread, harg8.read_unread, harg9.read_unread,
    View.ld_unit_zero (S := S1x512x1024) hz3, View.ld_unit_zero (S := S512x1) hz2, View.ld_unit_zero (S := S512x1024) hz2,
    View.readCov_unit_zero (S := S512x1) _ hz2, View.readCov_unit_zero (S := S512x1024) _ hz2]
  try rfl

theorem sout1_D_2_eq (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i) (hc2 : cond1_2 i)
    (x0 : Vec F S1x512x1024 .bf16) (x1 : Vec F S1x512x1024 .bf16) (x2 : Vec F S1x512x1024 .bf16) (xs0 : Vec F S512x1 .f32) (xs1 : Vec F S512x1 .f32) (xs2 : Vec F S512x1024 .f32) :
    sout1_D_2 c i arg3 harg3 arg4 harg4 arg5 harg5 arg6 harg6 arg7 harg7 arg8 harg8 arg9 harg9 hc0 hc1 hc2 x0 x1 x2 xs0 xs1 xs2 = (step (BitVec.ofNat 32 (i 1).val) (BitVec.ofNat 32 (i 2).val) x0 x1 x2 (xs0, xs1, xs2)).2.2 := by
  unfold sout1_D_2
  rw [View.read_writes_eq_canon _ _ _ (scover1_D_2 c i arg3 harg3 arg4 harg4 arg5 harg5 arg6 harg6 arg7 harg7 arg8 harg8 arg9 harg9 hc0 hc1 hc2 x0 x1 x2 xs0 xs1 xs2)]
  unfold kernelRun1_D
  dsimp only
  try sl_unfold_words
  rw [View.canon_cons_unit_zero (S := S512x1024) hz2]
  simp only [View.readAt_eq_ld, harg3.read_unread, harg4.read_unread, harg5.read_unread, harg7.read_unread, harg8.read_unread, harg9.read_unread,
    View.ld_unit_zero (S := S1x512x1024) hz3, View.ld_unit_zero (S := S512x1) hz2, View.ld_unit_zero (S := S512x1024) hz2,
    View.readCov_unit_zero (S := S512x1) _ hz2, View.readCov_unit_zero (S := S512x1024) _ hz2]
  try rfl

theorem sout1_D_eq (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i) (hc2 : cond1_2 i)
    (x0 : Vec F S1x512x1024 .bf16) (x1 : Vec F S1x512x1024 .bf16) (x2 : Vec F S1x512x1024 .bf16) (xs0 : Vec F S512x1 .f32) (xs1 : Vec F S512x1 .f32) (xs2 : Vec F S512x1024 .f32) :
    ((sout1_D_0 c i arg3 harg3 arg4 harg4 arg5 harg5 arg6 harg6 arg7 harg7 arg8 harg8 arg9 harg9 hc0 hc1 hc2 x0 x1 x2 xs0 xs1 xs2, sout1_D_1 c i arg3 harg3 arg4 harg4 arg5 harg5 arg6 harg6 arg7 harg7 arg8 harg8 arg9 harg9 hc0 hc1 hc2 x0 x1 x2 xs0 xs1 xs2, sout1_D_2 c i arg3 harg3 arg4 harg4 arg5 harg5 arg6 harg6 arg7 harg7 arg8 harg8 arg9 harg9 hc0 hc1 hc2 x0 x1 x2 xs0 xs1 xs2) : St F) = step (BitVec.ofNat 32 (i 1).val) (BitVec.ofNat 32 (i 2).val) x0 x1 x2 (xs0, xs1, xs2) := by
  rw [sout1_D_0_eq, sout1_D_1_eq, sout1_D_2_eq]

/-- and the output block stored is the quotient of the folded state, read back from the scratch buffers. -/
theorem out1_D_3_eq (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i) (hc2 : cond1_2 i)
    (x0 : Vec F S1x512x1024 .bf16) (x1 : Vec F S1x512x1024 .bf16) (x2 : Vec F S1x512x1024 .bf16) (xs0 : Vec F S512x1 .f32) (xs1 : Vec F S512x1 .f32) (xs2 : Vec F S512x1024 .f32) :
    out1_D_3 c i arg3 harg3 arg4 harg4 arg5 harg5 arg6 harg6 arg7 harg7 arg8 harg8 arg9 harg9 hc0 hc1 hc2 x0 x1 x2 xs0 xs1 xs2 = fin (step (BitVec.ofNat 32 (i 1).val) (BitVec.ofNat 32 (i 2).val) x0 x1 x2 (xs0, xs1, xs2)) := by
  unfold out1_D_3
  rw [View.read_writes_eq_canon _ _ _ (cover1_D_3 c i arg3 harg3 arg4 harg4 arg5 harg5 arg6 harg6 arg7 harg7 arg8 harg8 arg9 harg9 hc0 hc1 hc2 x0 x1 x2 xs0 xs1 xs2)]
  unfold kernelRun1_D
  dsimp only
  try sl_unfold_words
  rw [View.canon_cons_unit_zero (S := S1x512x1024) hz3]
  simp only [View.readAt_eq_ld, harg3.read_unread, harg4.read_unread, harg5.read_unread, harg7.read_unread, harg8.read_unread, harg9.read_unread,
    View.ld_unit_zero (S := S1x512x1024) hz3, View.ld_unit_zero (S := S512x1) hz2, View.ld_unit_zero (S := S512x1024) hz2,
    View.readCov_unit_zero (S := S512x1) _ hz2, View.readCov_unit_zero (S := S512x1024) _ hz2]
  try rfl

theorem out1_D_3_fin (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i) (hc2 : cond1_2 i)
    (x0 : Vec F S1x512x1024 .bf16) (x1 : Vec F S1x512x1024 .bf16) (x2 : Vec F S1x512x1024 .bf16) (xs0 : Vec F S512x1 .f32) (xs1 : Vec F S512x1 .f32) (xs2 : Vec F S512x1024 .f32) :
    out1_D_3 c i arg3 harg3 arg4 harg4 arg5 harg5 arg6 harg6 arg7 harg7 arg8 harg8 arg9 harg9 hc0 hc1 hc2 x0 x1 x2 xs0 xs1 xs2 = fin ((sout1_D_0 c i arg3 harg3 arg4 harg4 arg5 harg5 arg6 harg6 arg7 harg7 arg8 harg8 arg9 harg9 hc0 hc1 hc2 x0 x1 x2 xs0 xs1 xs2, sout1_D_1 c i arg3 harg3 arg4 harg4 arg5 harg5 arg6 harg6 arg7 harg7 arg8 harg8 arg9 harg9 hc0 hc1 hc2 x0 x1 x2 xs0 xs1 xs2, sout1_D_2 c i arg3 harg3 arg4 harg4 arg5 harg5 arg6 harg6 arg7 harg7 arg8 harg8 arg9 harg9 hc0 hc1 hc2 x0 x1 x2 xs0 xs1 xs2) : St F) := by
  rw [out1_D_3_eq, sout1_D_eq]

/-- At a row's last key block above the diagonal the output block stored is the quotient of the state the scratch
    buffers hold. -/
theorem out1_E_3_eq (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : ¬cond1_1 i) (hc2 : cond1_2 i)
    (xs1 : Vec F S512x1 .f32) (xs2 : Vec F S512x1024 .f32) :
    out1_E_3 c i arg3 harg3 arg4 harg4 arg5 harg5 arg6 harg6 arg7 harg7 arg8 harg8 arg9 harg9 hc0 hc1 hc2 xs1 xs2 = k1_pay7 xs2 xs1 := by
  unfold out1_E_3
  rw [View.read_writes_eq_canon _ _ _ (cover1_E_3 c i arg3 harg3 arg4 harg4 arg5 harg5 arg6 harg6 arg7 harg7 arg8 harg8 arg9 harg9 hc0 hc1 hc2 xs1 xs2)]
  unfold kernelRun1_E
  dsimp only
  try sl_unfold_words
  rw [View.canon_cons_unit_zero (S := S1x512x1024) hz3]
  simp only [View.readAt_eq_ld, harg3.read_unread, harg4.read_unread, harg5.read_unread, harg7.read_unread, harg8.read_unread, harg9.read_unread,
    View.ld_unit_zero (S := S1x512x1024) hz3, View.ld_unit_zero (S := S512x1) hz2, View.ld_unit_zero (S := S512x1024) hz2,
    View.readCov_unit_zero (S := S512x1) _ hz2, View.readCov_unit_zero (S := S512x1024) _ hz2]
  try rfl

section Region
-- the TensorCore's buffer contents as the region is entered
variable (V : (c : Dev nD) → (b : Ref sig .tc) → Buf (Elt F) ((c : Thread nD τ).loc b))

/-! ## What the output buffer and the carried state hold after each point -/

/-- What the output window's staging buffer and the three scratch buffers hold after the body at position `n` (the
    output buffer first, then row maximum, total weight, weighted sum): the case the closed forms select at `n`,
    run at the point's memrefs and input blocks, over what the point before left in the scratch buffers; where the
    body stores nothing into a scratch buffer it holds what the point before left. The assignments of the guards
    that no point meets (ki = 0 together with ki > qi or ki = 7) are no case. -/
def outsAt1 (c : Dev nD) : (n : ℕ) → n < cfg1.N → Vec F S1x512x1024 .f32 × St F
  | 0, hn => (outIdle, sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) ((hcond1_1 ⟨0, hn⟩).mpr (Nat.zero_le _)) (fun h => (fun h => by (try dsimp only at h); omega) ((hcond1_2 ⟨0, hn⟩).mp h)) (iblk1 V c 0 ⟨0, hn⟩) (iblk1 V c 1 ⟨0, hn⟩) (iblk1 V c 2 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) ((hcond1_1 ⟨0, hn⟩).mpr (Nat.zero_le _)) (fun h => (fun h => by (try dsimp only at h); omega) ((hcond1_2 ⟨0, hn⟩).mp h)) (iblk1 V c 0 ⟨0, hn⟩) (iblk1 V c 1 ⟨0, hn⟩) (iblk1 V c 2 ⟨0, hn⟩), sout1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) ((hcond1_1 ⟨0, hn⟩).mpr (Nat.zero_le _)) (fun h => (fun h => by (try dsimp only at h); omega) ((hcond1_2 ⟨0, hn⟩).mp h)) (iblk1 V c 0 ⟨0, hn⟩) (iblk1 V c 1 ⟨0, hn⟩) (iblk1 V c 2 ⟨0, hn⟩))
  | n + 1, hn =>
    if h0 : (n + 1) % 8 = 0 then
      if h1 : (n + 1) % 8 ≤ (n + 1) / 8 % 8 then
        if h2 : (n + 1) % 8 = 7 then
          False.elim (by omega)
        else
          (outIdle, sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) ((hcond1_1 ⟨n + 1, hn⟩).mpr h1) (fun h => h2 ((hcond1_2 ⟨n + 1, hn⟩).mp h)) (iblk1 V c 0 ⟨n + 1, hn⟩) (iblk1 V c 1 ⟨n + 1, hn⟩) (iblk1 V c 2 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) ((hcond1_1 ⟨n + 1, hn⟩).mpr h1) (fun h => h2 ((hcond1_2 ⟨n + 1, hn⟩).mp h)) (iblk1 V c 0 ⟨n + 1, hn⟩) (iblk1 V c 1 ⟨n + 1, hn⟩) (iblk1 V c 2 ⟨n + 1, hn⟩), sout1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) ((hcond1_1 ⟨n + 1, hn⟩).mpr h1) (fun h => h2 ((hcond1_2 ⟨n + 1, hn⟩).mp h)) (iblk1 V c 0 ⟨n + 1, hn⟩) (iblk1 V c 1 ⟨n + 1, hn⟩) (iblk1 V c 2 ⟨n + 1, hn⟩))
      else
        False.elim (by omega)
    else
      if h1 : (n + 1) % 8 ≤ (n + 1) / 8 % 8 then
        if h2 : (n + 1) % 8 = 7 then
          (out1_D_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) ((hcond1_2 ⟨n + 1, hn⟩).mpr h2) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_D_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) ((hcond1_2 ⟨n + 1, hn⟩).mpr h2) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_D_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) ((hcond1_2 ⟨n + 1, hn⟩).mpr h2) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_D_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) ((hcond1_2 ⟨n + 1, hn⟩).mpr h2) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2)
        else
          (outIdle, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (fun h => h2 ((hcond1_2 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (fun h => h2 ((hcond1_2 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (fun h => h2 ((hcond1_2 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2)
      else
        if h2 : (n + 1) % 8 = 7 then
          (out1_E_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) ((hcond1_2 ⟨n + 1, hn⟩).mpr h2) (outsAt1 c n (Nat.lt_of_succ_lt hn)).2.2.1 (outsAt1 c n (Nat.lt_of_succ_lt hn)).2.2.2, (outsAt1 c n (Nat.lt_of_succ_lt hn)).2)
        else
          (outIdle, (outsAt1 c n (Nat.lt_of_succ_lt hn)).2)

/-- `outsAt1` at a row's first key block: the reset state with the first key block folded in. -/
theorem outsAt1_A (c : Dev nD) (t : Fin cfg1.N) (h0 : t.val % 8 = 0) (h1 : t.val % 8 ≤ t.val / 8 % 8) (h2 : ¬t.val % 8 = 7) :
    outsAt1 V c t.val t.isLt = (outIdle, sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr h1) (fun h => h2 ((hcond1_2 t).mp h)) (iblk1 V c 0 t) (iblk1 V c 1 t) (iblk1 V c 2 t), sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr h1) (fun h => h2 ((hcond1_2 t).mp h)) (iblk1 V c 0 t) (iblk1 V c 1 t) (iblk1 V c 2 t), sout1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr h1) (fun h => h2 ((hcond1_2 t).mp h)) (iblk1 V c 0 t) (iblk1 V c 1 t) (iblk1 V c 2 t)) := by
  obtain ⟨n, hn⟩ := t
  cases n with
  | zero => exact rfl
  | succ n => exact (dif_pos h0).trans ((dif_pos h1).trans ((dif_neg h2).trans rfl))

/-- `outsAt1` at a later key block on or below the diagonal, not the row's last: the key block folded into what the point before left. -/
theorem outsAt1_B (c : Dev nD) (t : Fin cfg1.N) (h0 : ¬t.val % 8 = 0) (h1 : t.val % 8 ≤ t.val / 8 % 8) (h2 : ¬t.val % 8 = 7) :
    outsAt1 V c t.val t.isLt = (outIdle, sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (fun h => h2 ((hcond1_2 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (fun h => h2 ((hcond1_2 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (fun h => h2 ((hcond1_2 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans ((dif_neg h2).trans rfl))

/-- `outsAt1` at a key block above the diagonal, not the row's last: the state the point before left. -/
theorem outsAt1_C (c : Dev nD) (t : Fin cfg1.N) (h0 : ¬t.val % 8 = 0) (h1 : ¬t.val % 8 ≤ t.val / 8 % 8) (h2 : ¬t.val % 8 = 7) :
    outsAt1 V c t.val t.isLt = (outIdle, (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans ((dif_neg h2).trans rfl))

/-- `outsAt1` at a row's last key block on the diagonal: the key block folded in, and the output block. -/
theorem outsAt1_D (c : Dev nD) (t : Fin cfg1.N) (h0 : ¬t.val % 8 = 0) (h1 : t.val % 8 ≤ t.val / 8 % 8) (h2 : t.val % 8 = 7) :
    outsAt1 V c t.val t.isLt = (out1_D_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_D_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_D_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_D_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans ((dif_pos h2).trans rfl))

/-- `outsAt1` at a row's last key block above the diagonal: the state the point before left, and the output block. -/
theorem outsAt1_E (c : Dev nD) (t : Fin cfg1.N) (h0 : ¬t.val % 8 = 0) (h1 : ¬t.val % 8 ≤ t.val / 8 % 8) (h2 : t.val % 8 = 7) :
    outsAt1 V c t.val t.isLt = (out1_E_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) ((hcond1_2 t).mpr h2) (outsAt1 V c (t.val - 1) (Nat.lt_of_le_of_lt (Nat.sub_le _ _) t.isLt)).2.2.1 (outsAt1 V c (t.val - 1) (Nat.lt_of_le_of_lt (Nat.sub_le _ _) t.isLt)).2.2.2, (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans ((dif_pos h2).trans rfl))

/-! ## The region's invariant, point by point -/

/-- The invariant before position `n`: before the first point the class's (every scratch buffer at anything);
    afterwards the scoped rest with the three scratch buffers at what the point before left in them, and the
    pseudo-random number register at some state. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg2_0), ((c : Thread nD τ).loc cc0_stg2_0) ↦{fullShare} f)
          ∗ (∃ f : Buf (Elt F) ((c : Thread nD τ).loc cc0_stg2_1), ((c : Thread nD τ).loc cc0_stg2_1) ↦{fullShare} f)
          ∗ owns (c : Thread nD τ) scM1_0 fullShare ((outsAt1 V c n hn).2.1)
          ∗ owns (c : Thread nD τ) scM1_1 fullShare ((outsAt1 V c n hn).2.2.1)
          ∗ owns (c : Thread nD τ) scM1_2 fullShare ((outsAt1 V c n hn).2.2.2)) ∗ (∃ r, prngReg c r))

theorem PhiS_zero (c : Dev nD) (n : ℕ) (h : n ≤ cfg1.N) (hz : n = 0) : PhiS V c n h = Pipeline.ΦA spec1 c := by
  subst hz; rfl

/-- After point `n` (before point `n + 1`): the scratch buffers at that point's state. -/
theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg2_0), ((c : Thread nD τ).loc cc0_stg2_0) ↦{fullShare} f)
          ∗ (∃ f : Buf (Elt F) ((c : Thread nD τ).loc cc0_stg2_1), ((c : Thread nD τ).loc cc0_stg2_1) ↦{fullShare} f)
          ∗ owns (c : Thread nD τ) scM1_0 fullShare ((outsAt1 V c n hn).2.1)
          ∗ owns (c : Thread nD τ) scM1_1 fullShare ((outsAt1 V c n hn).2.2.1)
          ∗ owns (c : Thread nD τ) scM1_2 fullShare ((outsAt1 V c n hn).2.2.2)) ∗ (∃ r, prngReg c r)) := rfl

/-- Before a point that is not the first: the scratch buffers at what the point before left. -/
theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg2_0), ((c : Thread nD τ).loc cc0_stg2_0) ↦{fullShare} f)
          ∗ (∃ f : Buf (Elt F) ((c : Thread nD τ).loc cc0_stg2_1), ((c : Thread nD τ).loc cc0_stg2_1) ↦{fullShare} f)
          ∗ owns (c : Thread nD τ) scM1_0 fullShare ((outsAt1 V c (n - 1) (by omega)).2.1)
          ∗ owns (c : Thread nD τ) scM1_1 fullShare ((outsAt1 V c (n - 1) (by omega)).2.2.1)
          ∗ owns (c : Thread nD τ) scM1_2 fullShare ((outsAt1 V c (n - 1) (by omega)).2.2.2)) ∗ (∃ r, prngReg c r)) := by
  cases n with
  | zero => exact absurd rfl hz
  | succ n => rfl

/-! ## The pipeline's proof data -/

/-- The proof data of the attention pipeline on core `c`: the arrays as the region finds them; after the body at
    point `t` each input's buffer at its block and the output's at `outsAt1`'s first component; the invariant
    `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS_castSucc (c : Dev nD) (t : Fin cfg1.N) :
    (dat1 V c).Φ t.castSucc = PhiS V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`: the invariant, what the core owes, and each window's current staging
    buffer at what it then holds. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4000000 in
/-- The body at a row's first key block: the scratch buffers come at anything (before the first point) or at what the point before left, and go back with the reset-and-folded state. -/
theorem sound_body1_A (c : Dev nD) (t : Fin cfg1.N) (h0 : t.val % 8 = 0) (h1 : t.val % 8 ≤ t.val / 8 % 8) (h2 : ¬t.val % 8 = 7) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [Dat.leavesExact_idle (dat1 V c) 3 t (idleAt1_3 t (fun h => h2 ((hcond1_2 t).mp h))) (noFlush1_3 t (fun h => h2 ((hcond1_2 t).mp h)))]
  rw [outsAt1_A V c t h0 h1 h2]
  unfold sout1_A_0 sout1_A_1 sout1_A_2; (try dsimp only)
  by_cases hz : t.val = 0
  · rw [PhiS_castSucc V c t, PhiS_zero V c _ _ hz, PhiA1_eq]
    iintro ⟨⟨⟨Ha1, Ha2, Ha3, Ha4, Ha5, HS0, HS1, HS2⟩, Hg⟩, Ho, ⟨%d0, H0⟩, ⟨%d1, H1⟩, ⟨%d2, H2⟩, ⟨%d3, H3⟩⟩
    iapply ((kernelRun1_A c (grid1.coords t) _ _ _ _ _ _ _ _ _ _ _ _ _ _ ((hcond1_0 t).mpr h0) ((hcond1_1 t).mpr h1) (fun h => h2 ((hcond1_2 t).mp h)) (iblk1 V c 0 t) (iblk1 V c 1 t) (iblk1 V c 2 t)).2.2.2.2 _ Set.univ _)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    iintro ⟨H0, H1, H2, H3, ⟨%es0, HS0⟩, ⟨%es1, HS1⟩, ⟨%es2, HS2⟩⟩
    isplitl [Ha1 Ha2 Ha3 Ha4 Ha5 HS0 HS1 HS2 Hg]
    · isplitl [Ha1 Ha2 Ha3 Ha4 Ha5 HS0 HS1 HS2]
      · isplitl [Ha1]; · iexact Ha1
        isplitl [Ha2]; · iexact Ha2
        isplitl [Ha3]; · iexact Ha3
        isplitl [Ha4]; · iexact Ha4
        isplitl [Ha5]; · iexact Ha5
        isplitl [HS0]
        · unfold owns; iexists _; isplitr
          swap; · iexact HS0
          ipureintro; exact View.read_writes_of_cover _ _ _ _ _ (scover1_A_0 c _ _ _ _ _ _ _ _ _ _ _ _ _ _ _ _ _ _ _ _ _)
        isplitl [HS1]
        · unfold owns; iexists _; isplitr
          swap; · iexact HS1
          ipureintro; exact View.read_writes_of_cover _ _ _ _ _ (scover1_A_1 c _ _ _ _ _ _ _ _ _ _ _ _ _ _ _ _ _ _ _ _ _)
        unfold owns; iexists _; isplitr
        swap; · iexact HS2
        ipureintro; exact View.read_writes_of_cover _ _ _ _ _ (scover1_A_2 c _ _ _ _ _ _ _ _ _ _ _ _ _ _ _ _ _ _ _ _ _)
      iexact Hg
    isplitl [Ho]; · iexact Ho
    isplitl [H0]; · iexact H0
    isplitl [H1]; · iexact H1
    isplitl [H2]; · iexact H2
    iexists _; iexact H3
  · rw [PhiS_castSucc V c t, PhiS_pos V c _ _ hz]
    iintro ⟨⟨⟨Ha1, Ha2, Ha3, Ha4, Ha5, HS0, HS1, HS2⟩, Hg⟩, Ho, ⟨%d0, H0⟩, ⟨%d1, H1⟩, ⟨%d2, H2⟩, ⟨%d3, H3⟩⟩
    iapply ((kernelRun1_A c (grid1.coords t) _ _ _ _ _ _ _ _ _ _ _ _ _ _ ((hcond1_0 t).mpr h0) ((hcond1_1 t).mpr h1) (fun h => h2 ((hcond1_2 t).mp h)) (iblk1 V c 0 t) (iblk1 V c 1 t) (iblk1 V c 2 t)).2.2.2.2 _ Set.univ _)
    isplitl [H0]; · iexact H0
    isplitl [H1]; · iexact H1
    isplitl [H2]; · iexact H2
    isplitl [H3]; · iexact H3
    isplitl [HS0]; · iexists _; iexact HS0
    isplitl [HS1]; · iexists _; iexact HS1
    isplitl [HS2]; · iexists _; iexact HS2
    iintro ⟨H0, H1, H2, H3, ⟨%es0, HS0⟩, ⟨%es1, HS1⟩, ⟨%es2, HS2⟩⟩
    isplitl [Ha1 Ha2 Ha3 Ha4 Ha5 HS0 HS1 HS2 Hg]
    · isplitl [Ha1 Ha2 Ha3 Ha4 Ha5 HS0 HS1 HS2]
      · isplitl [Ha1]; · iexact Ha1
        isplitl [Ha2]; · iexact Ha2
        isplitl [Ha3]; · iexact Ha3
        isplitl [Ha4]; · iexact Ha4
        isplitl [Ha5]; · iexact Ha5
        isplitl [HS0]
        · unfold owns; iexists _; isplitr
          swap; · iexact HS0
          ipureintro; exact View.read_writes_of_cover _ _ _ _ _ (scover1_A_0 c _ _ _ _ _ _ _ _ _ _ _ _ _ _ _ _ _ _ _ _ _)
        isplitl [HS1]
        · unfold owns; iexists _; isplitr
          swap; · iexact HS1
          ipureintro; exact View.read_writes_of_cover _ _ _ _ _ (scover1_A_1 c _ _ _ _ _ _ _ _ _ _ _ _ _ _ _ _ _ _ _ _ _)
        unfold owns; iexists _; isplitr
        swap; · iexact HS2
        ipureintro; exact View.read_writes_of_cover _ _ _ _ _ (scover1_A_2 c _ _ _ _ _ _ _ _ _ _ _ _ _ _ _ _ _ _ _ _ _)
      iexact Hg
    isplitl [Ho]; · iexact Ho
    isplitl [H0]; · iexact H0
    isplitl [H1]; · iexact H1
    isplitl [H2]; · iexact H2
    iexists _; iexact H3

set_option maxHeartbeats 4000000 in
/-- The body at a later key block on or below the diagonal, not the row's last. -/
theorem sound_body1_B (c : Dev nD) (t : Fin cfg1.N) (h0 : ¬t.val % 8 = 0) (h1 : t.val % 8 ≤ t.val / 8 % 8) (h2 : ¬t.val % 8 = 7) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [Dat.leavesExact_idle (dat1 V c) 3 t (idleAt1_3 t (fun h => h2 ((hcond1_2 t).mp h))) (noFlush1_3 t (fun h => h2 ((hcond1_2 t).mp h)))]
  rw [outsAt1_B V c t h0 h1 h2]
  unfold sout1_B_0 sout1_B_1 sout1_B_2; (try dsimp only)
  have hz : t.val ≠ 0 := fun hz => h0 (by rw [hz])
  rw [PhiS_castSucc V c t, PhiS_pos V c _ _ hz]
  iintro ⟨⟨⟨Ha1, Ha2, Ha3, Ha4, Ha5, HS0, HS1, HS2⟩, Hg⟩, Ho, ⟨%d0, H0⟩, ⟨%d1, H1⟩, ⟨%d2, H2⟩, ⟨%d3, H3⟩⟩
  iapply ((kernelRun1_B c (grid1.coords t) _ _ _ _ _ _ _ _ _ _ _ _ _ _ (fun h => h0 ((hcond1_0 t).mp h)) ((hcond1_1 t).mpr h1) (fun h => h2 ((hcond1_2 t).mp h)) (iblk1 V c 0 t) (iblk1 V c 1 t) (iblk1 V c 2 t) _ _ _).2.2.2.2 _ Set.univ _)
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  iintro ⟨H0, H1, H2, H3, ⟨%es0, HS0⟩, ⟨%es1, HS1⟩, ⟨%es2, HS2⟩⟩
  isplitl [Ha1 Ha2 Ha3 Ha4 Ha5 HS0 HS1 HS2 Hg]
  · isplitl [Ha1 Ha2 Ha3 Ha4 Ha5 HS0 HS1 HS2]
    · isplitl [Ha1]; · iexact Ha1
      isplitl [Ha2]; · iexact Ha2
      isplitl [Ha3]; · iexact Ha3
      isplitl [Ha4]; · iexact Ha4
      isplitl [Ha5]; · iexact Ha5
      isplitl [HS0]
      · unfold owns; iexists _; isplitr
        swap; · iexact HS0
        ipureintro; exact View.read_writes_of_cover _ _ _ _ _ (scover1_B_0 c _ _ _ _ _ _ _ _ _ _ _ _ _ _ _ _ _ _ _ _ _ _ _ _)
      isplitl [HS1]
      · unfold owns; iexists _; isplitr
        swap; · iexact HS1
        ipureintro; exact View.read_writes_of_cover _ _ _ _ _ (scover1_B_1 c _ _ _ _ _ _ _ _ _ _ _ _ _ _ _ _ _ _ _ _ _ _ _ _)
      unfold owns; iexists _; isplitr
      swap; · iexact HS2
      ipureintro; exact View.read_writes_of_cover _ _ _ _ _ (scover1_B_2 c _ _ _ _ _ _ _ _ _ _ _ _ _ _ _ _ _ _ _ _ _ _ _ _)
    iexact Hg
  isplitl [Ho]; · iexact Ho
  isplitl [H0]; · iexact H0
  isplitl [H1]; · iexact H1
  isplitl [H2]; · iexact H2
  iexists _; iexact H3

set_option maxHeartbeats 4000000 in
/-- The body at a key block above the diagonal, not the row's last: every buffer goes back as it came. -/
theorem sound_body1_C (c : Dev nD) (t : Fin cfg1.N) (h0 : ¬t.val % 8 = 0) (h1 : ¬t.val % 8 ≤ t.val / 8 % 8) (h2 : ¬t.val % 8 = 7) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [Dat.leavesExact_idle (dat1 V c) 3 t (idleAt1_3 t (fun h => h2 ((hcond1_2 t).mp h))) (noFlush1_3 t (fun h => h2 ((hcond1_2 t).mp h)))]
  rw [outsAt1_C V c t h0 h1 h2]
  (try dsimp only)
  have hz : t.val ≠ 0 := fun hz => h0 (by rw [hz])
  rw [PhiS_castSucc V c t, PhiS_pos V c _ _ hz]
  iintro ⟨⟨⟨Ha1, Ha2, Ha3, Ha4, Ha5, HS0, HS1, HS2⟩, Hg⟩, Ho, ⟨%d0, H0⟩, ⟨%d1, H1⟩, ⟨%d2, H2⟩, ⟨%d3, H3⟩⟩
  iapply (kernelRun1_C c (grid1.coords t) _ _ _ _ _ _ _ _ _ _ _ _ _ _ (fun h => h0 ((hcond1_0 t).mp h)) (fun h => h1 ((hcond1_1 t).mp h)) (fun h => h2 ((hcond1_2 t).mp h)) Set.univ _)
  isplitl [Ha1 Ha2 Ha3 Ha4 Ha5 HS0 HS1 HS2 Hg]
  · isplitl [Ha1 Ha2 Ha3 Ha4 Ha5 HS0 HS1 HS2]
    · isplitl [Ha1]; · iexact Ha1
      isplitl [Ha2]; · iexact Ha2
      isplitl [Ha3]; · iexact Ha3
      isplitl [Ha4]; · iexact Ha4
      isplitl [Ha5]; · iexact Ha5
      isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  iexists _; iexact H3

set_option maxHeartbeats 4000000 in
/-- The body at a row's last key block on the diagonal. -/
theorem sound_body1_D (c : Dev nD) (t : Fin cfg1.N) (h0 : ¬t.val % 8 = 0) (h1 : t.val % 8 ≤ t.val / 8 % 8) (h2 : t.val % 8 = 7) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t ((hcond1_2 t).mpr h2)], after1_3]
  rw [outsAt1_D V c t h0 h1 h2]
  unfold out1_D_3 sout1_D_0 sout1_D_1 sout1_D_2; (try dsimp only)
  have hz : t.val ≠ 0 := fun hz => h0 (by rw [hz])
  rw [PhiS_castSucc V c t, PhiS_pos V c _ _ hz]
  iintro ⟨⟨⟨Ha1, Ha2, Ha3, Ha4, Ha5, HS0, HS1, HS2⟩, Hg⟩, Ho, ⟨%d0, H0⟩, ⟨%d1, H1⟩, ⟨%d2, H2⟩, ⟨%d3, H3⟩⟩
  iapply ((kernelRun1_D c (grid1.coords t) _ _ _ _ _ _ _ _ _ _ _ _ _ _ (fun h => h0 ((hcond1_0 t).mp h)) ((hcond1_1 t).mpr h1) ((hcond1_2 t).mpr h2) (iblk1 V c 0 t) (iblk1 V c 1 t) (iblk1 V c 2 t) _ _ _).2.2.2.2 Set.univ _)
  isplitl [H0]; · iexact H0
  isplitl [H1]; · iexact H1
  isplitl [H2]; · iexact H2
  isplitl [H3]; · iexists _; iexact H3
  isplitl [HS0]; · iexact HS0
  isplitl [HS1]; · iexact HS1
  isplitl [HS2]; · iexact HS2
  iintro ⟨H0, H1, H2, ⟨%e3, H3⟩, ⟨%es0, HS0⟩, ⟨%es1, HS1⟩, ⟨%es2, HS2⟩⟩
  isplitl [Ha1 Ha2 Ha3 Ha4 Ha5 HS0 HS1 HS2 Hg]
  · isplitl [Ha1 Ha2 Ha3 Ha4 Ha5 HS0 HS1 HS2]
    · isplitl [Ha1]; · iexact Ha1
      isplitl [Ha2]; · iexact Ha2
      isplitl [Ha3]; · iexact Ha3
      isplitl [Ha4]; · iexact Ha4
      isplitl [Ha5]; · iexact Ha5
      isplitl [HS0]
      · unfold owns; iexists _; isplitr
        swap; · iexact HS0
        ipureintro; exact View.read_writes_of_cover _ _ _ _ _ (scover1_D_0 c _ _ _ _ _ _ _ _ _ _ _ _ _ _ _ _ _ _ _ _ _ _ _ _)
      isplitl [HS1]
      · unfold owns; iexists _; isplitr
        swap; · iexact HS1
        ipureintro; exact View.read_writes_of_cover _ _ _ _ _ (scover1_D_1 c _ _ _ _ _ _ _ _ _ _ _ _ _ _ _ _ _ _ _ _ _ _ _ _)
      unfold owns; iexists _; isplitr
      swap; · iexact HS2
      ipureintro; exact View.read_writes_of_cover _ _ _ _ _ (scover1_D_2 c _ _ _ _ _ _ _ _ _ _ _ _ _ _ _ _ _ _ _ _ _ _ _ _)
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover1_D_3 c _ _ _ _ _ _ _ _ _ _ _ _ _ _ _ _ _ _ _ _ _ _ _ _)

set_option maxHeartbeats 4000000 in
/-- The body at a row's last key block above the diagonal. -/
theorem sound_body1_E (c : Dev nD) (t : Fin cfg1.N) (h0 : ¬t.val % 8 = 0) (h1 : ¬t.val % 8 ≤ t.val / 8 % 8) (h2 : t.val % 8 = 7) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t ((hcond1_2 t).mpr h2)], after1_3]
  rw [outsAt1_E V c t h0 h1 h2]
  unfold out1_E_3; (try dsimp only)
  have hz : t.val ≠ 0 := fun hz => h0 (by rw [hz])
  rw [PhiS_castSucc V c t, PhiS_pos V c _ _ hz]
  iintro ⟨⟨⟨Ha1, Ha2, Ha3, Ha4, Ha5, HS0, HS1, HS2⟩, Hg⟩, Ho, ⟨%d0, H0⟩, ⟨%d1, H1⟩, ⟨%d2, H2⟩, ⟨%d3, H3⟩⟩
  iapply ((kernelRun1_E c (grid1.coords t) _ _ _ _ _ _ _ _ _ _ _ _ _ _ (fun h => h0 ((hcond1_0 t).mp h)) (fun h => h1 ((hcond1_1 t).mp h)) ((hcond1_2 t).mpr h2) _ _).2 Set.univ _)
  isplitl [H3]; · iexists _; iexact H3
  isplitl [HS1]; · iexact HS1
  isplitl [HS2]; · iexact HS2
  iintro ⟨⟨%e3, H3⟩, HS1, HS2⟩
  isplitl [Ha1 Ha2 Ha3 Ha4 Ha5 HS0 HS1 HS2 Hg]
  · isplitl [Ha1 Ha2 Ha3 Ha4 Ha5 HS0 HS1 HS2]
    · isplitl [Ha1]; · iexact Ha1
      isplitl [Ha2]; · iexact Ha2
      isplitl [Ha3]; · iexact Ha3
      isplitl [Ha4]; · iexact Ha4
      isplitl [Ha5]; · iexact Ha5
      isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover1_E_3 c _ _ _ _ _ _ _ _ _ _ _ _ _ _ _ _ _ _ _ _)

/-- The body at any point: the closed forms of the three guards say which of the five cases the point is in. -/
theorem sound_body1 (c : Dev nD) (t : Fin cfg1.N) :
    bodyPre1 V c t ⊢ wp frame (wpE (defs₀ (F := F)) Variants.none c none) Set.univ (bodyAt1 t) (fun _ => bodyPost1 V c t) := by
  by_cases h0 : t.val % 8 = 0
  · by_cases h1 : t.val % 8 ≤ t.val / 8 % 8
    · by_cases h2 : t.val % 8 = 7
      · exfalso; omega
      · exact sound_body1_A V c t h0 h1 h2
    · exfalso; omega
  · by_cases h1 : t.val % 8 ≤ t.val / 8 % 8
    · by_cases h2 : t.val % 8 = 7
      · exact sound_body1_D V c t h0 h1 h2
      · exact sound_body1_B V c t h0 h1 h2
    · by_cases h2 : t.val % 8 = 7
      · exact sound_body1_E V c t h0 h1 h2
      · exact sound_body1_C V c t h0 h1 h2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point the invariant gives the class's back: the scratch buffers' named contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨Ha1, Ha2, Ha3, Ha4, Ha5, HS0, HS1, HS2⟩, Hg⟩
  isplitl [Ha1 Ha2 Ha3 Ha4 Ha5 HS0 HS1 HS2]
  · isplitl [Ha1]; · iexact Ha1
    isplitl [Ha2]; · iexact Ha2
    isplitl [Ha3]; · iexact Ha3
    isplitl [Ha4]; · iexact Ha4
    isplitl [Ha5]; · iexact Ha5
    isplitl [HS0]; · iexists _; iexact HS0
    isplitl [HS1]; · iexists _; iexact HS1
    iexists _; iexact HS2
  iexact Hg

/-- The same after the last point. -/
theorem hout1 (c : Dev nD) : (dat1 V c).Φ (Fin.last cfg1.N) ⊢ Pipeline.ΦA spec1 c :=
  Phi_out1 V c _ (by rw [Fin.val_last]; have : cfg1.N = 256 := N_1; omega)

/-! ## The four equations of `outsAt1` -/

/-- At a row's first key block the state is the first key block folded into the reset state. -/
theorem state_first (c : Dev nD) (t : Fin cfg1.N) (h0 : t.val % 8 = 0) :
    (outsAt1 V c t.val t.isLt).2 = step (BitVec.ofNat 32 (grid1.coords t 1).val) (BitVec.ofNat 32 (grid1.coords t 2).val) (iblk1 V c 0 t) (iblk1 V c 1 t) (iblk1 V c 2 t) init := by
  have h1 : t.val % 8 ≤ t.val / 8 % 8 := by omega
  have h2 : ¬t.val % 8 = 7 := by omega
  rw [outsAt1_A V c t h0 h1 h2]
  exact sout1_A_eq c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr h1) (fun h => h2 ((hcond1_2 t).mp h)) (iblk1 V c 0 t) (iblk1 V c 1 t) (iblk1 V c 2 t)

/-- At a later key block on or below the diagonal the state is the key block folded into the state before. -/
theorem state_step (c : Dev nD) (t : Fin cfg1.N) (h0 : t.val % 8 ≠ 0) (h1 : t.val % 8 ≤ t.val / 8 % 8) :
    (outsAt1 V c t.val t.isLt).2 = step (BitVec.ofNat 32 (grid1.coords t 1).val) (BitVec.ofNat 32 (grid1.coords t 2).val) (iblk1 V c 0 t) (iblk1 V c 1 t) (iblk1 V c 2 t) (outsAt1 V c (t.val - 1) (Nat.lt_of_le_of_lt (Nat.sub_le _ _) t.isLt)).2 := by
  by_cases h2 : t.val % 8 = 7
  · rw [outsAt1_D V c t h0 h1 h2]
    exact sout1_D_eq c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2
  · rw [outsAt1_B V c t h0 h1 h2]
    exact sout1_B_eq c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (fun h => h2 ((hcond1_2 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2

/-- At a key block above the diagonal the state is the state before. -/
theorem state_skip (c : Dev nD) (t : Fin cfg1.N) (h1 : ¬t.val % 8 ≤ t.val / 8 % 8) :
    (outsAt1 V c t.val t.isLt).2 = (outsAt1 V c (t.val - 1) (Nat.lt_of_le_of_lt (Nat.sub_le _ _) t.isLt)).2 := by
  have h0 : ¬t.val % 8 = 0 := by omega
  by_cases h2 : t.val % 8 = 7
  · rw [outsAt1_E V c t h0 h1 h2]
  · rw [outsAt1_C V c t h0 h1 h2]

/-- At a row's last key block the output block is the state's weighted sum divided by its total weight. -/
theorem out_last (c : Dev nD) (t : Fin cfg1.N) (h2 : t.val % 8 = 7) :
    (outsAt1 V c t.val t.isLt).1 = fin (outsAt1 V c t.val t.isLt).2 := by
  have h0 : ¬t.val % 8 = 0 := by omega
  by_cases h1 : t.val % 8 ≤ t.val / 8 % 8
  · rw [outsAt1_D V c t h0 h1 h2]
    dsimp only
    exact out1_D_3_fin c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2
  · rw [outsAt1_E V c t h0 h1 h2]
    dsimp only
    exact out1_E_3_eq c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) ((hcond1_2 t).mpr h2) (outsAt1 V c (t.val - 1) (Nat.lt_of_le_of_lt (Nat.sub_le _ _) t.isLt)).2.2.1 (outsAt1 V c (t.val - 1) (Nat.lt_of_le_of_lt (Nat.sub_le _ _) t.isLt)).2.2.2

end Region

end Cert.Kernel.R1

end
-- ==== Proof.K.Run.lean ====
/-
  @main as four segments — a stretch of host operations, the projection region, a second stretch, the attention region —
  run from the launch to the return: every weakly fair execution terminates, nothing faults, and the final memory
  holds, at every buffer that outlives the regions, the last boundary's contents W4. The arguments walk back through
  the fold to the launch memory (no host operation and no region writes one); the result array is what the attention
  region's write-backs leave.
-/
import proofs.«181245_j47132971106646_2_alg».proof.Proof.K.Bounds
import proofs.«181245_j47132971106646_2_alg».proof.Proof.K.R1Frame

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.R0 Cert.Kernel.R1

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At the attention region's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- No host operation of the first stretch writes `b`. -/
theorem W1_keep (c : Dev nD) (b : Ref sig .tc) (hb : b ∉ ([main_v0, main_v1, main_v2, main_v3, main_v4, main_v5] : List (Ref sig .tc))) :
    W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.nullary_writes, StableHlo.unary_writes, StableHlo.binary_writes, StableHlo.reshape_writes, StableHlo.nary_writes, Finset.mem_singleton]
    simp only [List.mem_cons, List.not_mem_nil, or_false, not_or] at hb
    obtain ⟨h0, h1, h2, h3, h4, h5⟩ := hb
    exact ⟨StableHlo.devRef_ne_of_ne h0, StableHlo.devRef_ne_of_ne h1, StableHlo.devRef_ne_of_ne h2, StableHlo.devRef_ne_of_ne h3, StableHlo.devRef_ne_of_ne h4, StableHlo.devRef_ne_of_ne h5⟩))
/-- No host operation of the second stretch writes `b`. -/
theorem W3_keep (c : Dev nD) (b : Ref sig .tc) (hb : b ∉ ([main_v7, main_v8, main_v9, main_v10, main_v11, main_v12] : List (Ref sig .tc))) :
    W3 m ρ c (Proc.devRef .tc b) = W2 m ρ c (Proc.devRef .tc b) :=
  StableHlo.after_of_forall_not_mem (b := Proc.devRef .tc b) _ _ (List.forall_iff_forall_mem.mp (by
    simp only [hostOps1, List.Forall, StableHlo.nullary_writes, StableHlo.unary_writes, StableHlo.binary_writes, StableHlo.reshape_writes, StableHlo.nary_writes, Finset.mem_singleton]
    simp only [List.mem_cons, List.not_mem_nil, or_false, not_or] at hb
    obtain ⟨h0, h1, h2, h3, h4, h5⟩ := hb
    exact ⟨StableHlo.devRef_ne_of_ne h0, StableHlo.devRef_ne_of_ne h1, StableHlo.devRef_ne_of_ne h2, StableHlo.devRef_ne_of_ne h3, StableHlo.devRef_ne_of_ne h4, StableHlo.devRef_ne_of_ne h5⟩))

/-- An argument array reaches the end as launched. -/
theorem W4_arg (c : Dev nD) (b : Ref sig .tc) (h4 : ∀ w, Pipeline.arrRef spec1 w ≠ b)
    (h3 : b ∉ ([main_v7, main_v8, main_v9, main_v10, main_v11, main_v12] : List (Ref sig .tc)))
    (h2 : ∀ w, Pipeline.arrRef spec0 w ≠ b)
    (h1 : b ∉ ([main_v0, main_v1, main_v2, main_v3, main_v4, main_v5] : List (Ref sig .tc))) :
    W4 m ρ c (Proc.devRef .tc b) = m ((c : Thread nD τ).loc b) :=
  (W4_of_ne m ρ c b h4).trans ((W3_keep m ρ c b h3).trans ((W2_of_ne m ρ c b h2).trans ((W1_keep m ρ c b h1).trans rfl)))

theorem W4_main_arg0 (c : Dev nD) : W4 m ρ c (Proc.devRef .tc main_arg0) = m ((c : Thread nD τ).loc main_arg0) :=
  W4_arg m ρ c main_arg0 (by decide) (by decide) (by decide) (by decide)
theorem W4_main_arg1 (c : Dev nD) : W4 m ρ c (Proc.devRef .tc main_arg1) = m ((c : Thread nD τ).loc main_arg1) :=
  W4_arg m ρ c main_arg1 (by decide) (by decide) (by decide) (by decide)
theorem W4_main_arg2 (c : Dev nD) : W4 m ρ c (Proc.devRef .tc main_arg2) = m ((c : Thread nD τ).loc main_arg2) :=
  W4_arg m ρ c main_arg2 (by decide) (by decide) (by decide) (by decide)
theorem W4_main_arg3 (c : Dev nD) : W4 m ρ c (Proc.devRef .tc main_arg3) = m ((c : Thread nD τ).loc main_arg3) :=
  W4_arg m ρ c main_arg3 (by decide) (by decide) (by decide) (by decide)

/-! ## The proof data family and the thread state -/

abbrev adm : (p : Fin 2) → (pcfgs (F := F) p).Adm := fun p => (cfgs p).toPCfg_adm
/-- Each region's proof data at its entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem hostOps1_fresh' : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The projection region over the thread state: entered from every unscoped buffer at W1, left at W2. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region over the thread state: entered from every unscoped buffer at W3, left at W4. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    -- what the launch hands the region (the scoped buffers no window stages, the generator register) is the
    -- invariant before the first point: the scratch at anything
    have h := hin1 (V3 m ρ) c
    unfold Pipeline.ΦA at h
    rw [show (pdats m ρ 1 c).Φ 0 = (dat1 (V3 m ρ) c).Φ 0 from rfl]
    iintro ⟨Hp, -, Hr⟩
    iapply h
    isplitl [Hr]; · iexact Hr
    iexact Hp
  hout c := by
    -- after the last point the invariant gives the scratch back at some contents, and the generator register
    have h := hout1 (V3 m ρ) c
    unfold Pipeline.ΦA at h
    rw [Pipeline.ownSems0_none, show (pdats m ρ 1 c).Φ (Fin.last _) = (dat1 (V3 m ρ) c).Φ (Fin.last cfg1.N) from rfl]
    iintro H0
    ihave H := h $$ H0
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .host (hseg hostOps0 hostOps0_sub hostOps0_fresh' (W0 m ρ)),
    .region (reg0 m ρ),
    .host (hseg hostOps1 hostOps1_sub hostOps1_fresh' (W2 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    the final memory holds the result array at what the attention region's write-backs leave and each argument array
    as launched. -/
theorem run_all : θ_run defs (onTc (τ := τ) (main (F := F))) ⟨m, fun _ => 0, ρ⟩ (fun r => ∀ c : Dev nD,
      r.2.mem ((c.tc : Thread nD τ).loc main_v13) = (dat1 (V3 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v13 (by decide))).trans (W4_arr m ρ c 3),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

end Cert.Kernel.Run

end
-- ==== Proof.KI.R0Frame.lean ====
/-
  Region 0 (the fused projection): one grid axis of 32 points; at point t the body loads a block of 512 rows of the
  flattened activations and the whole [1024, 3072] weight matrix, and stores their matrix product, rounded to bf16,
  as the block of 512 rows of the result. Stated at the buffers' contents `V` when the region is entered, at any float
  instance: what each window's staging buffer holds after the body, the body's triple, and the region's proof data.
-/
import proofs.«181245_j47132971106646_2_alg».proof.Proof.Gen.KernelIdeal.Launch
import proofs.«181245_j47132971106646_2_alg».proof.Proof.Gen.KernelIdeal.Skeleton
import proofs.«181245_j47132971106646_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activations' staging buffer holds the point's block, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weights' staging buffer holds the whole matrix at every point: it is fetched once and its block never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The body's one store covers the output's whole staging buffer. -/
abbrev rOut : Rect S512x3072 := Rect.unit (s := S512x3072) ![0, 0] S512x3072.size inb_S512x3072_S512x3072_0_0
abbrev rX : Rect S512x1024 := Rect.unit (s := S512x1024) ![0, 0] S512x1024.size inb_S512x1024_S512x1024_0_0
abbrev rW : Rect S1024x3072 := Rect.unit (s := S1024x3072) ![0, 0] S1024x3072.size inb_S1024x3072_S1024x3072_0_0

/-- What the body leaves in the output's staging buffer, from the two input blocks. -/
def out0_2 (x0 : Vec F S512x1024 .f32) (x1 : Vec F S1024x3072 .bf16) : Vec F S512x3072 .bf16 :=
  View.canon [⟨rOut, k0_pay1 (View.ld x0 rX) (View.ld x1 rW)⟩]

theorem cover0_2 (p0 : Vec F S512x3072 .bf16) (y : S512x3072.Idx) :
    ∃ pc ∈ ([⟨rOut, p0⟩] : List (View.Piece (Elt F) S512x3072 .bf16)), y ∈ pc.1.set :=
  View.cover_of_tiled [⟨rOut, p0⟩] S512x3072.size (by rfl) y

set_option maxHeartbeats 1000000 in
/-- The body on whole staging buffers, the inputs' at contents `x0`, `x1` and the output's at anything, runs to the
    continuation with the inputs' as they were and the output's at `out0_2 x0 x1`. -/
theorem sound_kernel0 (c : Dev nD) (E : Set ℕ) (i : grid0.Coords) (arg1 : Memref sig .tc .vmem S512x1024 .f32) (harg1 : arg1.IsWhole)
    (arg2 : Memref sig .tc .vmem S1024x3072 .bf16) (harg2 : arg2.IsWhole) (arg3 : Memref sig .tc .vmem S512x3072 .bf16) (harg3 : arg3.IsWhole)
    (x0 : Vec F S512x1024 .f32) (x1 : Vec F S1024x3072 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__qkv_kernel i arg1 harg1 arg2 harg2 arg3 harg3) K := by
  simp only [cc0__qkv_kernel_eq_skeleton]; unfold cc0__qkv_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The region's proof data on core `c`: the arrays as the region finds them; after the body each input's buffer at its
    block and the output's at `out0_2` of the input blocks; the class's invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.R0

end
-- ==== Proof.KI.Bounds.lean ====
/-
  The buffers' contents at the boundaries between @main's segments, as a fold from the launch memory: at launch (W0);
  after the first stretch of host operations — the reshape of the activations, the three transposes, their
  concatenation and its rounding — (W1, where the projection region is entered); after the projection region, whose
  output array holds what its write-backs leave and every other buffer is as entered (W2); after the second stretch —
  the three column slices of the projection and their reshapes — (W3, where the attention region is entered).
-/
import proofs.«181245_j47132971106646_2_alg».proof.Proof.KI.R0Frame

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.R0

variable {F : FTy → Type} [FloatOps F] [Named F]

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the first host stretch: where the projection region is entered. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the projection region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch: where the attention region is entered. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

end Cert.KernelIdeal.Run

end
-- ==== Proof.KI.Steps.lean ====
/-
  The attention kernel's work at one grid point as pure functions of what it loads: the state it carries between
  points is (running row maximum m, running total l, running weighted sum acc); a point on or below the block
  diagonal maps the state through `step`; the first key block of a row starts from `init`; the last key block of a
  row divides acc by l (`fin`). Stated at any float instance, over the body's payload terms.
-/
import proofs.«181245_j47132971106646_2_alg».proof.Proof.Gen.KernelIdeal.Skeleton

noncomputable section

namespace Cert.KernelIdeal.Attn

open Idealize.ShloMosaic Cert.KernelIdeal Cert.KernelIdeal.Gen

variable {F : FTy → Type} [FloatOps F] [Named F]

/-- The carried state: (row maximum, total weight, weighted sum). -/
abbrev St (F : FTy → Type) [FloatOps F] : Type := Vec F S512x1 .f32 × Vec F S512x1 .f32 × Vec F S512x1024 .f32

/-- The state the first key block of a row starts from: maximum −∞, total 0, sum 0. -/
def init : St F := (k1_pay1, k1_pay2, k1_pay3)

/-- One key block folded into the state: `a1`, `a2` are the query and key block numbers, `Q`, `K`, `Vv` the three
    input blocks. -/
def step (a1 a2 : BitVec 32) (Q K Vv : Vec F S1x512x1024 .bf16) (s : St F) : St F :=
  (k1_pay6 (k1_pay10 a1 a2 Q K s.1),
   k1_pay4 (k1_pay13 a1 a2 Q K s.1 s.1 s.2.1),
   k1_pay5 (k1_pay8 Vv) (k1_pay11 a1 a2 Q K s.1 s.1) (k1_pay12 a1 a2 Q K s.1) s.2.2)

/-- The output block written at a row's last key block: the weighted sum divided by the total weight. -/
def fin (s : St F) : Vec F S1x512x1024 .f32 := k1_pay7 s.2.2 s.2.1

end Cert.KernelIdeal.Attn

end
-- ==== Proof.KI.R1Runs.lean ====
/-
  The attention region (the second kernel call: grid 4 × 8 × 8, key block fastest), what its runs share.

  A grid point t has coordinates (b, qi, ki) = (t / 64, t / 8 % 8, t % 8). The body has three guarded parts:
  at ki = 0 it resets the carried state (row maximum, total weight, weighted sum); at ki ≤ qi it folds key block
  ki into the state; at ki = 7 it divides the weighted sum by the total and stores the output block. Here: the
  blocks the windows hold at a point, the three guards in closed form, where the output window is idle and where
  it is written back, the names of the staging and scratch memrefs, and the region's invariant with the three
  scratch buffers made explicit.
-/
import proofs.«181245_j47132971106646_2_alg».proof.Proof.Gen.KernelIdeal.Launch
import proofs.«181245_j47132971106646_2_alg».proof.Proof.Gen.KernelIdeal.Skeleton
import proofs.«181245_j47132971106646_2_alg».proof.Proof.Gen.KernelIdeal.Points
import proofs.«181245_j47132971106646_2_alg».proof.Proof.KI.Steps
import Idealize.ShloMosaic.Lib.Pipeline.FrameBody
import Idealize.ShloMosaic.Lib.Ring
import Idealize.ShloMosaic.Lib.Tactic

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Attn

variable {F : FTy → Type} [FloatOps F] [Named F]

local notation "𝕄" => MT nD τ sig Unit (Elt F) ℕ (UR sig nD τ) ℕ

section Region
-- the TensorCore's buffer contents as the region is entered
variable (V : (c : Dev nD) → (b : Ref sig .tc) → Buf (Elt F) ((c : Thread nD τ).loc b))

/-! ## The windows' blocks -/

/-- Window `w`'s block at point `t`, read off its array as the region finds it. Windows 0, 1, 2 are the query,
    key and value blocks (the key and value block number is min ki qi), window 3 the output block. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (when it is not
    fetched the block number has not moved), for any proof data whose array is `V`'s and whose body leaves the
    block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Region

/-! ## The body's three guards -/

/-- The first guard, as the body computes it from the grid coordinates: the key block is the row's first. -/
abbrev cond1_0 (i : grid1.Coords) : Prop := (Scalar.cmpi .ne (Scalar.extui (Scalar.cmpi .eq (BitVec.ofNat 32 (i 2).val) 0#32)) 0#32) = 1#1
/-- It holds exactly where ki = 0. -/
theorem hcond1_0 : ∀ t : Fin cfg1.N, cond1_0 (grid1.coords t) ↔ t.val % 8 = 0 :=
  (by decide +kernel : ∀ t : Fin grid1.N, cond1_0 (grid1.coords t) ↔ t.val % 8 = 0)

/-- The second guard: the key block is on or below the diagonal. -/
abbrev cond1_1 (i : grid1.Coords) : Prop := (Scalar.cmpi .ne (Scalar.extui (Scalar.cmpi .sle (BitVec.ofNat 32 (i 2).val) (BitVec.ofNat 32 (i 1).val))) 0#32) = 1#1
/-- It holds exactly where ki ≤ qi. -/
theorem hcond1_1 : ∀ t : Fin cfg1.N, cond1_1 (grid1.coords t) ↔ t.val % 8 ≤ t.val / 8 % 8 :=
  (by decide +kernel : ∀ t : Fin grid1.N, cond1_1 (grid1.coords t) ↔ t.val % 8 ≤ t.val / 8 % 8)

/-- The third guard: the key block is the row's last. -/
abbrev cond1_2 (i : grid1.Coords) : Prop := k1_cond3 i = 1#1
/-- It holds exactly where ki = 7. -/
theorem hcond1_2 : ∀ t : Fin cfg1.N, cond1_2 (grid1.coords t) ↔ t.val % 8 = 7 :=
  (by decide +kernel : ∀ t : Fin grid1.N, cond1_2 (grid1.coords t) ↔ t.val % 8 = 7)

/-! ## Where the windows are idle -/

/-- The three input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from a row's last key block the output window is idle: the body stores nothing into it, -/
theorem idleAt1_3 : ∀ t : Fin cfg1.N, ¬cond1_2 (grid1.coords t) → cfg1.idle 3 (grid1.coords t) = true := by decide +kernel
/-- and the pipeline does not write its block back. -/
theorem noFlush1_3 : ∀ t : Fin cfg1.N, ¬cond1_2 (grid1.coords t) → (cfg1.win 3).flush t = false := by decide +kernel
/-- At a row's last key block the output window is live: the body stores its block. -/
theorem liveAt1_3 : ∀ t : Fin cfg1.N, cond1_2 (grid1.coords t) → cfg1.idle 3 (grid1.coords t) = false := by decide +kernel

/-! ## The memrefs the body is called with -/

/-- One staging buffer of the output window, through which its contents are stated (the choice does not matter). -/
abbrev VO1_3 : View sig .tc .vmem S1x512x1024 .f32 := (Memref.whole cc1_stg3_0 : Memref sig .tc .vmem S1x512x1024 .f32).view
/-- Each window's current staging memref at point `t`, spelled as the pipeline passes it, and its wholeness. -/
abbrev ms1_0 (t : Fin cfg1.N) : Memref sig .tc .vmem S1x512x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512x1024 .f32 := win1_3.stage (cfg1.slots t 3)
abbrev hs1_3 (t : Fin cfg1.N) : (ms1_3 t).IsWhole := hstage1_3 ((cfg1.slots t 3).cast nbuf1_3)
/-- The three scratch operands (row maximum, total weight, weighted sum): whole buffers of the kernel's own. -/
abbrev scM1_0 : Memref sig .tc .vmem S512x1 .f32 := Memref.whole cc1_scratch0
abbrev scM1_1 : Memref sig .tc .vmem S512x1 .f32 := Memref.whole cc1_scratch1
abbrev scM1_2 : Memref sig .tc .vmem S512x1024 .f32 := Memref.whole cc1_scratch2
/-- The scratch buffers as views: what they hold is stated through them. -/
abbrev VS1_0 : View sig .tc .vmem S512x1 .f32 := scM1_0.view
abbrev VS1_1 : View sig .tc .vmem S512x1 .f32 := scM1_1.view
abbrev VS1_2 : View sig .tc .vmem S512x1024 .f32 := scM1_2.view

/-! ## The region's invariant -/

/-- The other kernel call's five staging buffers, each at some contents: the part of the region's scoped rest
    this region never touches. -/
abbrev otherStg (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f))

/-- The class's invariant with the three scratch operands as memrefs owned at some contents: what the body
    obligation hands the run and takes back. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg2_0), ((c : Thread nD τ).loc cc0_stg2_0) ↦{fullShare} f)
          ∗ (∃ f : Buf (Elt F) ((c : Thread nD τ).loc cc0_stg2_1), ((c : Thread nD τ).loc cc0_stg2_1) ↦{fullShare} f)
          ∗ (∃ d, owns (c : Thread nD τ) scM1_0 fullShare d)
          ∗ (∃ d, owns (c : Thread nD τ) scM1_1 fullShare d)
          ∗ (∃ d, owns (c : Thread nD τ) scM1_2 fullShare d)) ∗ (∃ r, prngReg c r)) := by
  unfold Pipeline.ΦA; rw [scopedRest1_eq]; simp only [scM1_0, scM1_1, scM1_2, owns_whole]; try rfl

end Cert.KernelIdeal.R1

end
-- ==== Proof.KI.R1RunA.lean ====
/-
  The attention body at a row's first key block (ki = 0, hence ki ≤ qi, and ki ≠ 7): it resets the carried
  state and folds the first key block into it. The three scratch buffers are stored before they are loaded, so
  they may be entered at any contents; the output buffer is not touched.
-/
import proofs.«181245_j47132971106646_2_alg».proof.Proof.KI.R1Runs

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Attn

variable {F : FTy → Type} [FloatOps F] [Named F]

local notation "𝕄" => MT nD τ sig Unit (Elt F) ℕ (UR sig nD τ) ℕ

set_option maxHeartbeats 4000000 in
/-- What the body's stores leave in the three scratch buffers at a row's first key block, as pieces (last first),
    with the proof that on whole memrefs — the three input blocks at their contents, the output buffer at contents
    handed back untouched, the scratch buffers at anything — the body runs to the continuation holding the inputs
    and the output buffer as they were and each scratch buffer with its pieces written. -/
noncomputable def kernelRun1_A (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : cond1_0 i) (hc1 : cond1_1 i) (hc2 : ¬cond1_2 i)
    (x0 : Vec F S1x512x1024 .bf16) (x1 : Vec F S1x512x1024 .bf16) (x2 : Vec F S1x512x1024 .bf16) :
    Σ' (L3 : List (View.Piece (Elt F) S1x512x1024 .f32)) (LS0 : List (View.Piece (Elt F) S512x1 .f32)) (LS1 : List (View.Piece (Elt F) S512x1 .f32)), { LS2 : List (View.Piece (Elt F) S512x1024 .f32) //
      ∀ (xi3 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨[], ?_, ?_, ?_, fun xi3 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.KernelIdeal.R1

end
-- ==== Proof.KI.R1RunB.lean ====
/-
  The attention body at a key block on or below the diagonal that is neither the row's first nor its last
  (0 < ki ≤ qi, ki ≠ 7): it folds the key block into the carried state, which it finds in the three scratch
  buffers as the point before left it. The output buffer is not touched.
-/
import proofs.«181245_j47132971106646_2_alg».proof.Proof.KI.R1RunA

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Attn

variable {F : FTy → Type} [FloatOps F] [Named F]

local notation "𝕄" => MT nD τ sig Unit (Elt F) ℕ (UR sig nD τ) ℕ

set_option maxHeartbeats 4000000 in
/-- What the body's stores leave in the three scratch buffers at such a point, as pieces (last first), with the
    proof that on whole memrefs — the three input blocks at their contents, the output buffer at contents handed
    back untouched, the scratch buffers at the carried state — the body runs to the continuation holding the
    inputs and the output buffer as they were and each scratch buffer with its pieces written. -/
noncomputable def kernelRun1_B (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i) (hc2 : ¬cond1_2 i)
    (x0 : Vec F S1x512x1024 .bf16) (x1 : Vec F S1x512x1024 .bf16) (x2 : Vec F S1x512x1024 .bf16) (xs0 : Vec F S512x1 .f32) (xs1 : Vec F S512x1 .f32) (xs2 : Vec F S512x1024 .f32) :
    Σ' (L3 : List (View.Piece (Elt F) S1x512x1024 .f32)) (LS0 : List (View.Piece (Elt F) S512x1 .f32)) (LS1 : List (View.Piece (Elt F) S512x1 .f32)), { LS2 : List (View.Piece (Elt F) S512x1024 .f32) //
      ∀ (xi3 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨[], ?_, ?_, ?_, fun xi3 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3
    obtain rfl := harg7.eq_unread hfs0; obtain rfl := harg8.eq_unread hfs1; obtain rfl := harg9.eq_unread hfs2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.KernelIdeal.R1

end
-- ==== Proof.KI.R1RunC.lean ====
/-
  The attention body at a key block above the diagonal that is not the row's last (ki > qi, ki ≠ 7; ki ≠ 0 since
  0 ≤ qi): none of its three guards holds, and it does nothing.
-/
import proofs.«181245_j47132971106646_2_alg».proof.Proof.KI.R1RunB

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Attn

variable {F : FTy → Type} [FloatOps F] [Named F]

local notation "𝕄" => MT nD τ sig Unit (Elt F) ℕ (UR sig nD τ) ℕ

set_option maxHeartbeats 1000000 in
/-- At such a point the body touches no buffer: it runs to its continuation from the continuation's own
    precondition. -/
theorem kernelRun1_C (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : ¬cond1_1 i) (hc2 : ¬cond1_2 i)
    (E : Set ℕ) (K : PUnit → sProp 𝕄) :
    K ⟨⟩ ⊢ wp frame (wpE (defs₀ (F := F)) Variants.none c none) E (cc1__attn_kernel i arg3 harg3 arg4 harg4 arg5 harg5 arg6 harg6 arg7 harg7 arg8 harg8 arg9 harg9) K := by
  simp only [cc1__attn_kernel_eq_skeleton]; unfold cc1__attn_kernel_skel
  iintro Hk
  sl_exec (disch := first | exact hc0 | exact hc1 | exact hc2)
  sl_step
  iexact Hk

end Cert.KernelIdeal.R1

end
-- ==== Proof.KI.R1RunD.lean ====
/-
  The attention body at a row's last key block when it is on the diagonal (ki = qi = 7): it folds the key block
  into the carried state and then stores the output block, the weighted sum divided by the total weight, both
  read back from the scratch buffers it has just stored.
-/
import proofs.«181245_j47132971106646_2_alg».proof.Proof.KI.R1RunC

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Attn

variable {F : FTy → Type} [FloatOps F] [Named F]

local notation "𝕄" => MT nD τ sig Unit (Elt F) ℕ (UR sig nD τ) ℕ

set_option maxHeartbeats 4000000 in
/-- What the body's stores leave in the output buffer and the three scratch buffers at such a point, as pieces
    (last first), with the proof that on whole memrefs — the three input blocks at their contents, the output
    buffer at anything, the scratch buffers at the carried state — the body runs to the continuation holding the
    inputs as they were and the output buffer and each scratch buffer with its pieces written. -/
noncomputable def kernelRun1_D (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i) (hc2 : cond1_2 i)
    (x0 : Vec F S1x512x1024 .bf16) (x1 : Vec F S1x512x1024 .bf16) (x2 : Vec F S1x512x1024 .bf16) (xs0 : Vec F S512x1 .f32) (xs1 : Vec F S512x1 .f32) (xs2 : Vec F S512x1024 .f32) :
    Σ' (L3 : List (View.Piece (Elt F) S1x512x1024 .f32)) (LS0 : List (View.Piece (Elt F) S512x1 .f32)) (LS1 : List (View.Piece (Elt F) S512x1 .f32)), { LS2 : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, ?_, fun E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg7.eq_unread hfs0; obtain rfl := harg8.eq_unread hfs1; obtain rfl := harg9.eq_unread hfs2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexists _; iexact HS2

end Cert.KernelIdeal.R1

end
-- ==== Proof.KI.R1RunE.lean ====
/-
  The attention body at a row's last key block when it is above the diagonal (ki = 7 > qi): the state is not
  touched, and the output block is stored: the weighted sum divided by the total weight, as the scratch buffers
  hold them.
-/
import proofs.«181245_j47132971106646_2_alg».proof.Proof.KI.R1RunD

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Attn

variable {F : FTy → Type} [FloatOps F] [Named F]

local notation "𝕄" => MT nD τ sig Unit (Elt F) ℕ (UR sig nD τ) ℕ

set_option maxHeartbeats 4000000 in
/-- What the body's store leaves in the output buffer at such a point, as pieces, with the proof that on whole
    memrefs — the output buffer at anything, the total-weight and weighted-sum buffers at the carried state — the
    body runs to the continuation holding those two scratch buffers as they were and the output buffer with its
    pieces written. The inputs and the row-maximum buffer are not touched and do not appear. -/
noncomputable def kernelRun1_E (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : ¬cond1_1 i) (hc2 : cond1_2 i)
    (xs1 : Vec F S512x1 .f32) (xs2 : Vec F S512x1024 .f32) :
    { L3 : List (View.Piece (Elt F) S1x512x1024 .f32) //
      ∀ (E : Set ℕ) (K : PUnit → sProp 𝕄),
        iprop((∃ d, owns (c : Thread nD τ) arg6 fullShare d) ∗ owns (c : Thread nD τ) arg8 fullShare xs1 ∗ owns (c : Thread nD τ) arg9 fullShare xs2
            ∗ (iprop((∃ f, arg6.view.loc (c : Thread nD τ) ↦[arg6.view.set]{fullShare} arg6.view.writes (Elt F) f L3) ∗ owns (c : Thread nD τ) arg8 fullShare xs1 ∗ owns (c : Thread nD τ) arg9 fullShare xs2) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, fun E K => ?run⟩
  case run =>
    simp only [cc1__attn_kernel_eq_skeleton]; unfold cc1__attn_kernel_skel
    unfold owns
    iintro ⟨⟨%d3, %f3, -, H3⟩, ⟨%fs1, %hfs1, HS1⟩, ⟨%fs2, %hfs2, HS2⟩, Hk⟩
    obtain rfl := harg8.eq_unread hfs1; obtain rfl := harg9.eq_unread hfs2
    sl_exec (disch := first | exact hc0 | exact hc1 | exact hc2)
    sl_step
    iapply Hk
    isplitl [H3]; · iexists _; iexact H3
    isplitl [HS1]
    · iexists _; isplitr; · ipureintro; exact harg8.read_unread _
      iexact HS1
    iexists _; isplitr; · ipureintro; exact harg9.read_unread _
    iexact HS2

end Cert.KernelIdeal.R1

end
-- ==== Proof.KI.R1Frame.lean ====
/-
  The frame half of the attention region, at the buffer contents `V` the region is entered with.

  The carried state (row maximum, total weight, weighted sum) lives in three scratch buffers. Point by point:
  `outsAt1` names what the output window's staging buffer and the three scratch buffers hold after each point,
  by the five cases the body's guards meet on the grid — (ki = 0) reset and fold, (0 < ki ≤ qi, ki ≠ 7) fold,
  (qi < ki < 7) nothing, (ki = qi = 7) fold and store the output block, (qi < ki = 7) store the output block —,
  each read off that case's run. The proof data `dat1` states the input windows at their blocks, the output
  window at `outsAt1`'s first component and the invariant with the scratch buffers at the rest; the body
  obligation is the five runs applied at a generic point. Last, the four equations that say what `outsAt1` IS in
  terms of the pure step functions: the state restarts at a row's first key block, folds a key block on or below
  the diagonal, is kept above it, and the output block at a row's last key block is the state's quotient.
-/
import proofs.«181245_j47132971106646_2_alg».proof.Proof.KI.R1RunE
import Idealize.ShloMosaic.Lib.Pipeline.Value

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Attn

variable {F : FTy → Type} [FloatOps F] [Named F]

local notation "𝕄" => MT nD τ sig Unit (Elt F) ℕ (UR sig nD τ) ℕ

/-! ## What each case leaves in the buffers it stores into -/

/-- At a row's first key block the pieces stored into the row-maximum buffer cover it. -/
theorem scover1_A_0 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : cond1_0 i) (hc1 : cond1_1 i) (hc2 : ¬cond1_2 i)
    (x0 : Vec F S1x512x1024 .bf16) (x1 : Vec F S1x512x1024 .bf16) (x2 : Vec F S1x512x1024 .bf16) (y : S512x1.Idx) :
    ∃ pc ∈ (kernelRun1_A c i arg3 harg3 arg4 harg4 arg5 harg5 arg6 harg6 arg7 harg7 arg8 harg8 arg9 harg9 hc0 hc1 hc2 x0 x1 x2).2.1, y ∈ pc.1.set :=
  View.cover_of_tiledL (kernelRun1_A c i arg3 harg3 arg4 harg4 arg5 harg5 arg6 harg6 arg7 harg7 arg8 harg8 arg9 harg9 hc0 hc1 hc2 x0 x1 x2).2.1 S512x1.size (by sl_kernel_rfl) y

/-- What that point leaves in the row-maximum buffer: its pieces read back. -/
def sout1_A_0 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : cond1_0 i) (hc1 : cond1_1 i) (hc2 : ¬cond1_2 i)
    (x0 : Vec F S1x512x1024 .bf16) (x1 : Vec F S1x512x1024 .bf16) (x2 : Vec F S1x512x1024 .bf16) : Vec F S512x1 .f32 :=
  VS1_0.read (Elt F) (VS1_0.writes (Elt F) VS1_0.junk (kernelRun1_A c i arg3 harg3 arg4 harg4 arg5 harg5 arg6 harg6 arg7 harg7 arg8 harg8 arg9 harg9 hc0 hc1 hc2 x0 x1 x2).2.1)

/-- At a row's first key block the pieces stored into the total-weight buffer cover it. -/
theorem scover1_A_1 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : cond1_0 i) (hc1 : cond1_1 i) (hc2 : ¬cond1_2 i)
    (x0 : Vec F S1x512x1024 .bf16) (x1 : Vec F S1x512x1024 .bf16) (x2 : Vec F S1x512x1024 .bf16) (y : S512x1.Idx) :
    ∃ pc ∈ (kernelRun1_A c i arg3 harg3 arg4 harg4 arg5 harg5 arg6 harg6 arg7 harg7 arg8 harg8 arg9 harg9 hc0 hc1 hc2 x0 x1 x2).2.2.1, y ∈ pc.1.set :=
  View.cover_of_tiledL (kernelRun1_A c i arg3 harg3 arg4 harg4 arg5 harg5 arg6 harg6 arg7 harg7 arg8 harg8 arg9 harg9 hc0 hc1 hc2 x0 x1 x2).2.2.1 S512x1.size (by sl_kernel_rfl) y

/-- What that point leaves in the total-weight buffer: its pieces read back. -/
def sout1_A_1 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : cond1_0 i) (hc1 : cond1_1 i) (hc2 : ¬cond1_2 i)
    (x0 : Vec F S1x512x1024 .bf16) (x1 : Vec F S1x512x1024 .bf16) (x2 : Vec F S1x512x1024 .bf16) : Vec F S512x1 .f32 :=
  VS1_1.read (Elt F) (VS1_1.writes (Elt F) VS1_1.junk (kernelRun1_A c i arg3 harg3 arg4 harg4 arg5 harg5 arg6 harg6 arg7 harg7 arg8 harg8 arg9 harg9 hc0 hc1 hc2 x0 x1 x2).2.2.1)

/-- At a row's first key block the pieces stored into the weighted-sum buffer cover it. -/
theorem scover1_A_2 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : cond1_0 i) (hc1 : cond1_1 i) (hc2 : ¬cond1_2 i)
    (x0 : Vec F S1x512x1024 .bf16) (x1 : Vec F S1x512x1024 .bf16) (x2 : Vec F S1x512x1024 .bf16) (y : S512x1024.Idx) :
    ∃ pc ∈ (kernelRun1_A c i arg3 harg3 arg4 harg4 arg5 harg5 arg6 harg6 arg7 harg7 arg8 harg8 arg9 harg9 hc0 hc1 hc2 x0 x1 x2).2.2.2.1, y ∈ pc.1.set :=
  View.cover_of_tiledL (kernelRun1_A c i arg3 harg3 arg4 harg4 arg5 harg5 arg6 harg6 arg7 harg7 arg8 harg8 arg9 harg9 hc0 hc1 hc2 x0 x1 x2).2.2.2.1 S512x1024.size (by sl_kernel_rfl) y

/-- What that point leaves in the weighted-sum buffer: its pieces read back. -/
def sout1_A_2 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : cond1_0 i) (hc1 : cond1_1 i) (hc2 : ¬cond1_2 i)
    (x0 : Vec F S1x512x1024 .bf16) (x1 : Vec F S1x512x1024 .bf16) (x2 : Vec F S1x512x1024 .bf16) : Vec F S512x1024 .f32 :=
  VS1_2.read (Elt F) (VS1_2.writes (Elt F) VS1_2.junk (kernelRun1_A c i arg3 harg3 arg4 harg4 arg5 harg5 arg6 harg6 arg7 harg7 arg8 harg8 arg9 harg9 hc0 hc1 hc2 x0 x1 x2).2.2.2.1)

/-- At a key block on or below the diagonal, neither first nor last the pieces stored into the row-maximum buffer cover it. -/
theorem scover1_B_0 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i) (hc2 : ¬cond1_2 i)
    (x0 : Vec F S1x512x1024 .bf16) (x1 : Vec F S1x512x1024 .bf16) (x2 : Vec F S1x512x1024 .bf16) (xs0 : Vec F S512x1 .f32) (xs1 : Vec F S512x1 .f32) (xs2 : Vec F S512x1024 .f32) (y : S512x1.Idx) :
    ∃ pc ∈ (kernelRun1_B c i arg3 harg3 arg4 harg4 arg5 harg5 arg6 harg6 arg7 harg7 arg8 harg8 arg9 harg9 hc0 hc1 hc2 x0 x1 x2 xs0 xs1 xs2).2.1, y ∈ pc.1.set :=
  View.cover_of_tiledL (kernelRun1_B c i arg3 harg3 arg4 harg4 arg5 harg5 arg6 harg6 arg7 harg7 arg8 harg8 arg9 harg9 hc0 hc1 hc2 x0 x1 x2 xs0 xs1 xs2).2.1 S512x1.size (by sl_kernel_rfl) y

/-- What that point leaves in the row-maximum buffer: its pieces read back. -/
def sout1_B_0 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i) (hc2 : ¬cond1_2 i)
    (x0 : Vec F S1x512x1024 .bf16) (x1 : Vec F S1x512x1024 .bf16) (x2 : Vec F S1x512x1024 .bf16) (xs0 : Vec F S512x1 .f32) (xs1 : Vec F S512x1 .f32) (xs2 : Vec F S512x1024 .f32) : Vec F S512x1 .f32 :=
  VS1_0.read (Elt F) (VS1_0.writes (Elt F) VS1_0.junk (kernelRun1_B c i arg3 harg3 arg4 harg4 arg5 harg5 arg6 harg6 arg7 harg7 arg8 harg8 arg9 harg9 hc0 hc1 hc2 x0 x1 x2 xs0 xs1 xs2).2.1)

/-- At a key block on or below the diagonal, neither first nor last the pieces stored into the total-weight buffer cover it. -/
theorem scover1_B_1 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i) (hc2 : ¬cond1_2 i)
    (x0 : Vec F S1x512x1024 .bf16) (x1 : Vec F S1x512x1024 .bf16) (x2 : Vec F S1x512x1024 .bf16) (xs0 : Vec F S512x1 .f32) (xs1 : Vec F S512x1 .f32) (xs2 : Vec F S512x1024 .f32) (y : S512x1.Idx) :
    ∃ pc ∈ (kernelRun1_B c i arg3 harg3 arg4 harg4 arg5 harg5 arg6 harg6 arg7 harg7 arg8 harg8 arg9 harg9 hc0 hc1 hc2 x0 x1 x2 xs0 xs1 xs2).2.2.1, y ∈ pc.1.set :=
  View.cover_of_tiledL (kernelRun1_B c i arg3 harg3 arg4 harg4 arg5 harg5 arg6 harg6 arg7 harg7 arg8 harg8 arg9 harg9 hc0 hc1 hc2 x0 x1 x2 xs0 xs1 xs2).2.2.1 S512x1.size (by sl_kernel_rfl) y

/-- What that point leaves in the total-weight buffer: its pieces read back. -/
def sout1_B_1 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i) (hc2 : ¬cond1_2 i)
    (x0 : Vec F S1x512x1024 .bf16) (x1 : Vec F S1x512x1024 .bf16) (x2 : Vec F S1x512x1024 .bf16) (xs0 : Vec F S512x1 .f32) (xs1 : Vec F S512x1 .f32) (xs2 : Vec F S512x1024 .f32) : Vec F S512x1 .f32 :=
  VS1_1.read (Elt F) (VS1_1.writes (Elt F) VS1_1.junk (kernelRun1_B c i arg3 harg3 arg4 harg4 arg5 harg5 arg6 harg6 arg7 harg7 arg8 harg8 arg9 harg9 hc0 hc1 hc2 x0 x1 x2 xs0 xs1 xs2).2.2.1)

/-- At a key block on or below the diagonal, neither first nor last the pieces stored into the weighted-sum buffer cover it. -/
theorem scover1_B_2 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i) (hc2 : ¬cond1_2 i)
    (x0 : Vec F S1x512x1024 .bf16) (x1 : Vec F S1x512x1024 .bf16) (x2 : Vec F S1x512x1024 .bf16) (xs0 : Vec F S512x1 .f32) (xs1 : Vec F S512x1 .f32) (xs2 : Vec F S512x1024 .f32) (y : S512x1024.Idx) :
    ∃ pc ∈ (kernelRun1_B c i arg3 harg3 arg4 harg4 arg5 harg5 arg6 harg6 arg7 harg7 arg8 harg8 arg9 harg9 hc0 hc1 hc2 x0 x1 x2 xs0 xs1 xs2).2.2.2.1, y ∈ pc.1.set :=
  View.cover_of_tiledL (kernelRun1_B c i arg3 harg3 arg4 harg4 arg5 harg5 arg6 harg6 arg7 harg7 arg8 harg8 arg9 harg9 hc0 hc1 hc2 x0 x1 x2 xs0 xs1 xs2).2.2.2.1 S512x1024.size (by sl_kernel_rfl) y

/-- What that point leaves in the weighted-sum buffer: its pieces read back. -/
def sout1_B_2 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i) (hc2 : ¬cond1_2 i)
    (x0 : Vec F S1x512x1024 .bf16) (x1 : Vec F S1x512x1024 .bf16) (x2 : Vec F S1x512x1024 .bf16) (xs0 : Vec F S512x1 .f32) (xs1 : Vec F S512x1 .f32) (xs2 : Vec F S512x1024 .f32) : Vec F S512x1024 .f32 :=
  VS1_2.read (Elt F) (VS1_2.writes (Elt F) VS1_2.junk (kernelRun1_B c i arg3 harg3 arg4 harg4 arg5 harg5 arg6 harg6 arg7 harg7 arg8 harg8 arg9 harg9 hc0 hc1 hc2 x0 x1 x2 xs0 xs1 xs2).2.2.2.1)

/-- At a row's last key block on the diagonal the pieces stored into the row-maximum buffer cover it. -/
theorem scover1_D_0 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i) (hc2 : cond1_2 i)
    (x0 : Vec F S1x512x1024 .bf16) (x1 : Vec F S1x512x1024 .bf16) (x2 : Vec F S1x512x1024 .bf16) (xs0 : Vec F S512x1 .f32) (xs1 : Vec F S512x1 .f32) (xs2 : Vec F S512x1024 .f32) (y : S512x1.Idx) :
    ∃ pc ∈ (kernelRun1_D c i arg3 harg3 arg4 harg4 arg5 harg5 arg6 harg6 arg7 harg7 arg8 harg8 arg9 harg9 hc0 hc1 hc2 x0 x1 x2 xs0 xs1 xs2).2.1, y ∈ pc.1.set :=
  View.cover_of_tiledL (kernelRun1_D c i arg3 harg3 arg4 harg4 arg5 harg5 arg6 harg6 arg7 harg7 arg8 harg8 arg9 harg9 hc0 hc1 hc2 x0 x1 x2 xs0 xs1 xs2).2.1 S512x1.size (by sl_kernel_rfl) y

/-- What that point leaves in the row-maximum buffer: its pieces read back. -/
def sout1_D_0 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i) (hc2 : cond1_2 i)
    (x0 : Vec F S1x512x1024 .bf16) (x1 : Vec F S1x512x1024 .bf16) (x2 : Vec F S1x512x1024 .bf16) (xs0 : Vec F S512x1 .f32) (xs1 : Vec F S512x1 .f32) (xs2 : Vec F S512x1024 .f32) : Vec F S512x1 .f32 :=
  VS1_0.read (Elt F) (VS1_0.writes (Elt F) VS1_0.junk (kernelRun1_D c i arg3 harg3 arg4 harg4 arg5 harg5 arg6 harg6 arg7 harg7 arg8 harg8 arg9 harg9 hc0 hc1 hc2 x0 x1 x2 xs0 xs1 xs2).2.1)

/-- At a row's last key block on the diagonal the pieces stored into the total-weight buffer cover it. -/
theorem scover1_D_1 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i) (hc2 : cond1_2 i)
    (x0 : Vec F S1x512x1024 .bf16) (x1 : Vec F S1x512x1024 .bf16) (x2 : Vec F S1x512x1024 .bf16) (xs0 : Vec F S512x1 .f32) (xs1 : Vec F S512x1 .f32) (xs2 : Vec F S512x1024 .f32) (y : S512x1.Idx) :
    ∃ pc ∈ (kernelRun1_D c i arg3 harg3 arg4 harg4 arg5 harg5 arg6 harg6 arg7 harg7 arg8 harg8 arg9 harg9 hc0 hc1 hc2 x0 x1 x2 xs0 xs1 xs2).2.2.1, y ∈ pc.1.set :=
  View.cover_of_tiledL (kernelRun1_D c i arg3 harg3 arg4 harg4 arg5 harg5 arg6 harg6 arg7 harg7 arg8 harg8 arg9 harg9 hc0 hc1 hc2 x0 x1 x2 xs0 xs1 xs2).2.2.1 S512x1.size (by sl_kernel_rfl) y

/-- What that point leaves in the total-weight buffer: its pieces read back. -/
def sout1_D_1 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i) (hc2 : cond1_2 i)
    (x0 : Vec F S1x512x1024 .bf16) (x1 : Vec F S1x512x1024 .bf16) (x2 : Vec F S1x512x1024 .bf16) (xs0 : Vec F S512x1 .f32) (xs1 : Vec F S512x1 .f32) (xs2 : Vec F S512x1024 .f32) : Vec F S512x1 .f32 :=
  VS1_1.read (Elt F) (VS1_1.writes (Elt F) VS1_1.junk (kernelRun1_D c i arg3 harg3 arg4 harg4 arg5 harg5 arg6 harg6 arg7 harg7 arg8 harg8 arg9 harg9 hc0 hc1 hc2 x0 x1 x2 xs0 xs1 xs2).2.2.1)

/-- At a row's last key block on the diagonal the pieces stored into the weighted-sum buffer cover it. -/
theorem scover1_D_2 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i) (hc2 : cond1_2 i)
    (x0 : Vec F S1x512x1024 .bf16) (x1 : Vec F S1x512x1024 .bf16) (x2 : Vec F S1x512x1024 .bf16) (xs0 : Vec F S512x1 .f32) (xs1 : Vec F S512x1 .f32) (xs2 : Vec F S512x1024 .f32) (y : S512x1024.Idx) :
    ∃ pc ∈ (kernelRun1_D c i arg3 harg3 arg4 harg4 arg5 harg5 arg6 harg6 arg7 harg7 arg8 harg8 arg9 harg9 hc0 hc1 hc2 x0 x1 x2 xs0 xs1 xs2).2.2.2.1, y ∈ pc.1.set :=
  View.cover_of_tiledL (kernelRun1_D c i arg3 harg3 arg4 harg4 arg5 harg5 arg6 harg6 arg7 harg7 arg8 harg8 arg9 harg9 hc0 hc1 hc2 x0 x1 x2 xs0 xs1 xs2).2.2.2.1 S512x1024.size (by sl_kernel_rfl) y

/-- What that point leaves in the weighted-sum buffer: its pieces read back. -/
def sout1_D_2 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i) (hc2 : cond1_2 i)
    (x0 : Vec F S1x512x1024 .bf16) (x1 : Vec F S1x512x1024 .bf16) (x2 : Vec F S1x512x1024 .bf16) (xs0 : Vec F S512x1 .f32) (xs1 : Vec F S512x1 .f32) (xs2 : Vec F S512x1024 .f32) : Vec F S512x1024 .f32 :=
  VS1_2.read (Elt F) (VS1_2.writes (Elt F) VS1_2.junk (kernelRun1_D c i arg3 harg3 arg4 harg4 arg5 harg5 arg6 harg6 arg7 harg7 arg8 harg8 arg9 harg9 hc0 hc1 hc2 x0 x1 x2 xs0 xs1 xs2).2.2.2.1)

/-- At a row's last key block on the diagonal the piece stored into the output buffer covers it. -/
theorem cover1_D_3 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i) (hc2 : cond1_2 i)
    (x0 : Vec F S1x512x1024 .bf16) (x1 : Vec F S1x512x1024 .bf16) (x2 : Vec F S1x512x1024 .bf16) (xs0 : Vec F S512x1 .f32) (xs1 : Vec F S512x1 .f32) (xs2 : Vec F S512x1024 .f32) (y : S1x512x1024.Idx) :
    ∃ pc ∈ (kernelRun1_D c i arg3 harg3 arg4 harg4 arg5 harg5 arg6 harg6 arg7 harg7 arg8 harg8 arg9 harg9 hc0 hc1 hc2 x0 x1 x2 xs0 xs1 xs2).1, y ∈ pc.1.set :=
  View.cover_of_tiledL (kernelRun1_D c i arg3 harg3 arg4 harg4 arg5 harg5 arg6 harg6 arg7 harg7 arg8 harg8 arg9 harg9 hc0 hc1 hc2 x0 x1 x2 xs0 xs1 xs2).1 S1x512x1024.size (by sl_kernel_rfl) y

/-- What that point leaves in the output buffer: its piece read back. -/
def out1_D_3 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i) (hc2 : cond1_2 i)
    (x0 : Vec F S1x512x1024 .bf16) (x1 : Vec F S1x512x1024 .bf16) (x2 : Vec F S1x512x1024 .bf16) (xs0 : Vec F S512x1 .f32) (xs1 : Vec F S512x1 .f32) (xs2 : Vec F S512x1024 .f32) : Vec F S1x512x1024 .f32 :=
  VO1_3.read (Elt F) (VO1_3.writes (Elt F) VO1_3.junk (kernelRun1_D c i arg3 harg3 arg4 harg4 arg5 harg5 arg6 harg6 arg7 harg7 arg8 harg8 arg9 harg9 hc0 hc1 hc2 x0 x1 x2 xs0 xs1 xs2).1)

/-- At a row's last key block above the diagonal the piece stored into the output buffer covers it. -/
theorem cover1_E_3 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : ¬cond1_1 i) (hc2 : cond1_2 i)
    (xs1 : Vec F S512x1 .f32) (xs2 : Vec F S512x1024 .f32) (y : S1x512x1024.Idx) :
    ∃ pc ∈ (kernelRun1_E c i arg3 harg3 arg4 harg4 arg5 harg5 arg6 harg6 arg7 harg7 arg8 harg8 arg9 harg9 hc0 hc1 hc2 xs1 xs2).1, y ∈ pc.1.set :=
  View.cover_of_tiledL (kernelRun1_E c i arg3 harg3 arg4 harg4 arg5 harg5 arg6 harg6 arg7 harg7 arg8 harg8 arg9 harg9 hc0 hc1 hc2 xs1 xs2).1 S1x512x1024.size (by sl_kernel_rfl) y

/-- What that point leaves in the output buffer: its piece read back. -/
def out1_E_3 (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : ¬cond1_1 i) (hc2 : cond1_2 i)
    (xs1 : Vec F S512x1 .f32) (xs2 : Vec F S512x1024 .f32) : Vec F S1x512x1024 .f32 :=
  VO1_3.read (Elt F) (VO1_3.writes (Elt F) VO1_3.junk (kernelRun1_E c i arg3 harg3 arg4 harg4 arg5 harg5 arg6 harg6 arg7 harg7 arg8 harg8 arg9 harg9 hc0 hc1 hc2 xs1 xs2).1)

/-- The output component at a point that stores no output block: a placeholder nothing consults (the window is
    neither written back there nor read at the next point). -/
def outIdle : Vec F S1x512x1024 .f32 := VO1_3.read (Elt F) (VO1_3.writes (Elt F) VO1_3.junk [])

/-! ## What the runs' pieces are: the pure step functions of what the body loads -/

theorem hz2 : (![0, 0] : Fin 2 → Nat) = fun _ => 0 := funext fun a => by fin_cases a <;> rfl
theorem hz3 : (![0, 0, 0] : Fin 3 → Nat) = fun _ => 0 := funext fun a => by fin_cases a <;> rfl

/-- At a row's first key block each scratch buffer's last store covers it, and what it stored is the fold of the first key block into the reset state (the loads in between read the reset values back). -/
theorem sout1_A_0_eq (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : cond1_0 i) (hc1 : cond1_1 i) (hc2 : ¬cond1_2 i)
    (x0 : Vec F S1x512x1024 .bf16) (x1 : Vec F S1x512x1024 .bf16) (x2 : Vec F S1x512x1024 .bf16) :
    sout1_A_0 c i arg3 harg3 arg4 harg4 arg5 harg5 arg6 harg6 arg7 harg7 arg8 harg8 arg9 harg9 hc0 hc1 hc2 x0 x1 x2 = (step (BitVec.ofNat 32 (i 1).val) (BitVec.ofNat 32 (i 2).val) x0 x1 x2 init).1 := by
  unfold sout1_A_0
  rw [View.read_writes_eq_canon _ _ _ (scover1_A_0 c i arg3 harg3 arg4 harg4 arg5 harg5 arg6 harg6 arg7 harg7 arg8 harg8 arg9 harg9 hc0 hc1 hc2 x0 x1 x2)]
  unfold kernelRun1_A
  dsimp only
  try sl_unfold_words
  rw [View.canon_cons_unit_zero (S := S512x1) hz2]
  simp only [View.readAt_eq_ld, harg3.read_unread, harg4.read_unread, harg5.read_unread, harg7.read_unread, harg8.read_unread, harg9.read_unread,
    View.ld_unit_zero (S := S1x512x1024) hz3, View.ld_unit_zero (S := S512x1) hz2, View.ld_unit_zero (S := S512x1024) hz2,
    View.readCov_unit_zero (S := S512x1) _ hz2, View.readCov_unit_zero (S := S512x1024) _ hz2]
  try rfl

theorem sout1_A_1_eq (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : cond1_0 i) (hc1 : cond1_1 i) (hc2 : ¬cond1_2 i)
    (x0 : Vec F S1x512x1024 .bf16) (x1 : Vec F S1x512x1024 .bf16) (x2 : Vec F S1x512x1024 .bf16) :
    sout1_A_1 c i arg3 harg3 arg4 harg4 arg5 harg5 arg6 harg6 arg7 harg7 arg8 harg8 arg9 harg9 hc0 hc1 hc2 x0 x1 x2 = (step (BitVec.ofNat 32 (i 1).val) (BitVec.ofNat 32 (i 2).val) x0 x1 x2 init).2.1 := by
  unfold sout1_A_1
  rw [View.read_writes_eq_canon _ _ _ (scover1_A_1 c i arg3 harg3 arg4 harg4 arg5 harg5 arg6 harg6 arg7 harg7 arg8 harg8 arg9 harg9 hc0 hc1 hc2 x0 x1 x2)]
  unfold kernelRun1_A
  dsimp only
  try sl_unfold_words
  rw [View.canon_cons_unit_zero (S := S512x1) hz2]
  simp only [View.readAt_eq_ld, harg3.read_unread, harg4.read_unread, harg5.read_unread, harg7.read_unread, harg8.read_unread, harg9.read_unread,
    View.ld_unit_zero (S := S1x512x1024) hz3, View.ld_unit_zero (S := S512x1) hz2, View.ld_unit_zero (S := S512x1024) hz2,
    View.readCov_unit_zero (S := S512x1) _ hz2, View.readCov_unit_zero (S := S512x1024) _ hz2]
  try rfl

theorem sout1_A_2_eq (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : cond1_0 i) (hc1 : cond1_1 i) (hc2 : ¬cond1_2 i)
    (x0 : Vec F S1x512x1024 .bf16) (x1 : Vec F S1x512x1024 .bf16) (x2 : Vec F S1x512x1024 .bf16) :
    sout1_A_2 c i arg3 harg3 arg4 harg4 arg5 harg5 arg6 harg6 arg7 harg7 arg8 harg8 arg9 harg9 hc0 hc1 hc2 x0 x1 x2 = (step (BitVec.ofNat 32 (i 1).val) (BitVec.ofNat 32 (i 2).val) x0 x1 x2 init).2.2 := by
  unfold sout1_A_2
  rw [View.read_writes_eq_canon _ _ _ (scover1_A_2 c i arg3 harg3 arg4 harg4 arg5 harg5 arg6 harg6 arg7 harg7 arg8 harg8 arg9 harg9 hc0 hc1 hc2 x0 x1 x2)]
  unfold kernelRun1_A
  dsimp only
  try sl_unfold_words
  rw [View.canon_cons_unit_zero (S := S512x1024) hz2]
  simp only [View.readAt_eq_ld, harg3.read_unread, harg4.read_unread, harg5.read_unread, harg7.read_unread, harg8.read_unread, harg9.read_unread,
    View.ld_unit_zero (S := S1x512x1024) hz3, View.ld_unit_zero (S := S512x1) hz2, View.ld_unit_zero (S := S512x1024) hz2,
    View.readCov_unit_zero (S := S512x1) _ hz2, View.readCov_unit_zero (S := S512x1024) _ hz2]
  try rfl

theorem sout1_A_eq (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : cond1_0 i) (hc1 : cond1_1 i) (hc2 : ¬cond1_2 i)
    (x0 : Vec F S1x512x1024 .bf16) (x1 : Vec F S1x512x1024 .bf16) (x2 : Vec F S1x512x1024 .bf16) :
    ((sout1_A_0 c i arg3 harg3 arg4 harg4 arg5 harg5 arg6 harg6 arg7 harg7 arg8 harg8 arg9 harg9 hc0 hc1 hc2 x0 x1 x2, sout1_A_1 c i arg3 harg3 arg4 harg4 arg5 harg5 arg6 harg6 arg7 harg7 arg8 harg8 arg9 harg9 hc0 hc1 hc2 x0 x1 x2, sout1_A_2 c i arg3 harg3 arg4 harg4 arg5 harg5 arg6 harg6 arg7 harg7 arg8 harg8 arg9 harg9 hc0 hc1 hc2 x0 x1 x2) : St F) = step (BitVec.ofNat 32 (i 1).val) (BitVec.ofNat 32 (i 2).val) x0 x1 x2 init := by
  rw [sout1_A_0_eq, sout1_A_1_eq, sout1_A_2_eq]

/-- At a later key block on or below the diagonal each scratch buffer's one store covers it, and what it stored is the fold of the key block into the state the buffers held. -/
theorem sout1_B_0_eq (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i) (hc2 : ¬cond1_2 i)
    (x0 : Vec F S1x512x1024 .bf16) (x1 : Vec F S1x512x1024 .bf16) (x2 : Vec F S1x512x1024 .bf16) (xs0 : Vec F S512x1 .f32) (xs1 : Vec F S512x1 .f32) (xs2 : Vec F S512x1024 .f32) :
    sout1_B_0 c i arg3 harg3 arg4 harg4 arg5 harg5 arg6 harg6 arg7 harg7 arg8 harg8 arg9 harg9 hc0 hc1 hc2 x0 x1 x2 xs0 xs1 xs2 = (step (BitVec.ofNat 32 (i 1).val) (BitVec.ofNat 32 (i 2).val) x0 x1 x2 (xs0, xs1, xs2)).1 := by
  unfold sout1_B_0
  rw [View.read_writes_eq_canon _ _ _ (scover1_B_0 c i arg3 harg3 arg4 harg4 arg5 harg5 arg6 harg6 arg7 harg7 arg8 harg8 arg9 harg9 hc0 hc1 hc2 x0 x1 x2 xs0 xs1 xs2)]
  unfold kernelRun1_B
  dsimp only
  try sl_unfold_words
  rw [View.canon_cons_unit_zero (S := S512x1) hz2]
  simp only [View.readAt_eq_ld, harg3.read_unread, harg4.read_unread, harg5.read_unread, harg7.read_unread, harg8.read_unread, harg9.read_unread,
    View.ld_unit_zero (S := S1x512x1024) hz3, View.ld_unit_zero (S := S512x1) hz2, View.ld_unit_zero (S := S512x1024) hz2,
    View.readCov_unit_zero (S := S512x1) _ hz2, View.readCov_unit_zero (S := S512x1024) _ hz2]
  try rfl

theorem sout1_B_1_eq (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i) (hc2 : ¬cond1_2 i)
    (x0 : Vec F S1x512x1024 .bf16) (x1 : Vec F S1x512x1024 .bf16) (x2 : Vec F S1x512x1024 .bf16) (xs0 : Vec F S512x1 .f32) (xs1 : Vec F S512x1 .f32) (xs2 : Vec F S512x1024 .f32) :
    sout1_B_1 c i arg3 harg3 arg4 harg4 arg5 harg5 arg6 harg6 arg7 harg7 arg8 harg8 arg9 harg9 hc0 hc1 hc2 x0 x1 x2 xs0 xs1 xs2 = (step (BitVec.ofNat 32 (i 1).val) (BitVec.ofNat 32 (i 2).val) x0 x1 x2 (xs0, xs1, xs2)).2.1 := by
  unfold sout1_B_1
  rw [View.read_writes_eq_canon _ _ _ (scover1_B_1 c i arg3 harg3 arg4 harg4 arg5 harg5 arg6 harg6 arg7 harg7 arg8 harg8 arg9 harg9 hc0 hc1 hc2 x0 x1 x2 xs0 xs1 xs2)]
  unfold kernelRun1_B
  dsimp only
  try sl_unfold_words
  rw [View.canon_cons_unit_zero (S := S512x1) hz2]
  simp only [View.readAt_eq_ld, harg3.read_unread, harg4.read_unread, harg5.read_unread, harg7.read_unread, harg8.read_unread, harg9.read_unread,
    View.ld_unit_zero (S := S1x512x1024) hz3, View.ld_unit_zero (S := S512x1) hz2, View.ld_unit_zero (S := S512x1024) hz2,
    View.readCov_unit_zero (S := S512x1) _ hz2, View.readCov_unit_zero (S := S512x1024) _ hz2]
  try rfl

theorem sout1_B_2_eq (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i) (hc2 : ¬cond1_2 i)
    (x0 : Vec F S1x512x1024 .bf16) (x1 : Vec F S1x512x1024 .bf16) (x2 : Vec F S1x512x1024 .bf16) (xs0 : Vec F S512x1 .f32) (xs1 : Vec F S512x1 .f32) (xs2 : Vec F S512x1024 .f32) :
    sout1_B_2 c i arg3 harg3 arg4 harg4 arg5 harg5 arg6 harg6 arg7 harg7 arg8 harg8 arg9 harg9 hc0 hc1 hc2 x0 x1 x2 xs0 xs1 xs2 = (step (BitVec.ofNat 32 (i 1).val) (BitVec.ofNat 32 (i 2).val) x0 x1 x2 (xs0, xs1, xs2)).2.2 := by
  unfold sout1_B_2
  rw [View.read_writes_eq_canon _ _ _ (scover1_B_2 c i arg3 harg3 arg4 harg4 arg5 harg5 arg6 harg6 arg7 harg7 arg8 harg8 arg9 harg9 hc0 hc1 hc2 x0 x1 x2 xs0 xs1 xs2)]
  unfold kernelRun1_B
  dsimp only
  try sl_unfold_words
  rw [View.canon_cons_unit_zero (S := S512x1024) hz2]
  simp only [View.readAt_eq_ld, harg3.read_unread, harg4.read_unread, harg5.read_unread, harg7.read_unread, harg8.read_unread, harg9.read_unread,
    View.ld_unit_zero (S := S1x512x1024) hz3, View.ld_unit_zero (S := S512x1) hz2, View.ld_unit_zero (S := S512x1024) hz2,
    View.readCov_unit_zero (S := S512x1) _ hz2, View.readCov_unit_zero (S := S512x1024) _ hz2]
  try rfl

theorem sout1_B_eq (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i) (hc2 : ¬cond1_2 i)
    (x0 : Vec F S1x512x1024 .bf16) (x1 : Vec F S1x512x1024 .bf16) (x2 : Vec F S1x512x1024 .bf16) (xs0 : Vec F S512x1 .f32) (xs1 : Vec F S512x1 .f32) (xs2 : Vec F S512x1024 .f32) :
    ((sout1_B_0 c i arg3 harg3 arg4 harg4 arg5 harg5 arg6 harg6 arg7 harg7 arg8 harg8 arg9 harg9 hc0 hc1 hc2 x0 x1 x2 xs0 xs1 xs2, sout1_B_1 c i arg3 harg3 arg4 harg4 arg5 harg5 arg6 harg6 arg7 harg7 arg8 harg8 arg9 harg9 hc0 hc1 hc2 x0 x1 x2 xs0 xs1 xs2, sout1_B_2 c i arg3 harg3 arg4 harg4 arg5 harg5 arg6 harg6 arg7 harg7 arg8 harg8 arg9 harg9 hc0 hc1 hc2 x0 x1 x2 xs0 xs1 xs2) : St F) = step (BitVec.ofNat 32 (i 1).val) (BitVec.ofNat 32 (i 2).val) x0 x1 x2 (xs0, xs1, xs2) := by
  rw [sout1_B_0_eq, sout1_B_1_eq, sout1_B_2_eq]

/-- At a row's last key block on the diagonal the same holds of the three scratch buffers, -/
theorem sout1_D_0_eq (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i) (hc2 : cond1_2 i)
    (x0 : Vec F S1x512x1024 .bf16) (x1 : Vec F S1x512x1024 .bf16) (x2 : Vec F S1x512x1024 .bf16) (xs0 : Vec F S512x1 .f32) (xs1 : Vec F S512x1 .f32) (xs2 : Vec F S512x1024 .f32) :
    sout1_D_0 c i arg3 harg3 arg4 harg4 arg5 harg5 arg6 harg6 arg7 harg7 arg8 harg8 arg9 harg9 hc0 hc1 hc2 x0 x1 x2 xs0 xs1 xs2 = (step (BitVec.ofNat 32 (i 1).val) (BitVec.ofNat 32 (i 2).val) x0 x1 x2 (xs0, xs1, xs2)).1 := by
  unfold sout1_D_0
  rw [View.read_writes_eq_canon _ _ _ (scover1_D_0 c i arg3 harg3 arg4 harg4 arg5 harg5 arg6 harg6 arg7 harg7 arg8 harg8 arg9 harg9 hc0 hc1 hc2 x0 x1 x2 xs0 xs1 xs2)]
  unfold kernelRun1_D
  dsimp only
  try sl_unfold_words
  rw [View.canon_cons_unit_zero (S := S512x1) hz2]
  simp only [View.readAt_eq_ld, harg3.read_unread, harg4.read_unread, harg5.read_unread, harg7.read_unread, harg8.read_unread, harg9.read_unread,
    View.ld_unit_zero (S := S1x512x1024) hz3, View.ld_unit_zero (S := S512x1) hz2, View.ld_unit_zero (S := S512x1024) hz2,
    View.readCov_unit_zero (S := S512x1) _ hz2, View.readCov_unit_zero (S := S512x1024) _ hz2]
  try rfl

theorem sout1_D_1_eq (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i) (hc2 : cond1_2 i)
    (x0 : Vec F S1x512x1024 .bf16) (x1 : Vec F S1x512x1024 .bf16) (x2 : Vec F S1x512x1024 .bf16) (xs0 : Vec F S512x1 .f32) (xs1 : Vec F S512x1 .f32) (xs2 : Vec F S512x1024 .f32) :
    sout1_D_1 c i arg3 harg3 arg4 harg4 arg5 harg5 arg6 harg6 arg7 harg7 arg8 harg8 arg9 harg9 hc0 hc1 hc2 x0 x1 x2 xs0 xs1 xs2 = (step (BitVec.ofNat 32 (i 1).val) (BitVec.ofNat 32 (i 2).val) x0 x1 x2 (xs0, xs1, xs2)).2.1 := by
  unfold sout1_D_1
  rw [View.read_writes_eq_canon _ _ _ (scover1_D_1 c i arg3 harg3 arg4 harg4 arg5 harg5 arg6 harg6 arg7 harg7 arg8 harg8 arg9 harg9 hc0 hc1 hc2 x0 x1 x2 xs0 xs1 xs2)]
  unfold kernelRun1_D
  dsimp only
  try sl_unfold_words
  rw [View.canon_cons_unit_zero (S := S512x1) hz2]
  simp only [View.readAt_eq_ld, harg3.read_unread, harg4.read_unread, harg5.read_unread, harg7.read_unread, harg8.read_unread, harg9.read_unread,
    View.ld_unit_zero (S := S1x512x1024) hz3, View.ld_unit_zero (S := S512x1) hz2, View.ld_unit_zero (S := S512x1024) hz2,
    View.readCov_unit_zero (S := S512x1) _ hz2, View.readCov_unit_zero (S := S512x1024) _ hz2]
  try rfl

theorem sout1_D_2_eq (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i) (hc2 : cond1_2 i)
    (x0 : Vec F S1x512x1024 .bf16) (x1 : Vec F S1x512x1024 .bf16) (x2 : Vec F S1x512x1024 .bf16) (xs0 : Vec F S512x1 .f32) (xs1 : Vec F S512x1 .f32) (xs2 : Vec F S512x1024 .f32) :
    sout1_D_2 c i arg3 harg3 arg4 harg4 arg5 harg5 arg6 harg6 arg7 harg7 arg8 harg8 arg9 harg9 hc0 hc1 hc2 x0 x1 x2 xs0 xs1 xs2 = (step (BitVec.ofNat 32 (i 1).val) (BitVec.ofNat 32 (i 2).val) x0 x1 x2 (xs0, xs1, xs2)).2.2 := by
  unfold sout1_D_2
  rw [View.read_writes_eq_canon _ _ _ (scover1_D_2 c i arg3 harg3 arg4 harg4 arg5 harg5 arg6 harg6 arg7 harg7 arg8 harg8 arg9 harg9 hc0 hc1 hc2 x0 x1 x2 xs0 xs1 xs2)]
  unfold kernelRun1_D
  dsimp only
  try sl_unfold_words
  rw [View.canon_cons_unit_zero (S := S512x1024) hz2]
  simp only [View.readAt_eq_ld, harg3.read_unread, harg4.read_unread, harg5.read_unread, harg7.read_unread, harg8.read_unread, harg9.read_unread,
    View.ld_unit_zero (S := S1x512x1024) hz3, View.ld_unit_zero (S := S512x1) hz2, View.ld_unit_zero (S := S512x1024) hz2,
    View.readCov_unit_zero (S := S512x1) _ hz2, View.readCov_unit_zero (S := S512x1024) _ hz2]
  try rfl

theorem sout1_D_eq (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i) (hc2 : cond1_2 i)
    (x0 : Vec F S1x512x1024 .bf16) (x1 : Vec F S1x512x1024 .bf16) (x2 : Vec F S1x512x1024 .bf16) (xs0 : Vec F S512x1 .f32) (xs1 : Vec F S512x1 .f32) (xs2 : Vec F S512x1024 .f32) :
    ((sout1_D_0 c i arg3 harg3 arg4 harg4 arg5 harg5 arg6 harg6 arg7 harg7 arg8 harg8 arg9 harg9 hc0 hc1 hc2 x0 x1 x2 xs0 xs1 xs2, sout1_D_1 c i arg3 harg3 arg4 harg4 arg5 harg5 arg6 harg6 arg7 harg7 arg8 harg8 arg9 harg9 hc0 hc1 hc2 x0 x1 x2 xs0 xs1 xs2, sout1_D_2 c i arg3 harg3 arg4 harg4 arg5 harg5 arg6 harg6 arg7 harg7 arg8 harg8 arg9 harg9 hc0 hc1 hc2 x0 x1 x2 xs0 xs1 xs2) : St F) = step (BitVec.ofNat 32 (i 1).val) (BitVec.ofNat 32 (i 2).val) x0 x1 x2 (xs0, xs1, xs2) := by
  rw [sout1_D_0_eq, sout1_D_1_eq, sout1_D_2_eq]

/-- and the output block stored is the quotient of the folded state, read back from the scratch buffers. -/
theorem out1_D_3_eq (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i) (hc2 : cond1_2 i)
    (x0 : Vec F S1x512x1024 .bf16) (x1 : Vec F S1x512x1024 .bf16) (x2 : Vec F S1x512x1024 .bf16) (xs0 : Vec F S512x1 .f32) (xs1 : Vec F S512x1 .f32) (xs2 : Vec F S512x1024 .f32) :
    out1_D_3 c i arg3 harg3 arg4 harg4 arg5 harg5 arg6 harg6 arg7 harg7 arg8 harg8 arg9 harg9 hc0 hc1 hc2 x0 x1 x2 xs0 xs1 xs2 = fin (step (BitVec.ofNat 32 (i 1).val) (BitVec.ofNat 32 (i 2).val) x0 x1 x2 (xs0, xs1, xs2)) := by
  unfold out1_D_3
  rw [View.read_writes_eq_canon _ _ _ (cover1_D_3 c i arg3 harg3 arg4 harg4 arg5 harg5 arg6 harg6 arg7 harg7 arg8 harg8 arg9 harg9 hc0 hc1 hc2 x0 x1 x2 xs0 xs1 xs2)]
  unfold kernelRun1_D
  dsimp only
  try sl_unfold_words
  rw [View.canon_cons_unit_zero (S := S1x512x1024) hz3]
  simp only [View.readAt_eq_ld, harg3.read_unread, harg4.read_unread, harg5.read_unread, harg7.read_unread, harg8.read_unread, harg9.read_unread,
    View.ld_unit_zero (S := S1x512x1024) hz3, View.ld_unit_zero (S := S512x1) hz2, View.ld_unit_zero (S := S512x1024) hz2,
    View.readCov_unit_zero (S := S512x1) _ hz2, View.readCov_unit_zero (S := S512x1024) _ hz2]
  try rfl

theorem out1_D_3_fin (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : cond1_1 i) (hc2 : cond1_2 i)
    (x0 : Vec F S1x512x1024 .bf16) (x1 : Vec F S1x512x1024 .bf16) (x2 : Vec F S1x512x1024 .bf16) (xs0 : Vec F S512x1 .f32) (xs1 : Vec F S512x1 .f32) (xs2 : Vec F S512x1024 .f32) :
    out1_D_3 c i arg3 harg3 arg4 harg4 arg5 harg5 arg6 harg6 arg7 harg7 arg8 harg8 arg9 harg9 hc0 hc1 hc2 x0 x1 x2 xs0 xs1 xs2 = fin ((sout1_D_0 c i arg3 harg3 arg4 harg4 arg5 harg5 arg6 harg6 arg7 harg7 arg8 harg8 arg9 harg9 hc0 hc1 hc2 x0 x1 x2 xs0 xs1 xs2, sout1_D_1 c i arg3 harg3 arg4 harg4 arg5 harg5 arg6 harg6 arg7 harg7 arg8 harg8 arg9 harg9 hc0 hc1 hc2 x0 x1 x2 xs0 xs1 xs2, sout1_D_2 c i arg3 harg3 arg4 harg4 arg5 harg5 arg6 harg6 arg7 harg7 arg8 harg8 arg9 harg9 hc0 hc1 hc2 x0 x1 x2 xs0 xs1 xs2) : St F) := by
  rw [out1_D_3_eq, sout1_D_eq]

/-- At a row's last key block above the diagonal the output block stored is the quotient of the state the scratch
    buffers hold. -/
theorem out1_E_3_eq (c : Dev nD) (i : grid1.Coords) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1024 .f32) (harg9 : arg9.IsWhole) (hc0 : ¬cond1_0 i) (hc1 : ¬cond1_1 i) (hc2 : cond1_2 i)
    (xs1 : Vec F S512x1 .f32) (xs2 : Vec F S512x1024 .f32) :
    out1_E_3 c i arg3 harg3 arg4 harg4 arg5 harg5 arg6 harg6 arg7 harg7 arg8 harg8 arg9 harg9 hc0 hc1 hc2 xs1 xs2 = k1_pay7 xs2 xs1 := by
  unfold out1_E_3
  rw [View.read_writes_eq_canon _ _ _ (cover1_E_3 c i arg3 harg3 arg4 harg4 arg5 harg5 arg6 harg6 arg7 harg7 arg8 harg8 arg9 harg9 hc0 hc1 hc2 xs1 xs2)]
  unfold kernelRun1_E
  dsimp only
  try sl_unfold_words
  rw [View.canon_cons_unit_zero (S := S1x512x1024) hz3]
  simp only [View.readAt_eq_ld, harg3.read_unread, harg4.read_unread, harg5.read_unread, harg7.read_unread, harg8.read_unread, harg9.read_unread,
    View.ld_unit_zero (S := S1x512x1024) hz3, View.ld_unit_zero (S := S512x1) hz2, View.ld_unit_zero (S := S512x1024) hz2,
    View.readCov_unit_zero (S := S512x1) _ hz2, View.readCov_unit_zero (S := S512x1024) _ hz2]
  try rfl

section Region
-- the TensorCore's buffer contents as the region is entered
variable (V : (c : Dev nD) → (b : Ref sig .tc) → Buf (Elt F) ((c : Thread nD τ).loc b))

/-! ## What the output buffer and the carried state hold after each point -/

/-- What the output window's staging buffer and the three scratch buffers hold after the body at position `n` (the
    output buffer first, then row maximum, total weight, weighted sum): the case the closed forms select at `n`,
    run at the point's memrefs and input blocks, over what the point before left in the scratch buffers; where the
    body stores nothing into a scratch buffer it holds what the point before left. The assignments of the guards
    that no point meets (ki = 0 together with ki > qi or ki = 7) are no case. -/
def outsAt1 (c : Dev nD) : (n : ℕ) → n < cfg1.N → Vec F S1x512x1024 .f32 × St F
  | 0, hn => (outIdle, sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) ((hcond1_1 ⟨0, hn⟩).mpr (Nat.zero_le _)) (fun h => (fun h => by (try dsimp only at h); omega) ((hcond1_2 ⟨0, hn⟩).mp h)) (iblk1 V c 0 ⟨0, hn⟩) (iblk1 V c 1 ⟨0, hn⟩) (iblk1 V c 2 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) ((hcond1_1 ⟨0, hn⟩).mpr (Nat.zero_le _)) (fun h => (fun h => by (try dsimp only at h); omega) ((hcond1_2 ⟨0, hn⟩).mp h)) (iblk1 V c 0 ⟨0, hn⟩) (iblk1 V c 1 ⟨0, hn⟩) (iblk1 V c 2 ⟨0, hn⟩), sout1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) ((hcond1_1 ⟨0, hn⟩).mpr (Nat.zero_le _)) (fun h => (fun h => by (try dsimp only at h); omega) ((hcond1_2 ⟨0, hn⟩).mp h)) (iblk1 V c 0 ⟨0, hn⟩) (iblk1 V c 1 ⟨0, hn⟩) (iblk1 V c 2 ⟨0, hn⟩))
  | n + 1, hn =>
    if h0 : (n + 1) % 8 = 0 then
      if h1 : (n + 1) % 8 ≤ (n + 1) / 8 % 8 then
        if h2 : (n + 1) % 8 = 7 then
          False.elim (by omega)
        else
          (outIdle, sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) ((hcond1_1 ⟨n + 1, hn⟩).mpr h1) (fun h => h2 ((hcond1_2 ⟨n + 1, hn⟩).mp h)) (iblk1 V c 0 ⟨n + 1, hn⟩) (iblk1 V c 1 ⟨n + 1, hn⟩) (iblk1 V c 2 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) ((hcond1_1 ⟨n + 1, hn⟩).mpr h1) (fun h => h2 ((hcond1_2 ⟨n + 1, hn⟩).mp h)) (iblk1 V c 0 ⟨n + 1, hn⟩) (iblk1 V c 1 ⟨n + 1, hn⟩) (iblk1 V c 2 ⟨n + 1, hn⟩), sout1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) ((hcond1_1 ⟨n + 1, hn⟩).mpr h1) (fun h => h2 ((hcond1_2 ⟨n + 1, hn⟩).mp h)) (iblk1 V c 0 ⟨n + 1, hn⟩) (iblk1 V c 1 ⟨n + 1, hn⟩) (iblk1 V c 2 ⟨n + 1, hn⟩))
      else
        False.elim (by omega)
    else
      if h1 : (n + 1) % 8 ≤ (n + 1) / 8 % 8 then
        if h2 : (n + 1) % 8 = 7 then
          (out1_D_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) ((hcond1_2 ⟨n + 1, hn⟩).mpr h2) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_D_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) ((hcond1_2 ⟨n + 1, hn⟩).mpr h2) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_D_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) ((hcond1_2 ⟨n + 1, hn⟩).mpr h2) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_D_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) ((hcond1_2 ⟨n + 1, hn⟩).mpr h2) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2)
        else
          (outIdle, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (fun h => h2 ((hcond1_2 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (fun h => h2 ((hcond1_2 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (fun h => h2 ((hcond1_2 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2)
      else
        if h2 : (n + 1) % 8 = 7 then
          (out1_E_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) ((hcond1_2 ⟨n + 1, hn⟩).mpr h2) (outsAt1 c n (Nat.lt_of_succ_lt hn)).2.2.1 (outsAt1 c n (Nat.lt_of_succ_lt hn)).2.2.2, (outsAt1 c n (Nat.lt_of_succ_lt hn)).2)
        else
          (outIdle, (outsAt1 c n (Nat.lt_of_succ_lt hn)).2)

/-- `outsAt1` at a row's first key block: the reset state with the first key block folded in. -/
theorem outsAt1_A (c : Dev nD) (t : Fin cfg1.N) (h0 : t.val % 8 = 0) (h1 : t.val % 8 ≤ t.val / 8 % 8) (h2 : ¬t.val % 8 = 7) :
    outsAt1 V c t.val t.isLt = (outIdle, sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr h1) (fun h => h2 ((hcond1_2 t).mp h)) (iblk1 V c 0 t) (iblk1 V c 1 t) (iblk1 V c 2 t), sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr h1) (fun h => h2 ((hcond1_2 t).mp h)) (iblk1 V c 0 t) (iblk1 V c 1 t) (iblk1 V c 2 t), sout1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr h1) (fun h => h2 ((hcond1_2 t).mp h)) (iblk1 V c 0 t) (iblk1 V c 1 t) (iblk1 V c 2 t)) := by
  obtain ⟨n, hn⟩ := t
  cases n with
  | zero => exact rfl
  | succ n => exact (dif_pos h0).trans ((dif_pos h1).trans ((dif_neg h2).trans rfl))

/-- `outsAt1` at a later key block on or below the diagonal, not the row's last: the key block folded into what the point before left. -/
theorem outsAt1_B (c : Dev nD) (t : Fin cfg1.N) (h0 : ¬t.val % 8 = 0) (h1 : t.val % 8 ≤ t.val / 8 % 8) (h2 : ¬t.val % 8 = 7) :
    outsAt1 V c t.val t.isLt = (outIdle, sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (fun h => h2 ((hcond1_2 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (fun h => h2 ((hcond1_2 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (fun h => h2 ((hcond1_2 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans ((dif_neg h2).trans rfl))

/-- `outsAt1` at a key block above the diagonal, not the row's last: the state the point before left. -/
theorem outsAt1_C (c : Dev nD) (t : Fin cfg1.N) (h0 : ¬t.val % 8 = 0) (h1 : ¬t.val % 8 ≤ t.val / 8 % 8) (h2 : ¬t.val % 8 = 7) :
    outsAt1 V c t.val t.isLt = (outIdle, (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans ((dif_neg h2).trans rfl))

/-- `outsAt1` at a row's last key block on the diagonal: the key block folded in, and the output block. -/
theorem outsAt1_D (c : Dev nD) (t : Fin cfg1.N) (h0 : ¬t.val % 8 = 0) (h1 : t.val % 8 ≤ t.val / 8 % 8) (h2 : t.val % 8 = 7) :
    outsAt1 V c t.val t.isLt = (out1_D_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_D_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_D_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_D_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans ((dif_pos h2).trans rfl))

/-- `outsAt1` at a row's last key block above the diagonal: the state the point before left, and the output block. -/
theorem outsAt1_E (c : Dev nD) (t : Fin cfg1.N) (h0 : ¬t.val % 8 = 0) (h1 : ¬t.val % 8 ≤ t.val / 8 % 8) (h2 : t.val % 8 = 7) :
    outsAt1 V c t.val t.isLt = (out1_E_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) ((hcond1_2 t).mpr h2) (outsAt1 V c (t.val - 1) (Nat.lt_of_le_of_lt (Nat.sub_le _ _) t.isLt)).2.2.1 (outsAt1 V c (t.val - 1) (Nat.lt_of_le_of_lt (Nat.sub_le _ _) t.isLt)).2.2.2, (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans ((dif_pos h2).trans rfl))

/-! ## The region's invariant, point by point -/

/-- The invariant before position `n`: before the first point the class's (every scratch buffer at anything);
    afterwards the scoped rest with the three scratch buffers at what the point before left in them, and the
    pseudo-random number register at some state. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg2_0), ((c : Thread nD τ).loc cc0_stg2_0) ↦{fullShare} f)
          ∗ (∃ f : Buf (Elt F) ((c : Thread nD τ).loc cc0_stg2_1), ((c : Thread nD τ).loc cc0_stg2_1) ↦{fullShare} f)
          ∗ owns (c : Thread nD τ) scM1_0 fullShare ((outsAt1 V c n hn).2.1)
          ∗ owns (c : Thread nD τ) scM1_1 fullShare ((outsAt1 V c n hn).2.2.1)
          ∗ owns (c : Thread nD τ) scM1_2 fullShare ((outsAt1 V c n hn).2.2.2)) ∗ (∃ r, prngReg c r))

theorem PhiS_zero (c : Dev nD) (n : ℕ) (h : n ≤ cfg1.N) (hz : n = 0) : PhiS V c n h = Pipeline.ΦA spec1 c := by
  subst hz; rfl

/-- After point `n` (before point `n + 1`): the scratch buffers at that point's state. -/
theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg2_0), ((c : Thread nD τ).loc cc0_stg2_0) ↦{fullShare} f)
          ∗ (∃ f : Buf (Elt F) ((c : Thread nD τ).loc cc0_stg2_1), ((c : Thread nD τ).loc cc0_stg2_1) ↦{fullShare} f)
          ∗ owns (c : Thread nD τ) scM1_0 fullShare ((outsAt1 V c n hn).2.1)
          ∗ owns (c : Thread nD τ) scM1_1 fullShare ((outsAt1 V c n hn).2.2.1)
          ∗ owns (c : Thread nD τ) scM1_2 fullShare ((outsAt1 V c n hn).2.2.2)) ∗ (∃ r, prngReg c r)) := rfl

/-- Before a point that is not the first: the scratch buffers at what the point before left. -/
theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f)
          ∗ (∃ f : Buf (Elt F) ((c : Thread nD τ).loc cc0_stg0_1), ((c : Thread nD τ).loc cc0_stg0_1) ↦{fullShare} f)
          ∗ (∃ f : Buf (Elt F) ((c : Thread nD τ).loc cc0_stg1_0), ((c : Thread nD τ).loc cc0_stg1_0) ↦{fullShare} f)
          ∗ (∃ f : Buf (Elt F) ((c : Thread nD τ).loc cc0_stg2_0), ((c : Thread nD τ).loc cc0_stg2_0) ↦{fullShare} f)
          ∗ (∃ f : Buf (Elt F) ((c : Thread nD τ).loc cc0_stg2_1), ((c : Thread nD τ).loc cc0_stg2_1) ↦{fullShare} f)
          ∗ owns (c : Thread nD τ) scM1_0 fullShare ((outsAt1 V c (n - 1) (by omega)).2.1)
          ∗ owns (c : Thread nD τ) scM1_1 fullShare ((outsAt1 V c (n - 1) (by omega)).2.2.1)
          ∗ owns (c : Thread nD τ) scM1_2 fullShare ((outsAt1 V c (n - 1) (by omega)).2.2.2)) ∗ (∃ r, prngReg c r)) := by
  cases n with
  | zero => exact absurd rfl hz
  | succ n => rfl

/-! ## The pipeline's proof data -/

/-- The proof data of the attention pipeline on core `c`: the arrays as the region finds them; after the body at
    point `t` each input's buffer at its block and the output's at `outsAt1`'s first component; the invariant
    `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS_castSucc (c : Dev nD) (t : Fin cfg1.N) :
    (dat1 V c).Φ t.castSucc = PhiS V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`: the invariant, what the core owes, and each window's current staging
    buffer at what it then holds. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4000000 in
/-- The body at a row's first key block: the scratch buffers come at anything (before the first point) or at what the point before left, and go back with the reset-and-folded state. -/
theorem sound_body1_A (c : Dev nD) (t : Fin cfg1.N) (h0 : t.val % 8 = 0) (h1 : t.val % 8 ≤ t.val / 8 % 8) (h2 : ¬t.val % 8 = 7) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [Dat.leavesExact_idle (dat1 V c) 3 t (idleAt1_3 t (fun h => h2 ((hcond1_2 t).mp h))) (noFlush1_3 t (fun h => h2 ((hcond1_2 t).mp h)))]
  rw [outsAt1_A V c t h0 h1 h2]
  unfold sout1_A_0 sout1_A_1 sout1_A_2; (try dsimp only)
  by_cases hz : t.val = 0
  · rw [PhiS_castSucc V c t, PhiS_zero V c _ _ hz, PhiA1_eq]
    iintro ⟨⟨⟨Ha1, Ha2, Ha3, Ha4, Ha5, HS0, HS1, HS2⟩, Hg⟩, Ho, ⟨%d0, H0⟩, ⟨%d1, H1⟩, ⟨%d2, H2⟩, ⟨%d3, H3⟩⟩
    iapply ((kernelRun1_A c (grid1.coords t) _ _ _ _ _ _ _ _ _ _ _ _ _ _ ((hcond1_0 t).mpr h0) ((hcond1_1 t).mpr h1) (fun h => h2 ((hcond1_2 t).mp h)) (iblk1 V c 0 t) (iblk1 V c 1 t) (iblk1 V c 2 t)).2.2.2.2 _ Set.univ _)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    iintro ⟨H0, H1, H2, H3, ⟨%es0, HS0⟩, ⟨%es1, HS1⟩, ⟨%es2, HS2⟩⟩
    isplitl [Ha1 Ha2 Ha3 Ha4 Ha5 HS0 HS1 HS2 Hg]
    · isplitl [Ha1 Ha2 Ha3 Ha4 Ha5 HS0 HS1 HS2]
      · isplitl [Ha1]; · iexact Ha1
        isplitl [Ha2]; · iexact Ha2
        isplitl [Ha3]; · iexact Ha3
        isplitl [Ha4]; · iexact Ha4
        isplitl [Ha5]; · iexact Ha5
        isplitl [HS0]
        · unfold owns; iexists _; isplitr
          swap; · iexact HS0
          ipureintro; exact View.read_writes_of_cover _ _ _ _ _ (scover1_A_0 c _ _ _ _ _ _ _ _ _ _ _ _ _ _ _ _ _ _ _ _ _)
        isplitl [HS1]
        · unfold owns; iexists _; isplitr
          swap; · iexact HS1
          ipureintro; exact View.read_writes_of_cover _ _ _ _ _ (scover1_A_1 c _ _ _ _ _ _ _ _ _ _ _ _ _ _ _ _ _ _ _ _ _)
        unfold owns; iexists _; isplitr
        swap; · iexact HS2
        ipureintro; exact View.read_writes_of_cover _ _ _ _ _ (scover1_A_2 c _ _ _ _ _ _ _ _ _ _ _ _ _ _ _ _ _ _ _ _ _)
      iexact Hg
    isplitl [Ho]; · iexact Ho
    isplitl [H0]; · iexact H0
    isplitl [H1]; · iexact H1
    isplitl [H2]; · iexact H2
    iexists _; iexact H3
  · rw [PhiS_castSucc V c t, PhiS_pos V c _ _ hz]
    iintro ⟨⟨⟨Ha1, Ha2, Ha3, Ha4, Ha5, HS0, HS1, HS2⟩, Hg⟩, Ho, ⟨%d0, H0⟩, ⟨%d1, H1⟩, ⟨%d2, H2⟩, ⟨%d3, H3⟩⟩
    iapply ((kernelRun1_A c (grid1.coords t) _ _ _ _ _ _ _ _ _ _ _ _ _ _ ((hcond1_0 t).mpr h0) ((hcond1_1 t).mpr h1) (fun h => h2 ((hcond1_2 t).mp h)) (iblk1 V c 0 t) (iblk1 V c 1 t) (iblk1 V c 2 t)).2.2.2.2 _ Set.univ _)
    isplitl [H0]; · iexact H0
    isplitl [H1]; · iexact H1
    isplitl [H2]; · iexact H2
    isplitl [H3]; · iexact H3
    isplitl [HS0]; · iexists _; iexact HS0
    isplitl [HS1]; · iexists _; iexact HS1
    isplitl [HS2]; · iexists _; iexact HS2
    iintro ⟨H0, H1, H2, H3, ⟨%es0, HS0⟩, ⟨%es1, HS1⟩, ⟨%es2, HS2⟩⟩
    isplitl [Ha1 Ha2 Ha3 Ha4 Ha5 HS0 HS1 HS2 Hg]
    · isplitl [Ha1 Ha2 Ha3 Ha4 Ha5 HS0 HS1 HS2]
      · isplitl [Ha1]; · iexact Ha1
        isplitl [Ha2]; · iexact Ha2
        isplitl [Ha3]; · iexact Ha3
        isplitl [Ha4]; · iexact Ha4
        isplitl [Ha5]; · iexact Ha5
        isplitl [HS0]
        · unfold owns; iexists _; isplitr
          swap; · iexact HS0
          ipureintro; exact View.read_writes_of_cover _ _ _ _ _ (scover1_A_0 c _ _ _ _ _ _ _ _ _ _ _ _ _ _ _ _ _ _ _ _ _)
        isplitl [HS1]
        · unfold owns; iexists _; isplitr
          swap; · iexact HS1
          ipureintro; exact View.read_writes_of_cover _ _ _ _ _ (scover1_A_1 c _ _ _ _ _ _ _ _ _ _ _ _ _ _ _ _ _ _ _ _ _)
        unfold owns; iexists _; isplitr
        swap; · iexact HS2
        ipureintro; exact View.read_writes_of_cover _ _ _ _ _ (scover1_A_2 c _ _ _ _ _ _ _ _ _ _ _ _ _ _ _ _ _ _ _ _ _)
      iexact Hg
    isplitl [Ho]; · iexact Ho
    isplitl [H0]; · iexact H0
    isplitl [H1]; · iexact H1
    isplitl [H2]; · iexact H2
    iexists _; iexact H3

set_option maxHeartbeats 4000000 in
/-- The body at a later key block on or below the diagonal, not the row's last. -/
theorem sound_body1_B (c : Dev nD) (t : Fin cfg1.N) (h0 : ¬t.val % 8 = 0) (h1 : t.val % 8 ≤ t.val / 8 % 8) (h2 : ¬t.val % 8 = 7) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [Dat.leavesExact_idle (dat1 V c) 3 t (idleAt1_3 t (fun h => h2 ((hcond1_2 t).mp h))) (noFlush1_3 t (fun h => h2 ((hcond1_2 t).mp h)))]
  rw [outsAt1_B V c t h0 h1 h2]
  unfold sout1_B_0 sout1_B_1 sout1_B_2; (try dsimp only)
  have hz : t.val ≠ 0 := fun hz => h0 (by rw [hz])
  rw [PhiS_castSucc V c t, PhiS_pos V c _ _ hz]
  iintro ⟨⟨⟨Ha1, Ha2, Ha3, Ha4, Ha5, HS0, HS1, HS2⟩, Hg⟩, Ho, ⟨%d0, H0⟩, ⟨%d1, H1⟩, ⟨%d2, H2⟩, ⟨%d3, H3⟩⟩
  iapply ((kernelRun1_B c (grid1.coords t) _ _ _ _ _ _ _ _ _ _ _ _ _ _ (fun h => h0 ((hcond1_0 t).mp h)) ((hcond1_1 t).mpr h1) (fun h => h2 ((hcond1_2 t).mp h)) (iblk1 V c 0 t) (iblk1 V c 1 t) (iblk1 V c 2 t) _ _ _).2.2.2.2 _ Set.univ _)
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  iintro ⟨H0, H1, H2, H3, ⟨%es0, HS0⟩, ⟨%es1, HS1⟩, ⟨%es2, HS2⟩⟩
  isplitl [Ha1 Ha2 Ha3 Ha4 Ha5 HS0 HS1 HS2 Hg]
  · isplitl [Ha1 Ha2 Ha3 Ha4 Ha5 HS0 HS1 HS2]
    · isplitl [Ha1]; · iexact Ha1
      isplitl [Ha2]; · iexact Ha2
      isplitl [Ha3]; · iexact Ha3
      isplitl [Ha4]; · iexact Ha4
      isplitl [Ha5]; · iexact Ha5
      isplitl [HS0]
      · unfold owns; iexists _; isplitr
        swap; · iexact HS0
        ipureintro; exact View.read_writes_of_cover _ _ _ _ _ (scover1_B_0 c _ _ _ _ _ _ _ _ _ _ _ _ _ _ _ _ _ _ _ _ _ _ _ _)
      isplitl [HS1]
      · unfold owns; iexists _; isplitr
        swap; · iexact HS1
        ipureintro; exact View.read_writes_of_cover _ _ _ _ _ (scover1_B_1 c _ _ _ _ _ _ _ _ _ _ _ _ _ _ _ _ _ _ _ _ _ _ _ _)
      unfold owns; iexists _; isplitr
      swap; · iexact HS2
      ipureintro; exact View.read_writes_of_cover _ _ _ _ _ (scover1_B_2 c _ _ _ _ _ _ _ _ _ _ _ _ _ _ _ _ _ _ _ _ _ _ _ _)
    iexact Hg
  isplitl [Ho]; · iexact Ho
  isplitl [H0]; · iexact H0
  isplitl [H1]; · iexact H1
  isplitl [H2]; · iexact H2
  iexists _; iexact H3

set_option maxHeartbeats 4000000 in
/-- The body at a key block above the diagonal, not the row's last: every buffer goes back as it came. -/
theorem sound_body1_C (c : Dev nD) (t : Fin cfg1.N) (h0 : ¬t.val % 8 = 0) (h1 : ¬t.val % 8 ≤ t.val / 8 % 8) (h2 : ¬t.val % 8 = 7) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [Dat.leavesExact_idle (dat1 V c) 3 t (idleAt1_3 t (fun h => h2 ((hcond1_2 t).mp h))) (noFlush1_3 t (fun h => h2 ((hcond1_2 t).mp h)))]
  rw [outsAt1_C V c t h0 h1 h2]
  (try dsimp only)
  have hz : t.val ≠ 0 := fun hz => h0 (by rw [hz])
  rw [PhiS_castSucc V c t, PhiS_pos V c _ _ hz]
  iintro ⟨⟨⟨Ha1, Ha2, Ha3, Ha4, Ha5, HS0, HS1, HS2⟩, Hg⟩, Ho, ⟨%d0, H0⟩, ⟨%d1, H1⟩, ⟨%d2, H2⟩, ⟨%d3, H3⟩⟩
  iapply (kernelRun1_C c (grid1.coords t) _ _ _ _ _ _ _ _ _ _ _ _ _ _ (fun h => h0 ((hcond1_0 t).mp h)) (fun h => h1 ((hcond1_1 t).mp h)) (fun h => h2 ((hcond1_2 t).mp h)) Set.univ _)
  isplitl [Ha1 Ha2 Ha3 Ha4 Ha5 HS0 HS1 HS2 Hg]
  · isplitl [Ha1 Ha2 Ha3 Ha4 Ha5 HS0 HS1 HS2]
    · isplitl [Ha1]; · iexact Ha1
      isplitl [Ha2]; · iexact Ha2
      isplitl [Ha3]; · iexact Ha3
      isplitl [Ha4]; · iexact Ha4
      isplitl [Ha5]; · iexact Ha5
      isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  iexists _; iexact H3

set_option maxHeartbeats 4000000 in
/-- The body at a row's last key block on the diagonal. -/
theorem sound_body1_D (c : Dev nD) (t : Fin cfg1.N) (h0 : ¬t.val % 8 = 0) (h1 : t.val % 8 ≤ t.val / 8 % 8) (h2 : t.val % 8 = 7) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t ((hcond1_2 t).mpr h2)], after1_3]
  rw [outsAt1_D V c t h0 h1 h2]
  unfold out1_D_3 sout1_D_0 sout1_D_1 sout1_D_2; (try dsimp only)
  have hz : t.val ≠ 0 := fun hz => h0 (by rw [hz])
  rw [PhiS_castSucc V c t, PhiS_pos V c _ _ hz]
  iintro ⟨⟨⟨Ha1, Ha2, Ha3, Ha4, Ha5, HS0, HS1, HS2⟩, Hg⟩, Ho, ⟨%d0, H0⟩, ⟨%d1, H1⟩, ⟨%d2, H2⟩, ⟨%d3, H3⟩⟩
  iapply ((kernelRun1_D c (grid1.coords t) _ _ _ _ _ _ _ _ _ _ _ _ _ _ (fun h => h0 ((hcond1_0 t).mp h)) ((hcond1_1 t).mpr h1) ((hcond1_2 t).mpr h2) (iblk1 V c 0 t) (iblk1 V c 1 t) (iblk1 V c 2 t) _ _ _).2.2.2.2 Set.univ _)
  isplitl [H0]; · iexact H0
  isplitl [H1]; · iexact H1
  isplitl [H2]; · iexact H2
  isplitl [H3]; · iexists _; iexact H3
  isplitl [HS0]; · iexact HS0
  isplitl [HS1]; · iexact HS1
  isplitl [HS2]; · iexact HS2
  iintro ⟨H0, H1, H2, ⟨%e3, H3⟩, ⟨%es0, HS0⟩, ⟨%es1, HS1⟩, ⟨%es2, HS2⟩⟩
  isplitl [Ha1 Ha2 Ha3 Ha4 Ha5 HS0 HS1 HS2 Hg]
  · isplitl [Ha1 Ha2 Ha3 Ha4 Ha5 HS0 HS1 HS2]
    · isplitl [Ha1]; · iexact Ha1
      isplitl [Ha2]; · iexact Ha2
      isplitl [Ha3]; · iexact Ha3
      isplitl [Ha4]; · iexact Ha4
      isplitl [Ha5]; · iexact Ha5
      isplitl [HS0]
      · unfold owns; iexists _; isplitr
        swap; · iexact HS0
        ipureintro; exact View.read_writes_of_cover _ _ _ _ _ (scover1_D_0 c _ _ _ _ _ _ _ _ _ _ _ _ _ _ _ _ _ _ _ _ _ _ _ _)
      isplitl [HS1]
      · unfold owns; iexists _; isplitr
        swap; · iexact HS1
        ipureintro; exact View.read_writes_of_cover _ _ _ _ _ (scover1_D_1 c _ _ _ _ _ _ _ _ _ _ _ _ _ _ _ _ _ _ _ _ _ _ _ _)
      unfold owns; iexists _; isplitr
      swap; · iexact HS2
      ipureintro; exact View.read_writes_of_cover _ _ _ _ _ (scover1_D_2 c _ _ _ _ _ _ _ _ _ _ _ _ _ _ _ _ _ _ _ _ _ _ _ _)
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover1_D_3 c _ _ _ _ _ _ _ _ _ _ _ _ _ _ _ _ _ _ _ _ _ _ _ _)

set_option maxHeartbeats 4000000 in
/-- The body at a row's last key block above the diagonal. -/
theorem sound_body1_E (c : Dev nD) (t : Fin cfg1.N) (h0 : ¬t.val % 8 = 0) (h1 : ¬t.val % 8 ≤ t.val / 8 % 8) (h2 : t.val % 8 = 7) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t ((hcond1_2 t).mpr h2)], after1_3]
  rw [outsAt1_E V c t h0 h1 h2]
  unfold out1_E_3; (try dsimp only)
  have hz : t.val ≠ 0 := fun hz => h0 (by rw [hz])
  rw [PhiS_castSucc V c t, PhiS_pos V c _ _ hz]
  iintro ⟨⟨⟨Ha1, Ha2, Ha3, Ha4, Ha5, HS0, HS1, HS2⟩, Hg⟩, Ho, ⟨%d0, H0⟩, ⟨%d1, H1⟩, ⟨%d2, H2⟩, ⟨%d3, H3⟩⟩
  iapply ((kernelRun1_E c (grid1.coords t) _ _ _ _ _ _ _ _ _ _ _ _ _ _ (fun h => h0 ((hcond1_0 t).mp h)) (fun h => h1 ((hcond1_1 t).mp h)) ((hcond1_2 t).mpr h2) _ _).2 Set.univ _)
  isplitl [H3]; · iexists _; iexact H3
  isplitl [HS1]; · iexact HS1
  isplitl [HS2]; · iexact HS2
  iintro ⟨⟨%e3, H3⟩, HS1, HS2⟩
  isplitl [Ha1 Ha2 Ha3 Ha4 Ha5 HS0 HS1 HS2 Hg]
  · isplitl [Ha1 Ha2 Ha3 Ha4 Ha5 HS0 HS1 HS2]
    · isplitl [Ha1]; · iexact Ha1
      isplitl [Ha2]; · iexact Ha2
      isplitl [Ha3]; · iexact Ha3
      isplitl [Ha4]; · iexact Ha4
      isplitl [Ha5]; · iexact Ha5
      isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover1_E_3 c _ _ _ _ _ _ _ _ _ _ _ _ _ _ _ _ _ _ _ _)

/-- The body at any point: the closed forms of the three guards say which of the five cases the point is in. -/
theorem sound_body1 (c : Dev nD) (t : Fin cfg1.N) :
    bodyPre1 V c t ⊢ wp frame (wpE (defs₀ (F := F)) Variants.none c none) Set.univ (bodyAt1 t) (fun _ => bodyPost1 V c t) := by
  by_cases h0 : t.val % 8 = 0
  · by_cases h1 : t.val % 8 ≤ t.val / 8 % 8
    · by_cases h2 : t.val % 8 = 7
      · exfalso; omega
      · exact sound_body1_A V c t h0 h1 h2
    · exfalso; omega
  · by_cases h1 : t.val % 8 ≤ t.val / 8 % 8
    · by_cases h2 : t.val % 8 = 7
      · exact sound_body1_D V c t h0 h1 h2
      · exact sound_body1_B V c t h0 h1 h2
    · by_cases h2 : t.val % 8 = 7
      · exact sound_body1_E V c t h0 h1 h2
      · exact sound_body1_C V c t h0 h1 h2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point the invariant gives the class's back: the scratch buffers' named contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨⟨Ha1, Ha2, Ha3, Ha4, Ha5, HS0, HS1, HS2⟩, Hg⟩
  isplitl [Ha1 Ha2 Ha3 Ha4 Ha5 HS0 HS1 HS2]
  · isplitl [Ha1]; · iexact Ha1
    isplitl [Ha2]; · iexact Ha2
    isplitl [Ha3]; · iexact Ha3
    isplitl [Ha4]; · iexact Ha4
    isplitl [Ha5]; · iexact Ha5
    isplitl [HS0]; · iexists _; iexact HS0
    isplitl [HS1]; · iexists _; iexact HS1
    iexists _; iexact HS2
  iexact Hg

/-- The same after the last point. -/
theorem hout1 (c : Dev nD) : (dat1 V c).Φ (Fin.last cfg1.N) ⊢ Pipeline.ΦA spec1 c :=
  Phi_out1 V c _ (by rw [Fin.val_last]; have : cfg1.N = 256 := N_1; omega)

/-! ## The four equations of `outsAt1` -/

/-- At a row's first key block the state is the first key block folded into the reset state. -/
theorem state_first (c : Dev nD) (t : Fin cfg1.N) (h0 : t.val % 8 = 0) :
    (outsAt1 V c t.val t.isLt).2 = step (BitVec.ofNat 32 (grid1.coords t 1).val) (BitVec.ofNat 32 (grid1.coords t 2).val) (iblk1 V c 0 t) (iblk1 V c 1 t) (iblk1 V c 2 t) init := by
  have h1 : t.val % 8 ≤ t.val / 8 % 8 := by omega
  have h2 : ¬t.val % 8 = 7 := by omega
  rw [outsAt1_A V c t h0 h1 h2]
  exact sout1_A_eq c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) ((hcond1_1 t).mpr h1) (fun h => h2 ((hcond1_2 t).mp h)) (iblk1 V c 0 t) (iblk1 V c 1 t) (iblk1 V c 2 t)

/-- At a later key block on or below the diagonal the state is the key block folded into the state before. -/
theorem state_step (c : Dev nD) (t : Fin cfg1.N) (h0 : t.val % 8 ≠ 0) (h1 : t.val % 8 ≤ t.val / 8 % 8) :
    (outsAt1 V c t.val t.isLt).2 = step (BitVec.ofNat 32 (grid1.coords t 1).val) (BitVec.ofNat 32 (grid1.coords t 2).val) (iblk1 V c 0 t) (iblk1 V c 1 t) (iblk1 V c 2 t) (outsAt1 V c (t.val - 1) (Nat.lt_of_le_of_lt (Nat.sub_le _ _) t.isLt)).2 := by
  by_cases h2 : t.val % 8 = 7
  · rw [outsAt1_D V c t h0 h1 h2]
    exact sout1_D_eq c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2
  · rw [outsAt1_B V c t h0 h1 h2]
    exact sout1_B_eq c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (fun h => h2 ((hcond1_2 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2

/-- At a key block above the diagonal the state is the state before. -/
theorem state_skip (c : Dev nD) (t : Fin cfg1.N) (h1 : ¬t.val % 8 ≤ t.val / 8 % 8) :
    (outsAt1 V c t.val t.isLt).2 = (outsAt1 V c (t.val - 1) (Nat.lt_of_le_of_lt (Nat.sub_le _ _) t.isLt)).2 := by
  have h0 : ¬t.val % 8 = 0 := by omega
  by_cases h2 : t.val % 8 = 7
  · rw [outsAt1_E V c t h0 h1 h2]
  · rw [outsAt1_C V c t h0 h1 h2]

/-- At a row's last key block the output block is the state's weighted sum divided by its total weight. -/
theorem out_last (c : Dev nD) (t : Fin cfg1.N) (h2 : t.val % 8 = 7) :
    (outsAt1 V c t.val t.isLt).1 = fin (outsAt1 V c t.val t.isLt).2 := by
  have h0 : ¬t.val % 8 = 0 := by omega
  by_cases h1 : t.val % 8 ≤ t.val / 8 % 8
  · rw [outsAt1_D V c t h0 h1 h2]
    dsimp only
    exact out1_D_3_fin c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) ((hcond1_2 t).mpr h2) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2
  · rw [outsAt1_E V c t h0 h1 h2]
    dsimp only
    exact out1_E_3_eq c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) ((hcond1_2 t).mpr h2) (outsAt1 V c (t.val - 1) (Nat.lt_of_le_of_lt (Nat.sub_le _ _) t.isLt)).2.2.1 (outsAt1 V c (t.val - 1) (Nat.lt_of_le_of_lt (Nat.sub_le _ _) t.isLt)).2.2.2

end Region

end Cert.KernelIdeal.R1

end
-- ==== Proof.KI.Run.lean ====
/-
  @main as four segments — a stretch of host operations, the projection region, a second stretch, the attention region —
  run from the launch to the return: every weakly fair execution terminates, nothing faults, and the final memory
  holds, at every buffer that outlives the regions, the last boundary's contents W4. The arguments walk back through
  the fold to the launch memory (no host operation and no region writes one); the result array is what the attention
  region's write-backs leave.
-/
import proofs.«181245_j47132971106646_2_alg».proof.Proof.KI.Bounds
import proofs.«181245_j47132971106646_2_alg».proof.Proof.KI.R1Frame

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.R0 Cert.KernelIdeal.R1

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- At the attention region's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- No host operation of the first stretch writes `b`. -/
theorem W1_keep (c : Dev nD) (b : Ref sig .tc) (hb : b ∉ ([main_v0, main_v1, main_v2, main_v3, main_v4, main_v5] : List (Ref sig .tc))) :
    W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.nullary_writes, StableHlo.unary_writes, StableHlo.binary_writes, StableHlo.reshape_writes, StableHlo.nary_writes, Finset.mem_singleton]
    simp only [List.mem_cons, List.not_mem_nil, or_false, not_or] at hb
    obtain ⟨h0, h1, h2, h3, h4, h5⟩ := hb
    exact ⟨StableHlo.devRef_ne_of_ne h0, StableHlo.devRef_ne_of_ne h1, StableHlo.devRef_ne_of_ne h2, StableHlo.devRef_ne_of_ne h3, StableHlo.devRef_ne_of_ne h4, StableHlo.devRef_ne_of_ne h5⟩))
/-- No host operation of the second stretch writes `b`. -/
theorem W3_keep (c : Dev nD) (b : Ref sig .tc) (hb : b ∉ ([main_v7, main_v8, main_v9, main_v10, main_v11, main_v12] : List (Ref sig .tc))) :
    W3 m ρ c (Proc.devRef .tc b) = W2 m ρ c (Proc.devRef .tc b) :=
  StableHlo.after_of_forall_not_mem (b := Proc.devRef .tc b) _ _ (List.forall_iff_forall_mem.mp (by
    simp only [hostOps1, List.Forall, StableHlo.nullary_writes, StableHlo.unary_writes, StableHlo.binary_writes, StableHlo.reshape_writes, StableHlo.nary_writes, Finset.mem_singleton]
    simp only [List.mem_cons, List.not_mem_nil, or_false, not_or] at hb
    obtain ⟨h0, h1, h2, h3, h4, h5⟩ := hb
    exact ⟨StableHlo.devRef_ne_of_ne h0, StableHlo.devRef_ne_of_ne h1, StableHlo.devRef_ne_of_ne h2, StableHlo.devRef_ne_of_ne h3, StableHlo.devRef_ne_of_ne h4, StableHlo.devRef_ne_of_ne h5⟩))

/-- An argument array reaches the end as launched. -/
theorem W4_arg (c : Dev nD) (b : Ref sig .tc) (h4 : ∀ w, Pipeline.arrRef spec1 w ≠ b)
    (h3 : b ∉ ([main_v7, main_v8, main_v9, main_v10, main_v11, main_v12] : List (Ref sig .tc)))
    (h2 : ∀ w, Pipeline.arrRef spec0 w ≠ b)
    (h1 : b ∉ ([main_v0, main_v1, main_v2, main_v3, main_v4, main_v5] : List (Ref sig .tc))) :
    W4 m ρ c (Proc.devRef .tc b) = m ((c : Thread nD τ).loc b) :=
  (W4_of_ne m ρ c b h4).trans ((W3_keep m ρ c b h3).trans ((W2_of_ne m ρ c b h2).trans ((W1_keep m ρ c b h1).trans rfl)))

theorem W4_main_arg0 (c : Dev nD) : W4 m ρ c (Proc.devRef .tc main_arg0) = m ((c : Thread nD τ).loc main_arg0) :=
  W4_arg m ρ c main_arg0 (by decide) (by decide) (by decide) (by decide)
theorem W4_main_arg1 (c : Dev nD) : W4 m ρ c (Proc.devRef .tc main_arg1) = m ((c : Thread nD τ).loc main_arg1) :=
  W4_arg m ρ c main_arg1 (by decide) (by decide) (by decide) (by decide)
theorem W4_main_arg2 (c : Dev nD) : W4 m ρ c (Proc.devRef .tc main_arg2) = m ((c : Thread nD τ).loc main_arg2) :=
  W4_arg m ρ c main_arg2 (by decide) (by decide) (by decide) (by decide)
theorem W4_main_arg3 (c : Dev nD) : W4 m ρ c (Proc.devRef .tc main_arg3) = m ((c : Thread nD τ).loc main_arg3) :=
  W4_arg m ρ c main_arg3 (by decide) (by decide) (by decide) (by decide)

/-! ## The proof data family and the thread state -/

abbrev adm : (p : Fin 2) → (pcfgs (F := F) p).Adm := fun p => (cfgs p).toPCfg_adm
/-- Each region's proof data at its entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem hostOps1_fresh' : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The projection region over the thread state: entered from every unscoped buffer at W1, left at W2. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region over the thread state: entered from every unscoped buffer at W3, left at W4. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    -- what the launch hands the region (the scoped buffers no window stages, the generator register) is the
    -- invariant before the first point: the scratch at anything
    have h := hin1 (V3 m ρ) c
    unfold Pipeline.ΦA at h
    rw [show (pdats m ρ 1 c).Φ 0 = (dat1 (V3 m ρ) c).Φ 0 from rfl]
    iintro ⟨Hp, -, Hr⟩
    iapply h
    isplitl [Hr]; · iexact Hr
    iexact Hp
  hout c := by
    -- after the last point the invariant gives the scratch back at some contents, and the generator register
    have h := hout1 (V3 m ρ) c
    unfold Pipeline.ΦA at h
    rw [Pipeline.ownSems0_none, show (pdats m ρ 1 c).Φ (Fin.last _) = (dat1 (V3 m ρ) c).Φ (Fin.last cfg1.N) from rfl]
    iintro H0
    ihave H := h $$ H0
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m ρ) () defs₀ 𝒱₀ L lv) :=
  [ .host (hseg hostOps0 hostOps0_sub hostOps0_fresh' (W0 m ρ)),
    .region (reg0 m ρ),
    .host (hseg hostOps1 hostOps1_sub hostOps1_fresh' (W2 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    the final memory holds the result array at what the attention region's write-backs leave and each argument array
    as launched. -/
theorem run_all : θ_run defs (onTc (τ := τ) (main (F := F))) ⟨m, fun _ => 0, ρ⟩ (fun r => ∀ c : Dev nD,
      r.2.mem ((c.tc : Thread nD τ).loc main_v13) = (dat1 (V3 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v13 (by decide))).trans (W4_arr m ρ c 3),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

end Cert.KernelIdeal.Run

end
-- ==== Proof.KI.HostValue.lean ====
/-
  What the host operations of the kernel's program hold, read at an index at the ideal instance. Before the
  projection region: the activations flattened to [16384, 1024] (row b·4096 + s is row s of batch b), and the
  [1024, 3072] matrix whose column n·1024 + o is row o of the n-th weight matrix (transposed and concatenated; the
  rounding to bf16 is the identity here). Before the attention region: the n-th input is columns n·1024 … of the
  projection's result, with row b·4096 + s as row s of batch b.
-/
import proofs.«181245_j47132971106646_2_alg».proof.Proof.KI.Bounds
import Idealize.ShloMosaic.Lib.Pipeline.Value
import Idealize.ShloMosaic.Lib.ValueIdx
import Idealize.ShloMosaic.Lib.StableHlo.Run

set_option maxRecDepth 16384

noncomputable section

namespace Cert.KernelIdeal.HostV

open Idealize.ShloMosaic Idealize.ShloMosaic.TcCoe Idealize.ShloMosaic.ValueIdx Idealize.SL.Sem
open Cert.KernelIdeal Cert.KernelIdeal.Gen Cert.KernelIdeal.Run

variable (m : (ℓ : Loc nD τ sig) → Buf (Elt Ideal) ℓ) (ρ : Dev nD → PrngReg)

/-- The four argument arrays on core `c`, as functions of an index. -/
abbrev argX (c : Dev nD) : S4x4096x1024.Idx → EReal := m ((c : Thread nD τ).loc main_arg0)
abbrev argQ (c : Dev nD) : S1024x1024.Idx → EReal := m ((c : Thread nD τ).loc main_arg1)
abbrev argK (c : Dev nD) : S1024x1024.Idx → EReal := m ((c : Thread nD τ).loc main_arg2)
abbrev argV (c : Dev nD) : S1024x1024.Idx → EReal := m ((c : Thread nD τ).loc main_arg3)

theorem v0_term (c : Dev nD) :
    (V1 m ρ c main_v0 : S16384x1024.Idx → EReal) = shapeCast S16384x1024 (argX m c) shapeCasts_S4x4096x1024_S16384x1024 := by
  show StableHlo.after hostOps0 (W0 m ρ c) (Proc.devRef .tc main_v0) = _
  after_results
  rfl

/-- Row b·4096 + s of the flattened activations is row s of batch b. -/
theorem v0_apply (c : Dev nD) (b : Fin 4) (s : Fin 4096) (k : Fin 1024) :
    (V1 m ρ c main_v0 : S16384x1024.Idx → EReal) (ix2 (⟨b.val * 4096 + s.val, by omega⟩ : Fin 16384) k) = argX m c (ix3 b s k) := by
  rw [v0_term]
  refine shapeCast_apply _ _ _ _ ?_
  rw [Shape.rowMajor_val_three, Shape.rowMajor_val_two]
  show (b.val * 4096 + s.val) * 1024 + k.val = (b.val * 4096 + s.val) * 1024 + k.val
  rfl

/-- The three transposed weight matrices, -/
abbrev wlist (c : Dev nD) : List ((s : Shape) × (s.Idx → EReal)) :=
  [⟨S1024x1024, transpose S1024x1024 [1, 0] (argQ m c) transposes_S1024x1024_S1024x1024_1_0⟩,
   ⟨S1024x1024, transpose S1024x1024 [1, 0] (argK m c) transposes_S1024x1024_S1024x1024_1_0⟩,
   ⟨S1024x1024, transpose S1024x1024 [1, 0] (argV m c) transposes_S1024x1024_S1024x1024_1_0⟩]

/-- and side by side. -/
def wcat (c : Dev nD) : S1024x3072.Idx → EReal :=
  concatenate S1024x3072 1 (wlist m c) concatenates_S1024x1024_S1024x1024_S1024x1024_S1024x3072_d1

theorem v5_term (c : Dev nD) :
    (V1 m ρ c main_v5 : S1024x3072.Idx → EReal) = truncf (F := Ideal) .bf16 (wcat m c) bitsLt_bf16_f32 := by
  show StableHlo.after hostOps0 (W0 m ρ c) (Proc.devRef .tc main_v5) = _
  after_results
  dsimp only [Matrix.cons_val_zero, Matrix.cons_val_one, Matrix.cons_val]
  rfl

theorem tr_apply (W : S1024x1024.Idx → EReal) (k o : Fin 1024) :
    transpose S1024x1024 [1, 0] W transposes_S1024x1024_S1024x1024_1_0 (ix2 k o) = W (ix2 o k) :=
  transpose_apply _ _ _ _ _ (fun b => by match b with | ⟨0, _⟩ => rfl | ⟨1, _⟩ => rfl)

/-- Column o of the concatenated matrix is row o of the first weight matrix, -/
theorem v5_q (c : Dev nD) (k o : Fin 1024) :
    (V1 m ρ c main_v5 : S1024x3072.Idx → EReal) (ix2 k (⟨o.val, by omega⟩ : Fin 3072)) = argQ m c (ix2 o k) := by
  rw [v5_term]
  show wcat m c _ = _
  unfold wcat
  refine (concatenate_apply_piece (t := S1024x3072) (1 : Fin 2) (wlist m c) concatenates_S1024x1024_S1024x1024_S1024x1024_S1024x3072_d1 _ 0 (show 0 < 3 by omega) S1024x1024 _ rfl rfl 0 rfl (ix2 k o) ?_ ?_).trans (tr_apply _ k o)
  · intro b hb; match b with | ⟨0, _⟩ => rfl | ⟨1, _⟩ => exact absurd rfl hb
  · show 0 + o.val = o.val; omega

/-- column 1024 + o is row o of the second, -/
theorem v5_k (c : Dev nD) (k o : Fin 1024) :
    (V1 m ρ c main_v5 : S1024x3072.Idx → EReal) (ix2 k (⟨1024 + o.val, by omega⟩ : Fin 3072)) = argK m c (ix2 o k) := by
  rw [v5_term]
  show wcat m c _ = _
  unfold wcat
  refine (concatenate_apply_piece (t := S1024x3072) (1 : Fin 2) (wlist m c) concatenates_S1024x1024_S1024x1024_S1024x1024_S1024x3072_d1 _ 1 (show 1 < 3 by omega) S1024x1024 _ rfl rfl 1024 rfl (ix2 k o) ?_ ?_).trans (tr_apply _ k o)
  · intro b hb; match b with | ⟨0, _⟩ => rfl | ⟨1, _⟩ => exact absurd rfl hb
  · rfl

/-- column 2048 + o is row o of the third. -/
theorem v5_v (c : Dev nD) (k o : Fin 1024) :
    (V1 m ρ c main_v5 : S1024x3072.Idx → EReal) (ix2 k (⟨2048 + o.val, by omega⟩ : Fin 3072)) = argV m c (ix2 o k) := by
  rw [v5_term]
  show wcat m c _ = _
  unfold wcat
  refine (concatenate_apply_piece (t := S1024x3072) (1 : Fin 2) (wlist m c) concatenates_S1024x1024_S1024x1024_S1024x1024_S1024x3072_d1 _ 2 (show 2 < 3 by omega) S1024x1024 _ rfl rfl 2048 rfl (ix2 k o) ?_ ?_).trans (tr_apply _ k o)
  · intro b hb; match b with | ⟨0, _⟩ => rfl | ⟨1, _⟩ => exact absurd rfl hb
  · rfl

/-- The projection's result as the attention region finds it. -/
abbrev qkv (c : Dev nD) : S16384x3072.Idx → EReal := V2 m ρ c main_v6

theorem v8_term (c : Dev nD) :
    (V3 m ρ c main_v8 : S4x4096x1024.Idx → EReal) = shapeCast S4x4096x1024
      (extractStridedSlice S16384x1024 ![0, 0] (qkv m ρ c) slices_S16384x3072_S16384x1024_0_0) shapeCasts_S16384x1024_S4x4096x1024 := by
  show StableHlo.after hostOps1 (W2 m ρ c) (Proc.devRef .tc main_v8) = _
  after_results
  rfl
theorem v10_term (c : Dev nD) :
    (V3 m ρ c main_v10 : S4x4096x1024.Idx → EReal) = shapeCast S4x4096x1024
      (extractStridedSlice S16384x1024 ![0, 1024] (qkv m ρ c) slices_S16384x3072_S16384x1024_0_1024) shapeCasts_S16384x1024_S4x4096x1024 := by
  show StableHlo.after hostOps1 (W2 m ρ c) (Proc.devRef .tc main_v10) = _
  after_results
  rfl
theorem v12_term (c : Dev nD) :
    (V3 m ρ c main_v12 : S4x4096x1024.Idx → EReal) = shapeCast S4x4096x1024
      (extractStridedSlice S16384x1024 ![0, 2048] (qkv m ρ c) slices_S16384x3072_S16384x1024_0_2048) shapeCasts_S16384x1024_S4x4096x1024 := by
  show StableHlo.after hostOps1 (W2 m ρ c) (Proc.devRef .tc main_v12) = _
  after_results
  rfl

/-- A window of 1024 columns from column `off` of the projection's result, reshaped: entry (b, s, o) is entry
    (b·4096 + s, off + o). -/
theorem slice_cast_apply (y : S16384x3072.Idx → EReal) (off : Nat) (hoff : off + 1024 ≤ 3072)
    (hs : S16384x3072.Slices ![0, off] S16384x1024) (b : Fin 4) (s : Fin 4096) (o : Fin 1024) :
    shapeCast S4x4096x1024 (extractStridedSlice S16384x1024 ![0, off] y hs) shapeCasts_S16384x1024_S4x4096x1024 (ix3 b s o)
      = y (ix2 (⟨b.val * 4096 + s.val, by omega⟩ : Fin 16384) (⟨off + o.val, by omega⟩ : Fin 3072)) := by
  refine (shapeCast_apply _ _ (ix3 b s o) (ix2 (⟨b.val * 4096 + s.val, by omega⟩ : Fin 16384) o) ?_).trans ?_
  · rw [Shape.rowMajor_val_three, Shape.rowMajor_val_two]
    show (b.val * 4096 + s.val) * 1024 + o.val = (b.val * 4096 + s.val) * 1024 + o.val
    rfl
  · refine extractStridedSlice_apply _ _ _ _ _ (fun a => ?_)
    match a with
    | ⟨0, _⟩ => show b.val * 4096 + s.val = 0 + (b.val * 4096 + s.val); omega
    | ⟨1, _⟩ => rfl

theorem v8_apply (c : Dev nD) (b : Fin 4) (s : Fin 4096) (o : Fin 1024) :
    (V3 m ρ c main_v8 : S4x4096x1024.Idx → EReal) (ix3 b s o)
      = qkv m ρ c (ix2 (⟨b.val * 4096 + s.val, by omega⟩ : Fin 16384) (⟨0 + o.val, by omega⟩ : Fin 3072)) := by
  rw [v8_term]; exact slice_cast_apply _ 0 (by omega) _ b s o
theorem v10_apply (c : Dev nD) (b : Fin 4) (s : Fin 4096) (o : Fin 1024) :
    (V3 m ρ c main_v10 : S4x4096x1024.Idx → EReal) (ix3 b s o)
      = qkv m ρ c (ix2 (⟨b.val * 4096 + s.val, by omega⟩ : Fin 16384) (⟨1024 + o.val, by omega⟩ : Fin 3072)) := by
  rw [v10_term]; exact slice_cast_apply _ 1024 (by omega) _ b s o
theorem v12_apply (c : Dev nD) (b : Fin 4) (s : Fin 4096) (o : Fin 1024) :
    (V3 m ρ c main_v12 : S4x4096x1024.Idx → EReal) (ix3 b s o)
      = qkv m ρ c (ix2 (⟨b.val * 4096 + s.val, by omega⟩ : Fin 16384) (⟨2048 + o.val, by omega⟩ : Fin 3072)) := by
  rw [v12_term]; exact slice_cast_apply _ 2048 (by omega) _ b s o

end Cert.KernelIdeal.HostV

end
-- ==== Proof.LibContract1.lean ====
/-
  A matrix product whose dimension numbers contract ONE axis, read at a result index at the ideal values, for any
  dimension record: the kernel's `tpu.matmul` into the zero accumulator and the host's `dot_general` are both the sum,
  over that axis's coordinate `k : Fin n`, of the operands' products, each operand read at an index the caller NAMES
  (`L k`, `R k`) and proves to be where the record sends the result index and `k`. The caller's two obligations are
  per-axis facts about `DotDims.lhsIdx` / `rhsIdx` (`DotDims.lhsIdx_val_of_single` on the contracted axis, two `dif`
  rewrites on a kept one); everything else — opening the product, re-indexing the contraction shape's one-axis index by
  `Fin n` — is done here once.
-/
import Idealize.ShloMosaic.PureOps.Ideal.Laws
import Idealize.ShloMosaic.Lib.ValueIdx

noncomputable section

namespace Cert.LibContract1

open Idealize.ShloMosaic Idealize.ShloMosaic.ValueIdx

/-- A `tpu.matmul` into the f32 zero splat, one contracted axis of extent `n`: at `j` it is `∑ k, lhs (L k) · rhs (R k)`. -/
theorem matmul_zero_single {sl sr so : Shape} {φ₁ φ₂ : FTy} (d : DotDims sl sr so) (n : ℕ) (hr : d.contr.rank = 1)
    (hs : d.contr.size ⟨0, by omega⟩ = n) (lhs : FVec Ideal sl φ₁) (rhs : FVec Ideal sr φ₂) (j : so.Idx)
    (L : Fin n → sl.Idx) (R : Fin n → sr.Idx)
    (hL : ∀ k, d.lhsIdx j ((contrEquiv1 d n hr hs).symm k) = L k)
    (hR : ∀ k, d.rhsIdx j ((contrEquiv1 d n hr hs).symm k) = R k) :
    matmul d none lhs rhs (constant (F := Ideal) so .f32 0x00000000#32) j = ∑ k : Fin n, lhs (L k) * rhs (R k) := by
  simp only [matmul]
  rw [Ideal.matmul_constant_zero_apply, ← Equiv.sum_comp (contrEquiv1 d n hr hs).symm]
  exact Finset.sum_congr rfl fun k _ => by rw [hL k, hR k]

/-- The host's `dot_general`, one contracted axis of extent `n`: at `j` it is `∑ k, lhs (L k) · rhs (R k)`. -/
theorem dotGeneral_single {sl sr so : Shape} {φ₁ φ₂ : FTy} (d : DotDims sl sr so) (n : ℕ) (hr : d.contr.rank = 1)
    (hs : d.contr.size ⟨0, by omega⟩ = n) (lhs : FVec Ideal sl φ₁) (rhs : FVec Ideal sr φ₂) (j : so.Idx)
    (L : Fin n → sl.Idx) (R : Fin n → sr.Idx)
    (hL : ∀ k, d.lhsIdx j ((contrEquiv1 d n hr hs).symm k) = L k)
    (hR : ∀ k, d.rhsIdx j ((contrEquiv1 d n hr hs).symm k) = R k) :
    Host.dotGeneral d none lhs rhs j = ∑ k : Fin n, lhs (L k) * rhs (R k) := by
  simp only [Host.dotGeneral]
  rw [Ideal.dotGeneral_apply, ← Equiv.sum_comp (contrEquiv1 d n hr hs).symm]
  exact Finset.sum_congr rfl fun k _ => by rw [hL k, hR k]

end Cert.LibContract1

end
-- ==== Proof.LibMatRows.lean ====
/-
  A plain matrix product of an `[a, k]` array with a `[k, n]` array, contracted over the shared axis of extent `k`, read
  at the result's entry `(p, c)` at the ideal values: the sum over `j : Fin k` of `lhs (p, j) * rhs (j, c)` — for the
  kernel's `tpu.matmul` into the zero accumulator and for the host's `dot_general` alike.

  It holds for ANY dimension record between those three shapes that says what a plain product says (`RowsTimesMat`): one
  contracted axis of extent `k`; the left operand read at the result's row and the contracted coordinate; the right operand
  at the contracted coordinate and the result's column. For a printed record the six facts are `rfl`, `rfl`,
  `DotDims.lhsIdx_val_of_single rfl` / `rhsIdx_val_of_single rfl` on the contracted axes, and two `dif` rewrites (not a
  batch axis, a kept axis) on the kept ones.
-/
import proofs.«181245_j47132971106646_2_alg».proof.Proof.LibContract1
import Idealize.ShloMosaic.PureOps.Ideal.Laws
import Idealize.ShloMosaic.Lib.ValueIdx

noncomputable section

namespace Cert.LibMatRows

open Idealize.ShloMosaic Idealize.ShloMosaic.ValueIdx

/-- What a dimension record between `[a, k]`, `[k, n]` and `[a, n]` must say to be a plain product. -/
structure RowsTimesMat {a k n : ℕ} (d : DotDims ⟨2, ![a, k]⟩ ⟨2, ![k, n]⟩ ⟨2, ![a, n]⟩) : Prop where
  rank : d.contr.rank = 1
  size : d.contr.size ⟨0, by omega⟩ = k
  l0 : ∀ (i : (⟨2, ![a, n]⟩ : Shape).Idx) (q : d.contr.Idx), (d.lhsIdx i q 0).val = (i 0).val
  l1 : ∀ (i : (⟨2, ![a, n]⟩ : Shape).Idx) (q : d.contr.Idx), (d.lhsIdx i q 1).val = (q ⟨0, by omega⟩).val
  r0 : ∀ (i : (⟨2, ![a, n]⟩ : Shape).Idx) (q : d.contr.Idx), (d.rhsIdx i q 0).val = (q ⟨0, by omega⟩).val
  r1 : ∀ (i : (⟨2, ![a, n]⟩ : Shape).Idx) (q : d.contr.Idx), (d.rhsIdx i q 1).val = (i 1).val

variable {a k n : ℕ} {d : DotDims ⟨2, ![a, k]⟩ ⟨2, ![k, n]⟩ ⟨2, ![a, n]⟩}

/-- The left operand's index at result entry `(p, c)` and contracted coordinate `j` is `(p, j)`. -/
theorem RowsTimesMat.lhsIdx_eq (hd : RowsTimesMat d) (p : Fin a) (c : Fin n) (j : Fin k) :
    d.lhsIdx (ix2 p c) ((contrEquiv1 d k hd.rank hd.size).symm j) = ix2 p j :=
  funext fun ax => Fin.ext (by
    match ax with
    | ⟨0, _⟩ => exact hd.l0 _ _
    | ⟨1, _⟩ => exact (hd.l1 _ _).trans (contrEquiv1_symm_val d k hd.rank hd.size j))

/-- The right operand's index at result entry `(p, c)` and contracted coordinate `j` is `(j, c)`. -/
theorem RowsTimesMat.rhsIdx_eq (hd : RowsTimesMat d) (p : Fin a) (c : Fin n) (j : Fin k) :
    d.rhsIdx (ix2 p c) ((contrEquiv1 d k hd.rank hd.size).symm j) = ix2 j c :=
  funext fun ax => Fin.ext (by
    match ax with
    | ⟨0, _⟩ => exact (hd.r0 _ _).trans (contrEquiv1_symm_val d k hd.rank hd.size j)
    | ⟨1, _⟩ => exact hd.r1 _ _)

/-- The kernel's product into the zero accumulator at `(p, c)`. -/
theorem matmul_rows {φ₁ φ₂ : FTy} (hd : RowsTimesMat d) (lhs : FVec Ideal ⟨2, ![a, k]⟩ φ₁) (rhs : FVec Ideal ⟨2, ![k, n]⟩ φ₂)
    (p : Fin a) (c : Fin n) :
    matmul d none lhs rhs (constant (F := Ideal) ⟨2, ![a, n]⟩ .f32 0x00000000#32) (ix2 p c) = ∑ j : Fin k, lhs (ix2 p j) * rhs (ix2 j c) :=
  LibContract1.matmul_zero_single d k hd.rank hd.size lhs rhs (ix2 p c) (fun j => ix2 p j) (fun j => ix2 j c)
    (hd.lhsIdx_eq p c) (hd.rhsIdx_eq p c)

/-- The host's product at `(p, c)`. -/
theorem dotGeneral_rows {φ₁ φ₂ : FTy} (hd : RowsTimesMat d) (lhs : FVec Ideal ⟨2, ![a, k]⟩ φ₁) (rhs : FVec Ideal ⟨2, ![k, n]⟩ φ₂)
    (p : Fin a) (c : Fin n) :
    Host.dotGeneral d none lhs rhs (ix2 p c) = ∑ j : Fin k, lhs (ix2 p j) * rhs (ix2 j c) :=
  LibContract1.dotGeneral_single d k hd.rank hd.size lhs rhs (ix2 p c) (fun j => ix2 p j) (fun j => ix2 j c)
    (hd.lhsIdx_eq p c) (hd.rhsIdx_eq p c)

end Cert.LibMatRows

end
-- ==== Proof.KI.R0Value.lean ====
/-
  The value of the projection region at the ideal instance: after the region its output array [16384, 3072] holds,
  at (r, c), the sum over k of activations(r, k) · weights(k, c). Point t of the 32 writes the block of rows
  512·t … 512·t + 511, whose entry (p, c) is the product of the point's block of activations (the same rows) with
  the whole weight matrix; the 32 blocks tile the array.
-/
import proofs.«181245_j47132971106646_2_alg».proof.Proof.KI.R0Frame
import proofs.«181245_j47132971106646_2_alg».proof.Proof.LibMatRows
import Idealize.ShloMosaic.Lib.Pipeline.Value
import Idealize.ShloMosaic.Lib.ValueIdx

set_option maxRecDepth 16384

noncomputable section

namespace Cert.KernelIdeal.R0V

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.R0

/-- The body's matrix product is a plain rows-times-matrix product. -/
theorem rows0 : Cert.LibMatRows.RowsTimesMat (a := 512) (k := 1024) (n := 3072) dot_S512x1024_S1024x3072_S512x3072_1_0_0_1_n_n where
  rank := rfl
  size := rfl
  l0 := fun i q => by
    unfold DotDims.lhsIdx
    rw [dif_neg (show ¬(0 : Fin S512x1024.rank) ∈ dot_S512x1024_S1024x3072_S512x3072_1_0_0_1_n_n.lhsBatch by decide),
      dif_pos (show (0 : Fin S512x1024.rank) ∈ dot_S512x1024_S1024x3072_S512x3072_1_0_0_1_n_n.lhsNonContracting by decide)]
    rfl
  l1 := fun i q => dot_S512x1024_S1024x3072_S512x3072_1_0_0_1_n_n.lhsIdx_val_of_single rfl i q
  r0 := fun i q => dot_S512x1024_S1024x3072_S512x3072_1_0_0_1_n_n.rhsIdx_val_of_single rfl i q
  r1 := fun i q => by
    unfold DotDims.rhsIdx
    rw [dif_neg (show ¬(1 : Fin S1024x3072.rank) ∈ dot_S512x1024_S1024x3072_S512x3072_1_0_0_1_n_n.rhsBatch by decide),
      dif_pos (show (1 : Fin S1024x3072.rank) ∈ dot_S512x1024_S1024x3072_S512x3072_1_0_0_1_n_n.rhsNonContracting by decide)]
    rfl

/-- The stored block at (p, c): row p of the activations' block times column c of the weights. -/
theorem pay0_apply (x0 : FVec Ideal S512x1024 .f32) (x1 : FVec Ideal S1024x3072 .bf16) (p : Fin 512) (c : Fin 3072) :
    k0_pay1 (F := Ideal) x0 x1 (ix2 p c) = ∑ j : Fin 1024, x0 (ix2 p j) * x1 (ix2 j c) := by
  unfold k0_pay1
  rw [shapeCast_self, shapeCast_self]
  exact Cert.LibMatRows.matmul_rows rows0 (truncf .bf16 x0 bitsLt_bf16_f32) x1 p c

theorem hz : (![0, 0] : Fin 2 → Nat) = fun _ => 0 := funext fun a => by fin_cases a <;> rfl

/-- What the output array ends holding, from the two input arrays. -/
def G0 (a0 : S16384x1024.Idx → EReal) (a1 : S1024x3072.Idx → EReal) : S16384x3072.Idx → EReal := fun i =>
  ∑ j : Fin 1024, a0 (ix2 (⟨(i 0).val, (i 0).isLt⟩ : Fin 16384) j) * a1 (ix2 j (⟨(i 1).val, (i 1).isLt⟩ : Fin 3072))

variable (V : (c : Dev nD) → (b : Ref sig .tc) → Buf (Elt Ideal) ((c : Thread nD τ).loc b))

/-- The printed index maps over the grid: the activations' and the output's block move together along the rows, the
    weights' block stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem flushed0_eq (c : Dev nD) (t : Fin cfg0.N) :
    (dat0 V c).flushed 2 t = ((cfg0.win 2).blk t).view.read (Elt Ideal)
      (G0 (V c main_v0) (V c main_v5)) := by
  show (cfg0.win 2).cut (grid0.coords t) ((dat0 V c).after 2 t) = _
  rw [after0_2]
  unfold out0_2
  rw [View.canon_unit_zero hz]
  simp only [View.ld_unit_zero (S := S512x1024) hz, View.ld_unit_zero (S := S1024x3072) hz]
  obtain ⟨e0, e1, e2, e3, e4, e5⟩ := idx_facts t
  have hN : t.val < 32 := lt_of_lt_of_eq t.isLt N_0
  funext j
  obtain ⟨p, q, rfl⟩ : ∃ (p : Fin 512) (q : Fin 3072), j = ix2 p q := ⟨j 0, j 1, eq_ix2 j⟩
  refine (pay0_apply (iblk0 V c 0 t) (iblk0 V c 1 t) p q).trans ?_
  show _ = G0 (V c main_v0) (V c main_v5) (((cfg0.win 2).blk t).view.emb (ix2 p q))
  unfold G0
  refine Finset.sum_congr rfl fun k _ => ?_
  have h0 : iblk0 V c 0 t (ix2 p k) = V c main_v0 (ix2 (⟨((((cfg0.win 2).blk t).view.emb (ix2 p q)) 0).val, ((((cfg0.win 2).blk t).view.emb (ix2 p q)) 0).isLt⟩ : Fin 16384) k) := by
    show V c main_v0 (((cfg0.win 0).blk t).view.emb (ix2 p k)) = _
    refine congrArg _ (funext fun a => Fin.ext ?_)
    match a with
    | ⟨0, _⟩ => show win0_0.index t (0 : Fin 2) * 512 + 1 * p.val = win0_2.index t (0 : Fin 2) * 512 + 1 * p.val; omega
    | ⟨1, _⟩ => show win0_0.index t (1 : Fin 2) * 1024 + 1 * k.val = k.val; omega
  have h1 : iblk0 V c 1 t (ix2 k q) = V c main_v5 (ix2 k (⟨((((cfg0.win 2).blk t).view.emb (ix2 p q)) 1).val, ((((cfg0.win 2).blk t).view.emb (ix2 p q)) 1).isLt⟩ : Fin 3072)) := by
    show V c main_v5 (((cfg0.win 1).blk t).view.emb (ix2 k q)) = _
    refine congrArg _ (funext fun a => Fin.ext ?_)
    match a with
    | ⟨0, _⟩ => show win0_1.index t (0 : Fin 2) * 1024 + 1 * k.val = k.val; omega
    | ⟨1, _⟩ => show win0_1.index t (1 : Fin 2) * 3072 + 1 * q.val = win0_2.index t (1 : Fin 2) * 3072 + 1 * q.val; omega
  rw [h0, h1]

theorem mem_blk (t : Fin cfg0.N) (i : S16384x3072.Idx) :
    i ∈ ((cfg0.win 2).blk t).view.set ↔ ∀ a : Fin 2, win0_2.index t a * S512x3072.size a ≤ (i a).val ∧ (i a).val < win0_2.index t a * S512x3072.size a + S512x3072.size a := by
  show i ∈ ((View.whole main_v6).slice (win0_2.rect t)).set ↔ _
  rw [View.set_slice_whole, Rect.mem_set_unit]
  exact Iff.rfl

theorem idx_onto : ∀ q0 : Fin 32, ∃ t : Fin cfg0.N, win0_2.index t = ![q0.val, 0] :=
  (by decide +kernel : ∀ q0 : Fin 32, ∃ t : Fin grid0.N, win0_2.index t = ![q0.val, 0])

theorem cover (i : S16384x3072.Idx) : ∃ t : Fin cfg0.N, (cfg0.win 2).flush t = true ∧ i ∈ ((cfg0.win 2).blk t).view.set := by
  have hi0 : (i 0).val < 16384 := (i 0).isLt
  have hi1 : (i 1).val < 3072 := (i 1).isLt
  obtain ⟨t, ht⟩ := idx_onto ⟨(i 0).val / 512, by omega⟩
  have q0 : win0_2.index t (0 : Fin 2) = (i 0).val / 512 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 3072 ≤ (i 1).val ∧ (i 1).val < win0_2.index t (1 : Fin 2) * 3072 + 3072; omega

/-- THE ARRAY after the region: the product of the two input arrays. -/
theorem final0 (c : Dev nD) : (dat0 V c).arrAt 2 cfg0.N = G0 (V c main_v0) (V c main_v5) :=
  (dat0 V c).arrAt_eq_of_cover 2 _ (fun t _ => flushed0_eq V c t) cover

end Cert.KernelIdeal.R0V

end
-- ==== Proof.Spec.lean ====
/-
  The specification both programs are compared against, over the extended reals.

  Inputs: an activation array x[4, 4096, 1024] and three weight matrices W[1024, 1024]. The three projections are
  q = x·Wqᵀ, k = x·Wkᵀ, v = x·Wvᵀ. Row i of a batch attends to the rows j ≤ i: its score against row j is
  (q_i · k_j) / 32, and −∞ above the diagonal; the weights are exp(score − row maximum); the result is the
  weighted mean of the rows of v. The two programs arrange that mean differently — the sum of (weight / total)·v
  against (sum of weight·v) / total — and both arrangements are stated here.
-/
import Idealize.ShloMosaic.PureOps.Ideal
import Idealize.ShloMosaic.Lib.ValueIdx

noncomputable section

namespace Cert.Spec

open Idealize.ShloMosaic Idealize.ShloMosaic.ValueIdx

/-- The activations' and the result's shape. -/
abbrev SX : Shape := ⟨3, ![4, 4096, 1024]⟩
/-- A weight matrix's shape. -/
abbrev SW : Shape := ⟨2, ![1024, 1024]⟩

/-- An array of shape [4, 4096, 1024] by coordinates. -/
abbrev Arr3 := Fin 4 → Fin 4096 → Fin 1024 → EReal

/-- x·Wᵀ: entry (b, s, o) is the sum over d of x(b, s, d)·W(o, d). -/
def proj (x : SX.Idx → EReal) (W : SW.Idx → EReal) : Arr3 := fun b s o =>
  ∑ d : Fin 1024, x (ix3 b s d) * W (ix2 o d)

/-- The causal, scaled score of query row i against key row j: (q_i · k_j)·(1/32) on and below the diagonal,
    −∞ above it. -/
def score (q k : Arr3) (b : Fin 4) (i j : Fin 4096) : EReal :=
  if j ≤ i then (∑ d : Fin 1024, q b i d * k b j d) * ((1 / 32 : ℝ) : EReal) else ⊥

/-- The largest score of row i (the supremum over all j; the entries above the diagonal are −∞). -/
def rowMax (q k : Arr3) (b : Fin 4) (i : Fin 4096) : EReal :=
  Finset.univ.sup (score q k b i)

/-- The unnormalised weight exp(score − row maximum); exp(−∞) = 0. -/
def weight (q k : Arr3) (b : Fin 4) (i j : Fin 4096) : EReal :=
  Ideal.exp (score q k b i j - rowMax q k b i)

/-- The row's total weight. -/
def denom (q k : Arr3) (b : Fin 4) (i : Fin 4096) : EReal :=
  ∑ j : Fin 4096, weight q k b i j

/-- Attention with the division last: (Σ_j w_j·v_j) / (Σ_j w_j). -/
def attn (q k v : Arr3) : Arr3 := fun b i d =>
  Ideal.div (∑ j : Fin 4096, weight q k b i j * v b j d) (denom q k b i)

/-- Attention with the division first: Σ_j (w_j / Σ w)·v_j. -/
def attnRef (q k v : Arr3) : Arr3 := fun b i d =>
  ∑ j : Fin 4096, Ideal.div (weight q k b i j) (denom q k b i) * v b j d

/-- The whole computation as one function of the four argument arrays, index by index. -/
def G (x : SX.Idx → EReal) (Wq Wk Wv : SW.Idx → EReal) : SX.Idx → EReal := fun idx =>
  attnRef (proj x Wq) (proj x Wk) (proj x Wv) (idx 0) (idx 1) (idx 2)

end Cert.Spec

end
-- ==== Proof.KI.QKV.lean ====
/-
  The three arrays the attention region is entered with are the specification's projections of the arguments: entry
  (b, s, o) of the n-th is the sum over d of x(b, s, d)·W_n(o, d). The host reshape makes row b·4096 + s of the
  flattened activations row s of batch b; the projection region leaves (r, c) ↦ Σ_k x_flat(r, k)·w(k, c) with w the
  three transposed weight matrices side by side; the n-th column band of that, reshaped back, is the n-th projection.
-/
import proofs.«181245_j47132971106646_2_alg».proof.Proof.KI.HostValue
import proofs.«181245_j47132971106646_2_alg».proof.Proof.KI.R0Value
import proofs.«181245_j47132971106646_2_alg».proof.Proof.Spec

set_option maxRecDepth 16384

noncomputable section

namespace Cert.KernelIdeal.QKV

open Idealize.ShloMosaic Idealize.ShloMosaic.TcCoe Idealize.ShloMosaic.ValueIdx Idealize.SL.Sem
open Cert.KernelIdeal Cert.KernelIdeal.Gen Cert.KernelIdeal.Run Cert.KernelIdeal.HostV Cert.KernelIdeal.R0 Cert.KernelIdeal.R0V

variable (m : (ℓ : Loc nD τ sig) → Buf (Elt Ideal) ℓ) (ρ : Dev nD → PrngReg)

/-- The projection's result as the attention side finds it is the product of the two arrays the projection region was
    entered with. -/
theorem qkv_eq (c : Dev nD) : qkv m ρ c = G0 (V1 m ρ c main_v0) (V1 m ρ c main_v5) :=
  (W2_arr m ρ c 2).trans (final0 (V1 m ρ) c)

/-- Entry (b·4096 + s, off + o) of that product, for a column band starting at `off`. -/
theorem qkv_apply (c : Dev nD) (b : Fin 4) (s : Fin 4096) (col : Fin 3072) :
    qkv m ρ c (ix2 (⟨b.val * 4096 + s.val, by omega⟩ : Fin 16384) col)
      = ∑ j : Fin 1024, argX m c (ix3 b s j) * (V1 m ρ c main_v5 : S1024x3072.Idx → EReal) (ix2 j col) := by
  rw [qkv_eq]
  unfold G0
  refine Finset.sum_congr rfl fun j _ => ?_
  have h := v0_apply m ρ c b s j
  exact congrArg₂ (· * ·) h rfl

theorem q_eq (c : Dev nD) (b : Fin 4) (s : Fin 4096) (o : Fin 1024) :
    (V3 m ρ c main_v8 : S4x4096x1024.Idx → EReal) (ix3 b s o) = Cert.Spec.proj (argX m c) (argQ m c) b s o := by
  refine (v8_apply m ρ c b s o).trans ((qkv_apply m ρ c b s _).trans ?_)
  unfold Cert.Spec.proj
  refine Finset.sum_congr rfl fun j _ => ?_
  have e : (⟨0 + o.val, by omega⟩ : Fin 3072) = ⟨o.val, by omega⟩ := Fin.ext (Nat.zero_add _)
  exact congrArg (argX m c (ix3 b s j) * ·) ((congrArg (fun z => (V1 m ρ c main_v5 : S1024x3072.Idx → EReal) (ix2 j z)) e).trans (v5_q m ρ c j o))

theorem k_eq (c : Dev nD) (b : Fin 4) (s : Fin 4096) (o : Fin 1024) :
    (V3 m ρ c main_v10 : S4x4096x1024.Idx → EReal) (ix3 b s o) = Cert.Spec.proj (argX m c) (argK m c) b s o := by
  refine (v10_apply m ρ c b s o).trans ((qkv_apply m ρ c b s _).trans ?_)
  unfold Cert.Spec.proj
  refine Finset.sum_congr rfl fun j _ => ?_
  exact congrArg (argX m c (ix3 b s j) * ·) (v5_k m ρ c j o)

theorem v_eq (c : Dev nD) (b : Fin 4) (s : Fin 4096) (o : Fin 1024) :
    (V3 m ρ c main_v12 : S4x4096x1024.Idx → EReal) (ix3 b s o) = Cert.Spec.proj (argX m c) (argV m c) b s o := by
  refine (v12_apply m ρ c b s o).trans ((qkv_apply m ρ c b s _).trans ?_)
  unfold Cert.Spec.proj
  refine Finset.sum_congr rfl fun j _ => ?_
  exact congrArg (argX m c (ix3 b s j) * ·) (v5_v m ρ c j o)

end Cert.KernelIdeal.QKV

end
-- ==== Proof.KI.PayReadBasic.lean ====
/-
  The attention body's simplest payloads read at an index, at the ideal values: the three starting values
  (row maximum −∞, total 0, weighted sum 0), the stores that only re-cast a value of the same shape, the
  value block with its leading unit axis dropped, and the last key block's division of the weighted sum by
  the total.
-/
import proofs.«181245_j47132971106646_2_alg».proof.Proof.KI.Steps
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.AttnValue

open Idealize.ShloMosaic Idealize.ShloMosaic.ValueIdx Cert.KernelIdeal Cert.KernelIdeal.Gen

/-- The f32 word of −∞ denotes the bottom of the extended reals. -/
theorem ofBits_neg_inf : Ideal.ofBits .f32 0xFF800000#32 = ⊥ := by
  simp [Ideal.ofBits, Ideal.ieee]

/-- The row maximum starts at −∞. -/
theorem pay1_apply (i : S512x1.Idx) : k1_pay1 (F := Ideal) i = ⊥ := by
  unfold k1_pay1
  rw [shapeCast_self]
  exact ofBits_neg_inf

/-- The total weight starts at 0. -/
theorem pay2_apply (i : S512x1.Idx) : k1_pay2 (F := Ideal) i = 0 := by
  unfold k1_pay2
  rw [shapeCast_self]
  exact Ideal.ofBits_zero_f32

/-- The weighted sum starts at 0. -/
theorem pay3_apply (i : S512x1024.Idx) : k1_pay3 (F := Ideal) i = 0 := by
  unfold k1_pay3
  rw [shapeCast_self]
  exact Ideal.ofBits_zero_f32

/-- A cast to the same shape stores the value itself (the total). -/
theorem pay4_eq (v : Vec Ideal S512x1 .f32) : k1_pay4 (F := Ideal) v = v := by
  unfold k1_pay4
  dsimp only
  rw [shapeCast_self]

/-- A cast to the same shape stores the value itself (the row maximum). -/
theorem pay6_eq (v : Vec Ideal S512x1 .f32) : k1_pay6 (F := Ideal) v = v := by
  unfold k1_pay6
  dsimp only
  rw [shapeCast_self]

/-- The value block with its unit axis dropped: entry (c, d) is the block's entry (0, c, d). -/
theorem pay8_apply (Vv : Vec Ideal S1x512x1024 .bf16) (c : Fin 512) (d : Fin 1024) :
    k1_pay8 (F := Ideal) Vv (ix2 c d) = Vv (ix3 (0 : Fin 1) c d) := by
  unfold k1_pay8
  exact shapeCast_1ab_ab_apply Vv _ c d

/-- The output block: entry (0, r, d) is the weighted sum at (r, d) divided by the row's total. -/
theorem pay7_apply (acc : Vec Ideal S512x1024 .f32) (l : Vec Ideal S512x1 .f32) (r : Fin 512) (d : Fin 1024) :
    k1_pay7 (F := Ideal) acc l (ix3 (0 : Fin 1) r d)
      = Ideal.div (acc (ix2 r d)) (l (ix2 r (0 : Fin 1))) := by
  unfold k1_pay7
  refine (shapeCast_ab_1ab_apply _ _ (0 : Fin 1) r d).trans ?_
  rw [divf_apply]
  refine congrArg (Ideal.div (acc (ix2 r d))) ?_
  refine broadcastTo_apply l _ (ix2 r d) (ix2 r (0 : Fin 1)) fun a => ?_
  match a with
  | ⟨0, _⟩ => rfl
  | ⟨1, _⟩ => rfl

end Cert.KernelIdeal.AttnValue

end
-- ==== Proof.KI.PayReadScore.lean ====
/-
  The attention body's score block read at an index, at the ideal values: entry (r, c) of the block of query
  block qi against key block ki is the scaled product (q_r · k_c)·(1/32) when key ki·512 + c is not after query
  qi·512 + r, and −∞ otherwise. The product is a matmul into zero of the query block with the transposed key
  block; the scale's word denotes 1/32 exactly; the masked value is the named constant that denotes −∞; the
  mask compares two 32-bit sums that stay far below 2³¹, so the signed comparison is the comparison of the
  natural numbers.
-/
import proofs.«181245_j47132971106646_2_alg».proof.Proof.KI.PayReadBasic

noncomputable section

namespace Cert.KernelIdeal.AttnValue

open Idealize.ShloMosaic Idealize.ShloMosaic.ValueIdx Cert.KernelIdeal Cert.KernelIdeal.Gen

/-- The scale's word 0x3D000000 denotes 1/32. -/
theorem ofBits_inv32 : Ideal.ofBits .f32 0x3D000000#32 = ((1 / 32 : ℝ) : EReal) := by
  simp [Ideal.ofBits, Ideal.ieee, -EReal.coe_mul]; norm_num

/-- The masked value is the named constant, which denotes −∞. -/
theorem neg_big : Named.named (F := Ideal) Cert.KernelIdeal.κ "neg_big" (φ := .f32) 0xF149F2CA#32 = (⊥ : EReal) :=
  IdealRules.named_const.ideal_named_scalar _ _ _ _ rfl

/-- The causal mask's bit at (r, c): query position qi·512 + r against key position ki·512 + c, both below 4096,
    so neither 32-bit sum wraps and the signed comparison is that of the naturals. -/
theorem mask_bit (qi ki : Fin 8) (r c : Fin 512) :
    IntOp.cmpi .sge
      (IntOp.addi (Scalar.muli (BitVec.ofNat 32 qi.val) 512#32) (BitVec.ofNat 32 (0 * 512 + r.val)))
      (IntOp.addi (Scalar.muli (BitVec.ofNat 32 ki.val) 512#32) (BitVec.ofNat 32 (0 * 512 + c.val)))
      = if ki.val * 512 + c.val ≤ qi.val * 512 + r.val then 1#1 else 0#1 := by
  have hq := qi.isLt; have hk := ki.isLt; have hr := r.isLt; have hc := c.isLt
  simp only [IntOp.cmpi, IntOp.addi, Scalar.muli, IntOp.muli, BitVec.sle, BitVec.toInt_eq_toNat_cond,
    BitVec.toNat_add, BitVec.toNat_mul, BitVec.toNat_ofNat]
  have e1 : (ki.val % 2 ^ 32 * (512 % 2 ^ 32) % 2 ^ 32 + (0 * 512 + c.val) % 2 ^ 32) % 2 ^ 32
      = ki.val * 512 + c.val := by omega
  have e2 : (qi.val % 2 ^ 32 * (512 % 2 ^ 32) % 2 ^ 32 + (0 * 512 + r.val) % 2 ^ 32) % 2 ^ 32
      = qi.val * 512 + r.val := by omega
  rw [e1, e2, if_pos (by omega), if_pos (by omega)]
  by_cases h : ki.val * 512 + c.val ≤ qi.val * 512 + r.val
  · rw [if_pos h, decide_eq_true (Int.ofNat_le.mpr h)]; rfl
  · rw [if_neg h, decide_eq_false (fun h' => h (Int.ofNat_le.mp h'))]; rfl

/-! The operand indices of the score matmul at an output index and a contraction coordinate. -/

theorem qk_lhs0 (i : S512x512.Idx) (q : dot_S512x1024_S1024x512_S512x512_1_0_0_1_n_n.contr.Idx) : (dot_S512x1024_S1024x512_S512x512_1_0_0_1_n_n.lhsIdx i q 0).val = (i 0).val := by
  unfold DotDims.lhsIdx
  rw [dif_neg (show ¬(0 : Fin S512x1024.rank) ∈ dot_S512x1024_S1024x512_S512x512_1_0_0_1_n_n.lhsBatch by decide),
    dif_pos (show (0 : Fin S512x1024.rank) ∈ dot_S512x1024_S1024x512_S512x512_1_0_0_1_n_n.lhsNonContracting by decide)]
  rfl
theorem qk_lhs1 (i : S512x512.Idx) (q : dot_S512x1024_S1024x512_S512x512_1_0_0_1_n_n.contr.Idx) : (dot_S512x1024_S1024x512_S512x512_1_0_0_1_n_n.lhsIdx i q 1).val = (q ⟨0, by decide⟩).val :=
  dot_S512x1024_S1024x512_S512x512_1_0_0_1_n_n.lhsIdx_val_of_single rfl i q
theorem qk_rhs0 (i : S512x512.Idx) (q : dot_S512x1024_S1024x512_S512x512_1_0_0_1_n_n.contr.Idx) : (dot_S512x1024_S1024x512_S512x512_1_0_0_1_n_n.rhsIdx i q 0).val = (q ⟨0, by decide⟩).val :=
  dot_S512x1024_S1024x512_S512x512_1_0_0_1_n_n.rhsIdx_val_of_single rfl i q
theorem qk_rhs1 (i : S512x512.Idx) (q : dot_S512x1024_S1024x512_S512x512_1_0_0_1_n_n.contr.Idx) : (dot_S512x1024_S1024x512_S512x512_1_0_0_1_n_n.rhsIdx i q 1).val = (i 1).val := by
  unfold DotDims.rhsIdx
  rw [dif_neg (show ¬(1 : Fin S1024x512.rank) ∈ dot_S512x1024_S1024x512_S512x512_1_0_0_1_n_n.rhsBatch by decide),
    dif_pos (show (1 : Fin S1024x512.rank) ∈ dot_S512x1024_S1024x512_S512x512_1_0_0_1_n_n.rhsNonContracting by decide)]
  rfl

/-- The product block: a matmul into zero of the query block with the transposed key block (both with their
    leading unit axis dropped) is, at (r, c), the sum over the feature axis of q(r, e)·k(c, e). -/
theorem score_matmul (Q K : FVec Ideal S1x512x1024 .bf16) (r c : Fin 512) :
    matmul (F := Ideal) dot_S512x1024_S1024x512_S512x512_1_0_0_1_n_n none (shapeCast S512x1024 Q shapeCasts_S1x512x1024_S512x1024)
      (transpose S1024x512 [1, 0] (shapeCast S512x1024 K shapeCasts_S1x512x1024_S512x1024)
        transposes_S512x1024_p1_0_S1024x512)
      (constant S512x512 .f32 0x00000000#32) (ix2 r c)
    = (∑ e : Fin 1024, Q (ix3 (0 : Fin 1) r e) * K (ix3 (0 : Fin 1) c e) : EReal) := by
  refine (Ideal.matmul_constant_zero_apply dot_S512x1024_S1024x512_S512x512_1_0_0_1_n_n none _ _ (ix2 r c)).trans ?_
  rw [← Equiv.sum_comp (contrEquiv1 dot_S512x1024_S1024x512_S512x512_1_0_0_1_n_n 1024 rfl rfl).symm]
  refine Finset.sum_congr rfl fun e _ => ?_
  have hk := contrEquiv1_symm_val dot_S512x1024_S1024x512_S512x512_1_0_0_1_n_n 1024 rfl rfl e
  have el : dot_S512x1024_S1024x512_S512x512_1_0_0_1_n_n.lhsIdx (ix2 r c) ((contrEquiv1 dot_S512x1024_S1024x512_S512x512_1_0_0_1_n_n 1024 rfl rfl).symm e) = ix2 r e :=
    funext fun a => Fin.ext (by
      match a with
      | ⟨0, _⟩ => exact qk_lhs0 _ _
      | ⟨1, _⟩ => exact (qk_lhs1 _ _).trans hk)
  have er : dot_S512x1024_S1024x512_S512x512_1_0_0_1_n_n.rhsIdx (ix2 r c) ((contrEquiv1 dot_S512x1024_S1024x512_S512x512_1_0_0_1_n_n 1024 rfl rfl).symm e) = ix2 e c :=
    funext fun a => Fin.ext (by
      match a with
      | ⟨0, _⟩ => exact (qk_rhs0 _ _).trans hk
      | ⟨1, _⟩ => exact qk_rhs1 _ _)
  rw [el, er, shapeCast_1ab_ab_apply, transpose_ix2_apply, shapeCast_1ab_ab_apply]

/-- THE SCORE BLOCK AT (r, c). -/
theorem pay9_apply (qi ki : Fin 8) (Q K : Vec Ideal S1x512x1024 .bf16) (r c : Fin 512) :
    k1_pay9 (F := Ideal) (BitVec.ofNat 32 qi.val) (BitVec.ofNat 32 ki.val) Q K (ix2 r c)
      = if ki.val * 512 + c.val ≤ qi.val * 512 + r.val then
          (∑ e : Fin 1024, Q (ix3 (0 : Fin 1) r e) * K (ix3 (0 : Fin 1) c e)) * ((1 / 32 : ℝ) : EReal)
        else ⊥ := by
  unfold k1_pay9
  show Scalar.select
      (IntOp.cmpi .sge
        (IntOp.addi (Scalar.muli (BitVec.ofNat 32 qi.val) 512#32) (BitVec.ofNat 32 (0 * 512 + r.val)))
        (IntOp.addi (Scalar.muli (BitVec.ofNat 32 ki.val) 512#32) (BitVec.ofNat 32 (0 * 512 + c.val))))
      (matmul dot_S512x1024_S1024x512_S512x512_1_0_0_1_n_n none (shapeCast S512x1024 Q shapeCasts_S1x512x1024_S512x1024)
          (transpose S1024x512 [1, 0] (shapeCast S512x1024 K shapeCasts_S1x512x1024_S512x1024)
            transposes_S512x1024_p1_0_S1024x512)
          (constant S512x512 .f32 0x00000000#32) (ix2 r c) * Ideal.ofBits .f32 0x3D000000#32)
      (Named.named (F := Ideal) κ "neg_big" (φ := .f32) 0xF149F2CA#32) = _
  rw [mask_bit, score_matmul, ofBits_inv32, neg_big]
  by_cases h : ki.val * 512 + c.val ≤ qi.val * 512 + r.val
  · rw [if_pos h, if_pos h]; exact select_one _ _
  · rw [if_neg h, if_neg h]; exact select_zero _ _

end Cert.KernelIdeal.AttnValue

end
-- ==== Proof.KI.PayReadRow.lean ====
/-
  The attention body's row operations read at an index, at the ideal values: the new running maximum of a row is
  the larger of the old one and the largest score of the row in the block; the rescaling factor is
  exp (old maximum − new maximum); the block's weights are exp (score − new maximum); the new total is the
  rescaled old total plus the sum of the row's weights. A reduction along the key axis followed by the cast
  [512] → [512, 1] reads at (r, 0) the reduction's value at r.
-/
import proofs.«181245_j47132971106646_2_alg».proof.Proof.KI.PayReadBasic

noncomputable section

namespace Cert.KernelIdeal.AttnValue

open Idealize.ShloMosaic Idealize.ShloMosaic.ValueIdx Cert.KernelIdeal Cert.KernelIdeal.Gen

/-- A vector [a] cast to the column [a, 1] reads, at (i, u), the vector at i. -/
theorem shapeCast_a_a1_apply {a : ℕ} {α : Type} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- Row r with the key coordinate c put back is the index (r, c). -/
theorem lift_row (r c : Fin 512) : reduces_S512x512_S512.lift (ix1 r) c = ix2 r c :=
  funext fun a => Fin.ext (by
    match a with
    | ⟨0, _⟩ => rfl
    | ⟨1, _⟩ => rfl)

/-- The maximum along the key axis, started from −∞, is at row r the supremum of the row. -/
theorem rowMax_apply (src : FVec Ideal S512x512 .f32) (hφ : FKind.Formats .f32)
    (hacc : (0xFF800000#32 : BitVec 32) = FKind.maximumf.neutral .f32 hφ) (r : Fin 512) :
    multiReduction .maximumf [1] S512 src 0xFF800000#32 reduces_S512x512_S512 hφ hacc (ix1 r)
      = Finset.univ.sup fun c : Fin 512 => src (ix2 r c) := by
  refine (Ideal.multiReduction_maximumf_single src _ reduces_S512x512_S512 hφ hacc (ix1 r)).trans ?_
  show (Finset.univ : Finset (Fin 512)).fold max (Ideal.ofBits .f32 0xFF800000#32)
      (fun c => src (reduces_S512x512_S512.lift (ix1 r) c)) = _
  rw [ofBits_neg_inf]
  have e : (fun c : Fin 512 => src (reduces_S512x512_S512.lift (ix1 r) c)) = fun c => src (ix2 r c) :=
    funext fun c => congrArg src (lift_row r c)
  exact (congrArg (fun f : Fin 512 → EReal => Finset.fold max ⊥ f Finset.univ) e).trans rfl

/-- The sum along the key axis is at row r the sum of the row. -/
theorem rowSum_apply (src : FVec Ideal S512x512 .f32) (hφ : FKind.Formats .f32)
    (hacc : (0x00000000#32 : BitVec 32) = FKind.add.neutral .f32 hφ) (r : Fin 512) :
    multiReduction .add [1] S512 src 0x00000000#32 reduces_S512x512_S512 hφ hacc (ix1 r)
      = ∑ c : Fin 512, src (ix2 r c) := by
  refine (Ideal.multiReduction_add_single src _ reduces_S512x512_S512 hφ hacc (ix1 r)).trans ?_
  show ∑ c : Fin 512, src (reduces_S512x512_S512.lift (ix1 r) c) = _
  exact Finset.sum_congr rfl fun c _ => congrArg src (lift_row r c)

/-- THE NEW ROW MAXIMUM at (r, 0): the larger of the old maximum and the largest score of row r in the block. -/
theorem pay10_apply (a1 a2 : BitVec 32) (Q K : Vec Ideal S1x512x1024 .bf16) (m : Vec Ideal S512x1 .f32) (r : Fin 512) :
    k1_pay10 (F := Ideal) a1 a2 Q K m (ix2 r (0 : Fin 1))
      = max (m (ix2 r (0 : Fin 1)))
          (Finset.univ.sup fun c : Fin 512 => k1_pay9 (F := Ideal) a1 a2 Q K (ix2 r c)) := by
  unfold k1_pay10
  refine (maximumf_apply _ _ _).trans (congrArg _ ?_)
  exact (shapeCast_a_a1_apply _ _ r (0 : Fin 1)).trans (rowMax_apply _ _ _ r)

/-- THE RESCALING FACTOR at (r, 0): exp (a carried maximum − the new maximum). -/
theorem pay11_apply (a1 a2 : BitVec 32) (Q K : Vec Ideal S1x512x1024 .bf16) (m m2 : Vec Ideal S512x1 .f32) (r : Fin 512) :
    k1_pay11 (F := Ideal) a1 a2 Q K m m2 (ix2 r (0 : Fin 1))
      = Ideal.exp (m2 (ix2 r (0 : Fin 1)) - k1_pay10 (F := Ideal) a1 a2 Q K m (ix2 r (0 : Fin 1))) := by
  unfold k1_pay11
  rfl

/-- THE BLOCK'S WEIGHTS at (r, c): exp (score − the new maximum of row r). -/
theorem pay12_apply (a1 a2 : BitVec 32) (Q K : Vec Ideal S1x512x1024 .bf16) (m : Vec Ideal S512x1 .f32) (r c : Fin 512) :
    k1_pay12 (F := Ideal) a1 a2 Q K m (ix2 r c)
      = Ideal.exp (k1_pay9 (F := Ideal) a1 a2 Q K (ix2 r c)
          - k1_pay10 (F := Ideal) a1 a2 Q K m (ix2 r (0 : Fin 1))) := by
  unfold k1_pay12
  show Ideal.exp (k1_pay9 (F := Ideal) a1 a2 Q K (ix2 r c)
      - broadcastTo S512x512 (k1_pay10 (F := Ideal) a1 a2 Q K m) broadcasts_S512x1_S512x512 (ix2 r c)) = _
  refine congrArg (fun z => Ideal.exp (k1_pay9 (F := Ideal) a1 a2 Q K (ix2 r c) - z)) ?_
  refine broadcastTo_apply _ _ (ix2 r c) (ix2 r (0 : Fin 1)) fun a => ?_
  match a with
  | ⟨0, _⟩ => rfl
  | ⟨1, _⟩ => rfl

/-- THE NEW TOTAL at (r, 0): the rescaled old total plus the sum of row r's weights in the block. -/
theorem pay13_apply (a1 a2 : BitVec 32) (Q K : Vec Ideal S1x512x1024 .bf16) (m m2 l : Vec Ideal S512x1 .f32) (r : Fin 512) :
    k1_pay13 (F := Ideal) a1 a2 Q K m m2 l (ix2 r (0 : Fin 1))
      = k1_pay11 (F := Ideal) a1 a2 Q K m m2 (ix2 r (0 : Fin 1)) * l (ix2 r (0 : Fin 1))
        + ∑ c : Fin 512, k1_pay12 (F := Ideal) a1 a2 Q K m (ix2 r c) := by
  unfold k1_pay13
  refine (addf_apply _ _ _).trans (congrArg _ ?_)
  exact (shapeCast_a_a1_apply _ _ r (0 : Fin 1)).trans (rowSum_apply _ _ _ r)

end Cert.KernelIdeal.AttnValue

end
-- ==== Proof.KI.PayReadAcc.lean ====
/-
  The attention body's new weighted sum read at an index, at the ideal values: entry (r, d) is the old entry
  rescaled by row r's factor plus the sum over the block's keys c of weight(r, c)·value(c, d) — a matmul into
  zero of the weight block with the value block.
-/
import proofs.«181245_j47132971106646_2_alg».proof.Proof.KI.PayReadBasic

noncomputable section

namespace Cert.KernelIdeal.AttnValue

open Idealize.ShloMosaic Idealize.ShloMosaic.ValueIdx Cert.KernelIdeal Cert.KernelIdeal.Gen

/-! The operand indices of the weights-times-values matmul at an output index and a contraction coordinate. -/

theorem pv_lhs0 (i : S512x1024.Idx) (q : dot_S512x512_S512x1024_S512x1024_1_0_0_1_n_n.contr.Idx) : (dot_S512x512_S512x1024_S512x1024_1_0_0_1_n_n.lhsIdx i q 0).val = (i 0).val := by
  unfold DotDims.lhsIdx
  rw [dif_neg (show ¬(0 : Fin S512x512.rank) ∈ dot_S512x512_S512x1024_S512x1024_1_0_0_1_n_n.lhsBatch by decide),
    dif_pos (show (0 : Fin S512x512.rank) ∈ dot_S512x512_S512x1024_S512x1024_1_0_0_1_n_n.lhsNonContracting by decide)]
  rfl
theorem pv_lhs1 (i : S512x1024.Idx) (q : dot_S512x512_S512x1024_S512x1024_1_0_0_1_n_n.contr.Idx) : (dot_S512x512_S512x1024_S512x1024_1_0_0_1_n_n.lhsIdx i q 1).val = (q ⟨0, by decide⟩).val :=
  dot_S512x512_S512x1024_S512x1024_1_0_0_1_n_n.lhsIdx_val_of_single rfl i q
theorem pv_rhs0 (i : S512x1024.Idx) (q : dot_S512x512_S512x1024_S512x1024_1_0_0_1_n_n.contr.Idx) : (dot_S512x512_S512x1024_S512x1024_1_0_0_1_n_n.rhsIdx i q 0).val = (q ⟨0, by decide⟩).val :=
  dot_S512x512_S512x1024_S512x1024_1_0_0_1_n_n.rhsIdx_val_of_single rfl i q
theorem pv_rhs1 (i : S512x1024.Idx) (q : dot_S512x512_S512x1024_S512x1024_1_0_0_1_n_n.contr.Idx) : (dot_S512x512_S512x1024_S512x1024_1_0_0_1_n_n.rhsIdx i q 1).val = (i 1).val := by
  unfold DotDims.rhsIdx
  rw [dif_neg (show ¬(1 : Fin S512x1024.rank) ∈ dot_S512x512_S512x1024_S512x1024_1_0_0_1_n_n.rhsBatch by decide),
    dif_pos (show (1 : Fin S512x1024.rank) ∈ dot_S512x512_S512x1024_S512x1024_1_0_0_1_n_n.rhsNonContracting by decide)]
  rfl

/-- The weights-times-values block: a matmul into zero is, at (r, d), the sum over the keys c of p(r, c)·v(c, d). -/
theorem pv_matmul (P : FVec Ideal S512x512 .bf16) (V : FVec Ideal S512x1024 .bf16) (r : Fin 512) (d : Fin 1024) :
    matmul (F := Ideal) dot_S512x512_S512x1024_S512x1024_1_0_0_1_n_n none P V (constant S512x1024 .f32 0x00000000#32) (ix2 r d)
    = (∑ c : Fin 512, P (ix2 r c) * V (ix2 c d) : EReal) := by
  refine (Ideal.matmul_constant_zero_apply dot_S512x512_S512x1024_S512x1024_1_0_0_1_n_n none _ _ (ix2 r d)).trans ?_
  rw [← Equiv.sum_comp (contrEquiv1 dot_S512x512_S512x1024_S512x1024_1_0_0_1_n_n 512 rfl rfl).symm]
  refine Finset.sum_congr rfl fun c _ => ?_
  have hk := contrEquiv1_symm_val dot_S512x512_S512x1024_S512x1024_1_0_0_1_n_n 512 rfl rfl c
  have el : dot_S512x512_S512x1024_S512x1024_1_0_0_1_n_n.lhsIdx (ix2 r d) ((contrEquiv1 dot_S512x512_S512x1024_S512x1024_1_0_0_1_n_n 512 rfl rfl).symm c) = ix2 r c :=
    funext fun a => Fin.ext (by
      match a with
      | ⟨0, _⟩ => exact pv_lhs0 _ _
      | ⟨1, _⟩ => exact (pv_lhs1 _ _).trans hk)
  have er : dot_S512x512_S512x1024_S512x1024_1_0_0_1_n_n.rhsIdx (ix2 r d) ((contrEquiv1 dot_S512x512_S512x1024_S512x1024_1_0_0_1_n_n 512 rfl rfl).symm c) = ix2 c d :=
    funext fun a => Fin.ext (by
      match a with
      | ⟨0, _⟩ => exact (pv_rhs0 _ _).trans hk
      | ⟨1, _⟩ => exact pv_rhs1 _ _)
  rw [el, er]

/-- THE NEW WEIGHTED SUM at (r, d). -/
theorem pay5_apply (V : Vec Ideal S512x1024 .bf16) (f : Vec Ideal S512x1 .f32) (p : Vec Ideal S512x512 .f32)
    (acc : Vec Ideal S512x1024 .f32) (r : Fin 512) (d : Fin 1024) :
    k1_pay5 (F := Ideal) V f p acc (ix2 r d)
      = f (ix2 r (0 : Fin 1)) * acc (ix2 r d) + ∑ c : Fin 512, p (ix2 r c) * V (ix2 c d) := by
  unfold k1_pay5
  rw [shapeCast_self]
  refine (addf_apply _ _ _).trans ?_
  refine congrArg₂ (· + ·) ?_ ?_
  · refine (mulf_apply _ _ _).trans (congrArg (· * acc (ix2 r d)) ?_)
    refine broadcastTo_apply _ _ (ix2 r d) (ix2 r (0 : Fin 1)) fun a => ?_
    match a with
    | ⟨0, _⟩ => rfl
    | ⟨1, _⟩ => rfl
  · exact pv_matmul _ _ r d

end Cert.KernelIdeal.AttnValue

end
-- ==== Proof.LibOnlineSoftmax.lean ====
/-
  The online-softmax law over an abstract finite key type, on the extended reals.

  A softmax-weighted sum over a set of keys can be folded one block of keys at a time. The state after a set A of
  keys is (m, l, a): m the largest score in A, l the sum over A of exp (score − m), a the sum over A of
  exp (score − m)·value. Folding a disjoint block B rescales l and a by exp (m − m'), where m' = max m (largest
  score in B), and adds B's own terms taken against m'. The theorems below say that the result is the state of
  A ∪ B. Scores are extended reals that are never +∞ (a masked key has score −∞, and exp (−∞) = 0); values are
  real. No score needs to be real: a set whose scores are all −∞ has m = −∞ and l = a = 0, and the empty start
  (m = −∞, l = 0, a = 0) is the case A = ∅.
-/
import Idealize.ShloMosaic.PureOps.Ideal

noncomputable section

namespace Cert.OnlineSoftmax

open Idealize.ShloMosaic

variable {ι : Type*}

/-- A finite sum of real numbers, read in the extended reals, is the sum of the readings. -/
theorem coe_sum (A : Finset ι) (f : ι → ℝ) :
    ((∑ j ∈ A, f j : ℝ) : EReal) = ∑ j ∈ A, (f j : EReal) := by
  classical
  refine Finset.induction_on A (by simp) ?_
  intro a t ha ih
  rw [Finset.sum_insert ha, Finset.sum_insert ha, EReal.coe_add, ih]

/-- The real number exp (x − m) for a score x < +∞ and a real m: exp (r − m) at a real score r, and 0 at −∞. -/
def ex (x : EReal) (m : ℝ) : ℝ := (Ideal.exp (x - (m : EReal))).toReal

/-- At the score −∞ the weight is 0. -/
theorem ex_bot (m : ℝ) : ex ⊥ m = 0 := by
  rw [ex, EReal.bot_sub, Ideal.exp_bot, EReal.toReal_zero]

/-- At a real score r the weight is exp (r − m). -/
theorem ex_coe (r m : ℝ) : ex (r : EReal) m = Real.exp (r - m) := by
  rw [ex, ← EReal.coe_sub, Ideal.exp_coe, EReal.toReal_coe]

/-- Every weight is nonnegative. -/
theorem ex_nonneg (x : EReal) (m : ℝ) : 0 ≤ ex x m := by
  induction x with
  | bot => rw [ex_bot]
  | coe r => rw [ex_coe]; exact (Real.exp_pos _).le
  | top => rw [ex, EReal.top_sub_coe, Ideal.exp_top, EReal.toReal_top]

/-- For a score x < +∞ and a real m, the extended-real exp (x − m) is the reading of the real weight. -/
theorem exp_sub_coe {x : EReal} (hx : x ≠ ⊤) (m : ℝ) :
    Ideal.exp (x - (m : EReal)) = ((ex x m : ℝ) : EReal) := by
  induction x with
  | bot => rw [ex_bot, EReal.bot_sub, Ideal.exp_bot, EReal.coe_zero]
  | coe r => rw [ex_coe, ← EReal.coe_sub, Ideal.exp_coe]
  | top => exact absurd rfl hx

/-- Changing the reference point from m to M multiplies every weight by exp (m − M). -/
theorem ex_rescale (x : EReal) (m M : ℝ) : Real.exp (m - M) * ex x m = ex x M := by
  induction x with
  | bot => rw [ex_bot, ex_bot, mul_zero]
  | coe r => rw [ex_coe, ex_coe, ← Real.exp_add]; congr 1; ring
  | top => simp [ex, EReal.top_sub_coe]

/-- A weighted sum over keys whose scores are all < +∞, taken against a real reference point, is the reading
    of a real sum. -/
theorem sum_exp_mul_coe (s : ι → EReal) (v : ι → ℝ) (A : Finset ι) (hs : ∀ j ∈ A, s j ≠ ⊤) (m : ℝ) :
    ∑ j ∈ A, Ideal.exp (s j - (m : EReal)) * (v j : EReal) = ((∑ j ∈ A, ex (s j) m * v j : ℝ) : EReal) := by
  rw [coe_sum]
  exact Finset.sum_congr rfl (fun j hj => by rw [exp_sub_coe (hs j hj), EReal.coe_mul])

/-- The largest score of a union is the larger of the two largest scores. -/
theorem sup_union_eq_max [DecidableEq ι] (s : ι → EReal) (A B : Finset ι) :
    (A ∪ B).sup s = max (A.sup s) (B.sup s) := Finset.sup_union

/-- **The online-softmax step, weighted sum.** For disjoint sets of keys A and B whose scores are all < +∞, with
    m = the largest score in A and m' = max m (the largest score in B): rescaling A's weighted sum (taken against m)
    by exp (m − m') and adding B's weighted sum taken against m' gives the weighted sum of A ∪ B taken against its
    own largest score. -/
theorem acc_step [DecidableEq ι] (s : ι → EReal) (v : ι → ℝ) (A B : Finset ι) (hAB : Disjoint A B)
    (hs : ∀ j ∈ A ∪ B, s j ≠ ⊤) :
    Ideal.exp (A.sup s - max (A.sup s) (B.sup s)) * (∑ j ∈ A, Ideal.exp (s j - A.sup s) * (v j : EReal))
        + ∑ j ∈ B, Ideal.exp (s j - max (A.sup s) (B.sup s)) * (v j : EReal)
      = ∑ j ∈ A ∪ B, Ideal.exp (s j - (A ∪ B).sup s) * (v j : EReal) := by
  have hsA : ∀ j ∈ A, s j ≠ ⊤ := fun j hj => hs j (Finset.mem_union_left _ hj)
  have hsB : ∀ j ∈ B, s j ≠ ⊤ := fun j hj => hs j (Finset.mem_union_right _ hj)
  have hAtop : A.sup s < ⊤ := (Finset.sup_lt_iff bot_lt_top).2 (fun j hj => lt_top_iff_ne_top.2 (hsA j hj))
  have hBtop : B.sup s < ⊤ := (Finset.sup_lt_iff bot_lt_top).2 (fun j hj => lt_top_iff_ne_top.2 (hsB j hj))
  rw [sup_union_eq_max, Finset.sum_union hAB]
  generalize hmA : A.sup s = mA at hAtop ⊢
  induction mA with
  | bot =>
    have hA : ∀ j ∈ A, s j = ⊥ := (Finset.sup_eq_bot_iff s A).1 hmA
    have h0 : ∑ j ∈ A, Ideal.exp (s j - B.sup s) * (v j : EReal) = 0 :=
      Finset.sum_eq_zero (fun j hj => by rw [hA j hj, EReal.bot_sub, Ideal.exp_bot, zero_mul])
    rw [EReal.bot_sub, Ideal.exp_bot, zero_mul, zero_add, max_eq_right bot_le, h0, zero_add]
  | coe mr =>
    have hMtop : max (mr : EReal) (B.sup s) ≠ ⊤ := (max_lt (EReal.coe_lt_top mr) hBtop).ne
    have hMbot : max (mr : EReal) (B.sup s) ≠ ⊥ :=
      (lt_of_lt_of_le (EReal.bot_lt_coe mr) (le_max_left _ _)).ne'
    obtain ⟨Mr, hMr⟩ : ∃ Mr : ℝ, max (mr : EReal) (B.sup s) = (Mr : EReal) :=
      ⟨_, (EReal.coe_toReal hMtop hMbot).symm⟩
    rw [hMr, sum_exp_mul_coe s v A hsA mr, sum_exp_mul_coe s v A hsA Mr, sum_exp_mul_coe s v B hsB Mr,
      ← EReal.coe_sub, Ideal.exp_coe, ← EReal.coe_mul, ← EReal.coe_add, ← EReal.coe_add, Finset.mul_sum]
    congr 2
    exact Finset.sum_congr rfl (fun j _ => by rw [← mul_assoc, ex_rescale])
  | top => exact absurd rfl hAtop.ne

/-- **The online-softmax step, total weight.** The same for the plain sum of the weights: rescaling A's total
    (taken against m) by exp (m − m') and adding B's total taken against m' gives the total of A ∪ B taken against
    its own largest score. -/
theorem total_step [DecidableEq ι] (s : ι → EReal) (A B : Finset ι) (hAB : Disjoint A B)
    (hs : ∀ j ∈ A ∪ B, s j ≠ ⊤) :
    Ideal.exp (A.sup s - max (A.sup s) (B.sup s)) * (∑ j ∈ A, Ideal.exp (s j - A.sup s))
        + ∑ j ∈ B, Ideal.exp (s j - max (A.sup s) (B.sup s))
      = ∑ j ∈ A ∪ B, Ideal.exp (s j - (A ∪ B).sup s) := by
  simpa only [EReal.coe_one, mul_one] using acc_step s (fun _ => (1 : ℝ)) A B hAB hs

/-- The weighted-sum step for values given as extended reals that are all real. -/
theorem acc_step_of_real [DecidableEq ι] (s : ι → EReal) (v : ι → EReal) (A B : Finset ι) (hAB : Disjoint A B)
    (hs : ∀ j ∈ A ∪ B, s j ≠ ⊤) (hv : ∀ j ∈ A ∪ B, ∃ x : ℝ, v j = (x : EReal)) :
    Ideal.exp (A.sup s - max (A.sup s) (B.sup s)) * (∑ j ∈ A, Ideal.exp (s j - A.sup s) * v j)
        + ∑ j ∈ B, Ideal.exp (s j - max (A.sup s) (B.sup s)) * v j
      = ∑ j ∈ A ∪ B, Ideal.exp (s j - (A ∪ B).sup s) * v j := by
  have hv' : ∀ j ∈ A ∪ B, v j = (((v j).toReal : ℝ) : EReal) := fun j hj => by
    obtain ⟨x, hx⟩ := hv j hj
    rw [hx, EReal.toReal_coe]
  have e : ∀ (C : Finset ι), C ⊆ A ∪ B → ∀ c : EReal,
      ∑ j ∈ C, Ideal.exp (s j - c) * v j = ∑ j ∈ C, Ideal.exp (s j - c) * (((v j).toReal : ℝ) : EReal) :=
    fun C hC c => Finset.sum_congr rfl (fun j hj => by rw [← hv' j (hC hj)])
  rw [e A Finset.subset_union_left, e B Finset.subset_union_right, e (A ∪ B) (Finset.Subset.refl _)]
  exact acc_step s (fun j => (v j).toReal) A B hAB hs

/-- **The online-softmax law, as a map of states.** If (m, l, a) is the state of A — m its largest score, l the sum
    of exp (score − m), a the sum of exp (score − m)·value — then with m' = max m (largest score of B) the triple
    (m', exp (m − m')·l + Σ_B exp (score − m'), exp (m − m')·a + Σ_B exp (score − m')·value) is the state of A ∪ B. -/
theorem step [DecidableEq ι] (s : ι → EReal) (v : ι → EReal) (A B : Finset ι) (hAB : Disjoint A B)
    (hs : ∀ j ∈ A ∪ B, s j ≠ ⊤) (hv : ∀ j ∈ A ∪ B, ∃ x : ℝ, v j = (x : EReal)) {m l a : EReal}
    (hm : m = A.sup s) (hl : l = ∑ j ∈ A, Ideal.exp (s j - m))
    (ha : a = ∑ j ∈ A, Ideal.exp (s j - m) * v j) :
    max m (B.sup s) = (A ∪ B).sup s
    ∧ Ideal.exp (m - max m (B.sup s)) * l + ∑ j ∈ B, Ideal.exp (s j - max m (B.sup s))
        = ∑ j ∈ A ∪ B, Ideal.exp (s j - max m (B.sup s))
    ∧ Ideal.exp (m - max m (B.sup s)) * a + ∑ j ∈ B, Ideal.exp (s j - max m (B.sup s)) * v j
        = ∑ j ∈ A ∪ B, Ideal.exp (s j - max m (B.sup s)) * v j := by
  subst hm hl ha
  refine ⟨(sup_union_eq_max s A B).symm, ?_, ?_⟩
  · rw [total_step s A B hAB hs, sup_union_eq_max]
  · rw [acc_step_of_real s v A B hAB hs hv, sup_union_eq_max]

/-- **The empty start.** From the state (−∞, 0, 0) of no keys, the same update gives the state of B: the rescaling
    factor is exp (−∞ − m') = 0, and max (−∞) m' = m'. No hypothesis on the scores or the values is needed. -/
theorem start (s : ι → EReal) (v : ι → EReal) (B : Finset ι) :
    max ⊥ (B.sup s) = B.sup s
    ∧ Ideal.exp (⊥ - max ⊥ (B.sup s)) * 0 + ∑ j ∈ B, Ideal.exp (s j - max ⊥ (B.sup s))
        = ∑ j ∈ B, Ideal.exp (s j - B.sup s)
    ∧ Ideal.exp (⊥ - max ⊥ (B.sup s)) * 0 + ∑ j ∈ B, Ideal.exp (s j - max ⊥ (B.sup s)) * v j
        = ∑ j ∈ B, Ideal.exp (s j - B.sup s) * v j := by
  refine ⟨max_eq_right bot_le, ?_, ?_⟩ <;>
    rw [max_eq_right bot_le, EReal.bot_sub, Ideal.exp_bot, zero_mul, zero_add]

/-- The rescaling factor out of the empty start is 0 whatever the new maximum is. -/
theorem exp_bot_sub (x : EReal) : Ideal.exp (⊥ - x) = 0 := by
  rw [EReal.bot_sub, Ideal.exp_bot]

/-! ### The same law for two score families over one finite key type

  Here the keys seen so far and the keys of the new block are told apart by where two score families are −∞: t carries
  the scores of the keys already folded and is −∞ elsewhere, s carries the new block's scores and is −∞ elsewhere,
  and no key has both. The folded state is then a sum over ALL keys (a key outside the family contributes
  exp (−∞ − m) = 0), and the state of the union is taken against the pointwise larger score max (t j) (s j). -/

section Families

variable {J : Type*} [Fintype J]

/-- **The online-softmax step for two score families, weighted sum.** With m the largest score of t, m' = max m (the
    largest score of s), no score +∞, no key scored by both families, and real values v: rescaling the weighted sum of
    t (taken against m) by exp (m − m') and adding the weighted sum of s taken against m' gives the weighted sum of
    the pointwise larger family taken against m'. The case m = −∞ (nothing folded yet) is included: the rescaling
    factor is then exp (−∞) = 0. The hypothesis that s has a score above −∞ is not needed and is not used. -/
theorem numer_step (t s : J → EReal) (ht : ∀ j, t j ≠ ⊤) (hs : ∀ j, s j ≠ ⊤) (hdisj : ∀ j, t j = ⊥ ∨ s j = ⊥)
    (hne : ∃ j, s j ≠ ⊥) (m m' : EReal) (hm : m = Finset.univ.sup t) (hm' : m' = max m (Finset.univ.sup s))
    (v : J → EReal) (hv : ∀ j, ∃ x : ℝ, v j = x) :
    Ideal.exp (m - m') * (∑ j, Ideal.exp (t j - m) * v j) + ∑ j, Ideal.exp (s j - m') * v j
      = ∑ j, Ideal.exp (max (t j) (s j) - m') * v j := by
  subst hm'
  have htop_t : Finset.univ.sup t < ⊤ :=
    (Finset.sup_lt_iff bot_lt_top).2 (fun j _ => lt_top_iff_ne_top.2 (ht j))
  have htop_s : Finset.univ.sup s < ⊤ :=
    (Finset.sup_lt_iff bot_lt_top).2 (fun j _ => lt_top_iff_ne_top.2 (hs j))
  choose vr hvr using hv
  simp only [hvr]
  induction m with
  | bot =>
    have hT : ∀ j, t j = ⊥ := fun j =>
      (Finset.sup_eq_bot_iff t Finset.univ).1 hm.symm j (Finset.mem_univ j)
    rw [EReal.bot_sub, Ideal.exp_bot, zero_mul, zero_add]
    exact Finset.sum_congr rfl (fun j _ => by rw [hT j, max_eq_right (bot_le : ⊥ ≤ s j)])
  | coe mr =>
    have hMtop : max (mr : EReal) (Finset.univ.sup s) ≠ ⊤ := (max_lt (EReal.coe_lt_top mr) htop_s).ne
    have hMbot : max (mr : EReal) (Finset.univ.sup s) ≠ ⊥ :=
      (lt_of_lt_of_le (EReal.bot_lt_coe mr) (le_max_left _ _)).ne'
    obtain ⟨Mr, hMr⟩ : ∃ Mr : ℝ, max (mr : EReal) (Finset.univ.sup s) = (Mr : EReal) :=
      ⟨_, (EReal.coe_toReal hMtop hMbot).symm⟩
    have hmax : ∀ j, max (t j) (s j) ≠ ⊤ := fun j =>
      (max_lt (lt_top_iff_ne_top.2 (ht j)) (lt_top_iff_ne_top.2 (hs j))).ne
    have e1 := sum_exp_mul_coe t vr Finset.univ (fun j _ => ht j) mr
    have e2 := sum_exp_mul_coe s vr Finset.univ (fun j _ => hs j) Mr
    have e3 := sum_exp_mul_coe (fun j => max (t j) (s j)) vr Finset.univ (fun j _ => hmax j) Mr
    rw [hMr, e1, e2, e3, ← EReal.coe_sub, Ideal.exp_coe, ← EReal.coe_mul, ← EReal.coe_add, Finset.mul_sum,
      ← Finset.sum_add_distrib]
    congr 1
    refine Finset.sum_congr rfl (fun j _ => ?_)
    rcases hdisj j with h | h
    · rw [h, ex_bot, max_eq_right bot_le, zero_mul, mul_zero, zero_add]
    · rw [h, ex_bot, max_eq_left bot_le, zero_mul, add_zero, ← mul_assoc, ex_rescale]
  | top => exact absurd hm.symm htop_t.ne

/-- **The online-softmax step for two score families, total weight.** The same for the plain sums of the weights. -/
theorem denom_step (t s : J → EReal) (ht : ∀ j, t j ≠ ⊤) (hs : ∀ j, s j ≠ ⊤) (hdisj : ∀ j, t j = ⊥ ∨ s j = ⊥)
    (hne : ∃ j, s j ≠ ⊥) (m m' : EReal) (hm : m = Finset.univ.sup t) (hm' : m' = max m (Finset.univ.sup s)) :
    Ideal.exp (m - m') * (∑ j, Ideal.exp (t j - m)) + ∑ j, Ideal.exp (s j - m')
      = ∑ j, Ideal.exp (max (t j) (s j) - m') := by
  have h := numer_step t s ht hs hdisj hne m m' hm hm' (fun _ => (1 : EReal))
    (fun _ => ⟨1, EReal.coe_one.symm⟩)
  simpa only [mul_one] using h

/-- The largest score of the pointwise larger family is the larger of the two largest scores: the new running
    maximum m' = max m (largest score of s) is the largest score of the union. -/
theorem sup_max (t s : J → EReal) :
    Finset.univ.sup (fun j => max (t j) (s j)) = max (Finset.univ.sup t) (Finset.univ.sup s) :=
  Finset.sup_sup

end Families

end Cert.OnlineSoftmax

end
-- ==== Proof.KI.OnlineKeys.lean ====
/-
  Keys seen so far and a block's keys, as score families over all 4096 keys of a batch.

  Row i of a batch folds its keys in blocks of 512. After the keys below K the scores "seen" are the row's scores
  below K and −∞ from K on; a block's 512 scores are placed at the keys ki·512 … ki·512 + 511 and −∞ elsewhere.
  The pointwise larger of "seen below ki·512" and "block ki" is "seen below (ki+1)·512"; no key is scored by both;
  a sum or a supremum over all keys of a term that vanishes (is −∞) off the block is the sum (supremum) over the
  block's 512 positions; and with every key of the row's own block and of the blocks before it seen, the family is
  the row's whole causal score row, because every later key is masked. From these and the two-family
  online-softmax law, one block folded into a row's state (maximum, total, weighted sum) gives the state of the
  larger key set.
-/
import proofs.«181245_j47132971106646_2_alg».proof.Proof.Spec
import proofs.«181245_j47132971106646_2_alg».proof.Proof.LibOnlineSoftmax

noncomputable section

namespace Cert.KernelIdeal.AttnValue

open Idealize.ShloMosaic Cert.Spec

/-- Position c of block ki as a key (or row) number: ki·512 + c. -/
def keyOf (ki : Fin 8) (c : Fin 512) : Fin 4096 := ⟨ki.val * 512 + c.val, by omega⟩

theorem keyOf_val (ki : Fin 8) (c : Fin 512) : (keyOf ki c).val = ki.val * 512 + c.val := rfl

theorem keyOf_injective (ki : Fin 8) : Function.Injective (keyOf ki) := fun c c' h => by
  have := congrArg Fin.val h
  simp only [keyOf_val] at this
  exact Fin.ext (by omega)

/-- A block's 512 values placed at its keys, −∞ at every other key. -/
def blockAt (ki : Fin 8) (g : Fin 512 → EReal) (j : Fin 4096) : EReal :=
  if h : ki.val * 512 ≤ j.val ∧ j.val < ki.val * 512 + 512 then g ⟨j.val - ki.val * 512, by omega⟩ else ⊥

theorem blockAt_keyOf (ki : Fin 8) (g : Fin 512 → EReal) (c : Fin 512) : blockAt ki g (keyOf ki c) = g c := by
  unfold blockAt
  rw [dif_pos ⟨by rw [keyOf_val]; omega, by rw [keyOf_val]; omega⟩]
  exact congrArg g (Fin.ext (by simp only [keyOf_val]; omega))

theorem blockAt_of_not_range (ki : Fin 8) (g : Fin 512 → EReal) (j : Fin 4096) (hj : j ∉ Set.range (keyOf ki)) :
    blockAt ki g j = ⊥ := by
  unfold blockAt
  refine dif_neg fun h => hj ⟨⟨j.val - ki.val * 512, by omega⟩, Fin.ext ?_⟩
  simp only [keyOf_val]; omega

/-- The largest placed value is the block's largest value. -/
theorem sup_blockAt (ki : Fin 8) (g : Fin 512 → EReal) : Finset.univ.sup (blockAt ki g) = Finset.univ.sup g := by
  refine le_antisymm (Finset.sup_le fun j _ => ?_) (Finset.sup_le fun c _ => ?_)
  · unfold blockAt
    split
    · exact Finset.le_sup (f := g) (Finset.mem_univ _)
    · exact bot_le
  · rw [← blockAt_keyOf ki g c]
    exact Finset.le_sup (f := blockAt ki g) (Finset.mem_univ _)

/-- A sum over all keys of a term that vanishes where the placed value is −∞ is the sum over the block. -/
theorem sum_blockAt (ki : Fin 8) (g : Fin 512 → EReal) (F : EReal → Fin 4096 → EReal) (hF : ∀ j, F ⊥ j = 0) :
    ∑ j, F (blockAt ki g j) j = ∑ c, F (g c) (keyOf ki c) :=
  (Fintype.sum_of_injective (keyOf ki) (keyOf_injective ki) (fun c => F (g c) (keyOf ki c))
    (fun j => F (blockAt ki g j) j) (fun j hj => by rw [blockAt_of_not_range ki g j hj]; exact hF j)
    (fun c => by rw [blockAt_keyOf])).symm

/-- Row i's scores against the keys below K, −∞ from K on. -/
def seen (q k : Arr3) (b : Fin 4) (i : Fin 4096) (K : ℕ) (j : Fin 4096) : EReal :=
  if j.val < K then score q k b i j else ⊥

theorem seen_zero (q k : Arr3) (b : Fin 4) (i : Fin 4096) : seen q k b i 0 = fun _ => ⊥ :=
  funext fun j => if_neg (Nat.not_lt_zero _)

/-- Seen below ki·512 joined with block ki is seen below (ki+1)·512. -/
theorem seen_step (q k : Arr3) (b : Fin 4) (i : Fin 4096) (ki : Fin 8) (j : Fin 4096) :
    max (seen q k b i (ki.val * 512) j) (blockAt ki (fun c => score q k b i (keyOf ki c)) j)
      = seen q k b i ((ki.val + 1) * 512) j := by
  unfold seen blockAt
  by_cases h1 : j.val < ki.val * 512
  · rw [if_pos h1, dif_neg (by omega), if_pos (by omega), max_eq_left bot_le]
  · rw [if_neg h1, max_eq_right bot_le]
    by_cases h2 : j.val < ki.val * 512 + 512
    · rw [dif_pos ⟨by omega, h2⟩, if_pos (by omega)]
      exact congrArg (score q k b i) (Fin.ext (by simp only [keyOf_val]; omega))
    · rw [dif_neg (by omega), if_neg (by omega)]

/-- No key is both seen below ki·512 and in block ki. -/
theorem seen_disj (q k : Arr3) (b : Fin 4) (i : Fin 4096) (ki : Fin 8) (g : Fin 512 → EReal) (j : Fin 4096) :
    seen q k b i (ki.val * 512) j = ⊥ ∨ blockAt ki g j = ⊥ := by
  unfold seen blockAt
  by_cases h1 : j.val < ki.val * 512
  · exact Or.inr (dif_neg (by omega))
  · exact Or.inl (if_neg h1)

/-- With the row's own block and every block before it seen, the family is the row's whole score row: every later
    key is masked. -/
theorem seen_full (q k : Arr3) (b : Fin 4) (qi : Fin 8) (r : Fin 512) :
    seen q k b (keyOf qi r) ((qi.val + 1) * 512) = score q k b (keyOf qi r) := by
  funext j
  unfold seen
  by_cases h : j.val < (qi.val + 1) * 512
  · exact if_pos h
  · rw [if_neg h]
    unfold score
    exact (if_neg (by rw [Fin.le_def, keyOf_val]; omega)).symm

/-- A finite sum of real numbers is a real number. -/
theorem sum_real {ι : Type*} (A : Finset ι) (f : ι → EReal) (hf : ∀ a, ∃ x : ℝ, f a = x) : ∃ x : ℝ, ∑ a ∈ A, f a = x := by
  choose fr hfr using hf
  exact ⟨∑ a ∈ A, fr a, by rw [Cert.OnlineSoftmax.coe_sum]; exact Finset.sum_congr rfl fun a _ => hfr a⟩

/-- An unmasked score of real inputs is real. -/
theorem score_real (q k : Arr3) (hq : ∀ b i d, ∃ x : ℝ, q b i d = x) (hk : ∀ b i d, ∃ x : ℝ, k b i d = x)
    (b : Fin 4) (i j : Fin 4096) (hji : j ≤ i) : ∃ x : ℝ, score q k b i j = x := by
  unfold score
  rw [if_pos hji]
  obtain ⟨x, hx⟩ := sum_real Finset.univ (fun d => q b i d * k b j d) (fun d => by
    obtain ⟨x, hx⟩ := hq b i d
    obtain ⟨y, hy⟩ := hk b j d
    exact ⟨x * y, by rw [hx, hy, EReal.coe_mul]⟩)
  exact ⟨x * (1 / 32), by rw [hx, EReal.coe_mul]⟩

/-- No score of real inputs is +∞. -/
theorem score_ne_top (q k : Arr3) (hq : ∀ b i d, ∃ x : ℝ, q b i d = x) (hk : ∀ b i d, ∃ x : ℝ, k b i d = x)
    (b : Fin 4) (i j : Fin 4096) : score q k b i j ≠ ⊤ := by
  by_cases hji : j ≤ i
  · obtain ⟨x, hx⟩ := score_real q k hq hk b i j hji
    rw [hx]; exact EReal.coe_ne_top x
  · unfold score; rw [if_neg hji]; exact bot_ne_top

theorem seen_ne_top (q k : Arr3) (hq : ∀ b i d, ∃ x : ℝ, q b i d = x) (hk : ∀ b i d, ∃ x : ℝ, k b i d = x)
    (b : Fin 4) (i : Fin 4096) (K : ℕ) (j : Fin 4096) : seen q k b i K j ≠ ⊤ := by
  unfold seen
  split
  · exact score_ne_top q k hq hk b i j
  · exact bot_ne_top

theorem blockAt_ne_top (ki : Fin 8) (g : Fin 512 → EReal) (hg : ∀ c, g c ≠ ⊤) (j : Fin 4096) : blockAt ki g j ≠ ⊤ := by
  unfold blockAt
  split
  · exact hg _
  · exact bot_ne_top

/-- ONE BLOCK FOLDED INTO A ROW'S STATE. Row i has folded the keys below ki·512 into (m, l, a): m the largest
    score seen, l the sum of exp (score − m), a the sum of exp (score − m)·value (all over the seen family). Block
    ki has the scores g c = score of i against key ki·512 + c, and its first key is not after i. Then
    m' = max m (largest g), exp (m − m')·l + Σ_c exp (g c − m') and exp (m − m')·a + Σ_c exp (g c − m')·value are the
    state of the keys below (ki+1)·512. -/
theorem row_step (q k : Arr3) (hq : ∀ b i d, ∃ x : ℝ, q b i d = x) (hk : ∀ b i d, ∃ x : ℝ, k b i d = x)
    (b : Fin 4) (i : Fin 4096) (ki : Fin 8) (hki : ki.val * 512 ≤ i.val) (w : Fin 4096 → EReal) (hw : ∀ j, ∃ x : ℝ, w j = x)
    (m l a : EReal) (hm : m = Finset.univ.sup (seen q k b i (ki.val * 512)))
    (hl : l = ∑ j, Ideal.exp (seen q k b i (ki.val * 512) j - m))
    (ha : a = ∑ j, Ideal.exp (seen q k b i (ki.val * 512) j - m) * w j)
    (g : Fin 512 → EReal) (hg : ∀ c, g c = score q k b i (keyOf ki c)) (m' : EReal) (hm' : m' = max m (Finset.univ.sup g)) :
    m' = Finset.univ.sup (seen q k b i ((ki.val + 1) * 512))
    ∧ Ideal.exp (m - m') * l + ∑ c, Ideal.exp (g c - m') = ∑ j, Ideal.exp (seen q k b i ((ki.val + 1) * 512) j - m')
    ∧ Ideal.exp (m - m') * a + ∑ c, Ideal.exp (g c - m') * w (keyOf ki c)
        = ∑ j, Ideal.exp (seen q k b i ((ki.val + 1) * 512) j - m') * w j := by
  obtain rfl : g = fun c => score q k b i (keyOf ki c) := funext hg
  have ht := seen_ne_top q k hq hk b i (ki.val * 512)
  have hs := blockAt_ne_top ki (fun c => score q k b i (keyOf ki c)) (fun c => score_ne_top q k hq hk b i _)
  have hdisj := seen_disj q k b i ki (fun c => score q k b i (keyOf ki c))
  have hne : ∃ j, blockAt ki (fun c => score q k b i (keyOf ki c)) j ≠ ⊥ := by
    refine ⟨keyOf ki ⟨0, by omega⟩, ?_⟩
    rw [blockAt_keyOf]
    obtain ⟨x, hx⟩ := score_real q k hq hk b i (keyOf ki ⟨0, by omega⟩) (by rw [Fin.le_def, keyOf_val]; omega)
    rw [hx]; exact EReal.coe_ne_bot x
  have hm2 : m' = max m (Finset.univ.sup (blockAt ki (fun c => score q k b i (keyOf ki c)))) := by
    rw [sup_blockAt]; exact hm'
  have hjoin : (fun j => max (seen q k b i (ki.val * 512) j) (blockAt ki (fun c => score q k b i (keyOf ki c)) j))
      = seen q k b i ((ki.val + 1) * 512) := funext (seen_step q k b i ki)
  have hd := Cert.OnlineSoftmax.denom_step _ _ ht hs hdisj hne m m' hm hm2
  have hn := Cert.OnlineSoftmax.numer_step _ _ ht hs hdisj hne m m' hm hm2 w hw
  refine ⟨?_, ?_, ?_⟩
  · rw [hm2, hm, ← Cert.OnlineSoftmax.sup_max, hjoin]
  · rw [hl, ← sum_blockAt ki _ (fun x _ => Ideal.exp (x - m')) (fun _ => Cert.OnlineSoftmax.exp_bot_sub m'), hd]
    exact Finset.sum_congr rfl fun j _ => by rw [seen_step]
  · rw [ha, ← sum_blockAt ki _ (fun x j => Ideal.exp (x - m') * w j)
      (fun j => by rw [Cert.OnlineSoftmax.exp_bot_sub, zero_mul]), hn]
    exact Finset.sum_congr rfl fun j _ => by rw [seen_step]

end Cert.KernelIdeal.AttnValue

end
-- ==== Proof.KI.Online.lean ====
/-
  The attention region's value at the ideal values, over an abstract run of its 256 grid points
  (point n = (batch n / 64, query block n / 8 % 8, key block n % 8)).

  The state a row block carries between points is (m, l, acc). The invariant: after the key blocks 0 … k of
  query block qi (k ≤ qi), for every row r of the block — row i = qi·512 + r of the batch — m(r) is the largest
  score of row i against the keys below (k+1)·512, l(r) the sum over those keys of exp (score − m(r)), and
  acc(r, d) the sum of exp (score − m(r))·v(key, d). It holds of the start (−∞, 0, 0) with no key seen; a point on
  or below the block diagonal carries it from k·512 to (k+1)·512 keys (the payload reads, then the one-row step); a
  point above the diagonal changes nothing, and every key of such a block is masked for every row of the query
  block. At the last key block the keys seen are those below (qi+1)·512, and every later key is masked: the seen
  family is the row's whole causal score row, so m is the row maximum, l the total weight, acc the weighted sum of
  the values, and the output block acc / l is the specification's attention.
-/
import proofs.«181245_j47132971106646_2_alg».proof.Proof.KI.PayReadScore
import proofs.«181245_j47132971106646_2_alg».proof.Proof.KI.PayReadRow
import proofs.«181245_j47132971106646_2_alg».proof.Proof.KI.PayReadAcc
import proofs.«181245_j47132971106646_2_alg».proof.Proof.KI.OnlineKeys

noncomputable section

namespace Cert.KernelIdeal.AttnValue

open Idealize.ShloMosaic Idealize.ShloMosaic.ValueIdx Cert.KernelIdeal Cert.KernelIdeal.Gen Cert.Spec

/-! ## One key block folded into the state, read at an index -/

/-- The new row maximum. -/
theorem step_max (a1 a2 : BitVec 32) (Q K Vv : Vec Ideal S1x512x1024 .bf16) (s : Attn.St Ideal) (r : Fin 512) :
    (Attn.step a1 a2 Q K Vv s).1 (ix2 r (0 : Fin 1)) = k1_pay10 (F := Ideal) a1 a2 Q K s.1 (ix2 r (0 : Fin 1)) := by
  show k1_pay6 (F := Ideal) (k1_pay10 (F := Ideal) a1 a2 Q K s.1) (ix2 r (0 : Fin 1)) = _
  rw [pay6_eq]

/-- The new total: the old one rescaled plus the row's weights in the block. -/
theorem step_total (a1 a2 : BitVec 32) (Q K Vv : Vec Ideal S1x512x1024 .bf16) (s : Attn.St Ideal) (r : Fin 512) :
    (Attn.step a1 a2 Q K Vv s).2.1 (ix2 r (0 : Fin 1))
      = Ideal.exp (s.1 (ix2 r (0 : Fin 1)) - k1_pay10 (F := Ideal) a1 a2 Q K s.1 (ix2 r (0 : Fin 1)))
          * s.2.1 (ix2 r (0 : Fin 1))
        + ∑ c : Fin 512, Ideal.exp (k1_pay9 (F := Ideal) a1 a2 Q K (ix2 r c)
            - k1_pay10 (F := Ideal) a1 a2 Q K s.1 (ix2 r (0 : Fin 1))) := by
  show k1_pay4 (F := Ideal) (k1_pay13 (F := Ideal) a1 a2 Q K s.1 s.1 s.2.1) (ix2 r (0 : Fin 1)) = _
  rw [pay4_eq, pay13_apply, pay11_apply]
  exact congrArg _ (Finset.sum_congr rfl fun c _ => pay12_apply a1 a2 Q K s.1 r c)

/-- The new weighted sum: the old one rescaled plus the block's weights times its values. -/
theorem step_acc (a1 a2 : BitVec 32) (Q K Vv : Vec Ideal S1x512x1024 .bf16) (s : Attn.St Ideal) (r : Fin 512) (d : Fin 1024) :
    (Attn.step a1 a2 Q K Vv s).2.2 (ix2 r d)
      = Ideal.exp (s.1 (ix2 r (0 : Fin 1)) - k1_pay10 (F := Ideal) a1 a2 Q K s.1 (ix2 r (0 : Fin 1)))
          * s.2.2 (ix2 r d)
        + ∑ c : Fin 512, Ideal.exp (k1_pay9 (F := Ideal) a1 a2 Q K (ix2 r c)
            - k1_pay10 (F := Ideal) a1 a2 Q K s.1 (ix2 r (0 : Fin 1))) * Vv (ix3 (0 : Fin 1) c d) := by
  show k1_pay5 (F := Ideal) (k1_pay8 (F := Ideal) Vv) (k1_pay11 (F := Ideal) a1 a2 Q K s.1 s.1)
      (k1_pay12 (F := Ideal) a1 a2 Q K s.1) s.2.2 (ix2 r d) = _
  rw [pay5_apply, pay11_apply]
  exact congrArg _ (Finset.sum_congr rfl fun c _ => by rw [pay12_apply, pay8_apply])

/-! ## The invariant -/

/-- The state of query block qi of batch b with the keys below K folded in. -/
def Inv (Qa Ka Va : Arr3) (b : Fin 4) (qi : Fin 8) (K : ℕ) (s : Attn.St Ideal) : Prop :=
  ∀ r : Fin 512,
    s.1 (ix2 r (0 : Fin 1)) = Finset.univ.sup (seen Qa Ka b (keyOf qi r) K)
    ∧ s.2.1 (ix2 r (0 : Fin 1)) = ∑ j, Ideal.exp (seen Qa Ka b (keyOf qi r) K j - s.1 (ix2 r (0 : Fin 1)))
    ∧ ∀ d : Fin 1024, s.2.2 (ix2 r d)
        = ∑ j, Ideal.exp (seen Qa Ka b (keyOf qi r) K j - s.1 (ix2 r (0 : Fin 1))) * Va b j d

theorem Inv.cast {Qa Ka Va : Arr3} {b b' : Fin 4} {qi qi' : Fin 8} {K K' : ℕ} {s : Attn.St Ideal}
    (hb : b = b') (hq : qi = qi') (hK : K = K') (h : Inv Qa Ka Va b qi K s) : Inv Qa Ka Va b' qi' K' s := by
  subst hb hq hK; exact h

/-- The start (−∞, 0, 0) is the state with no key folded in. -/
theorem inv_init (Qa Ka Va : Arr3) (b : Fin 4) (qi : Fin 8) : Inv Qa Ka Va b qi 0 (Attn.init (F := Ideal)) := by
  intro r
  have h1 : (Attn.init (F := Ideal)).1 (ix2 r (0 : Fin 1)) = ⊥ := pay1_apply (ix2 r (0 : Fin 1))
  refine ⟨?_, ?_, fun d => ?_⟩
  · rw [h1, seen_zero, Finset.sup_bot]
  · rw [h1, seen_zero]
    show k1_pay2 (F := Ideal) (ix2 r (0 : Fin 1)) = _
    rw [pay2_apply]
    exact (Finset.sum_eq_zero fun j _ => Cert.OnlineSoftmax.exp_bot_sub _).symm
  · rw [h1, seen_zero]
    show k1_pay3 (F := Ideal) (ix2 r d) = _
    rw [pay3_apply]
    exact (Finset.sum_eq_zero fun j _ => by rw [Cert.OnlineSoftmax.exp_bot_sub, zero_mul]).symm

/-- A key block on or below the diagonal carries the invariant from ki·512 keys to (ki+1)·512 keys. -/
theorem inv_step (Qa Ka Va : Arr3) (hQ : ∀ b i d, ∃ x : ℝ, Qa b i d = x) (hK : ∀ b i d, ∃ x : ℝ, Ka b i d = x)
    (hV : ∀ b i d, ∃ x : ℝ, Va b i d = x) (b : Fin 4) (qi ki : Fin 8) (hle : ki.val ≤ qi.val)
    (Q K Vv : Vec Ideal S1x512x1024 .bf16)
    (hbQ : ∀ (r : Fin 512) (e : Fin 1024), Q (ix3 (0 : Fin 1) r e) = Qa b (keyOf qi r) e)
    (hbK : ∀ (r : Fin 512) (e : Fin 1024), K (ix3 (0 : Fin 1) r e) = Ka b (keyOf ki r) e)
    (hbV : ∀ (r : Fin 512) (e : Fin 1024), Vv (ix3 (0 : Fin 1) r e) = Va b (keyOf ki r) e)
    (s : Attn.St Ideal) (hs : Inv Qa Ka Va b qi (ki.val * 512) s) :
    Inv Qa Ka Va b qi ((ki.val + 1) * 512) (Attn.step (BitVec.ofNat 32 qi.val) (BitVec.ofNat 32 ki.val) Q K Vv s) := by
  intro r
  obtain ⟨hm, hl, ha⟩ := hs r
  have hg : ∀ c : Fin 512, k1_pay9 (F := Ideal) (BitVec.ofNat 32 qi.val) (BitVec.ofNat 32 ki.val) Q K (ix2 r c)
      = score Qa Ka b (keyOf qi r) (keyOf ki c) := fun c => by
    rw [pay9_apply]
    unfold score
    by_cases h : ki.val * 512 + c.val ≤ qi.val * 512 + r.val
    · rw [if_pos h, if_pos (show keyOf ki c ≤ keyOf qi r from h)]
      simp only [hbQ, hbK]
    · rw [if_neg h, if_neg (show ¬ keyOf ki c ≤ keyOf qi r from h)]
  have hki : ki.val * 512 ≤ (keyOf qi r).val := by rw [keyOf_val]; omega
  have hm' := pay10_apply (BitVec.ofNat 32 qi.val) (BitVec.ofNat 32 ki.val) Q K s.1 r
  have R := fun (w : Fin 4096 → EReal) (hw : ∀ j, ∃ x : ℝ, w j = x) (a : EReal)
      (ha : a = ∑ j, Ideal.exp (seen Qa Ka b (keyOf qi r) (ki.val * 512) j - s.1 (ix2 r (0 : Fin 1))) * w j) =>
    row_step Qa Ka hQ hK b (keyOf qi r) ki hki w hw (s.1 (ix2 r (0 : Fin 1))) (s.2.1 (ix2 r (0 : Fin 1))) a hm hl ha
      (fun c => k1_pay9 (F := Ideal) (BitVec.ofNat 32 qi.val) (BitVec.ofNat 32 ki.val) Q K (ix2 r c)) hg
      (k1_pay10 (F := Ideal) (BitVec.ofNat 32 qi.val) (BitVec.ofNat 32 ki.val) Q K s.1 (ix2 r (0 : Fin 1))) hm'
  refine ⟨?_, ?_, fun d => ?_⟩
  · rw [step_max]
    exact (R (fun _ => 0) (fun _ => ⟨0, EReal.coe_zero.symm⟩) _ rfl).1
  · rw [step_total, step_max]
    exact (R (fun _ => 0) (fun _ => ⟨0, EReal.coe_zero.symm⟩) _ rfl).2.1
  · rw [step_acc, step_max]
    simp only [hbV]
    exact (R (fun j => Va b j d) (fun j => hV b j d) _ (ha d)).2.2

/-! ## The run -/

/-- THE ATTENTION REGION'S VALUE: at every row's last key block the output block is the specification's attention
    of the three projected arrays. -/
theorem out_eq_attn (Qa Ka Va : Cert.Spec.Arr3)
    (hQ : ∀ b i d, ∃ x : ℝ, Qa b i d = x) (hK : ∀ b i d, ∃ x : ℝ, Ka b i d = x) (hV : ∀ b i d, ∃ x : ℝ, Va b i d = x)
    (bQ bK bV : (n : ℕ) → n < 256 → Vec Ideal S1x512x1024 .bf16)
    (hbQ : ∀ n (hn : n < 256) (r : Fin 512) (e : Fin 1024),
      bQ n hn (ix3 (0 : Fin 1) r e) = Qa ⟨n / 64, by omega⟩ ⟨(n / 8 % 8) * 512 + r.val, by omega⟩ e)
    (hbK : ∀ n (hn : n < 256) (r : Fin 512) (e : Fin 1024),
      bK n hn (ix3 (0 : Fin 1) r e) = Ka ⟨n / 64, by omega⟩ ⟨(min (n % 8) (n / 8 % 8)) * 512 + r.val, by omega⟩ e)
    (hbV : ∀ n (hn : n < 256) (r : Fin 512) (e : Fin 1024),
      bV n hn (ix3 (0 : Fin 1) r e) = Va ⟨n / 64, by omega⟩ ⟨(min (n % 8) (n / 8 % 8)) * 512 + r.val, by omega⟩ e)
    (st : (n : ℕ) → n < 256 → Attn.St Ideal) (out : (n : ℕ) → n < 256 → Vec Ideal S1x512x1024 .f32)
    (h_first : ∀ n (hn : n < 256), n % 8 = 0 →
      st n hn = Attn.step (BitVec.ofNat 32 (n / 8 % 8)) (BitVec.ofNat 32 (n % 8)) (bQ n hn) (bK n hn) (bV n hn) Attn.init)
    (h_step : ∀ n (hn : n < 256), n % 8 ≠ 0 → n % 8 ≤ n / 8 % 8 →
      st n hn = Attn.step (BitVec.ofNat 32 (n / 8 % 8)) (BitVec.ofNat 32 (n % 8)) (bQ n hn) (bK n hn) (bV n hn)
        (st (n - 1) (by omega)))
    (h_skip : ∀ n (hn : n < 256), ¬ n % 8 ≤ n / 8 % 8 → st n hn = st (n - 1) (by omega))
    (h_last : ∀ n (hn : n < 256), n % 8 = 7 → out n hn = Attn.fin (st n hn)) :
    ∀ n (hn : n < 256), n % 8 = 7 → ∀ (r : Fin 512) (d : Fin 1024),
      out n hn (ix3 (0 : Fin 1) r d)
        = Cert.Spec.attn Qa Ka Va ⟨n / 64, by omega⟩ ⟨(n / 8 % 8) * 512 + r.val, by omega⟩ d := by
  -- the invariant at every point: the keys below (min (key block) (query block) + 1)·512 are folded in
  have key : ∀ n (hn : n < 256),
      Inv Qa Ka Va ⟨n / 64, by omega⟩ ⟨n / 8 % 8, by omega⟩ ((min (n % 8) (n / 8 % 8) + 1) * 512) (st n hn) := by
    intro n
    induction n using Nat.strong_induction_on with
    | _ n ih =>
      intro hn
      by_cases hle : n % 8 ≤ n / 8 % 8
      · -- on or below the diagonal: block n % 8 is folded into whatever state has its earlier keys
        have hblk : ∀ s : Attn.St Ideal,
            Inv Qa Ka Va ⟨n / 64, by omega⟩ ⟨n / 8 % 8, by omega⟩ (n % 8 * 512) s →
            Inv Qa Ka Va ⟨n / 64, by omega⟩ ⟨n / 8 % 8, by omega⟩ ((min (n % 8) (n / 8 % 8) + 1) * 512)
              (Attn.step (BitVec.ofNat 32 (n / 8 % 8)) (BitVec.ofNat 32 (n % 8)) (bQ n hn) (bK n hn) (bV n hn) s) := by
          intro s hs
          have h2 : Inv Qa Ka Va ⟨n / 64, by omega⟩ ⟨n / 8 % 8, by omega⟩ ((n % 8 + 1) * 512)
              (Attn.step (BitVec.ofNat 32 (n / 8 % 8)) (BitVec.ofNat 32 (n % 8)) (bQ n hn) (bK n hn) (bV n hn) s) :=
            inv_step Qa Ka Va hQ hK hV ⟨n / 64, by omega⟩ ⟨n / 8 % 8, by omega⟩ ⟨n % 8, by omega⟩ hle
              (bQ n hn) (bK n hn) (bV n hn) (fun r e => hbQ n hn r e)
              (fun r e => (hbK n hn r e).trans (congrArg (fun j => Ka _ j e) (Fin.ext (by
                show min (n % 8) (n / 8 % 8) * 512 + r.val = n % 8 * 512 + r.val; omega))))
              (fun r e => (hbV n hn r e).trans (congrArg (fun j => Va _ j e) (Fin.ext (by
                show min (n % 8) (n / 8 % 8) * 512 + r.val = n % 8 * 512 + r.val; omega))))
              s hs
          exact Inv.cast rfl rfl (by omega) h2
        by_cases h0 : n % 8 = 0
        · rw [h_first n hn h0]
          exact hblk _ (Inv.cast rfl rfl (by omega) (inv_init Qa Ka Va _ _))
        · rw [h_step n hn h0 hle]
          exact hblk _ (Inv.cast (Fin.ext (by show (n - 1) / 64 = n / 64; omega))
            (Fin.ext (by show (n - 1) / 8 % 8 = n / 8 % 8; omega)) (by omega) (ih (n - 1) (by omega) (by omega)))
      · -- above the diagonal: the state is the previous point's, and so is the number of keys folded in
        have e1 : (n - 1) / 8 = n / 8 := by omega
        have e2 : (n - 1) % 8 = n % 8 - 1 := by omega
        rw [h_skip n hn hle]
        exact Inv.cast (Fin.ext (by show (n - 1) / 64 = n / 64; omega))
          (Fin.ext (by show (n - 1) / 8 % 8 = n / 8 % 8; omega)) (by omega) (ih (n - 1) (by omega) (by omega))
  -- at the last key block every unmasked key of the row has been folded in
  intro n hn h7 r d
  have hI : Inv Qa Ka Va ⟨n / 64, by omega⟩ ⟨n / 8 % 8, by omega⟩ ((n / 8 % 8 + 1) * 512) (st n hn) :=
    Inv.cast rfl rfl (by omega) (key n hn)
  obtain ⟨hm, hl, ha⟩ := hI r
  have hfull := seen_full Qa Ka ⟨n / 64, by omega⟩ ⟨n / 8 % 8, by omega⟩ r
  rw [h_last n hn h7]
  show k1_pay7 (F := Ideal) (st n hn).2.2 (st n hn).2.1 (ix3 (0 : Fin 1) r d) = _
  rw [pay7_apply, ha d, hl, hm]
  show Ideal.div (∑ j, Ideal.exp (seen Qa Ka ⟨n / 64, _⟩ (keyOf ⟨n / 8 % 8, _⟩ r) ((n / 8 % 8 + 1) * 512) j
        - Finset.univ.sup (seen Qa Ka ⟨n / 64, _⟩ (keyOf ⟨n / 8 % 8, _⟩ r) ((n / 8 % 8 + 1) * 512))) * Va ⟨n / 64, _⟩ j d)
      (∑ j, Ideal.exp (seen Qa Ka ⟨n / 64, _⟩ (keyOf ⟨n / 8 % 8, _⟩ r) ((n / 8 % 8 + 1) * 512) j
        - Finset.univ.sup (seen Qa Ka ⟨n / 64, _⟩ (keyOf ⟨n / 8 % 8, _⟩ r) ((n / 8 % 8 + 1) * 512)))) = _
  rw [show seen Qa Ka ⟨n / 64, by omega⟩ (keyOf ⟨n / 8 % 8, by omega⟩ r) ((n / 8 % 8 + 1) * 512)
      = score Qa Ka ⟨n / 64, by omega⟩ (keyOf ⟨n / 8 % 8, by omega⟩ r) from hfull]
  rfl

end Cert.KernelIdeal.AttnValue

end
-- ==== Proof.KI.R1Cover.lean ====
/-
  The attention region's output array at the ideal values: after the region the array [4, 4096, 1024] holds the
  specification's attention of the three projected arrays, entry by entry.

  Grid point t = (batch t / 64, query block t / 8 % 8, key block t % 8). The query and output blocks of a point are
  rows (t / 8 % 8)·512 … +511 of batch t / 64; the key and value blocks are rows min (t % 8) (t / 8 % 8)·512 … +511
  of the same batch. The output block is written back exactly at the points with key block 7, where it is the
  state's weighted sum divided by its total; by the per-block theorem that block is the attention of its 512 rows.
  The 32 written blocks tile the array: entry (b, s, o) lies in the block of the point (b, s / 512, 7).
-/
import proofs.«181245_j47132971106646_2_alg».proof.Proof.KI.R1Runs
import proofs.«181245_j47132971106646_2_alg».proof.Proof.KI.Online
import Idealize.ShloMosaic.Lib.Pipeline.Value

set_option maxRecDepth 16384

noncomputable section

namespace Cert.KernelIdeal.R1V

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Attn

open Cert.KernelIdeal.AttnValue

/-- A point number below 256 is a point of the grid. -/
theorem lt256 {n : ℕ} (hn : n < 256) : n < cfg1.N := lt_of_lt_of_eq hn N_1.symm

/-- A point's coordinates: batch, query block, key block. -/
theorem coords_facts : ∀ t : Fin cfg1.N, (grid1.coords t 0).val = t.val / 64
    ∧ (grid1.coords t 1).val = t.val / 8 % 8 ∧ (grid1.coords t 2).val = t.val % 8 :=
  (by decide +kernel : ∀ t : Fin grid1.N, _)

/-- The printed index maps over the grid: the block numbers of the four windows at a point. -/
theorem idx_facts : ∀ t : Fin cfg1.N,
    win1_0.index t (0 : Fin 3) = t.val / 64 ∧ win1_0.index t (1 : Fin 3) = t.val / 8 % 8 ∧ win1_0.index t (2 : Fin 3) = 0
    ∧ win1_1.index t (0 : Fin 3) = t.val / 64 ∧ win1_1.index t (1 : Fin 3) = min (t.val % 8) (t.val / 8 % 8)
    ∧ win1_1.index t (2 : Fin 3) = 0
    ∧ win1_2.index t (0 : Fin 3) = t.val / 64 ∧ win1_2.index t (1 : Fin 3) = min (t.val % 8) (t.val / 8 % 8)
    ∧ win1_2.index t (2 : Fin 3) = 0
    ∧ win1_3.index t (0 : Fin 3) = t.val / 64 ∧ win1_3.index t (1 : Fin 3) = t.val / 8 % 8 ∧ win1_3.index t (2 : Fin 3) = 0 :=
  (by decide +kernel : ∀ t : Fin grid1.N, _)

section Blocks
variable (V : (c : Dev nD) → (b : Ref sig .tc) → Buf (Elt Ideal) ((c : Thread nD τ).loc b)) (c : Dev nD)

/-- The query block of a point, entry (0, r, e): the query array at its batch, row (query block)·512 + r. -/
theorem iblk_q (t : Fin cfg1.N) (r : Fin 512) (e : Fin 1024) :
    R1.iblk1 V c 0 t (ix3 (0 : Fin 1) r e)
      = (V c main_v8 : S4x4096x1024.Idx → EReal) (ix3 (⟨t.val / 64, by have := lt_of_lt_of_eq t.isLt N_1; omega⟩ : Fin 4)
          (⟨t.val / 8 % 8 * 512 + r.val, by omega⟩ : Fin 4096) e) := by
  obtain ⟨e0, e1, e2, -⟩ := idx_facts t
  show V c main_v8 (((cfg1.win 0).blk t).view.emb (ix3 (0 : Fin 1) r e)) = _
  refine congrArg _ (funext fun a => Fin.ext ?_)
  match a with
  | ⟨0, _⟩ => show win1_0.index t (0 : Fin 3) * 1 + 1 * 0 = t.val / 64; omega
  | ⟨1, _⟩ => show win1_0.index t (1 : Fin 3) * 512 + 1 * r.val = t.val / 8 % 8 * 512 + r.val; omega
  | ⟨2, _⟩ => show win1_0.index t (2 : Fin 3) * 1024 + 1 * e.val = e.val; omega

/-- The key block of a point, entry (0, r, e): the key array at its batch, row min (key block) (query block)·512 + r. -/
theorem iblk_k (t : Fin cfg1.N) (r : Fin 512) (e : Fin 1024) :
    R1.iblk1 V c 1 t (ix3 (0 : Fin 1) r e)
      = (V c main_v10 : S4x4096x1024.Idx → EReal) (ix3 (⟨t.val / 64, by have := lt_of_lt_of_eq t.isLt N_1; omega⟩ : Fin 4)
          (⟨min (t.val % 8) (t.val / 8 % 8) * 512 + r.val, by omega⟩ : Fin 4096) e) := by
  obtain ⟨-, -, -, e0, e1, e2, -⟩ := idx_facts t
  show V c main_v10 (((cfg1.win 1).blk t).view.emb (ix3 (0 : Fin 1) r e)) = _
  refine congrArg _ (funext fun a => Fin.ext ?_)
  match a with
  | ⟨0, _⟩ => show win1_1.index t (0 : Fin 3) * 1 + 1 * 0 = t.val / 64; omega
  | ⟨1, _⟩ => show win1_1.index t (1 : Fin 3) * 512 + 1 * r.val = min (t.val % 8) (t.val / 8 % 8) * 512 + r.val; omega
  | ⟨2, _⟩ => show win1_1.index t (2 : Fin 3) * 1024 + 1 * e.val = e.val; omega

/-- The value block of a point, likewise. -/
theorem iblk_v (t : Fin cfg1.N) (r : Fin 512) (e : Fin 1024) :
    R1.iblk1 V c 2 t (ix3 (0 : Fin 1) r e)
      = (V c main_v12 : S4x4096x1024.Idx → EReal) (ix3 (⟨t.val / 64, by have := lt_of_lt_of_eq t.isLt N_1; omega⟩ : Fin 4)
          (⟨min (t.val % 8) (t.val / 8 % 8) * 512 + r.val, by omega⟩ : Fin 4096) e) := by
  obtain ⟨-, -, -, -, -, -, e0, e1, e2, -⟩ := idx_facts t
  show V c main_v12 (((cfg1.win 2).blk t).view.emb (ix3 (0 : Fin 1) r e)) = _
  refine congrArg _ (funext fun a => Fin.ext ?_)
  match a with
  | ⟨0, _⟩ => show win1_2.index t (0 : Fin 3) * 1 + 1 * 0 = t.val / 64; omega
  | ⟨1, _⟩ => show win1_2.index t (1 : Fin 3) * 512 + 1 * r.val = min (t.val % 8) (t.val / 8 % 8) * 512 + r.val; omega
  | ⟨2, _⟩ => show win1_2.index t (2 : Fin 3) * 1024 + 1 * e.val = e.val; omega

end Blocks

/-- An entry of the array is in point t's output block iff each coordinate is in the block's range on its axis. -/
theorem mem_blk (t : Fin cfg1.N) (i : S4x4096x1024.Idx) :
    i ∈ ((cfg1.win 3).blk t).view.set ↔ ∀ a : Fin 3, win1_3.index t a * S1x512x1024.size a ≤ (i a).val
      ∧ (i a).val < win1_3.index t a * S1x512x1024.size a + S1x512x1024.size a := by
  show i ∈ ((View.whole main_v13).slice (win1_3.rect t)).set ↔ _
  rw [View.set_slice_whole, Rect.mem_set_unit]
  exact Iff.rfl

/-- Every entry is in the output block of a point that writes it back: the point (batch, row / 512, 7). -/
theorem cover (i : S4x4096x1024.Idx) :
    ∃ t : Fin cfg1.N, (cfg1.win 3).flush t = true ∧ i ∈ ((cfg1.win 3).blk t).view.set := by
  have hi0 : (i 0).val < 4 := (i 0).isLt
  have hi1 : (i 1).val < 4096 := (i 1).isLt
  have hi2 : (i 2).val < 1024 := (i 2).isLt
  obtain ⟨n, hn⟩ : ∃ n, n = (i 0).val * 64 + (i 1).val / 512 * 8 + 7 := ⟨_, rfl⟩
  have hn256 : n < 256 := by omega
  obtain ⟨t, ht⟩ : ∃ t : Fin cfg1.N, t.val = n := ⟨⟨n, lt256 hn256⟩, rfl⟩
  obtain ⟨-, -, -, -, -, -, -, -, -, e0, e1, e2⟩ := idx_facts t
  refine ⟨t, (flush1_3 t).mpr (by omega), ?_⟩
  rw [mem_blk]
  intro a
  match a with
  | ⟨0, _⟩ =>
    show win1_3.index t (0 : Fin 3) * 1 ≤ (i 0).val ∧ (i 0).val < win1_3.index t (0 : Fin 3) * 1 + 1
    omega
  | ⟨1, _⟩ =>
    show win1_3.index t (1 : Fin 3) * 512 ≤ (i 1).val ∧ (i 1).val < win1_3.index t (1 : Fin 3) * 512 + 512
    omega
  | ⟨2, _⟩ =>
    show win1_3.index t (2 : Fin 3) * 1024 ≤ (i 2).val ∧ (i 2).val < win1_3.index t (2 : Fin 3) * 1024 + 1024
    omega

/-- THE ARRAY after the attention region: the specification's attention of the three projected arrays. -/
theorem final1 (V : (c : Dev nD) → (b : Ref sig .tc) → Buf (Elt Ideal) ((c : Thread nD τ).loc b)) (c : Dev nD)
    (dat : Idealize.ShloMosaic.Pipeline.Dat τ (Elt Ideal) Unit ℕ (UR sig nD τ) ℕ cfg1 c)
    (outs : (n : ℕ) → n < cfg1.N → Vec Ideal S1x512x1024 .f32 × Attn.St Ideal)
    (hafter : ∀ t : Fin cfg1.N, dat.after 3 t = (outs t.val t.isLt).1)
    (h_first : ∀ t : Fin cfg1.N, t.val % 8 = 0 →
      (outs t.val t.isLt).2 = Attn.step (BitVec.ofNat 32 (grid1.coords t 1).val) (BitVec.ofNat 32 (grid1.coords t 2).val)
        (R1.iblk1 V c 0 t) (R1.iblk1 V c 1 t) (R1.iblk1 V c 2 t) Attn.init)
    (h_step : ∀ t : Fin cfg1.N, t.val % 8 ≠ 0 → t.val % 8 ≤ t.val / 8 % 8 →
      (outs t.val t.isLt).2 = Attn.step (BitVec.ofNat 32 (grid1.coords t 1).val) (BitVec.ofNat 32 (grid1.coords t 2).val)
        (R1.iblk1 V c 0 t) (R1.iblk1 V c 1 t) (R1.iblk1 V c 2 t)
        (outs (t.val - 1) (Nat.lt_of_le_of_lt (Nat.sub_le _ _) t.isLt)).2)
    (h_skip : ∀ t : Fin cfg1.N, ¬ t.val % 8 ≤ t.val / 8 % 8 →
      (outs t.val t.isLt).2 = (outs (t.val - 1) (Nat.lt_of_le_of_lt (Nat.sub_le _ _) t.isLt)).2)
    (h_last : ∀ t : Fin cfg1.N, t.val % 8 = 7 → (outs t.val t.isLt).1 = Attn.fin (outs t.val t.isLt).2)
    (Qa Ka Va : Cert.Spec.Arr3)
    (hQ : ∀ b i d, ∃ x : ℝ, Qa b i d = x) (hK : ∀ b i d, ∃ x : ℝ, Ka b i d = x) (hV : ∀ b i d, ∃ x : ℝ, Va b i d = x)
    (hVq : ∀ (b : Fin 4) (s : Fin 4096) (o : Fin 1024), (V c main_v8 : S4x4096x1024.Idx → EReal) (ix3 b s o) = Qa b s o)
    (hVk : ∀ (b : Fin 4) (s : Fin 4096) (o : Fin 1024), (V c main_v10 : S4x4096x1024.Idx → EReal) (ix3 b s o) = Ka b s o)
    (hVv : ∀ (b : Fin 4) (s : Fin 4096) (o : Fin 1024), (V c main_v12 : S4x4096x1024.Idx → EReal) (ix3 b s o) = Va b s o) :
    dat.arrAt 3 cfg1.N = fun idx => Cert.Spec.attn Qa Ka Va (idx 0) (idx 1) (idx 2) := by
  -- the per-block theorem, over the points numbered below 256
  have main := out_eq_attn Qa Ka Va hQ hK hV
    (fun n hn => R1.iblk1 V c 0 ⟨n, lt256 hn⟩) (fun n hn => R1.iblk1 V c 1 ⟨n, lt256 hn⟩)
    (fun n hn => R1.iblk1 V c 2 ⟨n, lt256 hn⟩)
    (fun n hn r e => (iblk_q V c ⟨n, lt256 hn⟩ r e).trans (hVq _ _ _))
    (fun n hn r e => (iblk_k V c ⟨n, lt256 hn⟩ r e).trans (hVk _ _ _))
    (fun n hn r e => (iblk_v V c ⟨n, lt256 hn⟩ r e).trans (hVv _ _ _))
    (fun n hn => (outs n (lt256 hn)).2) (fun n hn => (outs n (lt256 hn)).1)
    (fun n hn h0 => by
      have h := h_first ⟨n, lt256 hn⟩ h0
      rw [(coords_facts ⟨n, lt256 hn⟩).2.1, (coords_facts ⟨n, lt256 hn⟩).2.2] at h
      exact h)
    (fun n hn h0 hle => by
      have h := h_step ⟨n, lt256 hn⟩ h0 hle
      rw [(coords_facts ⟨n, lt256 hn⟩).2.1, (coords_facts ⟨n, lt256 hn⟩).2.2] at h
      exact h)
    (fun n hn hgt => h_skip ⟨n, lt256 hn⟩ hgt)
    (fun n hn h7 => h_last ⟨n, lt256 hn⟩ h7)
  refine dat.arrAt_eq_of_cover 3 _ (fun t hf => ?_) cover
  have h7 : t.val % 8 = 7 := (flush1_3 t).mp hf
  have hN : t.val < 256 := lt_of_lt_of_eq t.isLt N_1
  obtain ⟨-, -, -, -, -, -, -, -, -, e0, e1, e2⟩ := idx_facts t
  show (cfg1.win 3).cut (grid1.coords t) (dat.after 3 t) = _
  rw [hafter t]
  funext j
  obtain ⟨u, r, d, rfl⟩ : ∃ (u : Fin 1) (r : Fin 512) (d : Fin 1024), j = ix3 u r d := ⟨j 0, j 1, j 2, eq_ix3 j⟩
  obtain rfl : u = 0 := Subsingleton.elim _ _
  refine (main t.val hN h7 r d).trans ?_
  show _ = Cert.Spec.attn Qa Ka Va ((((cfg1.win 3).blk t).view.emb (ix3 (0 : Fin 1) r d)) 0)
    ((((cfg1.win 3).blk t).view.emb (ix3 (0 : Fin 1) r d)) 1) ((((cfg1.win 3).blk t).view.emb (ix3 (0 : Fin 1) r d)) 2)
  have c0 : (⟨t.val / 64, by omega⟩ : Fin 4) = (((cfg1.win 3).blk t).view.emb (ix3 (0 : Fin 1) r d)) 0 :=
    Fin.ext (by show t.val / 64 = win1_3.index t (0 : Fin 3) * 1 + 1 * 0; omega)
  have c1 : (⟨t.val / 8 % 8 * 512 + r.val, by omega⟩ : Fin 4096) = (((cfg1.win 3).blk t).view.emb (ix3 (0 : Fin 1) r d)) 1 :=
    Fin.ext (by show t.val / 8 % 8 * 512 + r.val = win1_3.index t (1 : Fin 3) * 512 + 1 * r.val; omega)
  have c2 : d = (((cfg1.win 3).blk t).view.emb (ix3 (0 : Fin 1) r d)) 2 :=
    Fin.ext (by show d.val = win1_3.index t (2 : Fin 3) * 1024 + 1 * d.val; omega)
  rw [← c0, ← c1, ← c2]

end Cert.KernelIdeal.R1V

end
-- ==== Proof.SpecLaws.lean ====
/-
  Laws of the specification: when the three projected arrays are real everywhere, every row maximum is real,
  every row's total weight is a positive real, and the two arrangements of the weighted mean — the division
  last and the division first — agree.
-/
import proofs.«181245_j47132971106646_2_alg».proof.Proof.Spec
import proofs.«181245_j47132971106646_2_alg».proof.Proof.LibOnlineSoftmax

noncomputable section

namespace Cert.Spec

open Idealize.ShloMosaic Cert.OnlineSoftmax

variable (q k v : Arr3)

/-- The dot product of two real rows is real. -/
theorem dot_real (hq : ∀ b i d, ∃ x : ℝ, q b i d = (x : EReal)) (hk : ∀ b i d, ∃ x : ℝ, k b i d = (x : EReal))
    (b : Fin 4) (i j : Fin 4096) : ∃ x : ℝ, (∑ d : Fin 1024, q b i d * k b j d) = (x : EReal) := by
  choose qr hqr using hq
  choose kr hkr using hk
  refine ⟨∑ d : Fin 1024, qr b i d * kr b j d, ?_⟩
  rw [coe_sum]
  exact Finset.sum_congr rfl (fun d _ => by rw [hqr, hkr, EReal.coe_mul])

/-- On and below the diagonal a score is real. -/
theorem score_real_of_le (hq : ∀ b i d, ∃ x : ℝ, q b i d = (x : EReal)) (hk : ∀ b i d, ∃ x : ℝ, k b i d = (x : EReal))
    (b : Fin 4) (i j : Fin 4096) (hji : j ≤ i) : ∃ x : ℝ, score q k b i j = (x : EReal) := by
  obtain ⟨x, hx⟩ := dot_real q k hq hk b i j
  exact ⟨x * (1 / 32 : ℝ), by rw [score, if_pos hji, hx, EReal.coe_mul]⟩

/-- No score is +∞: a score is real on and below the diagonal and −∞ above it. -/
theorem score_ne_top (hq : ∀ b i d, ∃ x : ℝ, q b i d = (x : EReal)) (hk : ∀ b i d, ∃ x : ℝ, k b i d = (x : EReal))
    (b : Fin 4) (i j : Fin 4096) : score q k b i j ≠ ⊤ := by
  by_cases hji : j ≤ i
  · obtain ⟨x, hx⟩ := score_real_of_le q k hq hk b i j hji
    rw [hx]; exact EReal.coe_ne_top x
  · rw [score, if_neg hji]; exact bot_ne_top

/-- The row maximum is real: it is at least the diagonal score, which is real, and no score is +∞. -/
theorem rowMax_real (hq : ∀ b i d, ∃ x : ℝ, q b i d = (x : EReal)) (hk : ∀ b i d, ∃ x : ℝ, k b i d = (x : EReal))
    (b : Fin 4) (i : Fin 4096) : ∃ x : ℝ, rowMax q k b i = (x : EReal) := by
  have htop : rowMax q k b i < ⊤ :=
    (Finset.sup_lt_iff bot_lt_top).2 (fun j _ => lt_top_iff_ne_top.2 (score_ne_top q k hq hk b i j))
  obtain ⟨x, hx⟩ := score_real_of_le q k hq hk b i i le_rfl
  have hbot : ⊥ < rowMax q k b i :=
    lt_of_lt_of_le (by rw [hx]; exact EReal.bot_lt_coe x)
      (Finset.le_sup (f := score q k b i) (Finset.mem_univ i))
  exact ⟨_, (EReal.coe_toReal htop.ne hbot.ne').symm⟩

/-- Against a real row maximum every weight is the reading of a nonnegative real. -/
theorem weight_eq (hq : ∀ b i d, ∃ x : ℝ, q b i d = (x : EReal)) (hk : ∀ b i d, ∃ x : ℝ, k b i d = (x : EReal))
    (b : Fin 4) (i j : Fin 4096) (m : ℝ) (hm : rowMax q k b i = (m : EReal)) :
    weight q k b i j = ((ex (score q k b i j) m : ℝ) : EReal) := by
  rw [weight, hm, exp_sub_coe (score_ne_top q k hq hk b i j)]

/-- Every weight is real. -/
theorem weight_real (hq : ∀ b i d, ∃ x : ℝ, q b i d = (x : EReal)) (hk : ∀ b i d, ∃ x : ℝ, k b i d = (x : EReal))
    (b : Fin 4) (i j : Fin 4096) : ∃ w : ℝ, weight q k b i j = (w : EReal) := by
  obtain ⟨m, hm⟩ := rowMax_real q k hq hk b i
  exact ⟨_, weight_eq q k hq hk b i j m hm⟩

/-- The row's total weight is a positive real: every weight is a nonnegative real and the diagonal's is positive. -/
theorem denom_pos_real (hq : ∀ b i d, ∃ x : ℝ, q b i d = (x : EReal)) (hk : ∀ b i d, ∃ x : ℝ, k b i d = (x : EReal))
    (b : Fin 4) (i : Fin 4096) : ∃ x : ℝ, 0 < x ∧ denom q k b i = (x : EReal) := by
  obtain ⟨m, hm⟩ := rowMax_real q k hq hk b i
  refine ⟨∑ j : Fin 4096, ex (score q k b i j) m, ?_, ?_⟩
  · obtain ⟨x, hx⟩ := score_real_of_le q k hq hk b i i le_rfl
    refine Finset.sum_pos' (fun j _ => ex_nonneg _ _) ⟨i, Finset.mem_univ i, ?_⟩
    rw [hx, ex_coe]; exact Real.exp_pos _
  · rw [denom, coe_sum]
    exact Finset.sum_congr rfl (fun j _ => weight_eq q k hq hk b i j m hm)

/-- For real weights, real values and a nonzero real total, dividing the weighted sum by the total is the sum of the
    values weighted by the divided weights. -/
theorem div_sum_eq_sum_div {ι : Type*} (A : Finset ι) (w u : ι → ℝ) (L : ℝ) (hL : L ≠ 0) :
    Ideal.div (∑ j ∈ A, (w j : EReal) * (u j : EReal)) (L : EReal)
      = ∑ j ∈ A, Ideal.div (w j : EReal) (L : EReal) * (u j : EReal) := by
  have h1 : ∑ j ∈ A, (w j : EReal) * (u j : EReal) = ((∑ j ∈ A, w j * u j : ℝ) : EReal) := by
    rw [coe_sum]; exact Finset.sum_congr rfl (fun j _ => by rw [EReal.coe_mul])
  have h2 : ∑ j ∈ A, Ideal.div (w j : EReal) (L : EReal) * (u j : EReal)
      = ((∑ j ∈ A, w j * (1 / L) * u j : ℝ) : EReal) := by
    rw [coe_sum]
    exact Finset.sum_congr rfl (fun j _ => by rw [Ideal.div_coe hL, EReal.coe_mul, EReal.coe_mul])
  rw [h1, h2, Ideal.div_coe hL, ← EReal.coe_mul, Finset.sum_mul]
  congr 1
  exact Finset.sum_congr rfl (fun j _ => by ring)

/-- The two arrangements of the weighted mean agree on real inputs. -/
theorem attn_eq_attnRef (hq : ∀ b i d, ∃ x : ℝ, q b i d = (x : EReal)) (hk : ∀ b i d, ∃ x : ℝ, k b i d = (x : EReal))
    (hv : ∀ b i d, ∃ x : ℝ, v b i d = (x : EReal)) : attn q k v = attnRef q k v := by
  funext b i d
  obtain ⟨L, hLpos, hL⟩ := denom_pos_real q k hq hk b i
  have hw : ∀ j, ∃ w : ℝ, weight q k b i j = (w : EReal) := weight_real q k hq hk b i
  choose w hw using hw
  choose vr hvr using hv
  show Ideal.div (∑ j : Fin 4096, weight q k b i j * v b j d) (denom q k b i)
    = ∑ j : Fin 4096, Ideal.div (weight q k b i j) (denom q k b i) * v b j d
  rw [hL]
  simp only [hw, hvr]
  exact div_sum_eq_sum_div Finset.univ w (fun j => vr b j d) L hLpos.ne'

end Cert.Spec

end
-- ==== Proof.FiniteArgs.lean ====
/-
  From the certificate's precondition to "every entry of every argument array is a real number". The precondition
  says, of each of the four argument arrays, that |x| < +∞ holds at every entry (an "and" over all entries that
  comes out 1). On the extended reals |x| = max x (−x) is below +∞ exactly when x is neither +∞ nor −∞, that is,
  when x is a real number. A corollary over the specification: a projection of real arrays is real.
-/
import proofs.«181245_j47132971106646_2_alg».proof.Defs
import proofs.«181245_j47132971106646_2_alg».proof.Proof.Spec
import proofs.«181245_j47132971106646_2_alg».proof.Proof.LibOnlineSoftmax
import Idealize.ShloMosaic.Lib.ReduceAll
import Idealize.ShloMosaic.Lib.WordArith
import Idealize.ShloMosaic.Lib.ValueIdx

noncomputable section

namespace Cert.KernelIdeal.FiniteArgs

open Idealize.ShloMosaic Idealize.SL.Sem

/-- The scalar shape has one index. -/
instance : Subsingleton Cert.Pre_finite_inputs.S_.Idx := ⟨fun a b => funext fun d => d.elim0⟩

/-- The word 0x7F800000 denotes +∞. -/
theorem ofBits_pinf : Ideal.ofBits .f32 0x7F800000#32 = (⊤ : EReal) := by
  simp [Ideal.ofBits, Ideal.ieee]

/-- An extended real whose absolute value max x (−x) compares below +∞ is a real number. -/
theorem real_of_abs_lt_top (x : EReal)
    (h : Ideal.cmp .olt (max x (-x)) (Ideal.ofBits .f32 0x7F800000#32) = 1#1) : ∃ r : ℝ, x = (r : EReal) := by
  rw [ofBits_pinf] at h
  change BitVec.ofBool (decide (max x (-x) < ⊤)) = 1#1 at h
  have hlt : max x (-x) < ⊤ := of_decide_eq_true ((WordArith.ofBool_eq_one_iff _).1 h)
  induction x with
  | bot => exact absurd hlt (by simp)
  | coe r => exact ⟨r, rfl⟩
  | top => exact absurd hlt (by simp)

/-- One argument array: if the "and" over all entries of |x| < +∞ comes out 1, every entry is real. -/
theorem all_real {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf x) (broadcastInDim s ![] hb (constant Cert.Pre_finite_inputs.S_ .f32 0x7F800000#32)))
          (constantI Cert.Pre_finite_inputs.S_ 1 1#1) hr hu ValueIdx.ix0 = 1#1) (i : s.Idx) :
    ∃ r : ℝ, x i = (r : EReal) :=
  real_of_abs_lt_top (x i) (Host.reduce_andi_all _ _ hr hu ValueIdx.ix0 e i)

/-- **Every entry of every argument array is real**, from the certificate's precondition. -/
theorem args_real [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i : Cert.KernelIdeal.S4x4096x1024.Idx, ∃ x : ℝ,
        (m ((c.tc : Thread Cert.KernelIdeal.nD Cert.KernelIdeal.τ).loc Cert.KernelIdeal.main_arg0) : Cert.KernelIdeal.S4x4096x1024.Idx → EReal) i = (x : EReal))
    ∧ (∀ i : Cert.KernelIdeal.S1024x1024.Idx, ∃ x : ℝ,
        (m ((c.tc : Thread Cert.KernelIdeal.nD Cert.KernelIdeal.τ).loc Cert.KernelIdeal.main_arg1) : Cert.KernelIdeal.S1024x1024.Idx → EReal) i = (x : EReal))
    ∧ (∀ i : Cert.KernelIdeal.S1024x1024.Idx, ∃ x : ℝ,
        (m ((c.tc : Thread Cert.KernelIdeal.nD Cert.KernelIdeal.τ).loc Cert.KernelIdeal.main_arg2) : Cert.KernelIdeal.S1024x1024.Idx → EReal) i = (x : EReal))
    ∧ (∀ i : Cert.KernelIdeal.S1024x1024.Idx, ∃ x : ℝ,
        (m ((c.tc : Thread Cert.KernelIdeal.nD Cert.KernelIdeal.τ).loc Cert.KernelIdeal.main_arg3) : Cert.KernelIdeal.S1024x1024.Idx → EReal) i = (x : EReal)) := by
  have h0 := congrFun (h c) ValueIdx.ix0
  dsimp only [Cert.Pre_finite_inputs.fn, Cert.Pre_finite_inputs.fn_part1, andi] at h0
  obtain ⟨h012, h3⟩ := IntOp.andi_eq_one.1 h0
  obtain ⟨h01, h2⟩ := IntOp.andi_eq_one.1 h012
  obtain ⟨hA0, hA1⟩ := IntOp.andi_eq_one.1 h01
  exact ⟨all_real _ _ _ _ hA0, all_real _ _ _ _ hA1, all_real _ _ _ _ h2, all_real _ _ _ _ h3⟩

/-- A projection x·Wᵀ of real arrays is real: a finite sum of products of reals. -/
theorem proj_real (x : Cert.Spec.SX.Idx → EReal) (W : Cert.Spec.SW.Idx → EReal) (hx : ∀ i, ∃ r : ℝ, x i = (r : EReal))
    (hW : ∀ i, ∃ r : ℝ, W i = (r : EReal)) (b : Fin 4) (s : Fin 4096) (o : Fin 1024) :
    ∃ r : ℝ, Cert.Spec.proj x W b s o = (r : EReal) := by
  choose xr hxr using hx
  choose Wr hWr using hW
  refine ⟨∑ d : Fin 1024, xr (ValueIdx.ix3 b s d) * Wr (ValueIdx.ix2 o d), ?_⟩
  rw [Cert.OnlineSoftmax.coe_sum]
  exact Finset.sum_congr rfl (fun d _ => by rw [hxr, hWr, EReal.coe_mul])

end Cert.KernelIdeal.FiniteArgs

end
-- ==== Proof.KI.Whole.lean ====
/-
  The kernel's result array is the specification's function of the four argument arrays. After the attention region
  the result holds, at (b, i, d), the weighted mean of the value rows with the division last — the blocks the region
  writes back tile the array, and each is the online-softmax fold over the key blocks on or below the diagonal. The
  three arrays the region is entered with are the projections of the arguments; under the precondition every entry of
  the arguments, hence of the projections, is a real number, and on reals the division may be taken first: the
  reference's arrangement.
-/
import proofs.«181245_j47132971106646_2_alg».proof.Proof.KI.Run
import proofs.«181245_j47132971106646_2_alg».proof.Proof.KI.QKV
import proofs.«181245_j47132971106646_2_alg».proof.Proof.KI.R1Cover
import proofs.«181245_j47132971106646_2_alg».proof.Proof.SpecLaws
import proofs.«181245_j47132971106646_2_alg».proof.Proof.FiniteArgs

set_option maxRecDepth 16384

noncomputable section

namespace Cert.KernelIdeal.Whole

open Idealize.ShloMosaic Idealize.ShloMosaic.TcCoe Idealize.ShloMosaic.ValueIdx Idealize.SL.Sem
open Cert.KernelIdeal Cert.KernelIdeal.Gen Cert.KernelIdeal.Run Cert.KernelIdeal.HostV

variable [Cert.Pre_finite_inputs.Facts]

/-- The result array after the run, from the argument arrays. -/
theorem result_eq_G (m : (ℓ : Loc nD τ sig) → Buf (Elt Ideal) ℓ) (ρ : Dev nD → PrngReg) (hpre : Cert.Pre_KernelIdeal m) (c : Dev nD) :
    (Cert.KernelIdeal.R1.dat1 (V3 m ρ) c).arrAt 3 cfg1.N
      = Cert.Spec.G (argX m c) (argQ m c) (argK m c) (argV m c) := by
  obtain ⟨hx, hq, hk, hv⟩ := Cert.KernelIdeal.FiniteArgs.args_real m hpre c
  have hQ := Cert.KernelIdeal.FiniteArgs.proj_real (argX m c) (argQ m c) hx hq
  have hK := Cert.KernelIdeal.FiniteArgs.proj_real (argX m c) (argK m c) hx hk
  have hV := Cert.KernelIdeal.FiniteArgs.proj_real (argX m c) (argV m c) hx hv
  have h := Cert.KernelIdeal.R1V.final1 (V3 m ρ) c (Cert.KernelIdeal.R1.dat1 (V3 m ρ) c) (Cert.KernelIdeal.R1.outsAt1 (V3 m ρ) c)
    (Cert.KernelIdeal.R1.after1_3 (V3 m ρ) c)
    (fun t h0 => Cert.KernelIdeal.R1.state_first (V3 m ρ) c t h0)
    (fun t h0 h1 => Cert.KernelIdeal.R1.state_step (V3 m ρ) c t h0 h1)
    (fun t h1 => Cert.KernelIdeal.R1.state_skip (V3 m ρ) c t h1)
    (fun t h2 => Cert.KernelIdeal.R1.out_last (V3 m ρ) c t h2)
    (Cert.Spec.proj (argX m c) (argQ m c)) (Cert.Spec.proj (argX m c) (argK m c)) (Cert.Spec.proj (argX m c) (argV m c))
    hQ hK hV
    (Cert.KernelIdeal.QKV.q_eq m ρ c) (Cert.KernelIdeal.QKV.k_eq m ρ c) (Cert.KernelIdeal.QKV.v_eq m ρ c)
  refine h.trans ?_
  funext idx
  unfold Cert.Spec.G
  rw [Cert.Spec.attn_eq_attnRef _ _ _ hQ hK hV]

end Cert.KernelIdeal.Whole

end
-- ==== Proof.RefConsts.lean ====
/-
  Word-level and constant facts the reference's program needs, with no program imported: the two float words it
  uses (−∞ and 1024), the square root of 1024, the lower-triangle comparison of two positions held as 32-bit
  words, and the fold of a maximum from −∞ as a supremum.
-/
import Idealize.ShloMosaic.PureOps.Ideal
import Idealize.ShloMosaic.Lib.WordArith
import Idealize.ShloMosaic.Lib.ValueIdx

noncomputable section

namespace Cert.ReferenceIdeal.RefValue

open Idealize.ShloMosaic

/-- The word 0xFF800000 denotes −∞. -/
theorem ofBits_ninf : Ideal.ofBits .f32 0xFF800000#32 = (⊥ : EReal) := by
  simp [Ideal.ofBits, Ideal.ieee]

/-- The word 0x44800000 denotes 1024. -/
theorem ofBits_1024 : Ideal.ofBits .f32 0x44800000#32 = ((1024 : ℝ) : EReal) := by
  simp [Ideal.ofBits, Ideal.ieee, -EReal.coe_mul]; norm_num

/-- The square root of 1024 is 32. -/
theorem sqrt_1024 : Ideal.sqrt ((1024 : ℝ) : EReal) = ((32 : ℝ) : EReal) := by
  rw [Ideal.sqrt_coe, if_neg (by norm_num)]
  congr 1
  rw [show (1024 : ℝ) = 32 * 32 by norm_num]
  exact Real.sqrt_mul_self (by norm_num)

/-- Dividing by 32 is multiplying by 1/32, on every extended real. -/
theorem div_32 (x : EReal) : Ideal.div x ((32 : ℝ) : EReal) = x * ((1 / 32 : ℝ) : EReal) :=
  Ideal.div_coe (by norm_num) x

/-- −∞ times 1/32 is −∞. -/
theorem bot_mul_inv32 : (⊥ : EReal) * ((1 / 32 : ℝ) : EReal) = ⊥ :=
  EReal.bot_mul_coe_of_pos (by norm_num)

/-- Two positions below 4096, as signed 32-bit words, compare as the numbers do. -/
theorem sle_small (i j : Nat) (hi : i < 4096) (hj : j < 4096) :
    (BitVec.ofNat 32 j).sle (BitVec.ofNat 32 i) = decide (j ≤ i) := by
  rw [BitVec.sle, WordArith.toInt_ofNat_small j (by omega), WordArith.toInt_ofNat_small i (by omega)]
  simp

/-- The signed "at least" comparison of words is the signed "at most" with the operands exchanged. -/
theorem cmpi_sge_eq (x y : BitVec 32) : IntOp.cmpi .sge x y = BitVec.ofBool (y.sle x) := rfl

/-- Row position i plus the offset 0 is at least column position j, as signed 32-bit words, exactly when j ≤ i. -/
theorem tril_bit (i j : Fin 4096) :
    IntOp.cmpi .sge (IntOp.addi (BitVec.ofNat 32 i.val) 0#32) (BitVec.ofNat 32 j.val)
      = BitVec.ofBool (decide (j ≤ i)) := by
  rw [cmpi_sge_eq, IntOp.addi, BitVec.add_zero, sle_small i.val j.val i.isLt j.isLt]
  rfl

/-- A select on the lower-triangle bit is the choice by j ≤ i. -/
theorem select_tril {α : Type} (i j : Fin 4096) (a b : α) :
    Scalar.select (BitVec.ofBool (decide (j ≤ i))) a b = if j ≤ i then a else b := by
  by_cases h : j ≤ i
  · rw [if_pos h, decide_eq_true h]; exact ValueIdx.select_one a b
  · rw [if_neg h, decide_eq_false h]; exact ValueIdx.select_zero a b

/-- The fold of a maximum from −∞ over a finite type is the supremum. -/
theorem fold_max_bot {ι : Type*} [Fintype ι] (f : ι → EReal) :
    (Finset.univ : Finset ι).fold max (⊥ : EReal) f = Finset.univ.sup f := rfl

end Cert.ReferenceIdeal.RefValue

end
-- ==== Proof.RefIsSpec.lean ====
/-
  The reference program's result, read one operation at a time, is the specification's function G of the four
  argument arrays: three projections x·Wᵀ, the scores q·kᵀ masked to −∞ above the diagonal and divided by
  √1024 = 32, the row maximum, the weights exp (score − maximum), their total, the weights divided by the total,
  and the weighted sum of the rows of v.
-/
import proofs.«181245_j47132971106646_2_alg».proof.Proof.Gen.ReferenceIdeal.Read
import proofs.«181245_j47132971106646_2_alg».proof.Proof.Spec
import proofs.«181245_j47132971106646_2_alg».proof.Proof.RefConsts

noncomputable section

namespace Cert.ReferenceIdeal.RefValue

open Cert.ReferenceIdeal Cert.ReferenceIdeal.Gen Cert.ReferenceIdeal.Read Idealize.ShloMosaic Idealize.ShloMosaic.ValueIdx
open Cert.Spec (proj score rowMax weight denom attnRef G)

/-! ## The three projections -/

/-- The left operand's index of projection 0's contraction. -/
theorem lidx_v0 (b : Fin 4) (s : Fin 4096) (o k : Fin 1024) : lidx_main_v0 (ix3 b s o) k = ix3 b s k := by
  funext a; match a with | ⟨0, _⟩ => rfl | ⟨1, _⟩ => rfl | ⟨2, _⟩ => rfl
/-- The right operand's index of projection 0's contraction. -/
theorem ridx_v0 (b : Fin 4) (s : Fin 4096) (o k : Fin 1024) : ridx_main_v0 (ix3 b s o) k = ix2 o k := by
  funext a; match a with | ⟨0, _⟩ => rfl | ⟨1, _⟩ => rfl
/-- Projection 0 of the reference is the specification's projection. -/
theorem v0_at (x0 : (⟨S4x4096x1024, .f32⟩ : BufTy).Contents (Elt Ideal)) (w : (⟨S1024x1024, .f32⟩ : BufTy).Contents (Elt Ideal)) (b : Fin 4) (s : Fin 4096) (o : Fin 1024) :
    val_main_v0 (F := Ideal) x0 w (ix3 b s o) = proj x0 w b s o := by
  rw [val_main_v0_apply]
  simp only [lidx_v0, ridx_v0]
  rfl

/-- The left operand's index of projection 1's contraction. -/
theorem lidx_v1 (b : Fin 4) (s : Fin 4096) (o k : Fin 1024) : lidx_main_v1 (ix3 b s o) k = ix3 b s k := by
  funext a; match a with | ⟨0, _⟩ => rfl | ⟨1, _⟩ => rfl | ⟨2, _⟩ => rfl
/-- The right operand's index of projection 1's contraction. -/
theorem ridx_v1 (b : Fin 4) (s : Fin 4096) (o k : Fin 1024) : ridx_main_v1 (ix3 b s o) k = ix2 o k := by
  funext a; match a with | ⟨0, _⟩ => rfl | ⟨1, _⟩ => rfl
/-- Projection 1 of the reference is the specification's projection. -/
theorem v1_at (x0 : (⟨S4x4096x1024, .f32⟩ : BufTy).Contents (Elt Ideal)) (w : (⟨S1024x1024, .f32⟩ : BufTy).Contents (Elt Ideal)) (b : Fin 4) (s : Fin 4096) (o : Fin 1024) :
    val_main_v1 (F := Ideal) x0 w (ix3 b s o) = proj x0 w b s o := by
  rw [val_main_v1_apply]
  simp only [lidx_v1, ridx_v1]
  rfl

/-- The left operand's index of projection 2's contraction. -/
theorem lidx_v2 (b : Fin 4) (s : Fin 4096) (o k : Fin 1024) : lidx_main_v2 (ix3 b s o) k = ix3 b s k := by
  funext a; match a with | ⟨0, _⟩ => rfl | ⟨1, _⟩ => rfl | ⟨2, _⟩ => rfl
/-- The right operand's index of projection 2's contraction. -/
theorem ridx_v2 (b : Fin 4) (s : Fin 4096) (o k : Fin 1024) : ridx_main_v2 (ix3 b s o) k = ix2 o k := by
  funext a; match a with | ⟨0, _⟩ => rfl | ⟨1, _⟩ => rfl
/-- Projection 2 of the reference is the specification's projection. -/
theorem v2_at (x0 : (⟨S4x4096x1024, .f32⟩ : BufTy).Contents (Elt Ideal)) (w : (⟨S1024x1024, .f32⟩ : BufTy).Contents (Elt Ideal)) (b : Fin 4) (s : Fin 4096) (o : Fin 1024) :
    val_main_v2 (F := Ideal) x0 w (ix3 b s o) = proj x0 w b s o := by
  rw [val_main_v2_apply]
  simp only [lidx_v2, ridx_v2]
  rfl

/-! ## The scores -/

/-- The left operand's index of the q·kᵀ contraction. -/
theorem lidx_v3 (b : Fin 4) (i j : Fin 4096) (k : Fin 1024) : lidx_main_v3 (ix3 b i j) k = ix3 b i k := by
  funext a; match a with | ⟨0, _⟩ => rfl | ⟨1, _⟩ => rfl | ⟨2, _⟩ => rfl
/-- The right operand's index of the q·kᵀ contraction. -/
theorem ridx_v3 (b : Fin 4) (i j : Fin 4096) (k : Fin 1024) : ridx_main_v3 (ix3 b i j) k = ix3 b j k := by
  funext a; match a with | ⟨0, _⟩ => rfl | ⟨1, _⟩ => rfl | ⟨2, _⟩ => rfl
/-- The unmasked, unscaled score is the dot product of the projected rows. -/
theorem v3_at (x0 : (⟨S4x4096x1024, .f32⟩ : BufTy).Contents (Elt Ideal)) (x1 x2 : (⟨S1024x1024, .f32⟩ : BufTy).Contents (Elt Ideal)) (b : Fin 4) (i j : Fin 4096) :
    val_main_v3 (F := Ideal) x0 x1 x2 (ix3 b i j) = ∑ d : Fin 1024, proj x0 x1 b i d * proj x0 x2 b j d := by
  rw [val_main_v3_apply]
  simp only [lidx_v3, ridx_v3, v0_at, v1_at]

/-- The lower-triangle mask at (i, j) is the bit of j ≤ i. -/
theorem tril_at (i j : Fin 4096) :
    val_main_v5 (F := Ideal) (ix2 i j) = BitVec.ofBool (decide (j ≤ i)) := by
  rw [val_main_v5_apply, val_main_call0_v4_apply, val_main_call0_v2_apply, val_main_call0_v0_apply,
    val_main_call0_v1_apply, val_main_call0_c_apply, val_main_call0_v3_apply, val_main_v4_apply, val_main_c_apply,
    val_main_call0_v5_apply, val_main_call0_c_0_apply]
  show Scalar.select (IntOp.cmpi .sge (IntOp.addi (BitVec.ofNat 32 i.val) 0#32) (BitVec.ofNat 32 j.val)) 1#1 0#1 = _
  rw [tril_bit, select_tril]
  by_cases h : j ≤ i
  · rw [if_pos h, decide_eq_true h]; rfl
  · rw [if_neg h, decide_eq_false h]; rfl

/-- The mask broadcast over the batch axis. -/
theorem mask_at (b : Fin 4) (i j : Fin 4096) :
    val_main_call1_v1 (F := Ideal) (ix3 b i j) = BitVec.ofBool (decide (j ≤ i)) := by
  rw [val_main_call1_v1_apply, val_main_v6_apply]
  have e : idx_main_v6 (idx_main_call1_v1 (ix3 b i j)) = ix2 i j := by
    funext a; match a with | ⟨0, _⟩ => rfl | ⟨1, _⟩ => rfl
  rw [e, tril_at]

/-- The masked score: the dot product on and below the diagonal, −∞ above it. -/
theorem v7_at (x0 : (⟨S4x4096x1024, .f32⟩ : BufTy).Contents (Elt Ideal)) (x1 x2 : (⟨S1024x1024, .f32⟩ : BufTy).Contents (Elt Ideal)) (b : Fin 4) (i j : Fin 4096) :
    val_main_v7 (F := Ideal) x0 x1 x2 (ix3 b i j)
      = if j ≤ i then ∑ d : Fin 1024, proj x0 x1 b i d * proj x0 x2 b j d else ⊥ := by
  rw [val_main_v7_apply, mask_at, v3_at, val_main_call1_v2_apply, val_main_call1_v0_apply, val_main_cst_apply,
    Ideal.ofBits_def, ofBits_ninf, select_tril]

/-- The divisor: the square root of 1024, which is 32, at every position. -/
theorem v9_at (i : S4x4096x4096.Idx) : val_main_v9 (F := Ideal) i = ((32 : ℝ) : EReal) := by
  rw [val_main_v9_apply, val_main_v8_apply, val_main_cst_0_apply, Ideal.hostUnary_sqrt_def, Ideal.ofBits_def, ofBits_1024,
    sqrt_1024]

/-- The scaled, masked score is the specification's score. -/
theorem v10_at (x0 : (⟨S4x4096x1024, .f32⟩ : BufTy).Contents (Elt Ideal)) (x1 x2 : (⟨S1024x1024, .f32⟩ : BufTy).Contents (Elt Ideal)) (b : Fin 4) (i j : Fin 4096) :
    val_main_v10 (F := Ideal) x0 x1 x2 (ix3 b i j) = score (proj x0 x1) (proj x0 x2) b i j := by
  rw [val_main_v10_apply, v7_at, v9_at, Ideal.hostDivf_def, div_32, score]
  by_cases h : j ≤ i
  · rw [if_pos h, if_pos h]
  · rw [if_neg h, if_neg h, bot_mul_inv32]

/-! ## The row maximum -/

/-- Dropping the key axis of a [4, 4096, 4096] array leaves a [4, 4096] array. -/
theorem red_d2 : S4x4096x4096.Reduces [2] S4x4096 := by decide

/-- The reduced index (b, i) with the key position k put back is (b, i, k). -/
theorem lift_d2 (b : Fin 4) (i k : Fin 4096) : red_d2.lift (ix2 b i) k = ix3 b i k := by
  funext a; apply Fin.ext; match a with | ⟨0, _⟩ => rfl | ⟨1, _⟩ => rfl | ⟨2, _⟩ => rfl

/-- The reduce over the key axis with a maximum body from −∞ is the supremum of the row's scores. -/
theorem v11_at (x0 : (⟨S4x4096x1024, .f32⟩ : BufTy).Contents (Elt Ideal)) (x1 x2 : (⟨S1024x1024, .f32⟩ : BufTy).Contents (Elt Ideal)) (b : Fin 4) (i : Fin 4096) :
    val_main_v11 (F := Ideal) x0 x1 x2 (ix2 b i) = rowMax (proj x0 x1) (proj x0 x2) b i := by
  unfold val_main_v11
  rw [Host.reduce_eq_fold_single FloatOps.maximumf _ _ reducesTo_S4x4096x4096_S4x4096_d2 red_d2 h_S_,
    val_main_cst_1_apply, Ideal.ofBits_def, ofBits_ninf]
  have hf : (val_main_v10 (F := Ideal) x0 x1 x2 ∘ red_d2.lift (ix2 b i))
      = fun k : Fin 4096 => score (proj x0 x1) (proj x0 x2) b i k :=
    funext (fun (k : Fin 4096) => by
      show val_main_v10 (F := Ideal) x0 x1 x2 (red_d2.lift (ix2 b i) k) = _
      rw [lift_d2, v10_at])
  rw [hf]
  exact fold_max_bot (fun k : Fin 4096 => score (proj x0 x1) (proj x0 x2) b i k)

/-- The maximum with the −∞ broadcast changes nothing. -/
theorem v13_at (x0 : (⟨S4x4096x1024, .f32⟩ : BufTy).Contents (Elt Ideal)) (x1 x2 : (⟨S1024x1024, .f32⟩ : BufTy).Contents (Elt Ideal)) (b : Fin 4) (i : Fin 4096) :
    val_main_v13 (F := Ideal) x0 x1 x2 (ix2 b i) = rowMax (proj x0 x1) (proj x0 x2) b i := by
  rw [val_main_v13_apply, v11_at, val_main_v12_apply, val_main_cst_2_apply, Ideal.maximumf_def, Ideal.ofBits_def,
    ofBits_ninf, max_eq_right bot_le]

/-- The row maximum broadcast along the key axis. -/
theorem v15_at (x0 : (⟨S4x4096x1024, .f32⟩ : BufTy).Contents (Elt Ideal)) (x1 x2 : (⟨S1024x1024, .f32⟩ : BufTy).Contents (Elt Ideal)) (b : Fin 4) (i j : Fin 4096) :
    val_main_v15 (F := Ideal) x0 x1 x2 (ix3 b i j) = rowMax (proj x0 x1) (proj x0 x2) b i := by
  rw [val_main_v15_apply, val_main_v14_apply]
  have e : idx_main_v14 (idx_main_v15 (ix3 b i j)) = ix2 b i := by
    funext a; match a with | ⟨0, _⟩ => rfl | ⟨1, _⟩ => rfl
  rw [e, v13_at]

/-! ## The weights, their total, and the result -/

/-- exp (score − row maximum) is the specification's weight. -/
theorem v17_at (x0 : (⟨S4x4096x1024, .f32⟩ : BufTy).Contents (Elt Ideal)) (x1 x2 : (⟨S1024x1024, .f32⟩ : BufTy).Contents (Elt Ideal)) (b : Fin 4) (i j : Fin 4096) :
    val_main_v17 (F := Ideal) x0 x1 x2 (ix3 b i j) = weight (proj x0 x1) (proj x0 x2) b i j := by
  rw [val_main_v17_apply, val_main_v16_apply, v10_at, v15_at, Ideal.hostUnary_exp_def, Ideal.subf_def, weight]

/-- The sum of a row's weights from 0 is the specification's total. -/
theorem v18_at (x0 : (⟨S4x4096x1024, .f32⟩ : BufTy).Contents (Elt Ideal)) (x1 x2 : (⟨S1024x1024, .f32⟩ : BufTy).Contents (Elt Ideal)) (b : Fin 4) (i : Fin 4096) :
    val_main_v18 (F := Ideal) x0 x1 x2 (ix2 b i) = denom (proj x0 x1) (proj x0 x2) b i := by
  rw [val_main_v18_apply, val_main_cst_3_apply, Ideal.ofBits_def, Ideal.ofBits_zero_f32, zero_add, denom]
  refine Finset.sum_congr rfl (fun k _ => ?_)
  have e : idx_main_v18 (ix2 b i) k = ix3 b i k := by
    funext a; match a with | ⟨0, _⟩ => rfl | ⟨1, _⟩ => rfl | ⟨2, _⟩ => rfl
  rw [e, v17_at]

/-- The total broadcast along the key axis. -/
theorem v20_at (x0 : (⟨S4x4096x1024, .f32⟩ : BufTy).Contents (Elt Ideal)) (x1 x2 : (⟨S1024x1024, .f32⟩ : BufTy).Contents (Elt Ideal)) (b : Fin 4) (i j : Fin 4096) :
    val_main_v20 (F := Ideal) x0 x1 x2 (ix3 b i j) = denom (proj x0 x1) (proj x0 x2) b i := by
  rw [val_main_v20_apply, val_main_v19_apply]
  have e : idx_main_v19 (idx_main_v20 (ix3 b i j)) = ix2 b i := by
    funext a; match a with | ⟨0, _⟩ => rfl | ⟨1, _⟩ => rfl
  rw [e, v18_at]

/-- The normalised weight: the weight divided by the row's total. -/
theorem v21_at (x0 : (⟨S4x4096x1024, .f32⟩ : BufTy).Contents (Elt Ideal)) (x1 x2 : (⟨S1024x1024, .f32⟩ : BufTy).Contents (Elt Ideal)) (b : Fin 4) (i j : Fin 4096) :
    val_main_v21 (F := Ideal) x0 x1 x2 (ix3 b i j)
      = Ideal.div (weight (proj x0 x1) (proj x0 x2) b i j) (denom (proj x0 x1) (proj x0 x2) b i) := by
  rw [val_main_v21_apply, v17_at, v20_at, Ideal.hostDivf_def]

/-- The left operand's index of the last contraction. -/
theorem lidx_v22 (b : Fin 4) (i : Fin 4096) (d : Fin 1024) (k : Fin 4096) : lidx_main_v22 (ix3 b i d) k = ix3 b i k := by
  funext a; match a with | ⟨0, _⟩ => rfl | ⟨1, _⟩ => rfl | ⟨2, _⟩ => rfl
/-- The right operand's index of the last contraction. -/
theorem ridx_v22 (b : Fin 4) (i : Fin 4096) (d : Fin 1024) (k : Fin 4096) : ridx_main_v22 (ix3 b i d) k = ix3 b k d := by
  funext a; match a with | ⟨0, _⟩ => rfl | ⟨1, _⟩ => rfl | ⟨2, _⟩ => rfl

/-- **The reference is the specification.** The reference's result, as a function of its four argument arrays, is G. -/
theorem val_main_v22_eq_G (x0 : (⟨S4x4096x1024, .f32⟩ : BufTy).Contents (Elt Ideal)) (x1 x2 x3 : (⟨S1024x1024, .f32⟩ : BufTy).Contents (Elt Ideal)) :
    val_main_v22 (F := Ideal) x0 x1 x2 x3 = G x0 x1 x2 x3 := by
  funext idx
  obtain ⟨b, i, d, rfl⟩ : ∃ (b : Fin 4) (i : Fin 4096) (d : Fin 1024), idx = ix3 b i d := ⟨idx 0, idx 1, idx 2, eq_ix3 idx⟩
  rw [val_main_v22_apply]
  simp only [lidx_v22, ridx_v22, v21_at, v2_at]
  rfl

/-- The same for the term the reference's run states: on every device the result buffer ends at G of the argument
    buffers' launch contents. -/
theorem res_main_v22_eq_G (m : (ℓ : Loc nD τ sig) → Buf (Elt Ideal) ℓ) (c : Dev nD) :
    Cert.ReferenceIdeal.Value.res_main_v22 (F := Ideal) m c
      = G (m ((c.tc : Thread nD τ).loc main_arg0)) (m ((c.tc : Thread nD τ).loc main_arg1))
          (m ((c.tc : Thread nD τ).loc main_arg2)) (m ((c.tc : Thread nD τ).loc main_arg3)) :=
  (val_main_v22_eq m c).trans (val_main_v22_eq_G _ _ _ _)

end Cert.ReferenceIdeal.RefValue

end
-- ==== Proof.RefRun.lean ====
/-
  The reference program's run, restated against the specification: every weakly fair execution ends with the
  result buffer holding the specification's function G of the four argument arrays' launch contents, and the
  argument buffers unchanged.
-/
import proofs.«181245_j47132971106646_2_alg».proof.Proof.RefIsSpec

noncomputable section

namespace Cert.ReferenceIdeal.RefValue

open Cert.ReferenceIdeal Cert.ReferenceIdeal.Gen Idealize.ShloMosaic Idealize.ShloMosaic.TcCoe Idealize.SL.Sem Idealize.ShloMosaic.StableHlo

/-- On every device every weakly fair execution of the reference ends with the result buffer at G of the argument
    buffers' launch contents, the arguments unchanged. -/
theorem run_G (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v22)
          = Cert.Spec.G (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (res_main_v22_eq_G m c), (h c).2⟩)
    (Cert.ReferenceIdeal.Value.run (F := Ideal) m ρ)

end Cert.ReferenceIdeal.RefValue

end
-- ==== Proof.lean ====
/-
  The certificate of a causal attention layer: a Pallas program that projects the activations onto queries, keys and
  values in one matrix product and then folds the key blocks on or below the diagonal into a running maximum, total
  and weighted sum (the online softmax), against the plain formulation — three projections, masked scaled scores, a
  softmax over each row, the weighted mean of the values.

  Over the extended reals both compute, at (b, i, d), Σ_j w_ij·v_jd / Σ_j w_ij with w_ij = exp(s_ij − max_j s_ij) and
  s_ij = (q_i·k_j)/32 for j ≤ i, −∞ above the diagonal: the kernel's sentinel for a masked score is read as −∞ (the
  one ledger entry), exp(−∞) = 0, the scale 1/32 is exact, and √1024 = 32. The two differ in where the division by
  the row's total sits — after the weighted sum, or on each weight — which agree because, the inputs being finite,
  every projection entry is a real number and every row's total a positive real.

  The three frames: each program terminates under every weakly fair schedule, faults nowhere and leaves its
  arguments as launched. For the two kernel programs this is the run of @main as four segments (host operations, the
  projection region, host operations, the attention region), each region from its body's triple at every grid point;
  for the reference it is its straight-line run.
-/
import proofs.«181245_j47132971106646_2_alg».proof.Defs
import proofs.«181245_j47132971106646_2_alg».proof.Proof.Gen.Kernel
import proofs.«181245_j47132971106646_2_alg».proof.Proof.Gen.KernelIdeal
import proofs.«181245_j47132971106646_2_alg».proof.Proof.Gen.ReferenceIdeal
import proofs.«181245_j47132971106646_2_alg».proof.Proof.Gen.Pre_finite_inputs
import proofs.«181245_j47132971106646_2_alg».proof.Proof.Gen.ReferenceIdeal.Run
import proofs.«181245_j47132971106646_2_alg».proof.Proof.Gen.ReferenceIdeal.Read
import proofs.«181245_j47132971106646_2_alg».proof.Proof.K.Run
import proofs.«181245_j47132971106646_2_alg».proof.Proof.KI.Whole
import proofs.«181245_j47132971106646_2_alg».proof.Proof.RefRun
import Idealize.ShloMosaic.PureOps.IdealRules
import Idealize.ShloMosaic.Adequacy
import Idealize.ShloMosaic.Init

noncomputable section

namespace Cert.Proof

open Idealize.ShloMosaic Idealize.SL.Sem

/-- The word-level kernel runs and leaves its arguments as launched. -/
theorem frame_k : Cert.frame_Kernel := fun m ρ _ =>
  (θ_run Cert.Kernel.defs _ _).mono (fun _ h c => (h c).2) (Cert.Kernel.Run.run_all (F := Bits) m ρ)

/-- So does the idealized kernel. -/
theorem frame_ki : Cert.frame_KernelIdeal := fun m ρ _ =>
  (θ_run Cert.KernelIdeal.defs _ _).mono (fun _ h c => (h c).2) (Cert.KernelIdeal.Run.run_all (F := Ideal) m ρ)

/-- So does the idealized reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ledger's one entry: the masking sentinel −1e30 is named, and the name denotes −∞ at the ideal instance. -/
theorem preserves : Cert.preserves_Kernel_KernelIdeal :=
  IdealRules.named_const.statement Cert.KernelIdeal.κ "neg_big" .f32 0xF149F2CA#32 ⊥ rfl

/-- From memories agreeing on the arguments both idealized programs end with the specification's function of the
    arguments in their result arrays. -/
theorem algebraic : Cert.algebraic_KernelIdeal_ReferenceIdeal := by
  intro m ρ m' ρ' hpre hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun _ h c => ⟨(h c).1.trans (Cert.KernelIdeal.Whole.result_eq_G m ρ hpre c), (h c).2⟩)
      (Cert.KernelIdeal.Run.run_all (F := Ideal) m ρ)
  · refine (θ_run Cert.ReferenceIdeal.defs _ _).mono (fun _ h c => ⟨(h c).1.trans ?_, (h c).2⟩)
      (Cert.ReferenceIdeal.RefValue.run_G m' ρ')
    rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
